-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64x64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64x64 .f32) (main_arg6 : FVec F S64x64 .f32) (main_arg7 : FVec F S64x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩

abbrev nBuf : Space → Nat
  | .hbm => 186
  | .vmem => 72
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64x64, .f32⟩
  | 6 => ⟨S64x64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S64x64, .i32⟩
  | 51 => ⟨S_, .i32⟩
  | 52 => ⟨S64x64, .i32⟩
  | 53 => ⟨S64x64, .i32⟩
  | 54 => ⟨S64x64, .i32⟩
  | 55 => ⟨S64x64, .i1⟩
  | 56 => ⟨S_, .f32⟩
  | 57 => ⟨S64x64, .f32⟩
  | 58 => ⟨S64x64, .f32⟩
  | 59 => ⟨S64x64, .i32⟩
  | 60 => ⟨S_, .i32⟩
  | 61 => ⟨S64x64, .i32⟩
  | 62 => ⟨S64x64, .i32⟩
  | 63 => ⟨S64x64, .i32⟩
  | 64 => ⟨S64x64, .i1⟩
  | 65 => ⟨S_, .f32⟩
  | 66 => ⟨S64x64, .f32⟩
  | 67 => ⟨S64x64, .f32⟩
  | 68 => ⟨S64x64, .f32⟩
  | 69 => ⟨S64x64, .f32⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .f32⟩
  | 77 => ⟨S64x64, .f32⟩
  | 78 => ⟨S64x64, .f32⟩
  | 79 => ⟨S64x64, .i32⟩
  | 80 => ⟨S_, .i32⟩
  | 81 => ⟨S64x64, .i32⟩
  | 82 => ⟨S64x64, .i32⟩
  | 83 => ⟨S64x64, .i32⟩
  | 84 => ⟨S64x64, .i1⟩
  | 85 => ⟨S_, .f32⟩
  | 86 => ⟨S64x64, .f32⟩
  | 87 => ⟨S64x64, .f32⟩
  | 88 => ⟨S64x64, .f32⟩
  | 89 => ⟨S64x64, .f32⟩
  | 90 => ⟨S64x64, .i32⟩
  | 91 => ⟨S_, .i32⟩
  | 92 => ⟨S64x64, .i32⟩
  | 93 => ⟨S64x64, .i32⟩
  | 94 => ⟨S64x64, .i32⟩
  | 95 => ⟨S64x64, .i1⟩
  | 96 => ⟨S_, .f32⟩
  | 97 => ⟨S64x64, .f32⟩
  | 98 => ⟨S64x64, .f32⟩
  | 99 => ⟨S64x64, .i32⟩
  | 100 => ⟨S_, .i32⟩
  | 101 => ⟨S64x64, .i32⟩
  | 102 => ⟨S64x64, .i32⟩
  | 103 => ⟨S64x64, .i32⟩
  | 104 => ⟨S64x64, .i1⟩
  | 105 => ⟨S_, .f32⟩
  | 106 => ⟨S64x64, .f32⟩
  | 107 => ⟨S64x64, .f32⟩
  | 108 => ⟨S64x64, .f32⟩
  | 109 => ⟨S64x64, .f32⟩
  | 110 => ⟨S1x64, .f32⟩
  | 111 => ⟨S100000x64, .f32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x1, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x64, .f32⟩
  | 12 => ⟨S1700000x1, .f32⟩
  | 13 => ⟨S1700000x64, .f32⟩
  | 14 => ⟨S1700000x64, .f32⟩
  | 15 => ⟨S_, .f32⟩
  | 16 => ⟨S100000x64, .f32⟩
  | 17 => ⟨S1700000x1, .i32⟩
  | 18 => ⟨S100000x64, .f32⟩
  | 19 => ⟨S100000x64, .f32⟩
  | 20 => ⟨S100000x64, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x64, .f32⟩
  | 30 => ⟨S1700000x1, .f32⟩
  | 31 => ⟨S1700000x64, .f32⟩
  | 32 => ⟨S1700000x64, .f32⟩
  | 33 => ⟨S_, .f32⟩
  | 34 => ⟨S100000x64, .f32⟩
  | 35 => ⟨S1700000x1, .i32⟩
  | 36 => ⟨S100000x64, .f32⟩
  | 37 => ⟨S100000x64, .f32⟩
  | 38 => ⟨S100000x64, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x64, .f32⟩
  | 48 => ⟨S1700000x1, .f32⟩
  | 49 => ⟨S1700000x64, .f32⟩
  | 50 => ⟨S1700000x64, .f32⟩
  | 51 => ⟨S_, .f32⟩
  | 52 => ⟨S100000x64, .f32⟩
  | 53 => ⟨S1700000x1, .i32⟩
  | 54 => ⟨S100000x64, .f32⟩
  | 55 => ⟨S100000x64, .f32⟩
  | 56 => ⟨S1x64, .f32⟩
  | 57 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S64x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S64x64, .f32⟩
  | .local _ .vmem, ⟨48, _⟩ => ⟨S64x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S64x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S64x64, .f32⟩
  | .local _ .vmem, ⟨63, _⟩ => ⟨S64x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S64x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_cst : Ref sig .tc := ⟨.hbm, 56, rfl⟩
abbrev main_call1_v5 : Ref sig .tc := ⟨.hbm, 57, rfl⟩
abbrev main_v31 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_cst : Ref sig .tc := ⟨.hbm, 65, rfl⟩
abbrev main_call2_v5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_cst : Ref sig .tc := ⟨.hbm, 76, rfl⟩
abbrev main_call3_v5 : Ref sig .tc := ⟨.hbm, 77, rfl⟩
abbrev main_v35 : Ref sig .tc := ⟨.hbm, 78, rfl⟩
abbrev main_call4_v0 : Ref sig .tc := ⟨.hbm, 79, rfl⟩
abbrev main_call4_c : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_cst : Ref sig .tc := ⟨.hbm, 85, rfl⟩
abbrev main_call4_v5 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_call5_v0 : Ref sig .tc := ⟨.hbm, 90, rfl⟩
abbrev main_call5_c : Ref sig .tc := ⟨.hbm, 91, rfl⟩
abbrev main_call5_v1 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_cst : Ref sig .tc := ⟨.hbm, 96, rfl⟩
abbrev main_call5_v5 : Ref sig .tc := ⟨.hbm, 97, rfl⟩
abbrev main_v39 : Ref sig .tc := ⟨.hbm, 98, rfl⟩
abbrev main_call6_v0 : Ref sig .tc := ⟨.hbm, 99, rfl⟩
abbrev main_call6_c : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_call6_cst : Ref sig .tc := ⟨.hbm, 105, rfl⟩
abbrev main_call6_v5 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_c_6 : Ref sig .tc := ⟨.hbm, 113, rfl⟩
abbrev main_v46 : Ref sig .tc := ⟨.hbm, 114, rfl⟩
abbrev main_v47 : Ref sig .tc := ⟨.hbm, 115, rfl⟩
abbrev main_c_7 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_8 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_c_9 : Ref sig .tc := ⟨.hbm, 131, rfl⟩
abbrev main_v61 : Ref sig .tc := ⟨.hbm, 132, rfl⟩
abbrev main_v62 : Ref sig .tc := ⟨.hbm, 133, rfl⟩
abbrev main_c_10 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_11 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_c_12 : Ref sig .tc := ⟨.hbm, 149, rfl⟩
abbrev main_v76 : Ref sig .tc := ⟨.hbm, 150, rfl⟩
abbrev main_v77 : Ref sig .tc := ⟨.hbm, 151, rfl⟩
abbrev main_c_13 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_cst_14 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_c_15 : Ref sig .tc := ⟨.hbm, 167, rfl⟩
abbrev main_v91 : Ref sig .tc := ⟨.hbm, 168, rfl⟩
abbrev main_v92 : Ref sig .tc := ⟨.hbm, 169, rfl⟩
abbrev main_c_16 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_17 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc8_stg3_0 : Ref sig .tc := ⟨.vmem, 62, rfl⟩
abbrev cc8_stg4_0 : Ref sig .tc := ⟨.vmem, 63, rfl⟩
abbrev cc8_stg5_0 : Ref sig .tc := ⟨.vmem, 64, rfl⟩
abbrev cc8_stg5_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg3_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc8_sem3_0 : DmaSem sig := 62
abbrev cc8_sem4_0 : DmaSem sig := 63
abbrev cc8_sem5_0 : DmaSem sig := 64
abbrev cc8_sem5_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem3_0 : DmaSem sig := 70
abbrev cc9_sem3_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S64x64 : S_.BroadcastsInDim S64x64 (![] : Fin 0 → Fin S64x64.rank)
  transposes_S64x64_S64x64_1_0 : S64x64.Transposes [1, 0] S64x64
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x64.size a ≤ S100000x64.size a
  hwx9_3 : ∀ i : grid9.Coords, EltTy.bits .f32 = 32 ∨ (Rect.block (s := S100000x64) S10000x64.size (cc9_transform_3 i) (hinb9_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v74) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v88) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v38) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v42) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v89) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v89) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v34) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v89) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v44) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v103) S10000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v38) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v42) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v104) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v104) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v106) S10000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩

abbrev nBuf : Space → Nat
  | .hbm => 242
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64x64, .f32⟩
  | 6 => ⟨S64x64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S64x64, .i32⟩
  | 51 => ⟨S_, .i32⟩
  | 52 => ⟨S64x64, .i32⟩
  | 53 => ⟨S64x64, .i32⟩
  | 54 => ⟨S64x64, .i32⟩
  | 55 => ⟨S64x64, .i1⟩
  | 56 => ⟨S_, .f32⟩
  | 57 => ⟨S64x64, .f32⟩
  | 58 => ⟨S64x64, .f32⟩
  | 59 => ⟨S64x64, .i32⟩
  | 60 => ⟨S_, .i32⟩
  | 61 => ⟨S64x64, .i32⟩
  | 62 => ⟨S64x64, .i32⟩
  | 63 => ⟨S64x64, .i32⟩
  | 64 => ⟨S64x64, .i1⟩
  | 65 => ⟨S_, .f32⟩
  | 66 => ⟨S64x64, .f32⟩
  | 67 => ⟨S64x64, .f32⟩
  | 68 => ⟨S64x64, .f32⟩
  | 69 => ⟨S64x64, .f32⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .f32⟩
  | 77 => ⟨S64x64, .f32⟩
  | 78 => ⟨S64x64, .f32⟩
  | 79 => ⟨S64x64, .i32⟩
  | 80 => ⟨S_, .i32⟩
  | 81 => ⟨S64x64, .i32⟩
  | 82 => ⟨S64x64, .i32⟩
  | 83 => ⟨S64x64, .i32⟩
  | 84 => ⟨S64x64, .i1⟩
  | 85 => ⟨S_, .f32⟩
  | 86 => ⟨S64x64, .f32⟩
  | 87 => ⟨S64x64, .f32⟩
  | 88 => ⟨S64x64, .f32⟩
  | 89 => ⟨S64x64, .f32⟩
  | 90 => ⟨S64x64, .i32⟩
  | 91 => ⟨S_, .i32⟩
  | 92 => ⟨S64x64, .i32⟩
  | 93 => ⟨S64x64, .i32⟩
  | 94 => ⟨S64x64, .i32⟩
  | 95 => ⟨S64x64, .i1⟩
  | 96 => ⟨S_, .f32⟩
  | 97 => ⟨S64x64, .f32⟩
  | 98 => ⟨S64x64, .f32⟩
  | 99 => ⟨S64x64, .i32⟩
  | 100 => ⟨S_, .i32⟩
  | 101 => ⟨S64x64, .i32⟩
  | 102 => ⟨S64x64, .i32⟩
  | 103 => ⟨S64x64, .i32⟩
  | 104 => ⟨S64x64, .i1⟩
  | 105 => ⟨S_, .f32⟩
  | 106 => ⟨S64x64, .f32⟩
  | 107 => ⟨S64x64, .f32⟩
  | 108 => ⟨S64x64, .f32⟩
  | 109 => ⟨S64x64, .f32⟩
  | 110 => ⟨S100000x64, .f32⟩
  | 111 => ⟨S1x64, .f32⟩
  | 112 => ⟨S100000x64, .f32⟩
  | 113 => ⟨S100000x64, .f32⟩
  | 114 => ⟨S100000x64, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x128, .f32⟩

abbrev hbmTy0_1 (i : Nat) : BufTy := match i % 128 with
  | 0 => ⟨S100000x64, .f32⟩
  | 1 => ⟨S1700000x1, .i32⟩
  | 2 => ⟨S100000x64, .f32⟩
  | 3 => ⟨S100000x64, .f32⟩
  | 4 => ⟨S100000x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S100000x64, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x64, .f32⟩
  | 27 => ⟨S1700000x1, .f32⟩
  | 28 => ⟨S1700000x64, .f32⟩
  | 29 => ⟨S1700000x64, .f32⟩
  | 30 => ⟨S_, .f32⟩
  | 31 => ⟨S100000x64, .f32⟩
  | 32 => ⟨S1700000x1, .i32⟩
  | 33 => ⟨S100000x64, .f32⟩
  | 34 => ⟨S100000x64, .f32⟩
  | 35 => ⟨S100000x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x64, .f32⟩
  | 89 => ⟨S1700000x1, .f32⟩
  | 90 => ⟨S1700000x64, .f32⟩
  | 91 => ⟨S1700000x64, .f32⟩
  | 92 => ⟨S_, .f32⟩
  | 93 => ⟨S100000x64, .f32⟩
  | 94 => ⟨S1700000x1, .i32⟩
  | 95 => ⟨S100000x64, .f32⟩
  | 96 => ⟨S100000x64, .f32⟩
  | 97 => ⟨S100000x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_cst : Ref sig .tc := ⟨.hbm, 56, rfl⟩
abbrev main_call1_v5 : Ref sig .tc := ⟨.hbm, 57, rfl⟩
abbrev main_v31 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_cst : Ref sig .tc := ⟨.hbm, 65, rfl⟩
abbrev main_call2_v5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_cst : Ref sig .tc := ⟨.hbm, 76, rfl⟩
abbrev main_call3_v5 : Ref sig .tc := ⟨.hbm, 77, rfl⟩
abbrev main_v35 : Ref sig .tc := ⟨.hbm, 78, rfl⟩
abbrev main_call4_v0 : Ref sig .tc := ⟨.hbm, 79, rfl⟩
abbrev main_call4_c : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_cst : Ref sig .tc := ⟨.hbm, 85, rfl⟩
abbrev main_call4_v5 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_call5_v0 : Ref sig .tc := ⟨.hbm, 90, rfl⟩
abbrev main_call5_c : Ref sig .tc := ⟨.hbm, 91, rfl⟩
abbrev main_call5_v1 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_cst : Ref sig .tc := ⟨.hbm, 96, rfl⟩
abbrev main_call5_v5 : Ref sig .tc := ⟨.hbm, 97, rfl⟩
abbrev main_v39 : Ref sig .tc := ⟨.hbm, 98, rfl⟩
abbrev main_call6_v0 : Ref sig .tc := ⟨.hbm, 99, rfl⟩
abbrev main_call6_c : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_call6_cst : Ref sig .tc := ⟨.hbm, 105, rfl⟩
abbrev main_call6_v5 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_c_6 : Ref sig .tc := ⟨.hbm, 115, rfl⟩
abbrev main_v48 : Ref sig .tc := ⟨.hbm, 116, rfl⟩
abbrev main_v49 : Ref sig .tc := ⟨.hbm, 117, rfl⟩
abbrev main_c_7 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_cst_8 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_call7_cst : Ref sig .tc := ⟨.hbm, 135, rfl⟩
abbrev main_call7_v0 : Ref sig .tc := ⟨.hbm, 136, rfl⟩
abbrev main_v65 : Ref sig .tc := ⟨.hbm, 137, rfl⟩
abbrev main_cst_9 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_call8_cst : Ref sig .tc := ⟨.hbm, 142, rfl⟩
abbrev main_call8_v0 : Ref sig .tc := ⟨.hbm, 143, rfl⟩
abbrev main_v69 : Ref sig .tc := ⟨.hbm, 144, rfl⟩
abbrev main_v70 : Ref sig .tc := ⟨.hbm, 145, rfl⟩
abbrev main_c_10 : Ref sig .tc := ⟨.hbm, 146, rfl⟩
abbrev main_v71 : Ref sig .tc := ⟨.hbm, 147, rfl⟩
abbrev main_v72 : Ref sig .tc := ⟨.hbm, 148, rfl⟩
abbrev main_c_11 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_cst_12 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_call9_cst : Ref sig .tc := ⟨.hbm, 166, rfl⟩
abbrev main_call9_v0 : Ref sig .tc := ⟨.hbm, 167, rfl⟩
abbrev main_v88 : Ref sig .tc := ⟨.hbm, 168, rfl⟩
abbrev main_cst_13 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_call10_cst : Ref sig .tc := ⟨.hbm, 173, rfl⟩
abbrev main_call10_v0 : Ref sig .tc := ⟨.hbm, 174, rfl⟩
abbrev main_v92 : Ref sig .tc := ⟨.hbm, 175, rfl⟩
abbrev main_v93 : Ref sig .tc := ⟨.hbm, 176, rfl⟩
abbrev main_c_14 : Ref sig .tc := ⟨.hbm, 177, rfl⟩
abbrev main_v94 : Ref sig .tc := ⟨.hbm, 178, rfl⟩
abbrev main_v95 : Ref sig .tc := ⟨.hbm, 179, rfl⟩
abbrev main_c_15 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_cst_16 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_call11_cst : Ref sig .tc := ⟨.hbm, 197, rfl⟩
abbrev main_call11_v0 : Ref sig .tc := ⟨.hbm, 198, rfl⟩
abbrev main_v111 : Ref sig .tc := ⟨.hbm, 199, rfl⟩
abbrev main_cst_17 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_call12_cst : Ref sig .tc := ⟨.hbm, 204, rfl⟩
abbrev main_call12_v0 : Ref sig .tc := ⟨.hbm, 205, rfl⟩
abbrev main_v115 : Ref sig .tc := ⟨.hbm, 206, rfl⟩
abbrev main_v116 : Ref sig .tc := ⟨.hbm, 207, rfl⟩
abbrev main_c_18 : Ref sig .tc := ⟨.hbm, 208, rfl⟩
abbrev main_v117 : Ref sig .tc := ⟨.hbm, 209, rfl⟩
abbrev main_v118 : Ref sig .tc := ⟨.hbm, 210, rfl⟩
abbrev main_c_19 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_cst_20 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_call13_cst : Ref sig .tc := ⟨.hbm, 228, rfl⟩
abbrev main_call13_v0 : Ref sig .tc := ⟨.hbm, 229, rfl⟩
abbrev main_v134 : Ref sig .tc := ⟨.hbm, 230, rfl⟩
abbrev main_cst_21 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_call14_cst : Ref sig .tc := ⟨.hbm, 235, rfl⟩
abbrev main_call14_v0 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S64x64 : S_.BroadcastsInDim S64x64 (![] : Fin 0 → Fin S64x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.BitsCall0.lean ====
/-
  Call 0 of the program (the encoder: a row tile of the features times the encoder weights, plus the bias row), at any float instance and at any contents `V` of the
  TensorCore's buffers when the call is entered. A grid point reads one block of each input window, whole, and stores
  one block of the output window, whole: the stored block is the call's pure payload of the blocks read. This module
  states that block (`out0`), runs the body once on arbitrary staging buffers (`sound_kernel0`), and packages
  the per-point contents as the pipeline's proof data (`dat0`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every grid point, whether the point fetched it or the
    block index stood still since the last fetch: the body never writes an input buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every grid point, whether the point fetched it or the
    block index stood still since the last fetch: the body never writes an input buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every grid point, whether the point fetched it or the
    block index stood still since the last fetch: the body never writes an input buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev whole0_S10000x128 : Rect S10000x128 := Rect.unit (s := S10000x128) ![0, 0] S10000x128.size inb_S10000x128_S10000x128_0_0
abbrev whole0_S128x64 : Rect S128x64 := Rect.unit (s := S128x64) ![0, 0] S128x64.size inb_S128x64_S128x64_0_0
abbrev whole0_S1x64 : Rect S1x64 := Rect.unit (s := S1x64) ![0, 0] S1x64.size inb_S1x64_S1x64_0_0
abbrev whole0_S10000x64 : Rect S10000x64 := Rect.unit (s := S10000x64) ![0, 0] S10000x64.size inb_S10000x64_S10000x64_0_0

/-- What the body leaves in the output window's staging buffer, as a function of the input blocks: its one store,
    the payload of the blocks loaded. -/
def out0 (x0 : Vec F S10000x128 .f32) (x1 : Vec F S128x64 .f32) (x2 : Vec F S1x64 .f32) : Vec F S10000x64 .f32 :=
  View.canon [⟨whole0_S10000x64, k0_pay1 (View.ld x0 whole0_S10000x128) (View.ld x1 whole0_S128x64) (View.ld x2 whole0_S1x64)⟩]

/-- The one store covers the output block. -/
theorem cover0 (p0 : Vec F S10000x64 .f32) (y : S10000x64.Idx) :
    ∃ pc ∈ ([⟨whole0_S10000x64, p0⟩] : List (View.Piece (Elt F) S10000x64 .f32)), y ∈ pc.1.set :=
  View.cover_of_tiled [⟨whole0_S10000x64, p0⟩] S10000x64.size (by rfl) y

/-! ## The body, run once -/

set_option maxHeartbeats 1000000 in
/-- On whole staging buffers, the inputs' reading `x0 …` and the output's holding anything, the body runs to its
    continuation with the inputs' buffers as they were and the output's at `out0` of the inputs. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The pipeline's proof data -/

/-- The proof data of the call on core `c`: each window's array as the call finds it; after the body at point `t`
    every input buffer still at its block and the output buffer at `out0` of the input blocks; nothing kept from
    point to point beyond the scoped rest and the generator register; nothing owed; `q` the share held of each
    input array. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = out0 (iblk0 V c 0 t) (iblk0 V c 1 t) (iblk0 V c 2 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-! ## The body obligation at a generic grid point -/

/-- What the body is called with at point `t`, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' staging buffers hold their blocks, so the one run above applies; the invariant
    and what the core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation0 (c : Dev nD) : BodyObligation (dat0 (F := F) V q c) (defs₀ (F := F)) Variants.none () Set.univ := fun t => by
  rw [bigSep_W0, bigSep_W0]
  exact sound_body0 V q c t

end Cert.Kernel.Rg

end
-- ==== Proof.BitsCall1.lean ====
/-
  Call 1 of the program (a row tile of the hidden state times the symmetric internal mixer), at any float instance and at any contents `V` of the
  TensorCore's buffers when the call is entered. A grid point reads one block of each input window, whole, and stores
  one block of the output window, whole: the stored block is the call's pure payload of the blocks read. This module
  states that block (`out1`), runs the body once on arbitrary staging buffers (`sound_kernel1`), and packages
  the per-point contents as the pipeline's proof data (`dat1`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every grid point, whether the point fetched it or the
    block index stood still since the last fetch: the body never writes an input buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every grid point, whether the point fetched it or the
    block index stood still since the last fetch: the body never writes an input buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole block -/

abbrev whole1_S10000x64 : Rect S10000x64 := Rect.unit (s := S10000x64) ![0, 0] S10000x64.size inb_S10000x64_S10000x64_0_0
abbrev whole1_S64x64 : Rect S64x64 := Rect.unit (s := S64x64) ![0, 0] S64x64.size inb_S64x64_S64x64_0_0

/-- What the body leaves in the output window's staging buffer, as a function of the input blocks: its one store,
    the payload of the blocks loaded. -/
def out1 (x0 : Vec F S10000x64 .f32) (x1 : Vec F S64x64 .f32) : Vec F S10000x64 .f32 :=
  View.canon [⟨whole1_S10000x64, k1_pay1 (View.ld x0 whole1_S10000x64) (View.ld x1 whole1_S64x64)⟩]

/-- The one store covers the output block. -/
theorem cover1 (p0 : Vec F S10000x64 .f32) (y : S10000x64.Idx) :
    ∃ pc ∈ ([⟨whole1_S10000x64, p0⟩] : List (View.Piece (Elt F) S10000x64 .f32)), y ∈ pc.1.set :=
  View.cover_of_tiled [⟨whole1_S10000x64, p0⟩] S10000x64.size (by rfl) y

/-! ## The body, run once -/

set_option maxHeartbeats 1000000 in
/-- On whole staging buffers, the inputs' reading `x0 …` and the output's holding anything, the body runs to its
    continuation with the inputs' buffers as they were and the output's at `out1` of the inputs. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of the call on core `c`: each window's array as the call finds it; after the body at point `t`
    every input buffer still at its block and the output buffer at `out1` of the input blocks; nothing kept from
    point to point beyond the scoped rest and the generator register; nothing owed; `q` the share held of each
    input array. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = out1 (iblk1 V c 0 t) (iblk1 V c 1 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body obligation at a generic grid point -/

/-- What the body is called with at point `t`, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

/-- The body at any point: the inputs' staging buffers hold their blocks, so the one run above applies; the invariant
    and what the core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation1 (c : Dev nD) : BodyObligation (dat1 (F := F) V q c) (defs₀ (F := F)) Variants.none () Set.univ := fun t => by
  rw [bigSep_W1, bigSep_W1]
  exact sound_body1 V q c t

end Cert.Kernel.Rg

end
-- ==== Proof.BitsCall2.lean ====
/-
  Call 2 of the program (the residual update of a row tile: relu(h + relu(agg - h We - x0 W0))), at any float instance and at any contents `V` of the
  TensorCore's buffers when the call is entered. A grid point reads one block of each input window, whole, and stores
  one block of the output window, whole: the stored block is the call's pure payload of the blocks read. This module
  states that block (`out2`), runs the body once on arbitrary staging buffers (`sound_kernel2`), and packages
  the per-point contents as the pipeline's proof data (`dat2`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every grid point, whether the point fetched it or the
    block index stood still since the last fetch: the body never writes an input buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every grid point, whether the point fetched it or the
    block index stood still since the last fetch: the body never writes an input buffer. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every grid point, whether the point fetched it or the
    block index stood still since the last fetch: the body never writes an input buffer. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the window's block at every grid point, whether the point fetched it or the
    block index stood still since the last fetch: the body never writes an input buffer. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds the window's block at every grid point, whether the point fetched it or the
    block index stood still since the last fetch: the body never writes an input buffer. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole block -/

abbrev whole2_S10000x64 : Rect S10000x64 := Rect.unit (s := S10000x64) ![0, 0] S10000x64.size inb_S10000x64_S10000x64_0_0
abbrev whole2_S64x64 : Rect S64x64 := Rect.unit (s := S64x64) ![0, 0] S64x64.size inb_S64x64_S64x64_0_0

/-- What the body leaves in the output window's staging buffer, as a function of the input blocks: its one store,
    the payload of the blocks loaded. -/
def out2 (x0 : Vec F S10000x64 .f32) (x1 : Vec F S10000x64 .f32) (x2 : Vec F S10000x64 .f32) (x3 : Vec F S64x64 .f32) (x4 : Vec F S64x64 .f32) : Vec F S10000x64 .f32 :=
  View.canon [⟨whole2_S10000x64, k2_pay1 (View.ld x0 whole2_S10000x64) (View.ld x1 whole2_S10000x64) (View.ld x2 whole2_S10000x64) (View.ld x3 whole2_S64x64) (View.ld x4 whole2_S64x64)⟩]

/-- The one store covers the output block. -/
theorem cover2 (p0 : Vec F S10000x64 .f32) (y : S10000x64.Idx) :
    ∃ pc ∈ ([⟨whole2_S10000x64, p0⟩] : List (View.Piece (Elt F) S10000x64 .f32)), y ∈ pc.1.set :=
  View.cover_of_tiled [⟨whole2_S10000x64, p0⟩] S10000x64.size (by rfl) y

/-! ## The body, run once -/

set_option maxHeartbeats 1000000 in
/-- On whole staging buffers, the inputs' reading `x0 …` and the output's holding anything, the body runs to its
    continuation with the inputs' buffers as they were and the output's at `out2` of the inputs. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S10000x64 .f32) (harg6 : arg6.IsWhole)
    (x0 : Vec F S10000x64 .f32) (x1 : Vec F S10000x64 .f32) (x2 : Vec F S10000x64 .f32) (x3 : Vec F S64x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2 x0 x1 x2 x3 x4)) -∗ K ⟨⟩))
      ⊢ wp frame (wpE (defs₀ (F := F)) Variants.none c none) E (cc2__update_kernel i arg1 harg1 arg2 harg2 arg3 harg3 arg4 harg4 arg5 harg5 arg6 harg6) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The pipeline's proof data -/

/-- The proof data of the call on core `c`: each window's array as the call finds it; after the body at point `t`
    every input buffer still at its block and the output buffer at `out2` of the input blocks; nothing kept from
    point to point beyond the scoped rest and the generator register; nothing owed; `q` the share held of each
    input array. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t = iblk2 V c 4 t := by dsimp only [dat2]
theorem after2_5 (c : Dev nD) (t : Fin cfg2.N) : (dat2 V q c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d
theorem before2_4 (c : Dev nD) (t : Fin cfg2.N) (d) : (dat2 V q c).before 4 t d = iblk2 V c 4 t :=
  before2_4_of V (dat2 V q c) (A_eq2 V q c 4) (after2_4 V q c) t d

/-! ## The body obligation at a generic grid point -/

/-- What the body is called with at point `t`, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t))

/-- The body at any point: the inputs' staging buffers hold their blocks, so the one run above applies; the invariant
    and what the core owes pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation2 (c : Dev nD) : BodyObligation (dat2 (F := F) V q c) (defs₀ (F := F)) Variants.none () Set.univ := fun t => by
  rw [bigSep_W2, bigSep_W2]
  exact sound_body2 V q c t

end Cert.Kernel.Rg

end
-- ==== Proof.BitsCall3.lean ====
/-
  Call 3 of the program (a row tile of the hidden state times the symmetric internal mixer), at any float instance and at any contents `V` of the
  TensorCore's buffers when the call is entered. A grid point reads one block of each input window, whole, and stores
  one block of the output window, whole: the stored block is the call's pure payload of the blocks read. This module
  states that block (`out3`), runs the body once on arbitrary staging buffers (`sound_kernel3`), and packages
  the per-point contents as the pipeline's proof data (`dat3`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every grid point, whether the point fetched it or the
    block index stood still since the last fetch: the body never writes an input buffer. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every grid point, whether the point fetched it or the
    block index stood still since the last fetch: the body never writes an input buffer. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole block -/

abbrev whole3_S10000x64 : Rect S10000x64 := Rect.unit (s := S10000x64) ![0, 0] S10000x64.size inb_S10000x64_S10000x64_0_0
abbrev whole3_S64x64 : Rect S64x64 := Rect.unit (s := S64x64) ![0, 0] S64x64.size inb_S64x64_S64x64_0_0

/-- What the body leaves in the output window's staging buffer, as a function of the input blocks: its one store,
    the payload of the blocks loaded. -/
def out3 (x0 : Vec F S10000x64 .f32) (x1 : Vec F S64x64 .f32) : Vec F S10000x64 .f32 :=
  View.canon [⟨whole3_S10000x64, k3_pay1 (View.ld x0 whole3_S10000x64) (View.ld x1 whole3_S64x64)⟩]

/-- The one store covers the output block. -/
theorem cover3 (p0 : Vec F S10000x64 .f32) (y : S10000x64.Idx) :
    ∃ pc ∈ ([⟨whole3_S10000x64, p0⟩] : List (View.Piece (Elt F) S10000x64 .f32)), y ∈ pc.1.set :=
  View.cover_of_tiled [⟨whole3_S10000x64, p0⟩] S10000x64.size (by rfl) y

/-! ## The body, run once -/

set_option maxHeartbeats 1000000 in
/-- On whole staging buffers, the inputs' reading `x0 …` and the output's holding anything, the body runs to its
    continuation with the inputs' buffers as they were and the output's at `out3` of the inputs. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-! ## The pipeline's proof data -/

/-- The proof data of the call on core `c`: each window's array as the call finds it; after the body at point `t`
    every input buffer still at its block and the output buffer at `out3` of the input blocks; nothing kept from
    point to point beyond the scoped rest and the generator register; nothing owed; `q` the share held of each
    input array. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q := q
  owed _ := 0

variable (q : Fin cfg3.W → PosShare TreeShare)

theorem A_eq3 (c : Dev nD) (w : Fin cfg3.W) : (dat3 V q c).A w = V c (Pipeline.arrRef spec3 w) := by
  dsimp only [dat3]

theorem after3_0 (c : Dev nD) (t : Fin cfg3.N) : (dat3 V q c).after 0 t = iblk3 V c 0 t := by dsimp only [dat3]
theorem after3_1 (c : Dev nD) (t : Fin cfg3.N) : (dat3 V q c).after 1 t = iblk3 V c 1 t := by dsimp only [dat3]
theorem after3_2 (c : Dev nD) (t : Fin cfg3.N) : (dat3 V q c).after 2 t = out3 (iblk3 V c 0 t) (iblk3 V c 1 t) := by dsimp only [dat3]

theorem before3_0 (c : Dev nD) (t : Fin cfg3.N) (d) : (dat3 V q c).before 0 t d = iblk3 V c 0 t :=
  before3_0_of V (dat3 V q c) (A_eq3 V q c 0) (after3_0 V q c) t d
theorem before3_1 (c : Dev nD) (t : Fin cfg3.N) (d) : (dat3 V q c).before 1 t d = iblk3 V c 1 t :=
  before3_1_of V (dat3 V q c) (A_eq3 V q c 1) (after3_1 V q c) t d

/-! ## The body obligation at a generic grid point -/

/-- What the body is called with at point `t`, -/
def bodyPre3 (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d)))

/-- and what it returns. -/
def bodyPost3 (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t))

/-- The body at any point: the inputs' staging buffers hold their blocks, so the one run above applies; the invariant
    and what the core owes pass through unread. -/
theorem sound_body3 (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1]
  rw [show (dat3 V q c).Φ t.succ = (dat3 V q c).Φ t.castSucc from rfl,
    show (dat3 V q c).owesAt () t.succ = (dat3 V q c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation3 (c : Dev nD) : BodyObligation (dat3 (F := F) V q c) (defs₀ (F := F)) Variants.none () Set.univ := fun t => by
  rw [bigSep_W3, bigSep_W3]
  exact sound_body3 V q c t

end Cert.Kernel.Rg

end
-- ==== Proof.BitsCall4.lean ====
/-
  Call 4 of the program (the residual update of a row tile: relu(h + relu(agg - h We - x0 W0))), at any float instance and at any contents `V` of the
  TensorCore's buffers when the call is entered. A grid point reads one block of each input window, whole, and stores
  one block of the output window, whole: the stored block is the call's pure payload of the blocks read. This module
  states that block (`out4`), runs the body once on arbitrary staging buffers (`sound_kernel4`), and packages
  the per-point contents as the pipeline's proof data (`dat4`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every grid point, whether the point fetched it or the
    block index stood still since the last fetch: the body never writes an input buffer. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every grid point, whether the point fetched it or the
    block index stood still since the last fetch: the body never writes an input buffer. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds the window's block at every grid point, whether the point fetched it or the
    block index stood still since the last fetch: the body never writes an input buffer. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds the window's block at every grid point, whether the point fetched it or the
    block index stood still since the last fetch: the body never writes an input buffer. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds the window's block at every grid point, whether the point fetched it or the
    block index stood still since the last fetch: the body never writes an input buffer. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole block -/

abbrev whole4_S10000x64 : Rect S10000x64 := Rect.unit (s := S10000x64) ![0, 0] S10000x64.size inb_S10000x64_S10000x64_0_0
abbrev whole4_S64x64 : Rect S64x64 := Rect.unit (s := S64x64) ![0, 0] S64x64.size inb_S64x64_S64x64_0_0

/-- What the body leaves in the output window's staging buffer, as a function of the input blocks: its one store,
    the payload of the blocks loaded. -/
def out4 (x0 : Vec F S10000x64 .f32) (x1 : Vec F S10000x64 .f32) (x2 : Vec F S10000x64 .f32) (x3 : Vec F S64x64 .f32) (x4 : Vec F S64x64 .f32) : Vec F S10000x64 .f32 :=
  View.canon [⟨whole4_S10000x64, k4_pay1 (View.ld x0 whole4_S10000x64) (View.ld x1 whole4_S10000x64) (View.ld x2 whole4_S10000x64) (View.ld x3 whole4_S64x64) (View.ld x4 whole4_S64x64)⟩]

/-- The one store covers the output block. -/
theorem cover4 (p0 : Vec F S10000x64 .f32) (y : S10000x64.Idx) :
    ∃ pc ∈ ([⟨whole4_S10000x64, p0⟩] : List (View.Piece (Elt F) S10000x64 .f32)), y ∈ pc.1.set :=
  View.cover_of_tiled [⟨whole4_S10000x64, p0⟩] S10000x64.size (by rfl) y

/-! ## The body, run once -/

set_option maxHeartbeats 1000000 in
/-- On whole staging buffers, the inputs' reading `x0 …` and the output's holding anything, the body runs to its
    continuation with the inputs' buffers as they were and the output's at `out4` of the inputs. -/
theorem sound_kernel4 (c : Dev nD) (E : Set ℕ) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S10000x64 .f32) (harg6 : arg6.IsWhole)
    (x0 : Vec F S10000x64 .f32) (x1 : Vec F S10000x64 .f32) (x2 : Vec F S10000x64 .f32) (x3 : Vec F S64x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4 x0 x1 x2 x3 x4)) -∗ K ⟨⟩))
      ⊢ wp frame (wpE (defs₀ (F := F)) Variants.none c none) E (cc4__update_kernel i arg1 harg1 arg2 harg2 arg3 harg3 arg4 harg4 arg5 harg5 arg6 harg6) K := by
  simp only [cc4__update_kernel_eq_skeleton]; unfold cc4__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-! ## The pipeline's proof data -/

/-- The proof data of the call on core `c`: each window's array as the call finds it; after the body at point `t`
    every input buffer still at its block and the output buffer at `out4` of the input blocks; nothing kept from
    point to point beyond the scoped rest and the generator register; nothing owed; `q` the share held of each
    input array. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q := q
  owed _ := 0

variable (q : Fin cfg4.W → PosShare TreeShare)

theorem A_eq4 (c : Dev nD) (w : Fin cfg4.W) : (dat4 V q c).A w = V c (Pipeline.arrRef spec4 w) := by
  dsimp only [dat4]

theorem after4_0 (c : Dev nD) (t : Fin cfg4.N) : (dat4 V q c).after 0 t = iblk4 V c 0 t := by dsimp only [dat4]
theorem after4_1 (c : Dev nD) (t : Fin cfg4.N) : (dat4 V q c).after 1 t = iblk4 V c 1 t := by dsimp only [dat4]
theorem after4_2 (c : Dev nD) (t : Fin cfg4.N) : (dat4 V q c).after 2 t = iblk4 V c 2 t := by dsimp only [dat4]
theorem after4_3 (c : Dev nD) (t : Fin cfg4.N) : (dat4 V q c).after 3 t = iblk4 V c 3 t := by dsimp only [dat4]
theorem after4_4 (c : Dev nD) (t : Fin cfg4.N) : (dat4 V q c).after 4 t = iblk4 V c 4 t := by dsimp only [dat4]
theorem after4_5 (c : Dev nD) (t : Fin cfg4.N) : (dat4 V q c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V q c).before 0 t d = iblk4 V c 0 t :=
  before4_0_of V (dat4 V q c) (A_eq4 V q c 0) (after4_0 V q c) t d
theorem before4_1 (c : Dev nD) (t : Fin cfg4.N) (d) : (dat4 V q c).before 1 t d = iblk4 V c 1 t :=
  before4_1_of V (dat4 V q c) (A_eq4 V q c 1) (after4_1 V q c) t d
theorem before4_2 (c : Dev nD) (t : Fin cfg4.N) (d) : (dat4 V q c).before 2 t d = iblk4 V c 2 t :=
  before4_2_of V (dat4 V q c) (A_eq4 V q c 2) (after4_2 V q c) t d
theorem before4_3 (c : Dev nD) (t : Fin cfg4.N) (d) : (dat4 V q c).before 3 t d = iblk4 V c 3 t :=
  before4_3_of V (dat4 V q c) (A_eq4 V q c 3) (after4_3 V q c) t d
theorem before4_4 (c : Dev nD) (t : Fin cfg4.N) (d) : (dat4 V q c).before 4 t d = iblk4 V c 4 t :=
  before4_4_of V (dat4 V q c) (A_eq4 V q c 4) (after4_4 V q c) t d

/-! ## The body obligation at a generic grid point -/

/-- What the body is called with at point `t`, -/
def bodyPre4 (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d))
    ∗ (∃ d, owns (c : Thread nD τ) (st4_5 t) fullShare ((dat4 V q c).before 5 t d)))

/-- and what it returns. -/
def bodyPost4 (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t)
    ∗ owns (c : Thread nD τ) (st4_5 t) fullShare ((dat4 V q c).after 5 t))

/-- The body at any point: the inputs' staging buffers hold their blocks, so the one run above applies; the invariant
    and what the core owes pass through unread. -/
theorem sound_body4 (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3, before4_4]
  rw [show (dat4 V q c).Φ t.succ = (dat4 V q c).Φ t.castSucc from rfl,
    show (dat4 V q c).owesAt () t.succ = (dat4 V q c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation4 (c : Dev nD) : BodyObligation (dat4 (F := F) V q c) (defs₀ (F := F)) Variants.none () Set.univ := fun t => by
  rw [bigSep_W4, bigSep_W4]
  exact sound_body4 V q c t

end Cert.Kernel.Rg

end
-- ==== Proof.BitsCall5.lean ====
/-
  Call 5 of the program (a row tile of the hidden state times the symmetric internal mixer), at any float instance and at any contents `V` of the
  TensorCore's buffers when the call is entered. A grid point reads one block of each input window, whole, and stores
  one block of the output window, whole: the stored block is the call's pure payload of the blocks read. This module
  states that block (`out5`), runs the body once on arbitrary staging buffers (`sound_kernel5`), and packages
  the per-point contents as the pipeline's proof data (`dat5`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every grid point, whether the point fetched it or the
    block index stood still since the last fetch: the body never writes an input buffer. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every grid point, whether the point fetched it or the
    block index stood still since the last fetch: the body never writes an input buffer. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole block -/

abbrev whole5_S10000x64 : Rect S10000x64 := Rect.unit (s := S10000x64) ![0, 0] S10000x64.size inb_S10000x64_S10000x64_0_0
abbrev whole5_S64x64 : Rect S64x64 := Rect.unit (s := S64x64) ![0, 0] S64x64.size inb_S64x64_S64x64_0_0

/-- What the body leaves in the output window's staging buffer, as a function of the input blocks: its one store,
    the payload of the blocks loaded. -/
def out5 (x0 : Vec F S10000x64 .f32) (x1 : Vec F S64x64 .f32) : Vec F S10000x64 .f32 :=
  View.canon [⟨whole5_S10000x64, k5_pay1 (View.ld x0 whole5_S10000x64) (View.ld x1 whole5_S64x64)⟩]

/-- The one store covers the output block. -/
theorem cover5 (p0 : Vec F S10000x64 .f32) (y : S10000x64.Idx) :
    ∃ pc ∈ ([⟨whole5_S10000x64, p0⟩] : List (View.Piece (Elt F) S10000x64 .f32)), y ∈ pc.1.set :=
  View.cover_of_tiled [⟨whole5_S10000x64, p0⟩] S10000x64.size (by rfl) y

/-! ## The body, run once -/

set_option maxHeartbeats 1000000 in
/-- On whole staging buffers, the inputs' reading `x0 …` and the output's holding anything, the body runs to its
    continuation with the inputs' buffers as they were and the output's at `out5` of the inputs. -/
theorem sound_kernel5 (c : Dev nD) (E : Set ℕ) (i : grid5.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-! ## The pipeline's proof data -/

/-- The proof data of the call on core `c`: each window's array as the call finds it; after the body at point `t`
    every input buffer still at its block and the output buffer at `out5` of the input blocks; nothing kept from
    point to point beyond the scoped rest and the generator register; nothing owed; `q` the share held of each
    input array. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q := q
  owed _ := 0

variable (q : Fin cfg5.W → PosShare TreeShare)

theorem A_eq5 (c : Dev nD) (w : Fin cfg5.W) : (dat5 V q c).A w = V c (Pipeline.arrRef spec5 w) := by
  dsimp only [dat5]

theorem after5_0 (c : Dev nD) (t : Fin cfg5.N) : (dat5 V q c).after 0 t = iblk5 V c 0 t := by dsimp only [dat5]
theorem after5_1 (c : Dev nD) (t : Fin cfg5.N) : (dat5 V q c).after 1 t = iblk5 V c 1 t := by dsimp only [dat5]
theorem after5_2 (c : Dev nD) (t : Fin cfg5.N) : (dat5 V q c).after 2 t = out5 (iblk5 V c 0 t) (iblk5 V c 1 t) := by dsimp only [dat5]

theorem before5_0 (c : Dev nD) (t : Fin cfg5.N) (d) : (dat5 V q c).before 0 t d = iblk5 V c 0 t :=
  before5_0_of V (dat5 V q c) (A_eq5 V q c 0) (after5_0 V q c) t d
theorem before5_1 (c : Dev nD) (t : Fin cfg5.N) (d) : (dat5 V q c).before 1 t d = iblk5 V c 1 t :=
  before5_1_of V (dat5 V q c) (A_eq5 V q c 1) (after5_1 V q c) t d

/-! ## The body obligation at a generic grid point -/

/-- What the body is called with at point `t`, -/
def bodyPre5 (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d)))

/-- and what it returns. -/
def bodyPost5 (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t))

/-- The body at any point: the inputs' staging buffers hold their blocks, so the one run above applies; the invariant
    and what the core owes pass through unread. -/
theorem sound_body5 (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1]
  rw [show (dat5 V q c).Φ t.succ = (dat5 V q c).Φ t.castSucc from rfl,
    show (dat5 V q c).owesAt () t.succ = (dat5 V q c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation5 (c : Dev nD) : BodyObligation (dat5 (F := F) V q c) (defs₀ (F := F)) Variants.none () Set.univ := fun t => by
  rw [bigSep_W5, bigSep_W5]
  exact sound_body5 V q c t

end Cert.Kernel.Rg

end
-- ==== Proof.BitsCall6.lean ====
/-
  Call 6 of the program (the residual update of a row tile: relu(h + relu(agg - h We - x0 W0))), at any float instance and at any contents `V` of the
  TensorCore's buffers when the call is entered. A grid point reads one block of each input window, whole, and stores
  one block of the output window, whole: the stored block is the call's pure payload of the blocks read. This module
  states that block (`out6`), runs the body once on arbitrary staging buffers (`sound_kernel6`), and packages
  the per-point contents as the pipeline's proof data (`dat6`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every grid point, whether the point fetched it or the
    block index stood still since the last fetch: the body never writes an input buffer. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every grid point, whether the point fetched it or the
    block index stood still since the last fetch: the body never writes an input buffer. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every grid point, whether the point fetched it or the
    block index stood still since the last fetch: the body never writes an input buffer. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds the window's block at every grid point, whether the point fetched it or the
    block index stood still since the last fetch: the body never writes an input buffer. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds the window's block at every grid point, whether the point fetched it or the
    block index stood still since the last fetch: the body never writes an input buffer. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store go through the whole block -/

abbrev whole6_S10000x64 : Rect S10000x64 := Rect.unit (s := S10000x64) ![0, 0] S10000x64.size inb_S10000x64_S10000x64_0_0
abbrev whole6_S64x64 : Rect S64x64 := Rect.unit (s := S64x64) ![0, 0] S64x64.size inb_S64x64_S64x64_0_0

/-- What the body leaves in the output window's staging buffer, as a function of the input blocks: its one store,
    the payload of the blocks loaded. -/
def out6 (x0 : Vec F S10000x64 .f32) (x1 : Vec F S10000x64 .f32) (x2 : Vec F S10000x64 .f32) (x3 : Vec F S64x64 .f32) (x4 : Vec F S64x64 .f32) : Vec F S10000x64 .f32 :=
  View.canon [⟨whole6_S10000x64, k6_pay1 (View.ld x0 whole6_S10000x64) (View.ld x1 whole6_S10000x64) (View.ld x2 whole6_S10000x64) (View.ld x3 whole6_S64x64) (View.ld x4 whole6_S64x64)⟩]

/-- The one store covers the output block. -/
theorem cover6 (p0 : Vec F S10000x64 .f32) (y : S10000x64.Idx) :
    ∃ pc ∈ ([⟨whole6_S10000x64, p0⟩] : List (View.Piece (Elt F) S10000x64 .f32)), y ∈ pc.1.set :=
  View.cover_of_tiled [⟨whole6_S10000x64, p0⟩] S10000x64.size (by rfl) y

/-! ## The body, run once -/

set_option maxHeartbeats 1000000 in
/-- On whole staging buffers, the inputs' reading `x0 …` and the output's holding anything, the body runs to its
    continuation with the inputs' buffers as they were and the output's at `out6` of the inputs. -/
theorem sound_kernel6 (c : Dev nD) (E : Set ℕ) (i : grid6.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S10000x64 .f32) (harg6 : arg6.IsWhole)
    (x0 : Vec F S10000x64 .f32) (x1 : Vec F S10000x64 .f32) (x2 : Vec F S10000x64 .f32) (x3 : Vec F S64x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6 x0 x1 x2 x3 x4)) -∗ K ⟨⟩))
      ⊢ wp frame (wpE (defs₀ (F := F)) Variants.none c none) E (cc6__update_kernel i arg1 harg1 arg2 harg2 arg3 harg3 arg4 harg4 arg5 harg5 arg6 harg6) K := by
  simp only [cc6__update_kernel_eq_skeleton]; unfold cc6__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-! ## The pipeline's proof data -/

/-- The proof data of the call on core `c`: each window's array as the call finds it; after the body at point `t`
    every input buffer still at its block and the output buffer at `out6` of the input blocks; nothing kept from
    point to point beyond the scoped rest and the generator register; nothing owed; `q` the share held of each
    input array. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q := q
  owed _ := 0

variable (q : Fin cfg6.W → PosShare TreeShare)

theorem A_eq6 (c : Dev nD) (w : Fin cfg6.W) : (dat6 V q c).A w = V c (Pipeline.arrRef spec6 w) := by
  dsimp only [dat6]

theorem after6_0 (c : Dev nD) (t : Fin cfg6.N) : (dat6 V q c).after 0 t = iblk6 V c 0 t := by dsimp only [dat6]
theorem after6_1 (c : Dev nD) (t : Fin cfg6.N) : (dat6 V q c).after 1 t = iblk6 V c 1 t := by dsimp only [dat6]
theorem after6_2 (c : Dev nD) (t : Fin cfg6.N) : (dat6 V q c).after 2 t = iblk6 V c 2 t := by dsimp only [dat6]
theorem after6_3 (c : Dev nD) (t : Fin cfg6.N) : (dat6 V q c).after 3 t = iblk6 V c 3 t := by dsimp only [dat6]
theorem after6_4 (c : Dev nD) (t : Fin cfg6.N) : (dat6 V q c).after 4 t = iblk6 V c 4 t := by dsimp only [dat6]
theorem after6_5 (c : Dev nD) (t : Fin cfg6.N) : (dat6 V q c).after 5 t = out6 (iblk6 V c 0 t) (iblk6 V c 1 t) (iblk6 V c 2 t) (iblk6 V c 3 t) (iblk6 V c 4 t) := by dsimp only [dat6]

theorem before6_0 (c : Dev nD) (t : Fin cfg6.N) (d) : (dat6 V q c).before 0 t d = iblk6 V c 0 t :=
  before6_0_of V (dat6 V q c) (A_eq6 V q c 0) (after6_0 V q c) t d
theorem before6_1 (c : Dev nD) (t : Fin cfg6.N) (d) : (dat6 V q c).before 1 t d = iblk6 V c 1 t :=
  before6_1_of V (dat6 V q c) (A_eq6 V q c 1) (after6_1 V q c) t d
theorem before6_2 (c : Dev nD) (t : Fin cfg6.N) (d) : (dat6 V q c).before 2 t d = iblk6 V c 2 t :=
  before6_2_of V (dat6 V q c) (A_eq6 V q c 2) (after6_2 V q c) t d
theorem before6_3 (c : Dev nD) (t : Fin cfg6.N) (d) : (dat6 V q c).before 3 t d = iblk6 V c 3 t :=
  before6_3_of V (dat6 V q c) (A_eq6 V q c 3) (after6_3 V q c) t d
theorem before6_4 (c : Dev nD) (t : Fin cfg6.N) (d) : (dat6 V q c).before 4 t d = iblk6 V c 4 t :=
  before6_4_of V (dat6 V q c) (A_eq6 V q c 4) (after6_4 V q c) t d

/-! ## The body obligation at a generic grid point -/

/-- What the body is called with at point `t`, -/
def bodyPre6 (c : Dev nD) (t : Fin cfg6.N) : sProp 𝕄 :=
  iprop((dat6 V q c).Φ t.castSucc ∗ (dat6 V q c).owesAt () t.castSucc
    ∗ (∃ d, owns (c : Thread nD τ) (st6_0 t) fullShare ((dat6 V q c).before 0 t d))
    ∗ (∃ d, owns (c : Thread nD τ) (st6_1 t) fullShare ((dat6 V q c).before 1 t d))
    ∗ (∃ d, owns (c : Thread nD τ) (st6_2 t) fullShare ((dat6 V q c).before 2 t d))
    ∗ (∃ d, owns (c : Thread nD τ) (st6_3 t) fullShare ((dat6 V q c).before 3 t d))
    ∗ (∃ d, owns (c : Thread nD τ) (st6_4 t) fullShare ((dat6 V q c).before 4 t d))
    ∗ (∃ d, owns (c : Thread nD τ) (st6_5 t) fullShare ((dat6 V q c).before 5 t d)))

/-- and what it returns. -/
def bodyPost6 (c : Dev nD) (t : Fin cfg6.N) : sProp 𝕄 :=
  iprop((dat6 V q c).Φ t.succ ∗ (dat6 V q c).owesAt () t.succ
    ∗ owns (c : Thread nD τ) (st6_0 t) fullShare ((dat6 V q c).after 0 t)
    ∗ owns (c : Thread nD τ) (st6_1 t) fullShare ((dat6 V q c).after 1 t)
    ∗ owns (c : Thread nD τ) (st6_2 t) fullShare ((dat6 V q c).after 2 t)
    ∗ owns (c : Thread nD τ) (st6_3 t) fullShare ((dat6 V q c).after 3 t)
    ∗ owns (c : Thread nD τ) (st6_4 t) fullShare ((dat6 V q c).after 4 t)
    ∗ owns (c : Thread nD τ) (st6_5 t) fullShare ((dat6 V q c).after 5 t))

/-- The body at any point: the inputs' staging buffers hold their blocks, so the one run above applies; the invariant
    and what the core owes pass through unread. -/
theorem sound_body6 (c : Dev nD) (t : Fin cfg6.N) :
    bodyPre6 V q c t ⊢ wp frame (wpE (defs₀ (F := F)) Variants.none c none) Set.univ (bodyAt6 t) (fun _ => bodyPost6 V q c t) := by
  unfold bodyPre6 bodyPost6 bodyAt6
  simp only [before6_0, before6_1, before6_2, before6_3, before6_4]
  rw [show (dat6 V q c).Φ t.succ = (dat6 V q c).Φ t.castSucc from rfl,
    show (dat6 V q c).owesAt () t.succ = (dat6 V q c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation6 (c : Dev nD) : BodyObligation (dat6 (F := F) V q c) (defs₀ (F := F)) Variants.none () Set.univ := fun t => by
  rw [bigSep_W6, bigSep_W6]
  exact sound_body6 V q c t

end Cert.Kernel.Rg

end
-- ==== Proof.BitsCall7.lean ====
/-
  Call 7 of the program (a row tile of the hidden state times the symmetric internal mixer), at any float instance and at any contents `V` of the
  TensorCore's buffers when the call is entered. A grid point reads one block of each input window, whole, and stores
  one block of the output window, whole: the stored block is the call's pure payload of the blocks read. This module
  states that block (`out7`), runs the body once on arbitrary staging buffers (`sound_kernel7`), and packages
  the per-point contents as the pipeline's proof data (`dat7`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds the window's block at every grid point, whether the point fetched it or the
    block index stood still since the last fetch: the body never writes an input buffer. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds the window's block at every grid point, whether the point fetched it or the
    block index stood still since the last fetch: the body never writes an input buffer. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store go through the whole block -/

abbrev whole7_S10000x64 : Rect S10000x64 := Rect.unit (s := S10000x64) ![0, 0] S10000x64.size inb_S10000x64_S10000x64_0_0
abbrev whole7_S64x64 : Rect S64x64 := Rect.unit (s := S64x64) ![0, 0] S64x64.size inb_S64x64_S64x64_0_0

/-- What the body leaves in the output window's staging buffer, as a function of the input blocks: its one store,
    the payload of the blocks loaded. -/
def out7 (x0 : Vec F S10000x64 .f32) (x1 : Vec F S64x64 .f32) : Vec F S10000x64 .f32 :=
  View.canon [⟨whole7_S10000x64, k7_pay1 (View.ld x0 whole7_S10000x64) (View.ld x1 whole7_S64x64)⟩]

/-- The one store covers the output block. -/
theorem cover7 (p0 : Vec F S10000x64 .f32) (y : S10000x64.Idx) :
    ∃ pc ∈ ([⟨whole7_S10000x64, p0⟩] : List (View.Piece (Elt F) S10000x64 .f32)), y ∈ pc.1.set :=
  View.cover_of_tiled [⟨whole7_S10000x64, p0⟩] S10000x64.size (by rfl) y

/-! ## The body, run once -/

set_option maxHeartbeats 1000000 in
/-- On whole staging buffers, the inputs' reading `x0 …` and the output's holding anything, the body runs to its
    continuation with the inputs' buffers as they were and the output's at `out7` of the inputs. -/
theorem sound_kernel7 (c : Dev nD) (E : Set ℕ) (i : grid7.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7 x0 x1)) -∗ K ⟨⟩))
      ⊢ wp frame (wpE (defs₀ (F := F)) Variants.none c none) E (cc7__matmul_kernel i arg1 harg1 arg2 harg2 arg3 harg3) K := by
  simp only [cc7__matmul_kernel_eq_skeleton]; unfold cc7__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7 _)

/-! ## The pipeline's proof data -/

/-- The proof data of the call on core `c`: each window's array as the call finds it; after the body at point `t`
    every input buffer still at its block and the output buffer at `out7` of the input blocks; nothing kept from
    point to point beyond the scoped rest and the generator register; nothing owed; `q` the share held of each
    input array. -/
def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 (iblk7 V c 0 t) (iblk7 V c 1 t)
  Φ _ := Pipeline.ΦA spec7 c
  q := q
  owed _ := 0

variable (q : Fin cfg7.W → PosShare TreeShare)

theorem A_eq7 (c : Dev nD) (w : Fin cfg7.W) : (dat7 V q c).A w = V c (Pipeline.arrRef spec7 w) := by
  dsimp only [dat7]

theorem after7_0 (c : Dev nD) (t : Fin cfg7.N) : (dat7 V q c).after 0 t = iblk7 V c 0 t := by dsimp only [dat7]
theorem after7_1 (c : Dev nD) (t : Fin cfg7.N) : (dat7 V q c).after 1 t = iblk7 V c 1 t := by dsimp only [dat7]
theorem after7_2 (c : Dev nD) (t : Fin cfg7.N) : (dat7 V q c).after 2 t = out7 (iblk7 V c 0 t) (iblk7 V c 1 t) := by dsimp only [dat7]

theorem before7_0 (c : Dev nD) (t : Fin cfg7.N) (d) : (dat7 V q c).before 0 t d = iblk7 V c 0 t :=
  before7_0_of V (dat7 V q c) (A_eq7 V q c 0) (after7_0 V q c) t d
theorem before7_1 (c : Dev nD) (t : Fin cfg7.N) (d) : (dat7 V q c).before 1 t d = iblk7 V c 1 t :=
  before7_1_of V (dat7 V q c) (A_eq7 V q c 1) (after7_1 V q c) t d

/-! ## The body obligation at a generic grid point -/

/-- What the body is called with at point `t`, -/
def bodyPre7 (c : Dev nD) (t : Fin cfg7.N) : sProp 𝕄 :=
  iprop((dat7 V q c).Φ t.castSucc ∗ (dat7 V q c).owesAt () t.castSucc
    ∗ (∃ d, owns (c : Thread nD τ) (st7_0 t) fullShare ((dat7 V q c).before 0 t d))
    ∗ (∃ d, owns (c : Thread nD τ) (st7_1 t) fullShare ((dat7 V q c).before 1 t d))
    ∗ (∃ d, owns (c : Thread nD τ) (st7_2 t) fullShare ((dat7 V q c).before 2 t d)))

/-- and what it returns. -/
def bodyPost7 (c : Dev nD) (t : Fin cfg7.N) : sProp 𝕄 :=
  iprop((dat7 V q c).Φ t.succ ∗ (dat7 V q c).owesAt () t.succ
    ∗ owns (c : Thread nD τ) (st7_0 t) fullShare ((dat7 V q c).after 0 t)
    ∗ owns (c : Thread nD τ) (st7_1 t) fullShare ((dat7 V q c).after 1 t)
    ∗ owns (c : Thread nD τ) (st7_2 t) fullShare ((dat7 V q c).after 2 t))

/-- The body at any point: the inputs' staging buffers hold their blocks, so the one run above applies; the invariant
    and what the core owes pass through unread. -/
theorem sound_body7 (c : Dev nD) (t : Fin cfg7.N) :
    bodyPre7 V q c t ⊢ wp frame (wpE (defs₀ (F := F)) Variants.none c none) Set.univ (bodyAt7 t) (fun _ => bodyPost7 V q c t) := by
  unfold bodyPre7 bodyPost7 bodyAt7
  simp only [before7_0, before7_1]
  rw [show (dat7 V q c).Φ t.succ = (dat7 V q c).Φ t.castSucc from rfl,
    show (dat7 V q c).owesAt () t.succ = (dat7 V q c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation7 (c : Dev nD) : BodyObligation (dat7 (F := F) V q c) (defs₀ (F := F)) Variants.none () Set.univ := fun t => by
  rw [bigSep_W7, bigSep_W7]
  exact sound_body7 V q c t

end Cert.Kernel.Rg

end
-- ==== Proof.BitsCall8.lean ====
/-
  Call 8 of the program (the residual update of a row tile: relu(h + relu(agg - h We - x0 W0))), at any float instance and at any contents `V` of the
  TensorCore's buffers when the call is entered. A grid point reads one block of each input window, whole, and stores
  one block of the output window, whole: the stored block is the call's pure payload of the blocks read. This module
  states that block (`out8`), runs the body once on arbitrary staging buffers (`sound_kernel8`), and packages
  the per-point contents as the pipeline's proof data (`dat8`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds the window's block at every grid point, whether the point fetched it or the
    block index stood still since the last fetch: the body never writes an input buffer. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds the window's block at every grid point, whether the point fetched it or the
    block index stood still since the last fetch: the body never writes an input buffer. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds the window's block at every grid point, whether the point fetched it or the
    block index stood still since the last fetch: the body never writes an input buffer. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds the window's block at every grid point, whether the point fetched it or the
    block index stood still since the last fetch: the body never writes an input buffer. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds the window's block at every grid point, whether the point fetched it or the
    block index stood still since the last fetch: the body never writes an input buffer. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the one store go through the whole block -/

abbrev whole8_S10000x64 : Rect S10000x64 := Rect.unit (s := S10000x64) ![0, 0] S10000x64.size inb_S10000x64_S10000x64_0_0
abbrev whole8_S64x64 : Rect S64x64 := Rect.unit (s := S64x64) ![0, 0] S64x64.size inb_S64x64_S64x64_0_0

/-- What the body leaves in the output window's staging buffer, as a function of the input blocks: its one store,
    the payload of the blocks loaded. -/
def out8 (x0 : Vec F S10000x64 .f32) (x1 : Vec F S10000x64 .f32) (x2 : Vec F S10000x64 .f32) (x3 : Vec F S64x64 .f32) (x4 : Vec F S64x64 .f32) : Vec F S10000x64 .f32 :=
  View.canon [⟨whole8_S10000x64, k8_pay1 (View.ld x0 whole8_S10000x64) (View.ld x1 whole8_S10000x64) (View.ld x2 whole8_S10000x64) (View.ld x3 whole8_S64x64) (View.ld x4 whole8_S64x64)⟩]

/-- The one store covers the output block. -/
theorem cover8 (p0 : Vec F S10000x64 .f32) (y : S10000x64.Idx) :
    ∃ pc ∈ ([⟨whole8_S10000x64, p0⟩] : List (View.Piece (Elt F) S10000x64 .f32)), y ∈ pc.1.set :=
  View.cover_of_tiled [⟨whole8_S10000x64, p0⟩] S10000x64.size (by rfl) y

/-! ## The body, run once -/

set_option maxHeartbeats 1000000 in
/-- On whole staging buffers, the inputs' reading `x0 …` and the output's holding anything, the body runs to its
    continuation with the inputs' buffers as they were and the output's at `out8` of the inputs. -/
theorem sound_kernel8 (c : Dev nD) (E : Set ℕ) (i : grid8.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S10000x64 .f32) (harg6 : arg6.IsWhole)
    (x0 : Vec F S10000x64 .f32) (x1 : Vec F S10000x64 .f32) (x2 : Vec F S10000x64 .f32) (x3 : Vec F S64x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8 x0 x1 x2 x3 x4)) -∗ K ⟨⟩))
      ⊢ wp frame (wpE (defs₀ (F := F)) Variants.none c none) E (cc8__update_kernel i arg1 harg1 arg2 harg2 arg3 harg3 arg4 harg4 arg5 harg5 arg6 harg6) K := by
  simp only [cc8__update_kernel_eq_skeleton]; unfold cc8__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The pipeline's proof data -/

/-- The proof data of the call on core `c`: each window's array as the call finds it; after the body at point `t`
    every input buffer still at its block and the output buffer at `out8` of the input blocks; nothing kept from
    point to point beyond the scoped rest and the generator register; nothing owed; `q` the share held of each
    input array. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q := q
  owed _ := 0

variable (q : Fin cfg8.W → PosShare TreeShare)

theorem A_eq8 (c : Dev nD) (w : Fin cfg8.W) : (dat8 V q c).A w = V c (Pipeline.arrRef spec8 w) := by
  dsimp only [dat8]

theorem after8_0 (c : Dev nD) (t : Fin cfg8.N) : (dat8 V q c).after 0 t = iblk8 V c 0 t := by dsimp only [dat8]
theorem after8_1 (c : Dev nD) (t : Fin cfg8.N) : (dat8 V q c).after 1 t = iblk8 V c 1 t := by dsimp only [dat8]
theorem after8_2 (c : Dev nD) (t : Fin cfg8.N) : (dat8 V q c).after 2 t = iblk8 V c 2 t := by dsimp only [dat8]
theorem after8_3 (c : Dev nD) (t : Fin cfg8.N) : (dat8 V q c).after 3 t = iblk8 V c 3 t := by dsimp only [dat8]
theorem after8_4 (c : Dev nD) (t : Fin cfg8.N) : (dat8 V q c).after 4 t = iblk8 V c 4 t := by dsimp only [dat8]
theorem after8_5 (c : Dev nD) (t : Fin cfg8.N) : (dat8 V q c).after 5 t = out8 (iblk8 V c 0 t) (iblk8 V c 1 t) (iblk8 V c 2 t) (iblk8 V c 3 t) (iblk8 V c 4 t) := by dsimp only [dat8]

theorem before8_0 (c : Dev nD) (t : Fin cfg8.N) (d) : (dat8 V q c).before 0 t d = iblk8 V c 0 t :=
  before8_0_of V (dat8 V q c) (A_eq8 V q c 0) (after8_0 V q c) t d
theorem before8_1 (c : Dev nD) (t : Fin cfg8.N) (d) : (dat8 V q c).before 1 t d = iblk8 V c 1 t :=
  before8_1_of V (dat8 V q c) (A_eq8 V q c 1) (after8_1 V q c) t d
theorem before8_2 (c : Dev nD) (t : Fin cfg8.N) (d) : (dat8 V q c).before 2 t d = iblk8 V c 2 t :=
  before8_2_of V (dat8 V q c) (A_eq8 V q c 2) (after8_2 V q c) t d
theorem before8_3 (c : Dev nD) (t : Fin cfg8.N) (d) : (dat8 V q c).before 3 t d = iblk8 V c 3 t :=
  before8_3_of V (dat8 V q c) (A_eq8 V q c 3) (after8_3 V q c) t d
theorem before8_4 (c : Dev nD) (t : Fin cfg8.N) (d) : (dat8 V q c).before 4 t d = iblk8 V c 4 t :=
  before8_4_of V (dat8 V q c) (A_eq8 V q c 4) (after8_4 V q c) t d

/-! ## The body obligation at a generic grid point -/

/-- What the body is called with at point `t`, -/
def bodyPre8 (c : Dev nD) (t : Fin cfg8.N) : sProp 𝕄 :=
  iprop((dat8 V q c).Φ t.castSucc ∗ (dat8 V q c).owesAt () t.castSucc
    ∗ (∃ d, owns (c : Thread nD τ) (st8_0 t) fullShare ((dat8 V q c).before 0 t d))
    ∗ (∃ d, owns (c : Thread nD τ) (st8_1 t) fullShare ((dat8 V q c).before 1 t d))
    ∗ (∃ d, owns (c : Thread nD τ) (st8_2 t) fullShare ((dat8 V q c).before 2 t d))
    ∗ (∃ d, owns (c : Thread nD τ) (st8_3 t) fullShare ((dat8 V q c).before 3 t d))
    ∗ (∃ d, owns (c : Thread nD τ) (st8_4 t) fullShare ((dat8 V q c).before 4 t d))
    ∗ (∃ d, owns (c : Thread nD τ) (st8_5 t) fullShare ((dat8 V q c).before 5 t d)))

/-- and what it returns. -/
def bodyPost8 (c : Dev nD) (t : Fin cfg8.N) : sProp 𝕄 :=
  iprop((dat8 V q c).Φ t.succ ∗ (dat8 V q c).owesAt () t.succ
    ∗ owns (c : Thread nD τ) (st8_0 t) fullShare ((dat8 V q c).after 0 t)
    ∗ owns (c : Thread nD τ) (st8_1 t) fullShare ((dat8 V q c).after 1 t)
    ∗ owns (c : Thread nD τ) (st8_2 t) fullShare ((dat8 V q c).after 2 t)
    ∗ owns (c : Thread nD τ) (st8_3 t) fullShare ((dat8 V q c).after 3 t)
    ∗ owns (c : Thread nD τ) (st8_4 t) fullShare ((dat8 V q c).after 4 t)
    ∗ owns (c : Thread nD τ) (st8_5 t) fullShare ((dat8 V q c).after 5 t))

/-- The body at any point: the inputs' staging buffers hold their blocks, so the one run above applies; the invariant
    and what the core owes pass through unread. -/
theorem sound_body8 (c : Dev nD) (t : Fin cfg8.N) :
    bodyPre8 V q c t ⊢ wp frame (wpE (defs₀ (F := F)) Variants.none c none) Set.univ (bodyAt8 t) (fun _ => bodyPost8 V q c t) := by
  unfold bodyPre8 bodyPost8 bodyAt8
  simp only [before8_0, before8_1, before8_2, before8_3, before8_4]
  rw [show (dat8 V q c).Φ t.succ = (dat8 V q c).Φ t.castSucc from rfl,
    show (dat8 V q c).owesAt () t.succ = (dat8 V q c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation8 (c : Dev nD) : BodyObligation (dat8 (F := F) V q c) (defs₀ (F := F)) Variants.none () Set.univ := fun t => by
  rw [bigSep_W8, bigSep_W8]
  exact sound_body8 V q c t

end Cert.Kernel.Rg

end
-- ==== Proof.BitsCall9.lean ====
/-
  Call 9 of the program (the decoder: a row tile of the last hidden state times the decoder weights, plus the bias row), at any float instance and at any contents `V` of the
  TensorCore's buffers when the call is entered. A grid point reads one block of each input window, whole, and stores
  one block of the output window, whole: the stored block is the call's pure payload of the blocks read. This module
  states that block (`out9`), runs the body once on arbitrary staging buffers (`sound_kernel9`), and packages
  the per-point contents as the pipeline's proof data (`dat9`) with its body obligation at every grid point.
-/
import proofs.«112566_j48309792145741_1_alg».proof.Proof.Gen.Kernel.Launch
import proofs.«112566_j48309792145741_1_alg».proof.Proof.Gen.Kernel.Skeleton
import proofs.«112566_j48309792145741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds the window's block at every grid point, whether the point fetched it or the
    block index stood still since the last fetch: the body never writes an input buffer. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds the window's block at every grid point, whether the point fetched it or the
    block index stood still since the last fetch: the body never writes an input buffer. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds the window's block at every grid point, whether the point fetched it or the
    block index stood still since the last fetch: the body never writes an input buffer. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store go through the whole block -/

abbrev whole9_S10000x64 : Rect S10000x64 := Rect.unit (s := S10000x64) ![0, 0] S10000x64.size inb_S10000x64_S10000x64_0_0
abbrev whole9_S64x64 : Rect S64x64 := Rect.unit (s := S64x64) ![0, 0] S64x64.size inb_S64x64_S64x64_0_0
abbrev whole9_S1x64 : Rect S1x64 := Rect.unit (s := S1x64) ![0, 0] S1x64.size inb_S1x64_S1x64_0_0

/-- What the body leaves in the output window's staging buffer, as a function of the input blocks: its one store,
    the payload of the blocks loaded. -/
def out9 (x0 : Vec F S10000x64 .f32) (x1 : Vec F S64x64 .f32) (x2 : Vec F S1x64 .f32) : Vec F S10000x64 .f32 :=
  View.canon [⟨whole9_S10000x64, k9_pay1 (View.ld x0 whole9_S10000x64) (View.ld x1 whole9_S64x64) (View.ld x2 whole9_S1x64)⟩]

/-- The one store covers the output block. -/
theorem cover9 (p0 : Vec F S10000x64 .f32) (y : S10000x64.Idx) :
    ∃ pc ∈ ([⟨whole9_S10000x64, p0⟩] : List (View.Piece (Elt F) S10000x64 .f32)), y ∈ pc.1.set :=
  View.cover_of_tiled [⟨whole9_S10000x64, p0⟩] S10000x64.size (by rfl) y

/-! ## The body, run once -/

set_option maxHeartbeats 1000000 in
/-- On whole staging buffers, the inputs' reading `x0 …` and the output's holding anything, the body runs to its
    continuation with the inputs' buffers as they were and the output's at `out9` of the inputs. -/
theorem sound_kernel9 (c : Dev nD) (E : Set ℕ) (i : grid9.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9 x0 x1 x2)) -∗ K ⟨⟩))
      ⊢ wp frame (wpE (defs₀ (F := F)) Variants.none c none) E (cc9__affine_kernel i arg1 harg1 arg2 harg2 arg3 harg3 arg4 harg4) K := by
  simp only [cc9__affine_kernel_eq_skeleton]; unfold cc9__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9 _)

/-! ## The pipeline's proof data -/

/-- The proof data of the call on core `c`: each window's array as the call finds it; after the body at point `t`
    every input buffer still at its block and the output buffer at `out9` of the input blocks; nothing kept from
    point to point beyond the scoped rest and the generator register; nothing owed; `q` the share held of each
    input array. -/
def dat9 (q : Fin cfg9.W → PosShare TreeShare) (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 (iblk9 V c 0 t) (iblk9 V c 1 t) (iblk9 V c 2 t)
  Φ _ := Pipeline.ΦA spec9 c
  q := q
  owed _ := 0

variable (q : Fin cfg9.W → PosShare TreeShare)

theorem A_eq9 (c : Dev nD) (w : Fin cfg9.W) : (dat9 V q c).A w = V c (Pipeline.arrRef spec9 w) := by
  dsimp only [dat9]

theorem after9_0 (c : Dev nD) (t : Fin cfg9.N) : (dat9 V q c).after 0 t = iblk9 V c 0 t := by dsimp only [dat9]
theorem after9_1 (c : Dev nD) (t : Fin cfg9.N) : (dat9 V q c).after 1 t = iblk9 V c 1 t := by dsimp only [dat9]
theorem after9_2 (c : Dev nD) (t : Fin cfg9.N) : (dat9 V q c).after 2 t = iblk9 V c 2 t := by dsimp only [dat9]
theorem after9_3 (c : Dev nD) (t : Fin cfg9.N) : (dat9 V q c).after 3 t = out9 (iblk9 V c 0 t) (iblk9 V c 1 t) (iblk9 V c 2 t) := by dsimp only [dat9]

theorem before9_0 (c : Dev nD) (t : Fin cfg9.N) (d) : (dat9 V q c).before 0 t d = iblk9 V c 0 t :=
  before9_0_of V (dat9 V q c) (A_eq9 V q c 0) (after9_0 V q c) t d
theorem before9_1 (c : Dev nD) (t : Fin cfg9.N) (d) : (dat9 V q c).before 1 t d = iblk9 V c 1 t :=
  before9_1_of V (dat9 V q c) (A_eq9 V q c 1) (after9_1 V q c) t d
theorem before9_2 (c : Dev nD) (t : Fin cfg9.N) (d) : (dat9 V q c).before 2 t d = iblk9 V c 2 t :=
  before9_2_of V (dat9 V q c) (A_eq9 V q c 2) (after9_2 V q c) t d

/-! ## The body obligation at a generic grid point -/

/-- What the body is called with at point `t`, -/
def bodyPre9 (c : Dev nD) (t : Fin cfg9.N) : sProp 𝕄 :=
  iprop((dat9 V q c).Φ t.castSucc ∗ (dat9 V q c).owesAt () t.castSucc
    ∗ (∃ d, owns (c : Thread nD τ) (st9_0 t) fullShare ((dat9 V q c).before 0 t d))
    ∗ (∃ d, owns (c : Thread nD τ) (st9_1 t) fullShare ((dat9 V q c).before 1 t d))
    ∗ (∃ d, owns (c : Thread nD τ) (st9_2 t) fullShare ((dat9 V q c).before 2 t d))
    ∗ (∃ d, owns (c : Thread nD τ) (st9_3 t) fullShare ((dat9 V q c).before 3 t d)))

/-- and what it returns. -/
def bodyPost9 (c : Dev nD) (t : Fin cfg9.N) : sProp 𝕄 :=
  iprop((dat9 V q c).Φ t.succ ∗ (dat9 V q c).owesAt () t.succ
    ∗ owns (c : Thread nD τ) (st9_0 t) fullShare ((dat9 V q c).after 0 t)
    ∗ owns (c : Thread nD τ) (st9_1 t) fullShare ((dat9 V q c).after 1 t)
    ∗ owns (c : Thread nD τ) (st9_2 t) fullShare ((dat9 V q c).after 2 t)
    ∗ owns (c : Thread nD τ) (st9_3 t) fullShare ((dat9 V q c).after 3 t))

/-- The body at any point: the inputs' staging buffers hold their blocks, so the one run above applies; the invariant
    and what the core owes pass through unread. -/
theorem sound_body9 (c : Dev nD) (t : Fin cfg9.N) :
    bodyPre9 V q c t ⊢ wp frame (wpE (defs₀ (F := F)) Variants.none c none) Set.univ (bodyAt9 t) (fun _ => bodyPost9 V q c t) := by
  unfold bodyPre9 bodyPost9 bodyAt9
  simp only [before9_0, before9_1, before9_2]
  rw [show (dat9 V q c).Φ t.succ = (dat9 V q c).Φ t.castSucc from rfl,
    show (dat9 V q c).owesAt () t.succ = (dat9 V q c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation9 (c : Dev nD) : BodyObligation (dat9 (F := F) V q c) (defs₀ (F := F)) Variants.none () Set.univ := fun t => by
  rw [bigSep_W9, bigSep_W9]
  exact sound_body9 V q c t

end Cert.Kernel.Rg

end
-- ==== Proof.BitsChain.lean ====
/-
  The contents of the TensorCore's unscoped buffers at each boundary between two items of the program, from the
  launch to the return: a host stretch is the fold of its operations, and a kernel call changes exactly one buffer,
  its output array, which ends at what the pipeline's write-backs leave there (the blocks the grid points stored,
  folded over the grid). Each call's proof data is stated at the contents its call is entered with.
-/
import proofs.«112566_j48309792145741_1_alg».proof.Proof.BitsCall0
import proofs.«112566_j48309792145741_1_alg».proof.Proof.BitsCall1
import proofs.«112566_j48309792145741_1_alg».proof.Proof.BitsCall2
import proofs.«112566_j48309792145741_1_alg».proof.Proof.BitsCall3
import proofs.«112566_j48309792145741_1_alg».proof.Proof.BitsCall4
import proofs.«112566_j48309792145741_1_alg».proof.Proof.BitsCall5
import proofs.«112566_j48309792145741_1_alg».proof.Proof.BitsCall6
import proofs.«112566_j48309792145741_1_alg».proof.Proof.BitsCall7
import proofs.«112566_j48309792145741_1_alg».proof.Proof.BitsCall8
import proofs.«112566_j48309792145741_1_alg».proof.Proof.BitsCall9
import proofs.«112566_j48309792145741_1_alg».proof.Proof.Gen.Kernel.Regions

set_option maxRecDepth 16384

noncomputable section

namespace Cert.Kernel.Rg

open Cert.Kernel Cert.Kernel.Gen
open Idealize.ShloMosaic Idealize.ShloMosaic.TcCoe
open Idealize.SL Idealize.SL.RA Idealize.SL.Sem
open Idealize.ShloMosaic.Pipeline (Dat)

variable {F : FTy → Type} [FloatOps F]

variable (m : (ℓ : Loc nD τ sig) → Buf (Elt F) ℓ)

/-- Every input array held whole: the share of a call whose windows stage pairwise distinct arrays. -/
abbrev wholeShares (n : ℕ) : Fin n → PosShare TreeShare := fun _ => fullShare

/-- Call 2 stages ONE array, the encoder's output, through two windows (the hidden state of the first layer is the
    encoder's output itself): the array's full share is dealt to them as its two halves. -/
def halvedShares : Fin cfg2.W → PosShare TreeShare := fun w => match w with
  | ⟨0, _⟩ => (fullShare : PosShare TreeShare).left
  | ⟨1, _⟩ => (fullShare : PosShare TreeShare).right
  | ⟨2, _⟩ => fullShare
  | ⟨3, _⟩ => fullShare
  | ⟨4, _⟩ => fullShare
  | ⟨5, _⟩ => fullShare

/-- A valuation read at the TensorCore's references: what a call's proof data take. -/
abbrev atTc (X : Dev nD → Valuation τ sig (Elt F)) : (c : Dev nD) → (b : Ref sig .tc) → Buf (Elt F) ((c : Thread nD τ).loc b) :=
  fun c b => X c b

/-- Before the first call: the launch contents after the twelve host stretches that prepare the graph's
    normalisation, the three symmetric mixers and the bias rows. -/
abbrev X12 : Dev nD → Valuation τ sig (Elt F) := fun c => V12 m c

/-- What call 0 leaves in its output array `main_v44`: the write-backs of all grid points. -/
def res0 (c : Dev nD) : Buf (Elt F) ((c : Thread nD τ).loc main_v44) :=
  (dat0 (atTc (X12 m)) (wholeShares _) c).arrAt 3 cfg0.N
/-- After call 0: its output array at `res0`, every other buffer as the call found it. -/
def X13 : Dev nD → Valuation τ sig (Elt F) := fun c => Function.update (X12 m c) main_v44 (res0 m c)
/-- Read at the output array, and at any other buffer. -/
theorem X13_self (c : Dev nD) : X13 m c main_v44 = res0 m c := by
  unfold X13; exact Function.update_self _ _ _
theorem X13_of_ne (c : Dev nD) (b : Ref sig .tc) (hb : b ≠ main_v44) : X13 m c b = X12 m c b := by
  unfold X13; exact Function.update_of_ne (StableHlo.devRef_ne_of_ne hb) _ _

/-- What call 1 leaves in its output array `main_v45`: the write-backs of all grid points. -/
def res1 (c : Dev nD) : Buf (Elt F) ((c : Thread nD τ).loc main_v45) :=
  (dat1 (atTc (X13 m)) (wholeShares _) c).arrAt 2 cfg1.N
/-- After call 1: its output array at `res1`, every other buffer as the call found it. -/
def X14 : Dev nD → Valuation τ sig (Elt F) := fun c => Function.update (X13 m c) main_v45 (res1 m c)
/-- Read at the output array, and at any other buffer. -/
theorem X14_self (c : Dev nD) : X14 m c main_v45 = res1 m c := by
  unfold X14; exact Function.update_self _ _ _
theorem X14_of_ne (c : Dev nD) (b : Ref sig .tc) (hb : b ≠ main_v45) : X14 m c b = X13 m c b := by
  unfold X14; exact Function.update_of_ne (StableHlo.devRef_ne_of_ne hb) _ _

/-- After the host stretch `hostOps2`. -/
abbrev X15 : Dev nD → Valuation τ sig (Elt F) := fun c => StableHlo.after hostOps2 (X14 m c)

/-- What call 2 leaves in its output array `main_v59`: the write-backs of all grid points. -/
def res2 (c : Dev nD) : Buf (Elt F) ((c : Thread nD τ).loc main_v59) :=
  (dat2 (atTc (X15 m)) halvedShares c).arrAt 5 cfg2.N
/-- After call 2: its output array at `res2`, every other buffer as the call found it. -/
def X16 : Dev nD → Valuation τ sig (Elt F) := fun c => Function.update (X15 m c) main_v59 (res2 m c)
/-- Read at the output array, and at any other buffer. -/
theorem X16_self (c : Dev nD) : X16 m c main_v59 = res2 m c := by
  unfold X16; exact Function.update_self _ _ _
theorem X16_of_ne (c : Dev nD) (b : Ref sig .tc) (hb : b ≠ main_v59) : X16 m c b = X15 m c b := by
  unfold X16; exact Function.update_of_ne (StableHlo.devRef_ne_of_ne hb) _ _

/-- What call 3 leaves in its output array `main_v60`: the write-backs of all grid points. -/
def res3 (c : Dev nD) : Buf (Elt F) ((c : Thread nD τ).loc main_v60) :=
  (dat3 (atTc (X16 m)) (wholeShares _) c).arrAt 2 cfg3.N
/-- After call 3: its output array at `res3`, every other buffer as the call found it. -/
def X17 : Dev nD → Valuation τ sig (Elt F) := fun c => Function.update (X16 m c) main_v60 (res3 m c)
/-- Read at the output array, and at any other buffer. -/
theorem X17_self (c : Dev nD) : X17 m c main_v60 = res3 m c := by
  unfold X17; exact Function.update_self _ _ _
theorem X17_of_ne (c : Dev nD) (b : Ref sig .tc) (hb : b ≠ main_v60) : X17 m c b = X16 m c b := by
  unfold X17; exact Function.update_of_ne (StableHlo.devRef_ne_of_ne hb) _ _

/-- After the host stretch `hostOps4`. -/
abbrev X18 : Dev nD → Valuation τ sig (Elt F) := fun c => StableHlo.after hostOps4 (X17 m c)

/-- What call 4 leaves in its output array `main_v74`: the write-backs of all grid points. -/
def res4 (c : Dev nD) : Buf (Elt F) ((c : Thread nD τ).loc main_v74) :=
  (dat4 (atTc (X18 m)) (wholeShares _) c).arrAt 5 cfg4.N
/-- After call 4: its output array at `res4`, every other buffer as the call found it. -/
def X19 : Dev nD → Valuation τ sig (Elt F) := fun c => Function.update (X18 m c) main_v74 (res4 m c)
/-- Read at the output array, and at any other buffer. -/
theorem X19_self (c : Dev nD) : X19 m c main_v74 = res4 m c := by
  unfold X19; exact Function.update_self _ _ _
theorem X19_of_ne (c : Dev nD) (b : Ref sig .tc) (hb : b ≠ main_v74) : X19 m c b = X18 m c b := by
  unfold X19; exact Function.update_of_ne (StableHlo.devRef_ne_of_ne hb) _ _

/-- What call 5 leaves in its output array `main_v75`: the write-backs of all grid points. -/
def res5 (c : Dev nD) : Buf (Elt F) ((c : Thread nD τ).loc main_v75) :=
  (dat5 (atTc (X19 m)) (wholeShares _) c).arrAt 2 cfg5.N
/-- After call 5: its output array at `res5`, every other buffer as the call found it. -/
def X20 : Dev nD → Valuation τ sig (Elt F) := fun c => Function.update (X19 m c) main_v75 (res5 m c)
/-- Read at the output array, and at any other buffer. -/
theorem X20_self (c : Dev nD) : X20 m c main_v75 = res5 m c := by
  unfold X20; exact Function.update_self _ _ _
theorem X20_of_ne (c : Dev nD) (b : Ref sig .tc) (hb : b ≠ main_v75) : X20 m c b = X19 m c b := by
  unfold X20; exact Function.update_of_ne (StableHlo.devRef_ne_of_ne hb) _ _

/-- After the host stretch `hostOps6`. -/
abbrev X21 : Dev nD → Valuation τ sig (Elt F) := fun c => StableHlo.after hostOps6 (X20 m c)

/-- What call 6 leaves in its output array `main_v89`: the write-backs of all grid points. -/
def res6 (c : Dev nD) : Buf (Elt F) ((c : Thread nD τ).loc main_v89) :=
  (dat6 (atTc (X21 m)) (wholeShares _) c).arrAt 5 cfg6.N
/-- After call 6: its output array at `res6`, every other buffer as the call found it. -/
def X22 : Dev nD → Valuation τ sig (Elt F) := fun c => Function.update (X21 m c) main_v89 (res6 m c)
/-- Read at the output array, and at any other buffer. -/
theorem X22_self (c : Dev nD) : X22 m c main_v89 = res6 m c := by
  unfold X22; exact Function.update_self _ _ _
theorem X22_of_ne (c : Dev nD) (b : Ref sig .tc) (hb : b ≠ main_v89) : X22 m c b = X21 m c b := by
  unfold X22; exact Function.update_of_ne (StableHlo.devRef_ne_of_ne hb) _ _

/-- What call 7 leaves in its output array `main_v90`: the write-backs of all grid points. -/
def res7 (c : Dev nD) : Buf (Elt F) ((c : Thread nD τ).loc main_v90) :=
  (dat7 (atTc (X22 m)) (wholeShares _) c).arrAt 2 cfg7.N
/-- After call 7: its output array at `res7`, every other buffer as the call found it. -/
def X23 : Dev nD → Valuation τ sig (Elt F) := fun c => Function.update (X22 m c) main_v90 (res7 m c)
/-- Read at the output array, and at any other buffer. -/
theorem X23_self (c : Dev nD) : X23 m c main_v90 = res7 m c := by
  unfold X23; exact Function.update_self _ _ _
theorem X23_of_ne (c : Dev nD) (b : Ref sig .tc) (hb : b ≠ main_v90) : X23 m c b = X22 m c b := by
  unfold X23; exact Function.update_of_ne (StableHlo.devRef_ne_of_ne hb) _ _

/-- After the host stretch `hostOps8`. -/
abbrev X24 : Dev nD → Valuation τ sig (Elt F) := fun c => StableHlo.after hostOps8 (X23 m c)

/-- What call 8 leaves in its output array `main_v104`: the write-backs of all grid points. -/
def res8 (c : Dev nD) : Buf (Elt F) ((c : Thread nD τ).loc main_v104) :=
  (dat8 (atTc (X24 m)) (wholeShares _) c).arrAt 5 cfg8.N
/-- After call 8: its output array at `res8`, every other buffer as the call found it. -/
def X25 : Dev nD → Valuation τ sig (Elt F) := fun c => Function.update (X24 m c) main_v104 (res8 m c)
/-- Read at the output array, and at any other buffer. -/
theorem X25_self (c : Dev nD) : X25 m c main_v104 = res8 m c := by
  unfold X25; exact Function.update_self _ _ _
theorem X25_of_ne (c : Dev nD) (b : Ref sig .tc) (hb : b ≠ main_v104) : X25 m c b = X24 m c b := by
  unfold X25; exact Function.update_of_ne (StableHlo.devRef_ne_of_ne hb) _ _

/-- After the host stretch `hostOps9`. -/
abbrev X26 : Dev nD → Valuation τ sig (Elt F) := fun c => StableHlo.after hostOps9 (X25 m c)

/-- What call 9 leaves in its output array `main_v106`: the write-backs of all grid points. -/
def res9 (c : Dev nD) : Buf (Elt F) ((c : Thread nD τ).loc main_v106) :=
  (dat9 (atTc (X26 m)) (wholeShares _) c).arrAt 3 cfg9.N
/-- After call 9: its output array at `res9`, every other buffer as the call found it. -/
def X27 : Dev nD → Valuation τ sig (Elt F) := fun c => Function.update (X26 m c) main_v106 (res9 m c)
/-- Read at the output array, and at any other buffer. -/
theorem X27_self (c : Dev nD) : X27 m c main_v106 = res9 m c := by
  unfold X27; exact Function.update_self _ _ _
theorem X27_of_ne (c : Dev nD) (b : Ref sig .tc) (hb : b ≠ main_v106) : X27 m c b = X26 m c b := by
  unfold X27; exact Function.update_of_ne (StableHlo.devRef_ne_of_ne hb) _ _

end Cert.Kernel.Rg

end
-- ==== Proof.BitsShares2.lean ====
/-
  Call 2 reads ONE array, the encoder's output, through two of its input windows (in the first layer the hidden state
  IS the encoder's output), so its six windows stand on five distinct buffers. The core holds each buffer whole; the
  pipeline wants one points-to per window. The full share of the doubly staged array is the composite of its left and
  right halves, one for each of the two windows; the other four windows hold their arrays whole. This module states
  that exchange, in both directions, for any proof data of the call with those shares.
-/
import proofs.«112566_j48309792145741_1_alg».proof.Proof.BitsChain
import Idealize.ShloMosaic.Rules.PointsTo

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- The five distinct buffers behind call 2's six windows. -/
theorem arrays2_image : Finset.univ.image (Pipeline.arrRef spec2) = ([main_v44, main_v58, main_v38, main_v42, main_v59] : List (Ref sig .tc)).toFinset := by
  decide

/-- The buffers behind call 2's arrays, each held whole at contents `V`, are the call's `arrays` at the same contents:
    the doubly staged buffer's full share split into its two halves, and back. -/
theorem arrays2_iff (c : Dev nD) (dat : Dat τ (Elt F) Unit ℕ (UR sig nD τ) ℕ cfg2 c)
    (hq0 : dat.q 0 = (fullShare : PosShare TreeShare).left) (hq1 : dat.q 1 = (fullShare : PosShare TreeShare).right)
    (hq2 : dat.q 2 = fullShare) (hq3 : dat.q 3 = fullShare) (hq4 : dat.q 4 = fullShare)
    (V : (b : Ref sig .tc) → Buf (Elt F) ((c : Thread nD τ).loc b))
    (Fa : (w : Fin cfg2.W) → Buf (Elt F) ((cfg2.win w).arr.view.loc (c.tc : Thread nD τ)))
    (hF : ∀ w, Fa w = V (Pipeline.arrRef spec2 w)) :
    (Pipeline.arrBufs (Ix := Unit) (Name := ℕ) (U := UR sig nD τ) (Lvl := ℕ) spec2 c V : sProp 𝕄) ⊣⊢ dat.arrays Fa := by
  classical
  have hs0 : dat.share 0 = (fullShare : PosShare TreeShare).left := (show dat.share 0 = dat.q 0 from rfl).trans hq0
  have hs1 : dat.share 1 = (fullShare : PosShare TreeShare).right := (show dat.share 1 = dat.q 1 from rfl).trans hq1
  have hs2 : dat.share 2 = fullShare := (show dat.share 2 = dat.q 2 from rfl).trans hq2
  have hs3 : dat.share 3 = fullShare := (show dat.share 3 = dat.q 3 from rfl).trans hq3
  have hs4 : dat.share 4 = fullShare := (show dat.share 4 = dat.q 4 from rfl).trans hq4
  have hs5 : dat.share 5 = fullShare := rfl
  -- every window's array is a whole buffer at the contents `V` has there
  have hA : dat.arrays Fa = bigSep Finset.univ fun w : Fin cfg2.W =>
      ((((c : Thread nD τ).loc (Pipeline.arrRef spec2 w)) ↦{dat.share w} V (Pipeline.arrRef spec2 w)) : sProp 𝕄) := by
    unfold Dat.arrays
    exact bigSep_congr fun w _ => by rw [(arr_whole2 w).set_eq_univ, hF w]
  -- the six windows one by one
  have hA6 : dat.arrays Fa = iprop(
      ((((c : Thread nD τ).loc main_v44) ↦{dat.share 0} V main_v44) : sProp 𝕄)
      ∗ (((c : Thread nD τ).loc main_v44) ↦{dat.share 1} V main_v44)
      ∗ (((c : Thread nD τ).loc main_v58) ↦{dat.share 2} V main_v58)
      ∗ (((c : Thread nD τ).loc main_v38) ↦{dat.share 3} V main_v38)
      ∗ (((c : Thread nD τ).loc main_v42) ↦{dat.share 4} V main_v42)
      ∗ (((c : Thread nD τ).loc main_v59) ↦{dat.share 5} V main_v59)) :=
    hA.trans (bigSep_W2 _)
  -- the five distinct buffers one by one
  have hB5 : (Pipeline.arrBufs (Ix := Unit) (Name := ℕ) (U := UR sig nD τ) (Lvl := ℕ) spec2 c V : sProp 𝕄) = iprop(
      ((((c : Thread nD τ).loc main_v44) ↦{fullShare} V main_v44) : sProp 𝕄)
      ∗ (((c : Thread nD τ).loc main_v58) ↦{fullShare} V main_v58)
      ∗ (((c : Thread nD τ).loc main_v38) ↦{fullShare} V main_v38)
      ∗ (((c : Thread nD τ).loc main_v42) ↦{fullShare} V main_v42)
      ∗ (((c : Thread nD τ).loc main_v59) ↦{fullShare} V main_v59)) := by
    unfold Pipeline.arrBufs
    rw [arrays2_image, bigSep_eq_bigSepL _ (by decide)]
    rfl
  have hsh : ((((c : Thread nD τ).loc main_v44) ↦{(fullShare : PosShare TreeShare)} V main_v44) : sProp 𝕄)
      ⊣⊢ iprop((((c : Thread nD τ).loc main_v44) ↦{(fullShare : PosShare TreeShare).left} V main_v44)
          ∗ (((c : Thread nD τ).loc main_v44) ↦{(fullShare : PosShare TreeShare).right} V main_v44)) :=
    Idealize.ShloMosaic.pointsTo_share (PosShare.mem_left_op_right (fullShare : PosShare TreeShare))
  rw [hA6, hB5, hs0, hs1, hs2, hs3, hs4, hs5]
  constructor
  · iintro ⟨H44, H58, H38, H42, H59⟩
    icases hsh.1 $$ H44 with ⟨Hl, Hr⟩
    isplitl [Hl]; · iexact Hl
    isplitl [Hr]; · iexact Hr
    isplitl [H58]; · iexact H58
    isplitl [H38]; · iexact H38
    isplitl [H42]; · iexact H42
    iexact H59
  · iintro ⟨Hl, Hr, H58, H38, H42, H59⟩
    isplitl [Hl Hr]
    · iapply hsh.2; isplitl [Hl]; · iexact Hl
      iexact Hr
    isplitl [H58]; · iexact H58
    isplitl [H38]; · iexact H38
    isplitl [H42]; · iexact H42
    iexact H59

end Cert.Kernel.Rg

end
-- ==== Proof.BitsRun.lean ====
/-
  The program's run as the pipeline library's list of segments: a host segment per stretch of host operations and a
  region per kernel call, each region entered from "every unscoped buffer at the boundary's contents, the generator
  register at some state, nothing owed" and left at the next boundary's contents. A call's arrays are split out of the
  unscoped buffers at entry and put back at exit with the output array at what the write-backs left. The frame follows:
  no host operation and no call writes an argument array.
-/
import proofs.«112566_j48309792145741_1_alg».proof.Proof.BitsChain
import proofs.«112566_j48309792145741_1_alg».proof.Proof.BitsShares2

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the calls leave, as the generated boundary valuations take them -/

/-- What each call leaves in the buffers it may change, read off this module's chain of boundary contents. -/
def outs : Outs (F := F) := fun J r c => match J with
  | 13 => X13 m c r
  | 14 => X14 m c r
  | 16 => X16 m c r
  | 17 => X17 m c r
  | 19 => X19 m c r
  | 20 => X20 m c r
  | 22 => X22 m c r
  | 23 => X23 m c r
  | 25 => X25 m c r
  | 27 => X27 m c r
  | _ => X12 m c r

theorem V13_eq (c : Dev nD) : V13 m (outs m) c = X13 m c := by
  show Function.update (V12 m c) main_v44 (X13 m c main_v44) = X13 m c
  unfold X13; rw [Function.update_self]
theorem V14_eq (c : Dev nD) : V14 m (outs m) c = X14 m c := by
  show Function.update (V13 m (outs m) c) main_v45 (X14 m c main_v45) = X14 m c
  rw [V13_eq]; unfold X14; rw [Function.update_self]
theorem V15_eq (c : Dev nD) : V15 m (outs m) c = X15 m c := by
  show StableHlo.after hostOps2 (V14 m (outs m) c) = StableHlo.after hostOps2 (X14 m c)
  rw [V14_eq]
theorem V16_eq (c : Dev nD) : V16 m (outs m) c = X16 m c := by
  show Function.update (V15 m (outs m) c) main_v59 (X16 m c main_v59) = X16 m c
  rw [V15_eq]; unfold X16; rw [Function.update_self]
theorem V17_eq (c : Dev nD) : V17 m (outs m) c = X17 m c := by
  show Function.update (V16 m (outs m) c) main_v60 (X17 m c main_v60) = X17 m c
  rw [V16_eq]; unfold X17; rw [Function.update_self]
theorem V18_eq (c : Dev nD) : V18 m (outs m) c = X18 m c := by
  show StableHlo.after hostOps4 (V17 m (outs m) c) = StableHlo.after hostOps4 (X17 m c)
  rw [V17_eq]
theorem V19_eq (c : Dev nD) : V19 m (outs m) c = X19 m c := by
  show Function.update (V18 m (outs m) c) main_v74 (X19 m c main_v74) = X19 m c
  rw [V18_eq]; unfold X19; rw [Function.update_self]
theorem V20_eq (c : Dev nD) : V20 m (outs m) c = X20 m c := by
  show Function.update (V19 m (outs m) c) main_v75 (X20 m c main_v75) = X20 m c
  rw [V19_eq]; unfold X20; rw [Function.update_self]
theorem V21_eq (c : Dev nD) : V21 m (outs m) c = X21 m c := by
  show StableHlo.after hostOps6 (V20 m (outs m) c) = StableHlo.after hostOps6 (X20 m c)
  rw [V20_eq]
theorem V22_eq (c : Dev nD) : V22 m (outs m) c = X22 m c := by
  show Function.update (V21 m (outs m) c) main_v89 (X22 m c main_v89) = X22 m c
  rw [V21_eq]; unfold X22; rw [Function.update_self]
theorem V23_eq (c : Dev nD) : V23 m (outs m) c = X23 m c := by
  show Function.update (V22 m (outs m) c) main_v90 (X23 m c main_v90) = X23 m c
  rw [V22_eq]; unfold X23; rw [Function.update_self]
theorem V24_eq (c : Dev nD) : V24 m (outs m) c = X24 m c := by
  show StableHlo.after hostOps8 (V23 m (outs m) c) = StableHlo.after hostOps8 (X23 m c)
  rw [V23_eq]
theorem V25_eq (c : Dev nD) : V25 m (outs m) c = X25 m c := by
  show Function.update (V24 m (outs m) c) main_v104 (X25 m c main_v104) = X25 m c
  rw [V24_eq]; unfold X25; rw [Function.update_self]
theorem V26_eq (c : Dev nD) : V26 m (outs m) c = X26 m c := by
  show StableHlo.after hostOps9 (V25 m (outs m) c) = StableHlo.after hostOps9 (X25 m c)
  rw [V25_eq]
theorem V27_eq (c : Dev nD) : V27 m (outs m) c = X27 m c := by
  show Function.update (V26 m (outs m) c) main_v106 (X27 m c main_v106) = X27 m c
  rw [V26_eq]; unfold X27; rw [Function.update_self]

/-! ## The proof data family and what rides beside the buffers -/

/-- Every call's proof data, each at the contents its call is entered with. -/
def pdats : (p : Fin 10) → (c : Dev nD) → Dat τ (Elt F) Unit ℕ (UR sig nD τ) ℕ (cfgs p) c
  | ⟨0, _⟩ => fun c => dat0 (atTc (X12 m)) (wholeShares _) c
  | ⟨1, _⟩ => fun c => dat1 (atTc (X13 m)) (wholeShares _) c
  | ⟨2, _⟩ => fun c => dat2 (atTc (X15 m)) halvedShares c
  | ⟨3, _⟩ => fun c => dat3 (atTc (X16 m)) (wholeShares _) c
  | ⟨4, _⟩ => fun c => dat4 (atTc (X18 m)) (wholeShares _) c
  | ⟨5, _⟩ => fun c => dat5 (atTc (X19 m)) (wholeShares _) c
  | ⟨6, _⟩ => fun c => dat6 (atTc (X21 m)) (wholeShares _) c
  | ⟨7, _⟩ => fun c => dat7 (atTc (X22 m)) (wholeShares _) c
  | ⟨8, _⟩ => fun c => dat8 (atTc (X24 m)) (wholeShares _) c
  | ⟨9, _⟩ => fun c => dat9 (atTc (X26 m)) (wholeShares _) c

/-- No core owes another anything: no level is assigned. -/
abbrev L0 : GSem nD τ sig → Finset Unit := fun _ => ∅
abbrev lv0 : GSem nD τ sig → Unit → ℕ := fun _ _ => 0
/-- What rides beside the buffers through every segment: the core's generator register at some state and its `owes`,
    at nothing. -/
abbrev Rr (c : Dev nD) : sProp 𝕄 := iprop((∃ r, prngReg c r) ∗ ∃ W, owes (c : Thread nD τ) (0 : CellTallies nD τ sig Unit) W)

/-- A predicate on a three-, four- or six-element index type holds everywhere once it holds at each index. -/
theorem all_fin3 (P : Fin 3 → Prop) (h0 : P 0) (h1 : P 1) (h2 : P 2) : ∀ w, P w := by
  intro w; fin_cases w <;> assumption
theorem all_fin4 (P : Fin 4 → Prop) (h0 : P 0) (h1 : P 1) (h2 : P 2) (h3 : P 3) : ∀ w, P w := by
  intro w; fin_cases w <;> assumption
theorem all_fin6 (P : Fin 6 → Prop) (h0 : P 0) (h1 : P 1) (h2 : P 2) (h3 : P 3) (h4 : P 4) (h5 : P 5) : ∀ w, P w := by
  intro w; fin_cases w <;> assumption

/-! ## Call 0 as a region -/

/-- Window `w`'s array at call 0's exit holds what the pipeline leaves there. -/
abbrev AtExit0 (c : Dev nD) (w : Fin cfg0.W) : Prop :=
  (pdats m 0 c).arrAt w cfg0.N = atTc (X13 m) c (Pipeline.arrRef spec0 w)
/-- At call 0's exit each of its arrays holds what the pipeline leaves: an input array what it held, the output array
    the write-backs. -/
theorem pdats_0 (c : Dev nD) : pdats m 0 c = dat0 (atTc (X12 m)) (wholeShares _) c := rfl
set_option maxHeartbeats 1600000 in
theorem hF0 (c : Dev nD) : ∀ w : Fin cfg0.W, AtExit0 m c w := by
  unfold AtExit0
  rw [pdats_0]
  exact all_fin4 (fun w => (dat0 (atTc (X12 m)) (wholeShares _) c).arrAt w cfg0.N = atTc (X13 m) c (Pipeline.arrRef spec0 w))
    (((dat0 (atTc (X12 m)) (wholeShares _) c).arrAt_in 0 rfl _).trans ((A_eq0 (atTc (X12 m)) (wholeShares _) c 0).trans (X13_of_ne m c (Pipeline.arrRef spec0 0) (by decide)).symm))
    (((dat0 (atTc (X12 m)) (wholeShares _) c).arrAt_in 1 rfl _).trans ((A_eq0 (atTc (X12 m)) (wholeShares _) c 1).trans (X13_of_ne m c (Pipeline.arrRef spec0 1) (by decide)).symm))
    (((dat0 (atTc (X12 m)) (wholeShares _) c).arrAt_in 2 rfl _).trans ((A_eq0 (atTc (X12 m)) (wholeShares _) c 2).trans (X13_of_ne m c (Pipeline.arrRef spec0 2) (by decide)).symm))
    ((X13_self m c).symm)
/-- and every other buffer what it held at entry. -/
theorem hrest0 (c : Dev nD) : ∀ b, b ∉ Finset.univ.image (Pipeline.arrRef spec0) → atTc (X13 m) c b = atTc (X12 m) c b :=
  fun b hb => X13_of_ne m c b (fun e => hb (Finset.mem_image.mpr ⟨3, Finset.mem_univ _, e.symm⟩))

set_option backward.isDefEq.respectTransparency.types false in
/-- Call 0 over the thread state: entered from every unscoped buffer at `X12`, left at `X13`. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (X12 m)) (wholeShares _) c).loose
  hwaits := Pipeline.hwaits_of_owed_zero _ _ _ _ L0 lv0 0 fun _ _ => rfl
  pre c := iprop(StableHlo.held (c : Thread nD τ) (Pipeline.ucRefs τ sig) (X12 m c) ∗ Rr c)
  post c := iprop(StableHlo.held (c : Thread nD τ) (Pipeline.ucRefs τ sig) (X13 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (X12 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (X12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X12 m) c) (atTc (X13 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 as a region -/

/-- Window `w`'s array at call 1's exit holds what the pipeline leaves there. -/
abbrev AtExit1 (c : Dev nD) (w : Fin cfg1.W) : Prop :=
  (pdats m 1 c).arrAt w cfg1.N = atTc (X14 m) c (Pipeline.arrRef spec1 w)
/-- At call 1's exit each of its arrays holds what the pipeline leaves: an input array what it held, the output array
    the write-backs. -/
theorem pdats_1 (c : Dev nD) : pdats m 1 c = dat1 (atTc (X13 m)) (wholeShares _) c := rfl
set_option maxHeartbeats 1600000 in
theorem hF1 (c : Dev nD) : ∀ w : Fin cfg1.W, AtExit1 m c w := by
  unfold AtExit1
  rw [pdats_1]
  exact all_fin3 (fun w => (dat1 (atTc (X13 m)) (wholeShares _) c).arrAt w cfg1.N = atTc (X14 m) c (Pipeline.arrRef spec1 w))
    (((dat1 (atTc (X13 m)) (wholeShares _) c).arrAt_in 0 rfl _).trans ((A_eq1 (atTc (X13 m)) (wholeShares _) c 0).trans (X14_of_ne m c (Pipeline.arrRef spec1 0) (by decide)).symm))
    (((dat1 (atTc (X13 m)) (wholeShares _) c).arrAt_in 1 rfl _).trans ((A_eq1 (atTc (X13 m)) (wholeShares _) c 1).trans (X14_of_ne m c (Pipeline.arrRef spec1 1) (by decide)).symm))
    ((X14_self m c).symm)
/-- and every other buffer what it held at entry. -/
theorem hrest1 (c : Dev nD) : ∀ b, b ∉ Finset.univ.image (Pipeline.arrRef spec1) → atTc (X14 m) c b = atTc (X13 m) c b :=
  fun b hb => X14_of_ne m c b (fun e => hb (Finset.mem_image.mpr ⟨2, Finset.mem_univ _, e.symm⟩))

set_option backward.isDefEq.respectTransparency.types false in
/-- Call 1 over the thread state: entered from every unscoped buffer at `X13`, left at `X14`. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (X13 m)) (wholeShares _) c).loose
  hwaits := Pipeline.hwaits_of_owed_zero _ _ _ _ L0 lv0 1 fun _ _ => rfl
  pre c := iprop(StableHlo.held (c : Thread nD τ) (Pipeline.ucRefs τ sig) (X13 m c) ∗ Rr c)
  post c := iprop(StableHlo.held (c : Thread nD τ) (Pipeline.ucRefs τ sig) (X14 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (X13 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X13 m) c) (atTc (X14 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 as a region -/

/-- Window `w`'s array at call 2's exit holds what the pipeline leaves there. -/
abbrev AtExit2 (c : Dev nD) (w : Fin cfg2.W) : Prop :=
  (pdats m 2 c).arrAt w cfg2.N = atTc (X16 m) c (Pipeline.arrRef spec2 w)
/-- At call 2's exit each of its arrays holds what the pipeline leaves: an input array what it held, the output array
    the write-backs. -/
theorem pdats_2 (c : Dev nD) : pdats m 2 c = dat2 (atTc (X15 m)) halvedShares c := rfl
set_option maxHeartbeats 1600000 in
theorem hF2 (c : Dev nD) : ∀ w : Fin cfg2.W, AtExit2 m c w := by
  unfold AtExit2
  rw [pdats_2]
  exact all_fin6 (fun w => (dat2 (atTc (X15 m)) halvedShares c).arrAt w cfg2.N = atTc (X16 m) c (Pipeline.arrRef spec2 w))
    (((dat2 (atTc (X15 m)) halvedShares c).arrAt_in 0 rfl _).trans ((A_eq2 (atTc (X15 m)) halvedShares c 0).trans (X16_of_ne m c (Pipeline.arrRef spec2 0) (by decide)).symm))
    (((dat2 (atTc (X15 m)) halvedShares c).arrAt_in 1 rfl _).trans ((A_eq2 (atTc (X15 m)) halvedShares c 1).trans (X16_of_ne m c (Pipeline.arrRef spec2 1) (by decide)).symm))
    (((dat2 (atTc (X15 m)) halvedShares c).arrAt_in 2 rfl _).trans ((A_eq2 (atTc (X15 m)) halvedShares c 2).trans (X16_of_ne m c (Pipeline.arrRef spec2 2) (by decide)).symm))
    (((dat2 (atTc (X15 m)) halvedShares c).arrAt_in 3 rfl _).trans ((A_eq2 (atTc (X15 m)) halvedShares c 3).trans (X16_of_ne m c (Pipeline.arrRef spec2 3) (by decide)).symm))
    (((dat2 (atTc (X15 m)) halvedShares c).arrAt_in 4 rfl _).trans ((A_eq2 (atTc (X15 m)) halvedShares c 4).trans (X16_of_ne m c (Pipeline.arrRef spec2 4) (by decide)).symm))
    ((X16_self m c).symm)
/-- and every other buffer what it held at entry. -/
theorem hrest2 (c : Dev nD) : ∀ b, b ∉ Finset.univ.image (Pipeline.arrRef spec2) → atTc (X16 m) c b = atTc (X15 m) c b :=
  fun b hb => X16_of_ne m c b (fun e => hb (Finset.mem_image.mpr ⟨5, Finset.mem_univ _, e.symm⟩))

set_option backward.isDefEq.respectTransparency.types false in
/-- Call 2 over the thread state: entered from every unscoped buffer at `X15`, left at `X16`. -/
def reg2 : RegionSeg (pcfgs (F := F)) adm (pdats m) () defs₀ Variants.none L0 lv0 2 where
  win := winFacts₀2
  block_pos := block_pos2
  stage_whole := stage_whole2
  K := PEmpty
  osem k := k.elim
  ho := Pipeline.OwnSemFacts.none _
  hbody c := (body_obligation2 (atTc (X15 m)) halvedShares c).loose
  hwaits := Pipeline.hwaits_of_owed_zero _ _ _ _ L0 lv0 2 fun _ _ => rfl
  pre c := iprop(StableHlo.held (c : Thread nD τ) (Pipeline.ucRefs τ sig) (X15 m c) ∗ Rr c)
  post c := iprop(StableHlo.held (c : Thread nD τ) (Pipeline.ucRefs τ sig) (X16 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (X15 m) c)
  hentry c := by
    rw [Pipeline.ownSems0_none]
    have hub : (unscopedBufs c (atTc (X15 m) c) : sProp 𝕄)
        = iprop(Pipeline.arrBufs spec2 c (atTc (X15 m) c) ∗ Pipeline.unscopedRest spec2 c (atTc (X15 m) c)) :=
      Pipeline.unscopedBufs_split₀ cfgs 2 winFacts₀2.arr_unscoped c _
    have harr := (arrays2_iff c (pdats m 2 c) rfl rfl rfl rfl rfl (atTc (X15 m) c) ((pdats m 2 c).arrAt · 0) (fun _ => rfl)).1
    have hsplit : (unscopedBufs c (atTc (X15 m) c) : sProp 𝕄)
        ⊢ iprop((pdats m 2 c).arrays ((pdats m 2 c).arrAt · 0) ∗ Pipeline.unscopedRest spec2 c (atTc (X15 m) c)) := by
      rw [hub]; exact sep_mono harr .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hub : (unscopedBufs c (atTc (X16 m) c) : sProp 𝕄)
        = iprop(Pipeline.arrBufs spec2 c (atTc (X16 m) c) ∗ Pipeline.unscopedRest spec2 c (atTc (X16 m) c)) :=
      Pipeline.unscopedBufs_split₀ cfgs 2 winFacts₀2.arr_unscoped c _
    have harr := (arrays2_iff c (pdats m 2 c) rfl rfl rfl rfl rfl (atTc (X16 m) c) ((pdats m 2 c).arrAt · cfg2.N) (hF2 m c)).2
    have hrest : (Pipeline.unscopedRest (Ix := Unit) (Name := ℕ) (U := UR sig nD τ) (Lvl := ℕ) spec2 c (atTc (X15 m) c) : sProp 𝕄)
        = Pipeline.unscopedRest spec2 c (atTc (X16 m) c) := by
      unfold Pipeline.unscopedRest
      exact bigSep_congr fun b hb => by rw [hrest2 m c b (Finset.mem_sdiff.mp hb).2]
    have hjoin : iprop((pdats m 2 c).arrays ((pdats m 2 c).arrAt · cfg2.N) ∗ Pipeline.unscopedRest spec2 c (atTc (X15 m) c))
        ⊢ (unscopedBufs c (atTc (X16 m) c) : sProp 𝕄) := by
      rw [hub, hrest]; exact sep_mono harr .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 3 as a region -/

/-- Window `w`'s array at call 3's exit holds what the pipeline leaves there. -/
abbrev AtExit3 (c : Dev nD) (w : Fin cfg3.W) : Prop :=
  (pdats m 3 c).arrAt w cfg3.N = atTc (X17 m) c (Pipeline.arrRef spec3 w)
/-- At call 3's exit each of its arrays holds what the pipeline leaves: an input array what it held, the output array
    the write-backs. -/
theorem pdats_3 (c : Dev nD) : pdats m 3 c = dat3 (atTc (X16 m)) (wholeShares _) c := rfl
set_option maxHeartbeats 1600000 in
theorem hF3 (c : Dev nD) : ∀ w : Fin cfg3.W, AtExit3 m c w := by
  unfold AtExit3
  rw [pdats_3]
  exact all_fin3 (fun w => (dat3 (atTc (X16 m)) (wholeShares _) c).arrAt w cfg3.N = atTc (X17 m) c (Pipeline.arrRef spec3 w))
    (((dat3 (atTc (X16 m)) (wholeShares _) c).arrAt_in 0 rfl _).trans ((A_eq3 (atTc (X16 m)) (wholeShares _) c 0).trans (X17_of_ne m c (Pipeline.arrRef spec3 0) (by decide)).symm))
    (((dat3 (atTc (X16 m)) (wholeShares _) c).arrAt_in 1 rfl _).trans ((A_eq3 (atTc (X16 m)) (wholeShares _) c 1).trans (X17_of_ne m c (Pipeline.arrRef spec3 1) (by decide)).symm))
    ((X17_self m c).symm)
/-- and every other buffer what it held at entry. -/
theorem hrest3 (c : Dev nD) : ∀ b, b ∉ Finset.univ.image (Pipeline.arrRef spec3) → atTc (X17 m) c b = atTc (X16 m) c b :=
  fun b hb => X17_of_ne m c b (fun e => hb (Finset.mem_image.mpr ⟨2, Finset.mem_univ _, e.symm⟩))

set_option backward.isDefEq.respectTransparency.types false in
/-- Call 3 over the thread state: entered from every unscoped buffer at `X16`, left at `X17`. -/
def reg3 : RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atTc (X16 m)) (wholeShares _) c).loose
  hwaits := Pipeline.hwaits_of_owed_zero _ _ _ _ L0 lv0 3 fun _ _ => rfl
  pre c := iprop(StableHlo.held (c : Thread nD τ) (Pipeline.ucRefs τ sig) (X16 m c) ∗ Rr c)
  post c := iprop(StableHlo.held (c : Thread nD τ) (Pipeline.ucRefs τ sig) (X17 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (X16 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X16 m) c) (atTc (X17 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 4 as a region -/

/-- Window `w`'s array at call 4's exit holds what the pipeline leaves there. -/
abbrev AtExit4 (c : Dev nD) (w : Fin cfg4.W) : Prop :=
  (pdats m 4 c).arrAt w cfg4.N = atTc (X19 m) c (Pipeline.arrRef spec4 w)
/-- At call 4's exit each of its arrays holds what the pipeline leaves: an input array what it held, the output array
    the write-backs. -/
theorem pdats_4 (c : Dev nD) : pdats m 4 c = dat4 (atTc (X18 m)) (wholeShares _) c := rfl
set_option maxHeartbeats 1600000 in
theorem hF4 (c : Dev nD) : ∀ w : Fin cfg4.W, AtExit4 m c w := by
  unfold AtExit4
  rw [pdats_4]
  exact all_fin6 (fun w => (dat4 (atTc (X18 m)) (wholeShares _) c).arrAt w cfg4.N = atTc (X19 m) c (Pipeline.arrRef spec4 w))
    (((dat4 (atTc (X18 m)) (wholeShares _) c).arrAt_in 0 rfl _).trans ((A_eq4 (atTc (X18 m)) (wholeShares _) c 0).trans (X19_of_ne m c (Pipeline.arrRef spec4 0) (by decide)).symm))
    (((dat4 (atTc (X18 m)) (wholeShares _) c).arrAt_in 1 rfl _).trans ((A_eq4 (atTc (X18 m)) (wholeShares _) c 1).trans (X19_of_ne m c (Pipeline.arrRef spec4 1) (by decide)).symm))
    (((dat4 (atTc (X18 m)) (wholeShares _) c).arrAt_in 2 rfl _).trans ((A_eq4 (atTc (X18 m)) (wholeShares _) c 2).trans (X19_of_ne m c (Pipeline.arrRef spec4 2) (by decide)).symm))
    (((dat4 (atTc (X18 m)) (wholeShares _) c).arrAt_in 3 rfl _).trans ((A_eq4 (atTc (X18 m)) (wholeShares _) c 3).trans (X19_of_ne m c (Pipeline.arrRef spec4 3) (by decide)).symm))
    (((dat4 (atTc (X18 m)) (wholeShares _) c).arrAt_in 4 rfl _).trans ((A_eq4 (atTc (X18 m)) (wholeShares _) c 4).trans (X19_of_ne m c (Pipeline.arrRef spec4 4) (by decide)).symm))
    ((X19_self m c).symm)
/-- and every other buffer what it held at entry. -/
theorem hrest4 (c : Dev nD) : ∀ b, b ∉ Finset.univ.image (Pipeline.arrRef spec4) → atTc (X19 m) c b = atTc (X18 m) c b :=
  fun b hb => X19_of_ne m c b (fun e => hb (Finset.mem_image.mpr ⟨5, Finset.mem_univ _, e.symm⟩))

set_option backward.isDefEq.respectTransparency.types false in
/-- Call 4 over the thread state: entered from every unscoped buffer at `X18`, left at `X19`. -/
def reg4 : RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atTc (X18 m)) (wholeShares _) c).loose
  hwaits := Pipeline.hwaits_of_owed_zero _ _ _ _ L0 lv0 4 fun _ _ => rfl
  pre c := iprop(StableHlo.held (c : Thread nD τ) (Pipeline.ucRefs τ sig) (X18 m c) ∗ Rr c)
  post c := iprop(StableHlo.held (c : Thread nD τ) (Pipeline.ucRefs τ sig) (X19 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (X18 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (X18 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (X18 m) c) (atTc (X19 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 5 as a region -/

/-- Window `w`'s array at call 5's exit holds what the pipeline leaves there. -/
abbrev AtExit5 (c : Dev nD) (w : Fin cfg5.W) : Prop :=
  (pdats m 5 c).arrAt w cfg5.N = atTc (X20 m) c (Pipeline.arrRef spec5 w)
/-- At call 5's exit each of its arrays holds what the pipeline leaves: an input array what it held, the output array
    the write-backs. -/
theorem pdats_5 (c : Dev nD) : pdats m 5 c = dat5 (atTc (X19 m)) (wholeShares _) c := rfl
set_option maxHeartbeats 1600000 in
theorem hF5 (c : Dev nD) : ∀ w : Fin cfg5.W, AtExit5 m c w := by
  unfold AtExit5
  rw [pdats_5]
  exact all_fin3 (fun w => (dat5 (atTc (X19 m)) (wholeShares _) c).arrAt w cfg5.N = atTc (X20 m) c (Pipeline.arrRef spec5 w))
    (((dat5 (atTc (X19 m)) (wholeShares _) c).arrAt_in 0 rfl _).trans ((A_eq5 (atTc (X19 m)) (wholeShares _) c 0).trans (X20_of_ne m c (Pipeline.arrRef spec5 0) (by decide)).symm))
    (((dat5 (atTc (X19 m)) (wholeShares _) c).arrAt_in 1 rfl _).trans ((A_eq5 (atTc (X19 m)) (wholeShares _) c 1).trans (X20_of_ne m c (Pipeline.arrRef spec5 1) (by decide)).symm))
    ((X20_self m c).symm)
/-- and every other buffer what it held at entry. -/
theorem hrest5 (c : Dev nD) : ∀ b, b ∉ Finset.univ.image (Pipeline.arrRef spec5) → atTc (X20 m) c b = atTc (X19 m) c b :=
  fun b hb => X20_of_ne m c b (fun e => hb (Finset.mem_image.mpr ⟨2, Finset.mem_univ _, e.symm⟩))

set_option backward.isDefEq.respectTransparency.types false in
/-- Call 5 over the thread state: entered from every unscoped buffer at `X19`, left at `X20`. -/
def reg5 : RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atTc (X19 m)) (wholeShares _) c).loose
  hwaits := Pipeline.hwaits_of_owed_zero _ _ _ _ L0 lv0 5 fun _ _ => rfl
  pre c := iprop(StableHlo.held (c : Thread nD τ) (Pipeline.ucRefs τ sig) (X19 m c) ∗ Rr c)
  post c := iprop(StableHlo.held (c : Thread nD τ) (Pipeline.ucRefs τ sig) (X20 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (X19 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (X19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (X19 m) c) (atTc (X20 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 6 as a region -/

/-- Window `w`'s array at call 6's exit holds what the pipeline leaves there. -/
abbrev AtExit6 (c : Dev nD) (w : Fin cfg6.W) : Prop :=
  (pdats m 6 c).arrAt w cfg6.N = atTc (X22 m) c (Pipeline.arrRef spec6 w)
/-- At call 6's exit each of its arrays holds what the pipeline leaves: an input array what it held, the output array
    the write-backs. -/
theorem pdats_6 (c : Dev nD) : pdats m 6 c = dat6 (atTc (X21 m)) (wholeShares _) c := rfl
set_option maxHeartbeats 1600000 in
theorem hF6 (c : Dev nD) : ∀ w : Fin cfg6.W, AtExit6 m c w := by
  unfold AtExit6
  rw [pdats_6]
  exact all_fin6 (fun w => (dat6 (atTc (X21 m)) (wholeShares _) c).arrAt w cfg6.N = atTc (X22 m) c (Pipeline.arrRef spec6 w))
    (((dat6 (atTc (X21 m)) (wholeShares _) c).arrAt_in 0 rfl _).trans ((A_eq6 (atTc (X21 m)) (wholeShares _) c 0).trans (X22_of_ne m c (Pipeline.arrRef spec6 0) (by decide)).symm))
    (((dat6 (atTc (X21 m)) (wholeShares _) c).arrAt_in 1 rfl _).trans ((A_eq6 (atTc (X21 m)) (wholeShares _) c 1).trans (X22_of_ne m c (Pipeline.arrRef spec6 1) (by decide)).symm))
    (((dat6 (atTc (X21 m)) (wholeShares _) c).arrAt_in 2 rfl _).trans ((A_eq6 (atTc (X21 m)) (wholeShares _) c 2).trans (X22_of_ne m c (Pipeline.arrRef spec6 2) (by decide)).symm))
    (((dat6 (atTc (X21 m)) (wholeShares _) c).arrAt_in 3 rfl _).trans ((A_eq6 (atTc (X21 m)) (wholeShares _) c 3).trans (X22_of_ne m c (Pipeline.arrRef spec6 3) (by decide)).symm))
    (((dat6 (atTc (X21 m)) (wholeShares _) c).arrAt_in 4 rfl _).trans ((A_eq6 (atTc (X21 m)) (wholeShares _) c 4).trans (X22_of_ne m c (Pipeline.arrRef spec6 4) (by decide)).symm))
    ((X22_self m c).symm)
/-- and every other buffer what it held at entry. -/
theorem hrest6 (c : Dev nD) : ∀ b, b ∉ Finset.univ.image (Pipeline.arrRef spec6) → atTc (X22 m) c b = atTc (X21 m) c b :=
  fun b hb => X22_of_ne m c b (fun e => hb (Finset.mem_image.mpr ⟨5, Finset.mem_univ _, e.symm⟩))

set_option backward.isDefEq.respectTransparency.types false in
/-- Call 6 over the thread state: entered from every unscoped buffer at `X21`, left at `X22`. -/
def reg6 : RegionSeg (pcfgs (F := F)) adm (pdats m) () defs₀ Variants.none L0 lv0 6 where
  win := launch6.win.to₀
  block_pos := launch6.block_pos
  stage_whole := launch6.stage_whole
  K := PEmpty
  osem k := k.elim
  ho := Pipeline.OwnSemFacts.none _
  hbody c := (body_obligation6 (atTc (X21 m)) (wholeShares _) c).loose
  hwaits := Pipeline.hwaits_of_owed_zero _ _ _ _ L0 lv0 6 fun _ _ => rfl
  pre c := iprop(StableHlo.held (c : Thread nD τ) (Pipeline.ucRefs τ sig) (X21 m c) ∗ Rr c)
  post c := iprop(StableHlo.held (c : Thread nD τ) (Pipeline.ucRefs τ sig) (X22 m c) ∗ Rr c)
  X c := iprop(∃ r, prngReg c r)
  Y c := iprop(∃ r, prngReg c r)
  Z c := Pipeline.unscopedRest (Ix := Unit) (Name := ℕ) (U := UR sig nD τ) (Lvl := ℕ) spec6 c (atTc (X21 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (X21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (X21 m) c) (atTc (X22 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 7 as a region -/

/-- Window `w`'s array at call 7's exit holds what the pipeline leaves there. -/
abbrev AtExit7 (c : Dev nD) (w : Fin cfg7.W) : Prop :=
  (pdats m 7 c).arrAt w cfg7.N = atTc (X23 m) c (Pipeline.arrRef spec7 w)
/-- At call 7's exit each of its arrays holds what the pipeline leaves: an input array what it held, the output array
    the write-backs. -/
theorem pdats_7 (c : Dev nD) : pdats m 7 c = dat7 (atTc (X22 m)) (wholeShares _) c := rfl
set_option maxHeartbeats 1600000 in
theorem hF7 (c : Dev nD) : ∀ w : Fin cfg7.W, AtExit7 m c w := by
  unfold AtExit7
  rw [pdats_7]
  exact all_fin3 (fun w => (dat7 (atTc (X22 m)) (wholeShares _) c).arrAt w cfg7.N = atTc (X23 m) c (Pipeline.arrRef spec7 w))
    (((dat7 (atTc (X22 m)) (wholeShares _) c).arrAt_in 0 rfl _).trans ((A_eq7 (atTc (X22 m)) (wholeShares _) c 0).trans (X23_of_ne m c (Pipeline.arrRef spec7 0) (by decide)).symm))
    (((dat7 (atTc (X22 m)) (wholeShares _) c).arrAt_in 1 rfl _).trans ((A_eq7 (atTc (X22 m)) (wholeShares _) c 1).trans (X23_of_ne m c (Pipeline.arrRef spec7 1) (by decide)).symm))
    ((X23_self m c).symm)
/-- and every other buffer what it held at entry. -/
theorem hrest7 (c : Dev nD) : ∀ b, b ∉ Finset.univ.image (Pipeline.arrRef spec7) → atTc (X23 m) c b = atTc (X22 m) c b :=
  fun b hb => X23_of_ne m c b (fun e => hb (Finset.mem_image.mpr ⟨2, Finset.mem_univ _, e.symm⟩))

set_option backward.isDefEq.respectTransparency.types false in
/-- Call 7 over the thread state: entered from every unscoped buffer at `X22`, left at `X23`. -/
def reg7 : RegionSeg (pcfgs (F := F)) adm (pdats m) () defs₀ Variants.none L0 lv0 7 where
  win := launch7.win.to₀
  block_pos := launch7.block_pos
  stage_whole := launch7.stage_whole
  K := PEmpty
  osem k := k.elim
  ho := Pipeline.OwnSemFacts.none _
  hbody c := (body_obligation7 (atTc (X22 m)) (wholeShares _) c).loose
  hwaits := Pipeline.hwaits_of_owed_zero _ _ _ _ L0 lv0 7 fun _ _ => rfl
  pre c := iprop(StableHlo.held (c : Thread nD τ) (Pipeline.ucRefs τ sig) (X22 m c) ∗ Rr c)
  post c := iprop(StableHlo.held (c : Thread nD τ) (Pipeline.ucRefs τ sig) (X23 m c) ∗ Rr c)
  X c := iprop(∃ r, prngReg c r)
  Y c := iprop(∃ r, prngReg c r)
  Z c := Pipeline.unscopedRest (Ix := Unit) (Name := ℕ) (U := UR sig nD τ) (Lvl := ℕ) spec7 c (atTc (X22 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (X22 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (X22 m) c) (atTc (X23 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 8 as a region -/

/-- Window `w`'s array at call 8's exit holds what the pipeline leaves there. -/
abbrev AtExit8 (c : Dev nD) (w : Fin cfg8.W) : Prop :=
  (pdats m 8 c).arrAt w cfg8.N = atTc (X25 m) c (Pipeline.arrRef spec8 w)
/-- At call 8's exit each of its arrays holds what the pipeline leaves: an input array what it held, the output array
    the write-backs. -/
theorem pdats_8 (c : Dev nD) : pdats m 8 c = dat8 (atTc (X24 m)) (wholeShares _) c := rfl
set_option maxHeartbeats 1600000 in
theorem hF8 (c : Dev nD) : ∀ w : Fin cfg8.W, AtExit8 m c w := by
  unfold AtExit8
  rw [pdats_8]
  exact all_fin6 (fun w => (dat8 (atTc (X24 m)) (wholeShares _) c).arrAt w cfg8.N = atTc (X25 m) c (Pipeline.arrRef spec8 w))
    (((dat8 (atTc (X24 m)) (wholeShares _) c).arrAt_in 0 rfl _).trans ((A_eq8 (atTc (X24 m)) (wholeShares _) c 0).trans (X25_of_ne m c (Pipeline.arrRef spec8 0) (by decide)).symm))
    (((dat8 (atTc (X24 m)) (wholeShares _) c).arrAt_in 1 rfl _).trans ((A_eq8 (atTc (X24 m)) (wholeShares _) c 1).trans (X25_of_ne m c (Pipeline.arrRef spec8 1) (by decide)).symm))
    (((dat8 (atTc (X24 m)) (wholeShares _) c).arrAt_in 2 rfl _).trans ((A_eq8 (atTc (X24 m)) (wholeShares _) c 2).trans (X25_of_ne m c (Pipeline.arrRef spec8 2) (by decide)).symm))
    (((dat8 (atTc (X24 m)) (wholeShares _) c).arrAt_in 3 rfl _).trans ((A_eq8 (atTc (X24 m)) (wholeShares _) c 3).trans (X25_of_ne m c (Pipeline.arrRef spec8 3) (by decide)).symm))
    (((dat8 (atTc (X24 m)) (wholeShares _) c).arrAt_in 4 rfl _).trans ((A_eq8 (atTc (X24 m)) (wholeShares _) c 4).trans (X25_of_ne m c (Pipeline.arrRef spec8 4) (by decide)).symm))
    ((X25_self m c).symm)
/-- and every other buffer what it held at entry. -/
theorem hrest8 (c : Dev nD) : ∀ b, b ∉ Finset.univ.image (Pipeline.arrRef spec8) → atTc (X25 m) c b = atTc (X24 m) c b :=
  fun b hb => X25_of_ne m c b (fun e => hb (Finset.mem_image.mpr ⟨5, Finset.mem_univ _, e.symm⟩))

set_option backward.isDefEq.respectTransparency.types false in
/-- Call 8 over the thread state: entered from every unscoped buffer at `X24`, left at `X25`. -/
def reg8 : RegionSeg (pcfgs (F := F)) adm (pdats m) () defs₀ Variants.none L0 lv0 8 where
  win := launch8.win.to₀
  block_pos := launch8.block_pos
  stage_whole := launch8.stage_whole
  K := PEmpty
  osem k := k.elim
  ho := Pipeline.OwnSemFacts.none _
  hbody c := (body_obligation8 (atTc (X24 m)) (wholeShares _) c).loose
  hwaits := Pipeline.hwaits_of_owed_zero _ _ _ _ L0 lv0 8 fun _ _ => rfl
  pre c := iprop(StableHlo.held (c : Thread nD τ) (Pipeline.ucRefs τ sig) (X24 m c) ∗ Rr c)
  post c := iprop(StableHlo.held (c : Thread nD τ) (Pipeline.ucRefs τ sig) (X25 m c) ∗ Rr c)
  X c := iprop(∃ r, prngReg c r)
  Y c := iprop(∃ r, prngReg c r)
  Z c := Pipeline.unscopedRest (Ix := Unit) (Name := ℕ) (U := UR sig nD τ) (Lvl := ℕ) spec8 c (atTc (X24 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atTc (X24 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc (X24 m) c) (atTc (X25 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 9 as a region -/

/-- Window `w`'s array at call 9's exit holds what the pipeline leaves there. -/
abbrev AtExit9 (c : Dev nD) (w : Fin cfg9.W) : Prop :=
  (pdats m 9 c).arrAt w cfg9.N = atTc (X27 m) c (Pipeline.arrRef spec9 w)
/-- At call 9's exit each of its arrays holds what the pipeline leaves: an input array what it held, the output array
    the write-backs. -/
theorem pdats_9 (c : Dev nD) : pdats m 9 c = dat9 (atTc (X26 m)) (wholeShares _) c := rfl
set_option maxHeartbeats 1600000 in
theorem hF9 (c : Dev nD) : ∀ w : Fin cfg9.W, AtExit9 m c w := by
  unfold AtExit9
  rw [pdats_9]
  exact all_fin4 (fun w => (dat9 (atTc (X26 m)) (wholeShares _) c).arrAt w cfg9.N = atTc (X27 m) c (Pipeline.arrRef spec9 w))
    (((dat9 (atTc (X26 m)) (wholeShares _) c).arrAt_in 0 rfl _).trans ((A_eq9 (atTc (X26 m)) (wholeShares _) c 0).trans (X27_of_ne m c (Pipeline.arrRef spec9 0) (by decide)).symm))
    (((dat9 (atTc (X26 m)) (wholeShares _) c).arrAt_in 1 rfl _).trans ((A_eq9 (atTc (X26 m)) (wholeShares _) c 1).trans (X27_of_ne m c (Pipeline.arrRef spec9 1) (by decide)).symm))
    (((dat9 (atTc (X26 m)) (wholeShares _) c).arrAt_in 2 rfl _).trans ((A_eq9 (atTc (X26 m)) (wholeShares _) c 2).trans (X27_of_ne m c (Pipeline.arrRef spec9 2) (by decide)).symm))
    ((X27_self m c).symm)
/-- and every other buffer what it held at entry. -/
theorem hrest9 (c : Dev nD) : ∀ b, b ∉ Finset.univ.image (Pipeline.arrRef spec9) → atTc (X27 m) c b = atTc (X26 m) c b :=
  fun b hb => X27_of_ne m c b (fun e => hb (Finset.mem_image.mpr ⟨3, Finset.mem_univ _, e.symm⟩))

set_option backward.isDefEq.respectTransparency.types false in
/-- Call 9 over the thread state: entered from every unscoped buffer at `X26`, left at `X27`. -/
def reg9 : RegionSeg (pcfgs (F := F)) adm (pdats m) () defs₀ Variants.none L0 lv0 9 where
  win := launch9.win.to₀
  block_pos := launch9.block_pos
  stage_whole := launch9.stage_whole
  K := PEmpty
  osem k := k.elim
  ho := Pipeline.OwnSemFacts.none _
  hbody c := (body_obligation9 (atTc (X26 m)) (wholeShares _) c).loose
  hwaits := Pipeline.hwaits_of_owed_zero _ _ _ _ L0 lv0 9 fun _ _ => rfl
  pre c := iprop(StableHlo.held (c : Thread nD τ) (Pipeline.ucRefs τ sig) (X26 m c) ∗ Rr c)
  post c := iprop(StableHlo.held (c : Thread nD τ) (Pipeline.ucRefs τ sig) (X27 m c) ∗ Rr c)
  X c := iprop(∃ r, prngReg c r)
  Y c := iprop(∃ r, prngReg c r)
  Z c := Pipeline.unscopedRest (Ix := Unit) (Name := ℕ) (U := UR sig nD τ) (Lvl := ℕ) spec9 c (atTc (X26 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atTc (X26 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc (X26 m) c) (atTc (X27 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch makes every core's generator register and its empty `owes`; the semaphores and credits are not needed. -/
theorem launch_rest (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
      ⊢ (|={Set.univ}=> bigSep Finset.univ (fun c : Dev nD => Rr (F := F) c) : sProp 𝕄) := by
  refine Pipeline.initEach L0 lv0 fun c => ?_
  iintro ⟨⟨-, HO, -, Hp, -⟩, -⟩
  imodintro
  isplitl [Hp]; · iexists _; iexact Hp
  iexists ∅; iexact HO

set_option backward.isDefEq.respectTransparency.types false in
/-- Every weakly fair execution of the program from memory `m` terminates, nothing faulting, with the nine argument
    arrays as launched: at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (m := m) (EP := emb₁) (ι := ()) (𝒱₀ := Variants.none) (L := L0) (lv := lv0) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := launch_rest ρ)
    (hE10 := fun c => by iintro ⟨-, H⟩; iexact H)
    (R0 := reg0 m) (hpre0 := fun c => by exact .rfl) (hpost0 := fun c => by rw [V13_eq]; exact .rfl)
    (R1 := reg1 m) (hpre1 := fun c => by rw [V13_eq]; exact .rfl) (hpost1 := fun c => by rw [V14_eq]; exact .rfl)
    (R2 := reg2 m) (hpre2 := fun c => by rw [V15_eq]; exact .rfl) (hpost2 := fun c => by rw [V16_eq]; exact .rfl)
    (R3 := reg3 m) (hpre3 := fun c => by rw [V16_eq]; exact .rfl) (hpost3 := fun c => by rw [V17_eq]; exact .rfl)
    (R4 := reg4 m) (hpre4 := fun c => by rw [V18_eq]; exact .rfl) (hpost4 := fun c => by rw [V19_eq]; exact .rfl)
    (R5 := reg5 m) (hpre5 := fun c => by rw [V19_eq]; exact .rfl) (hpost5 := fun c => by rw [V20_eq]; exact .rfl)
    (R6 := reg6 m) (hpre6 := fun c => by rw [V21_eq]; exact .rfl) (hpost6 := fun c => by rw [V22_eq]; exact .rfl)
    (R7 := reg7 m) (hpre7 := fun c => by rw [V22_eq]; exact .rfl) (hpost7 := fun c => by rw [V23_eq]; exact .rfl)
    (R8 := reg8 m) (hpre8 := fun c => by rw [V24_eq]; exact .rfl) (hpost8 := fun c => by rw [V25_eq]; exact .rfl)
    (R9 := reg9 m) (hpre9 := fun c => by rw [V26_eq]; exact .rfl) (hpost9 := fun c => by rw [V27_eq]; exact .rfl)

end Cert.Kernel.Rg

end
-- ==== Proof.IdealCall0.lean ====
/-
  Call 0 of the program (the encoder: a row tile of the features times the encoder weights, plus the bias row), at any float instance and at any contents `V` of the
  TensorCore's buffers when the call is entered. A grid point reads one block of each input window, whole, and stores
  one block of the output window, whole: the stored block is the call's pure payload of the blocks read. This module
  states that block (`out0`), runs the body once on arbitrary staging buffers (`sound_kernel0`), and packages
  the per-point contents as the pipeline's proof data (`dat0`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every grid point, whether the point fetched it or the
    block index stood still since the last fetch: the body never writes an input buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every grid point, whether the point fetched it or the
    block index stood still since the last fetch: the body never writes an input buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every grid point, whether the point fetched it or the
    block index stood still since the last fetch: the body never writes an input buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev whole0_S10000x128 : Rect S10000x128 := Rect.unit (s := S10000x128) ![0, 0] S10000x128.size inb_S10000x128_S10000x128_0_0
abbrev whole0_S128x64 : Rect S128x64 := Rect.unit (s := S128x64) ![0, 0] S128x64.size inb_S128x64_S128x64_0_0
abbrev whole0_S1x64 : Rect S1x64 := Rect.unit (s := S1x64) ![0, 0] S1x64.size inb_S1x64_S1x64_0_0
abbrev whole0_S10000x64 : Rect S10000x64 := Rect.unit (s := S10000x64) ![0, 0] S10000x64.size inb_S10000x64_S10000x64_0_0

/-- What the body leaves in the output window's staging buffer, as a function of the input blocks: its one store,
    the payload of the blocks loaded. -/
def out0 (x0 : Vec F S10000x128 .f32) (x1 : Vec F S128x64 .f32) (x2 : Vec F S1x64 .f32) : Vec F S10000x64 .f32 :=
  View.canon [⟨whole0_S10000x64, k0_pay1 (View.ld x0 whole0_S10000x128) (View.ld x1 whole0_S128x64) (View.ld x2 whole0_S1x64)⟩]

/-- The one store covers the output block. -/
theorem cover0 (p0 : Vec F S10000x64 .f32) (y : S10000x64.Idx) :
    ∃ pc ∈ ([⟨whole0_S10000x64, p0⟩] : List (View.Piece (Elt F) S10000x64 .f32)), y ∈ pc.1.set :=
  View.cover_of_tiled [⟨whole0_S10000x64, p0⟩] S10000x64.size (by rfl) y

/-! ## The body, run once -/

set_option maxHeartbeats 1000000 in
/-- On whole staging buffers, the inputs' reading `x0 …` and the output's holding anything, the body runs to its
    continuation with the inputs' buffers as they were and the output's at `out0` of the inputs. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The pipeline's proof data -/

/-- The proof data of the call on core `c`: each window's array as the call finds it; after the body at point `t`
    every input buffer still at its block and the output buffer at `out0` of the input blocks; nothing kept from
    point to point beyond the scoped rest and the generator register; nothing owed; `q` the share held of each
    input array. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = out0 (iblk0 V c 0 t) (iblk0 V c 1 t) (iblk0 V c 2 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-! ## The body obligation at a generic grid point -/

/-- What the body is called with at point `t`, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' staging buffers hold their blocks, so the one run above applies; the invariant
    and what the core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation0 (c : Dev nD) : BodyObligation (dat0 (F := F) V q c) (defs₀ (F := F)) Variants.none () Set.univ := fun t => by
  rw [bigSep_W0, bigSep_W0]
  exact sound_body0 V q c t

end Cert.KernelIdeal.Rg

end
-- ==== Proof.IdealCall1.lean ====
/-
  Call 1 of the program (a row tile of the hidden state times the symmetric internal mixer), at any float instance and at any contents `V` of the
  TensorCore's buffers when the call is entered. A grid point reads one block of each input window, whole, and stores
  one block of the output window, whole: the stored block is the call's pure payload of the blocks read. This module
  states that block (`out1`), runs the body once on arbitrary staging buffers (`sound_kernel1`), and packages
  the per-point contents as the pipeline's proof data (`dat1`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every grid point, whether the point fetched it or the
    block index stood still since the last fetch: the body never writes an input buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every grid point, whether the point fetched it or the
    block index stood still since the last fetch: the body never writes an input buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole block -/

abbrev whole1_S10000x64 : Rect S10000x64 := Rect.unit (s := S10000x64) ![0, 0] S10000x64.size inb_S10000x64_S10000x64_0_0
abbrev whole1_S64x64 : Rect S64x64 := Rect.unit (s := S64x64) ![0, 0] S64x64.size inb_S64x64_S64x64_0_0

/-- What the body leaves in the output window's staging buffer, as a function of the input blocks: its one store,
    the payload of the blocks loaded. -/
def out1 (x0 : Vec F S10000x64 .f32) (x1 : Vec F S64x64 .f32) : Vec F S10000x64 .f32 :=
  View.canon [⟨whole1_S10000x64, k1_pay1 (View.ld x0 whole1_S10000x64) (View.ld x1 whole1_S64x64)⟩]

/-- The one store covers the output block. -/
theorem cover1 (p0 : Vec F S10000x64 .f32) (y : S10000x64.Idx) :
    ∃ pc ∈ ([⟨whole1_S10000x64, p0⟩] : List (View.Piece (Elt F) S10000x64 .f32)), y ∈ pc.1.set :=
  View.cover_of_tiled [⟨whole1_S10000x64, p0⟩] S10000x64.size (by rfl) y

/-! ## The body, run once -/

set_option maxHeartbeats 1000000 in
/-- On whole staging buffers, the inputs' reading `x0 …` and the output's holding anything, the body runs to its
    continuation with the inputs' buffers as they were and the output's at `out1` of the inputs. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of the call on core `c`: each window's array as the call finds it; after the body at point `t`
    every input buffer still at its block and the output buffer at `out1` of the input blocks; nothing kept from
    point to point beyond the scoped rest and the generator register; nothing owed; `q` the share held of each
    input array. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = out1 (iblk1 V c 0 t) (iblk1 V c 1 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body obligation at a generic grid point -/

/-- What the body is called with at point `t`, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

/-- The body at any point: the inputs' staging buffers hold their blocks, so the one run above applies; the invariant
    and what the core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation1 (c : Dev nD) : BodyObligation (dat1 (F := F) V q c) (defs₀ (F := F)) Variants.none () Set.univ := fun t => by
  rw [bigSep_W1, bigSep_W1]
  exact sound_body1 V q c t

end Cert.KernelIdeal.Rg

end
-- ==== Proof.IdealCall2.lean ====
/-
  Call 2 of the program (the residual update of a row tile: relu(h + relu(agg - h We - x0 W0))), at any float instance and at any contents `V` of the
  TensorCore's buffers when the call is entered. A grid point reads one block of each input window, whole, and stores
  one block of the output window, whole: the stored block is the call's pure payload of the blocks read. This module
  states that block (`out2`), runs the body once on arbitrary staging buffers (`sound_kernel2`), and packages
  the per-point contents as the pipeline's proof data (`dat2`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every grid point, whether the point fetched it or the
    block index stood still since the last fetch: the body never writes an input buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every grid point, whether the point fetched it or the
    block index stood still since the last fetch: the body never writes an input buffer. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every grid point, whether the point fetched it or the
    block index stood still since the last fetch: the body never writes an input buffer. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the window's block at every grid point, whether the point fetched it or the
    block index stood still since the last fetch: the body never writes an input buffer. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds the window's block at every grid point, whether the point fetched it or the
    block index stood still since the last fetch: the body never writes an input buffer. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole block -/

abbrev whole2_S10000x64 : Rect S10000x64 := Rect.unit (s := S10000x64) ![0, 0] S10000x64.size inb_S10000x64_S10000x64_0_0
abbrev whole2_S64x64 : Rect S64x64 := Rect.unit (s := S64x64) ![0, 0] S64x64.size inb_S64x64_S64x64_0_0

/-- What the body leaves in the output window's staging buffer, as a function of the input blocks: its one store,
    the payload of the blocks loaded. -/
def out2 (x0 : Vec F S10000x64 .f32) (x1 : Vec F S10000x64 .f32) (x2 : Vec F S10000x64 .f32) (x3 : Vec F S64x64 .f32) (x4 : Vec F S64x64 .f32) : Vec F S10000x64 .f32 :=
  View.canon [⟨whole2_S10000x64, k2_pay1 (View.ld x0 whole2_S10000x64) (View.ld x1 whole2_S10000x64) (View.ld x2 whole2_S10000x64) (View.ld x3 whole2_S64x64) (View.ld x4 whole2_S64x64)⟩]

/-- The one store covers the output block. -/
theorem cover2 (p0 : Vec F S10000x64 .f32) (y : S10000x64.Idx) :
    ∃ pc ∈ ([⟨whole2_S10000x64, p0⟩] : List (View.Piece (Elt F) S10000x64 .f32)), y ∈ pc.1.set :=
  View.cover_of_tiled [⟨whole2_S10000x64, p0⟩] S10000x64.size (by rfl) y

/-! ## The body, run once -/

set_option maxHeartbeats 1000000 in
/-- On whole staging buffers, the inputs' reading `x0 …` and the output's holding anything, the body runs to its
    continuation with the inputs' buffers as they were and the output's at `out2` of the inputs. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S10000x64 .f32) (harg6 : arg6.IsWhole)
    (x0 : Vec F S10000x64 .f32) (x1 : Vec F S10000x64 .f32) (x2 : Vec F S10000x64 .f32) (x3 : Vec F S64x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2 x0 x1 x2 x3 x4)) -∗ K ⟨⟩))
      ⊢ wp frame (wpE (defs₀ (F := F)) Variants.none c none) E (cc2__update_kernel i arg1 harg1 arg2 harg2 arg3 harg3 arg4 harg4 arg5 harg5 arg6 harg6) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The pipeline's proof data -/

/-- The proof data of the call on core `c`: each window's array as the call finds it; after the body at point `t`
    every input buffer still at its block and the output buffer at `out2` of the input blocks; nothing kept from
    point to point beyond the scoped rest and the generator register; nothing owed; `q` the share held of each
    input array. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t = iblk2 V c 4 t := by dsimp only [dat2]
theorem after2_5 (c : Dev nD) (t : Fin cfg2.N) : (dat2 V q c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d
theorem before2_4 (c : Dev nD) (t : Fin cfg2.N) (d) : (dat2 V q c).before 4 t d = iblk2 V c 4 t :=
  before2_4_of V (dat2 V q c) (A_eq2 V q c 4) (after2_4 V q c) t d

/-! ## The body obligation at a generic grid point -/

/-- What the body is called with at point `t`, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t))

/-- The body at any point: the inputs' staging buffers hold their blocks, so the one run above applies; the invariant
    and what the core owes pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation2 (c : Dev nD) : BodyObligation (dat2 (F := F) V q c) (defs₀ (F := F)) Variants.none () Set.univ := fun t => by
  rw [bigSep_W2, bigSep_W2]
  exact sound_body2 V q c t

end Cert.KernelIdeal.Rg

end
-- ==== Proof.IdealCall3.lean ====
/-
  Call 3 of the program (a row tile of the hidden state times the symmetric internal mixer), at any float instance and at any contents `V` of the
  TensorCore's buffers when the call is entered. A grid point reads one block of each input window, whole, and stores
  one block of the output window, whole: the stored block is the call's pure payload of the blocks read. This module
  states that block (`out3`), runs the body once on arbitrary staging buffers (`sound_kernel3`), and packages
  the per-point contents as the pipeline's proof data (`dat3`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every grid point, whether the point fetched it or the
    block index stood still since the last fetch: the body never writes an input buffer. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every grid point, whether the point fetched it or the
    block index stood still since the last fetch: the body never writes an input buffer. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole block -/

abbrev whole3_S10000x64 : Rect S10000x64 := Rect.unit (s := S10000x64) ![0, 0] S10000x64.size inb_S10000x64_S10000x64_0_0
abbrev whole3_S64x64 : Rect S64x64 := Rect.unit (s := S64x64) ![0, 0] S64x64.size inb_S64x64_S64x64_0_0

/-- What the body leaves in the output window's staging buffer, as a function of the input blocks: its one store,
    the payload of the blocks loaded. -/
def out3 (x0 : Vec F S10000x64 .f32) (x1 : Vec F S64x64 .f32) : Vec F S10000x64 .f32 :=
  View.canon [⟨whole3_S10000x64, k3_pay1 (View.ld x0 whole3_S10000x64) (View.ld x1 whole3_S64x64)⟩]

/-- The one store covers the output block. -/
theorem cover3 (p0 : Vec F S10000x64 .f32) (y : S10000x64.Idx) :
    ∃ pc ∈ ([⟨whole3_S10000x64, p0⟩] : List (View.Piece (Elt F) S10000x64 .f32)), y ∈ pc.1.set :=
  View.cover_of_tiled [⟨whole3_S10000x64, p0⟩] S10000x64.size (by rfl) y

/-! ## The body, run once -/

set_option maxHeartbeats 1000000 in
/-- On whole staging buffers, the inputs' reading `x0 …` and the output's holding anything, the body runs to its
    continuation with the inputs' buffers as they were and the output's at `out3` of the inputs. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-! ## The pipeline's proof data -/

/-- The proof data of the call on core `c`: each window's array as the call finds it; after the body at point `t`
    every input buffer still at its block and the output buffer at `out3` of the input blocks; nothing kept from
    point to point beyond the scoped rest and the generator register; nothing owed; `q` the share held of each
    input array. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q := q
  owed _ := 0

variable (q : Fin cfg3.W → PosShare TreeShare)

theorem A_eq3 (c : Dev nD) (w : Fin cfg3.W) : (dat3 V q c).A w = V c (Pipeline.arrRef spec3 w) := by
  dsimp only [dat3]

theorem after3_0 (c : Dev nD) (t : Fin cfg3.N) : (dat3 V q c).after 0 t = iblk3 V c 0 t := by dsimp only [dat3]
theorem after3_1 (c : Dev nD) (t : Fin cfg3.N) : (dat3 V q c).after 1 t = iblk3 V c 1 t := by dsimp only [dat3]
theorem after3_2 (c : Dev nD) (t : Fin cfg3.N) : (dat3 V q c).after 2 t = out3 (iblk3 V c 0 t) (iblk3 V c 1 t) := by dsimp only [dat3]

theorem before3_0 (c : Dev nD) (t : Fin cfg3.N) (d) : (dat3 V q c).before 0 t d = iblk3 V c 0 t :=
  before3_0_of V (dat3 V q c) (A_eq3 V q c 0) (after3_0 V q c) t d
theorem before3_1 (c : Dev nD) (t : Fin cfg3.N) (d) : (dat3 V q c).before 1 t d = iblk3 V c 1 t :=
  before3_1_of V (dat3 V q c) (A_eq3 V q c 1) (after3_1 V q c) t d

/-! ## The body obligation at a generic grid point -/

/-- What the body is called with at point `t`, -/
def bodyPre3 (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d)))

/-- and what it returns. -/
def bodyPost3 (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t))

/-- The body at any point: the inputs' staging buffers hold their blocks, so the one run above applies; the invariant
    and what the core owes pass through unread. -/
theorem sound_body3 (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1]
  rw [show (dat3 V q c).Φ t.succ = (dat3 V q c).Φ t.castSucc from rfl,
    show (dat3 V q c).owesAt () t.succ = (dat3 V q c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation3 (c : Dev nD) : BodyObligation (dat3 (F := F) V q c) (defs₀ (F := F)) Variants.none () Set.univ := fun t => by
  rw [bigSep_W3, bigSep_W3]
  exact sound_body3 V q c t

end Cert.KernelIdeal.Rg

end
-- ==== Proof.IdealCall4.lean ====
/-
  Call 4 of the program (the residual update of a row tile: relu(h + relu(agg - h We - x0 W0))), at any float instance and at any contents `V` of the
  TensorCore's buffers when the call is entered. A grid point reads one block of each input window, whole, and stores
  one block of the output window, whole: the stored block is the call's pure payload of the blocks read. This module
  states that block (`out4`), runs the body once on arbitrary staging buffers (`sound_kernel4`), and packages
  the per-point contents as the pipeline's proof data (`dat4`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every grid point, whether the point fetched it or the
    block index stood still since the last fetch: the body never writes an input buffer. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every grid point, whether the point fetched it or the
    block index stood still since the last fetch: the body never writes an input buffer. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds the window's block at every grid point, whether the point fetched it or the
    block index stood still since the last fetch: the body never writes an input buffer. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds the window's block at every grid point, whether the point fetched it or the
    block index stood still since the last fetch: the body never writes an input buffer. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds the window's block at every grid point, whether the point fetched it or the
    block index stood still since the last fetch: the body never writes an input buffer. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole block -/

abbrev whole4_S10000x64 : Rect S10000x64 := Rect.unit (s := S10000x64) ![0, 0] S10000x64.size inb_S10000x64_S10000x64_0_0
abbrev whole4_S64x64 : Rect S64x64 := Rect.unit (s := S64x64) ![0, 0] S64x64.size inb_S64x64_S64x64_0_0

/-- What the body leaves in the output window's staging buffer, as a function of the input blocks: its one store,
    the payload of the blocks loaded. -/
def out4 (x0 : Vec F S10000x64 .f32) (x1 : Vec F S10000x64 .f32) (x2 : Vec F S10000x64 .f32) (x3 : Vec F S64x64 .f32) (x4 : Vec F S64x64 .f32) : Vec F S10000x64 .f32 :=
  View.canon [⟨whole4_S10000x64, k4_pay1 (View.ld x0 whole4_S10000x64) (View.ld x1 whole4_S10000x64) (View.ld x2 whole4_S10000x64) (View.ld x3 whole4_S64x64) (View.ld x4 whole4_S64x64)⟩]

/-- The one store covers the output block. -/
theorem cover4 (p0 : Vec F S10000x64 .f32) (y : S10000x64.Idx) :
    ∃ pc ∈ ([⟨whole4_S10000x64, p0⟩] : List (View.Piece (Elt F) S10000x64 .f32)), y ∈ pc.1.set :=
  View.cover_of_tiled [⟨whole4_S10000x64, p0⟩] S10000x64.size (by rfl) y

/-! ## The body, run once -/

set_option maxHeartbeats 1000000 in
/-- On whole staging buffers, the inputs' reading `x0 …` and the output's holding anything, the body runs to its
    continuation with the inputs' buffers as they were and the output's at `out4` of the inputs. -/
theorem sound_kernel4 (c : Dev nD) (E : Set ℕ) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S10000x64 .f32) (harg6 : arg6.IsWhole)
    (x0 : Vec F S10000x64 .f32) (x1 : Vec F S10000x64 .f32) (x2 : Vec F S10000x64 .f32) (x3 : Vec F S64x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4 x0 x1 x2 x3 x4)) -∗ K ⟨⟩))
      ⊢ wp frame (wpE (defs₀ (F := F)) Variants.none c none) E (cc4__update_kernel i arg1 harg1 arg2 harg2 arg3 harg3 arg4 harg4 arg5 harg5 arg6 harg6) K := by
  simp only [cc4__update_kernel_eq_skeleton]; unfold cc4__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-! ## The pipeline's proof data -/

/-- The proof data of the call on core `c`: each window's array as the call finds it; after the body at point `t`
    every input buffer still at its block and the output buffer at `out4` of the input blocks; nothing kept from
    point to point beyond the scoped rest and the generator register; nothing owed; `q` the share held of each
    input array. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q := q
  owed _ := 0

variable (q : Fin cfg4.W → PosShare TreeShare)

theorem A_eq4 (c : Dev nD) (w : Fin cfg4.W) : (dat4 V q c).A w = V c (Pipeline.arrRef spec4 w) := by
  dsimp only [dat4]

theorem after4_0 (c : Dev nD) (t : Fin cfg4.N) : (dat4 V q c).after 0 t = iblk4 V c 0 t := by dsimp only [dat4]
theorem after4_1 (c : Dev nD) (t : Fin cfg4.N) : (dat4 V q c).after 1 t = iblk4 V c 1 t := by dsimp only [dat4]
theorem after4_2 (c : Dev nD) (t : Fin cfg4.N) : (dat4 V q c).after 2 t = iblk4 V c 2 t := by dsimp only [dat4]
theorem after4_3 (c : Dev nD) (t : Fin cfg4.N) : (dat4 V q c).after 3 t = iblk4 V c 3 t := by dsimp only [dat4]
theorem after4_4 (c : Dev nD) (t : Fin cfg4.N) : (dat4 V q c).after 4 t = iblk4 V c 4 t := by dsimp only [dat4]
theorem after4_5 (c : Dev nD) (t : Fin cfg4.N) : (dat4 V q c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V q c).before 0 t d = iblk4 V c 0 t :=
  before4_0_of V (dat4 V q c) (A_eq4 V q c 0) (after4_0 V q c) t d
theorem before4_1 (c : Dev nD) (t : Fin cfg4.N) (d) : (dat4 V q c).before 1 t d = iblk4 V c 1 t :=
  before4_1_of V (dat4 V q c) (A_eq4 V q c 1) (after4_1 V q c) t d
theorem before4_2 (c : Dev nD) (t : Fin cfg4.N) (d) : (dat4 V q c).before 2 t d = iblk4 V c 2 t :=
  before4_2_of V (dat4 V q c) (A_eq4 V q c 2) (after4_2 V q c) t d
theorem before4_3 (c : Dev nD) (t : Fin cfg4.N) (d) : (dat4 V q c).before 3 t d = iblk4 V c 3 t :=
  before4_3_of V (dat4 V q c) (A_eq4 V q c 3) (after4_3 V q c) t d
theorem before4_4 (c : Dev nD) (t : Fin cfg4.N) (d) : (dat4 V q c).before 4 t d = iblk4 V c 4 t :=
  before4_4_of V (dat4 V q c) (A_eq4 V q c 4) (after4_4 V q c) t d

/-! ## The body obligation at a generic grid point -/

/-- What the body is called with at point `t`, -/
def bodyPre4 (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d))
    ∗ (∃ d, owns (c : Thread nD τ) (st4_5 t) fullShare ((dat4 V q c).before 5 t d)))

/-- and what it returns. -/
def bodyPost4 (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t)
    ∗ owns (c : Thread nD τ) (st4_5 t) fullShare ((dat4 V q c).after 5 t))

/-- The body at any point: the inputs' staging buffers hold their blocks, so the one run above applies; the invariant
    and what the core owes pass through unread. -/
theorem sound_body4 (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3, before4_4]
  rw [show (dat4 V q c).Φ t.succ = (dat4 V q c).Φ t.castSucc from rfl,
    show (dat4 V q c).owesAt () t.succ = (dat4 V q c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation4 (c : Dev nD) : BodyObligation (dat4 (F := F) V q c) (defs₀ (F := F)) Variants.none () Set.univ := fun t => by
  rw [bigSep_W4, bigSep_W4]
  exact sound_body4 V q c t

end Cert.KernelIdeal.Rg

end
-- ==== Proof.IdealCall5.lean ====
/-
  Call 5 of the program (a row tile of the hidden state times the symmetric internal mixer), at any float instance and at any contents `V` of the
  TensorCore's buffers when the call is entered. A grid point reads one block of each input window, whole, and stores
  one block of the output window, whole: the stored block is the call's pure payload of the blocks read. This module
  states that block (`out5`), runs the body once on arbitrary staging buffers (`sound_kernel5`), and packages
  the per-point contents as the pipeline's proof data (`dat5`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every grid point, whether the point fetched it or the
    block index stood still since the last fetch: the body never writes an input buffer. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every grid point, whether the point fetched it or the
    block index stood still since the last fetch: the body never writes an input buffer. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole block -/

abbrev whole5_S10000x64 : Rect S10000x64 := Rect.unit (s := S10000x64) ![0, 0] S10000x64.size inb_S10000x64_S10000x64_0_0
abbrev whole5_S64x64 : Rect S64x64 := Rect.unit (s := S64x64) ![0, 0] S64x64.size inb_S64x64_S64x64_0_0

/-- What the body leaves in the output window's staging buffer, as a function of the input blocks: its one store,
    the payload of the blocks loaded. -/
def out5 (x0 : Vec F S10000x64 .f32) (x1 : Vec F S64x64 .f32) : Vec F S10000x64 .f32 :=
  View.canon [⟨whole5_S10000x64, k5_pay1 (View.ld x0 whole5_S10000x64) (View.ld x1 whole5_S64x64)⟩]

/-- The one store covers the output block. -/
theorem cover5 (p0 : Vec F S10000x64 .f32) (y : S10000x64.Idx) :
    ∃ pc ∈ ([⟨whole5_S10000x64, p0⟩] : List (View.Piece (Elt F) S10000x64 .f32)), y ∈ pc.1.set :=
  View.cover_of_tiled [⟨whole5_S10000x64, p0⟩] S10000x64.size (by rfl) y

/-! ## The body, run once -/

set_option maxHeartbeats 1000000 in
/-- On whole staging buffers, the inputs' reading `x0 …` and the output's holding anything, the body runs to its
    continuation with the inputs' buffers as they were and the output's at `out5` of the inputs. -/
theorem sound_kernel5 (c : Dev nD) (E : Set ℕ) (i : grid5.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-! ## The pipeline's proof data -/

/-- The proof data of the call on core `c`: each window's array as the call finds it; after the body at point `t`
    every input buffer still at its block and the output buffer at `out5` of the input blocks; nothing kept from
    point to point beyond the scoped rest and the generator register; nothing owed; `q` the share held of each
    input array. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q := q
  owed _ := 0

variable (q : Fin cfg5.W → PosShare TreeShare)

theorem A_eq5 (c : Dev nD) (w : Fin cfg5.W) : (dat5 V q c).A w = V c (Pipeline.arrRef spec5 w) := by
  dsimp only [dat5]

theorem after5_0 (c : Dev nD) (t : Fin cfg5.N) : (dat5 V q c).after 0 t = iblk5 V c 0 t := by dsimp only [dat5]
theorem after5_1 (c : Dev nD) (t : Fin cfg5.N) : (dat5 V q c).after 1 t = iblk5 V c 1 t := by dsimp only [dat5]
theorem after5_2 (c : Dev nD) (t : Fin cfg5.N) : (dat5 V q c).after 2 t = out5 (iblk5 V c 0 t) (iblk5 V c 1 t) := by dsimp only [dat5]

theorem before5_0 (c : Dev nD) (t : Fin cfg5.N) (d) : (dat5 V q c).before 0 t d = iblk5 V c 0 t :=
  before5_0_of V (dat5 V q c) (A_eq5 V q c 0) (after5_0 V q c) t d
theorem before5_1 (c : Dev nD) (t : Fin cfg5.N) (d) : (dat5 V q c).before 1 t d = iblk5 V c 1 t :=
  before5_1_of V (dat5 V q c) (A_eq5 V q c 1) (after5_1 V q c) t d

/-! ## The body obligation at a generic grid point -/

/-- What the body is called with at point `t`, -/
def bodyPre5 (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d)))

/-- and what it returns. -/
def bodyPost5 (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t))

/-- The body at any point: the inputs' staging buffers hold their blocks, so the one run above applies; the invariant
    and what the core owes pass through unread. -/
theorem sound_body5 (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1]
  rw [show (dat5 V q c).Φ t.succ = (dat5 V q c).Φ t.castSucc from rfl,
    show (dat5 V q c).owesAt () t.succ = (dat5 V q c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation5 (c : Dev nD) : BodyObligation (dat5 (F := F) V q c) (defs₀ (F := F)) Variants.none () Set.univ := fun t => by
  rw [bigSep_W5, bigSep_W5]
  exact sound_body5 V q c t

end Cert.KernelIdeal.Rg

end
-- ==== Proof.IdealCall6.lean ====
/-
  Call 6 of the program (the residual update of a row tile: relu(h + relu(agg - h We - x0 W0))), at any float instance and at any contents `V` of the
  TensorCore's buffers when the call is entered. A grid point reads one block of each input window, whole, and stores
  one block of the output window, whole: the stored block is the call's pure payload of the blocks read. This module
  states that block (`out6`), runs the body once on arbitrary staging buffers (`sound_kernel6`), and packages
  the per-point contents as the pipeline's proof data (`dat6`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every grid point, whether the point fetched it or the
    block index stood still since the last fetch: the body never writes an input buffer. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every grid point, whether the point fetched it or the
    block index stood still since the last fetch: the body never writes an input buffer. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every grid point, whether the point fetched it or the
    block index stood still since the last fetch: the body never writes an input buffer. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds the window's block at every grid point, whether the point fetched it or the
    block index stood still since the last fetch: the body never writes an input buffer. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds the window's block at every grid point, whether the point fetched it or the
    block index stood still since the last fetch: the body never writes an input buffer. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store go through the whole block -/

abbrev whole6_S10000x64 : Rect S10000x64 := Rect.unit (s := S10000x64) ![0, 0] S10000x64.size inb_S10000x64_S10000x64_0_0
abbrev whole6_S64x64 : Rect S64x64 := Rect.unit (s := S64x64) ![0, 0] S64x64.size inb_S64x64_S64x64_0_0

/-- What the body leaves in the output window's staging buffer, as a function of the input blocks: its one store,
    the payload of the blocks loaded. -/
def out6 (x0 : Vec F S10000x64 .f32) (x1 : Vec F S10000x64 .f32) (x2 : Vec F S10000x64 .f32) (x3 : Vec F S64x64 .f32) (x4 : Vec F S64x64 .f32) : Vec F S10000x64 .f32 :=
  View.canon [⟨whole6_S10000x64, k6_pay1 (View.ld x0 whole6_S10000x64) (View.ld x1 whole6_S10000x64) (View.ld x2 whole6_S10000x64) (View.ld x3 whole6_S64x64) (View.ld x4 whole6_S64x64)⟩]

/-- The one store covers the output block. -/
theorem cover6 (p0 : Vec F S10000x64 .f32) (y : S10000x64.Idx) :
    ∃ pc ∈ ([⟨whole6_S10000x64, p0⟩] : List (View.Piece (Elt F) S10000x64 .f32)), y ∈ pc.1.set :=
  View.cover_of_tiled [⟨whole6_S10000x64, p0⟩] S10000x64.size (by rfl) y

/-! ## The body, run once -/

set_option maxHeartbeats 1000000 in
/-- On whole staging buffers, the inputs' reading `x0 …` and the output's holding anything, the body runs to its
    continuation with the inputs' buffers as they were and the output's at `out6` of the inputs. -/
theorem sound_kernel6 (c : Dev nD) (E : Set ℕ) (i : grid6.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S10000x64 .f32) (harg6 : arg6.IsWhole)
    (x0 : Vec F S10000x64 .f32) (x1 : Vec F S10000x64 .f32) (x2 : Vec F S10000x64 .f32) (x3 : Vec F S64x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6 x0 x1 x2 x3 x4)) -∗ K ⟨⟩))
      ⊢ wp frame (wpE (defs₀ (F := F)) Variants.none c none) E (cc6__update_kernel i arg1 harg1 arg2 harg2 arg3 harg3 arg4 harg4 arg5 harg5 arg6 harg6) K := by
  simp only [cc6__update_kernel_eq_skeleton]; unfold cc6__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-! ## The pipeline's proof data -/

/-- The proof data of the call on core `c`: each window's array as the call finds it; after the body at point `t`
    every input buffer still at its block and the output buffer at `out6` of the input blocks; nothing kept from
    point to point beyond the scoped rest and the generator register; nothing owed; `q` the share held of each
    input array. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q := q
  owed _ := 0

variable (q : Fin cfg6.W → PosShare TreeShare)

theorem A_eq6 (c : Dev nD) (w : Fin cfg6.W) : (dat6 V q c).A w = V c (Pipeline.arrRef spec6 w) := by
  dsimp only [dat6]

theorem after6_0 (c : Dev nD) (t : Fin cfg6.N) : (dat6 V q c).after 0 t = iblk6 V c 0 t := by dsimp only [dat6]
theorem after6_1 (c : Dev nD) (t : Fin cfg6.N) : (dat6 V q c).after 1 t = iblk6 V c 1 t := by dsimp only [dat6]
theorem after6_2 (c : Dev nD) (t : Fin cfg6.N) : (dat6 V q c).after 2 t = iblk6 V c 2 t := by dsimp only [dat6]
theorem after6_3 (c : Dev nD) (t : Fin cfg6.N) : (dat6 V q c).after 3 t = iblk6 V c 3 t := by dsimp only [dat6]
theorem after6_4 (c : Dev nD) (t : Fin cfg6.N) : (dat6 V q c).after 4 t = iblk6 V c 4 t := by dsimp only [dat6]
theorem after6_5 (c : Dev nD) (t : Fin cfg6.N) : (dat6 V q c).after 5 t = out6 (iblk6 V c 0 t) (iblk6 V c 1 t) (iblk6 V c 2 t) (iblk6 V c 3 t) (iblk6 V c 4 t) := by dsimp only [dat6]

theorem before6_0 (c : Dev nD) (t : Fin cfg6.N) (d) : (dat6 V q c).before 0 t d = iblk6 V c 0 t :=
  before6_0_of V (dat6 V q c) (A_eq6 V q c 0) (after6_0 V q c) t d
theorem before6_1 (c : Dev nD) (t : Fin cfg6.N) (d) : (dat6 V q c).before 1 t d = iblk6 V c 1 t :=
  before6_1_of V (dat6 V q c) (A_eq6 V q c 1) (after6_1 V q c) t d
theorem before6_2 (c : Dev nD) (t : Fin cfg6.N) (d) : (dat6 V q c).before 2 t d = iblk6 V c 2 t :=
  before6_2_of V (dat6 V q c) (A_eq6 V q c 2) (after6_2 V q c) t d
theorem before6_3 (c : Dev nD) (t : Fin cfg6.N) (d) : (dat6 V q c).before 3 t d = iblk6 V c 3 t :=
  before6_3_of V (dat6 V q c) (A_eq6 V q c 3) (after6_3 V q c) t d
theorem before6_4 (c : Dev nD) (t : Fin cfg6.N) (d) : (dat6 V q c).before 4 t d = iblk6 V c 4 t :=
  before6_4_of V (dat6 V q c) (A_eq6 V q c 4) (after6_4 V q c) t d

/-! ## The body obligation at a generic grid point -/

/-- What the body is called with at point `t`, -/
def bodyPre6 (c : Dev nD) (t : Fin cfg6.N) : sProp 𝕄 :=
  iprop((dat6 V q c).Φ t.castSucc ∗ (dat6 V q c).owesAt () t.castSucc
    ∗ (∃ d, owns (c : Thread nD τ) (st6_0 t) fullShare ((dat6 V q c).before 0 t d))
    ∗ (∃ d, owns (c : Thread nD τ) (st6_1 t) fullShare ((dat6 V q c).before 1 t d))
    ∗ (∃ d, owns (c : Thread nD τ) (st6_2 t) fullShare ((dat6 V q c).before 2 t d))
    ∗ (∃ d, owns (c : Thread nD τ) (st6_3 t) fullShare ((dat6 V q c).before 3 t d))
    ∗ (∃ d, owns (c : Thread nD τ) (st6_4 t) fullShare ((dat6 V q c).before 4 t d))
    ∗ (∃ d, owns (c : Thread nD τ) (st6_5 t) fullShare ((dat6 V q c).before 5 t d)))

/-- and what it returns. -/
def bodyPost6 (c : Dev nD) (t : Fin cfg6.N) : sProp 𝕄 :=
  iprop((dat6 V q c).Φ t.succ ∗ (dat6 V q c).owesAt () t.succ
    ∗ owns (c : Thread nD τ) (st6_0 t) fullShare ((dat6 V q c).after 0 t)
    ∗ owns (c : Thread nD τ) (st6_1 t) fullShare ((dat6 V q c).after 1 t)
    ∗ owns (c : Thread nD τ) (st6_2 t) fullShare ((dat6 V q c).after 2 t)
    ∗ owns (c : Thread nD τ) (st6_3 t) fullShare ((dat6 V q c).after 3 t)
    ∗ owns (c : Thread nD τ) (st6_4 t) fullShare ((dat6 V q c).after 4 t)
    ∗ owns (c : Thread nD τ) (st6_5 t) fullShare ((dat6 V q c).after 5 t))

/-- The body at any point: the inputs' staging buffers hold their blocks, so the one run above applies; the invariant
    and what the core owes pass through unread. -/
theorem sound_body6 (c : Dev nD) (t : Fin cfg6.N) :
    bodyPre6 V q c t ⊢ wp frame (wpE (defs₀ (F := F)) Variants.none c none) Set.univ (bodyAt6 t) (fun _ => bodyPost6 V q c t) := by
  unfold bodyPre6 bodyPost6 bodyAt6
  simp only [before6_0, before6_1, before6_2, before6_3, before6_4]
  rw [show (dat6 V q c).Φ t.succ = (dat6 V q c).Φ t.castSucc from rfl,
    show (dat6 V q c).owesAt () t.succ = (dat6 V q c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation6 (c : Dev nD) : BodyObligation (dat6 (F := F) V q c) (defs₀ (F := F)) Variants.none () Set.univ := fun t => by
  rw [bigSep_W6, bigSep_W6]
  exact sound_body6 V q c t

end Cert.KernelIdeal.Rg

end
-- ==== Proof.IdealCall7.lean ====
/-
  Call 7 of the program (a row tile of the hidden state times the symmetric internal mixer), at any float instance and at any contents `V` of the
  TensorCore's buffers when the call is entered. A grid point reads one block of each input window, whole, and stores
  one block of the output window, whole: the stored block is the call's pure payload of the blocks read. This module
  states that block (`out7`), runs the body once on arbitrary staging buffers (`sound_kernel7`), and packages
  the per-point contents as the pipeline's proof data (`dat7`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds the window's block at every grid point, whether the point fetched it or the
    block index stood still since the last fetch: the body never writes an input buffer. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds the window's block at every grid point, whether the point fetched it or the
    block index stood still since the last fetch: the body never writes an input buffer. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store go through the whole block -/

abbrev whole7_S10000x64 : Rect S10000x64 := Rect.unit (s := S10000x64) ![0, 0] S10000x64.size inb_S10000x64_S10000x64_0_0
abbrev whole7_S64x64 : Rect S64x64 := Rect.unit (s := S64x64) ![0, 0] S64x64.size inb_S64x64_S64x64_0_0

/-- What the body leaves in the output window's staging buffer, as a function of the input blocks: its one store,
    the payload of the blocks loaded. -/
def out7 (x0 : Vec F S10000x64 .f32) (x1 : Vec F S64x64 .f32) : Vec F S10000x64 .f32 :=
  View.canon [⟨whole7_S10000x64, k7_pay1 (View.ld x0 whole7_S10000x64) (View.ld x1 whole7_S64x64)⟩]

/-- The one store covers the output block. -/
theorem cover7 (p0 : Vec F S10000x64 .f32) (y : S10000x64.Idx) :
    ∃ pc ∈ ([⟨whole7_S10000x64, p0⟩] : List (View.Piece (Elt F) S10000x64 .f32)), y ∈ pc.1.set :=
  View.cover_of_tiled [⟨whole7_S10000x64, p0⟩] S10000x64.size (by rfl) y

/-! ## The body, run once -/

set_option maxHeartbeats 1000000 in
/-- On whole staging buffers, the inputs' reading `x0 …` and the output's holding anything, the body runs to its
    continuation with the inputs' buffers as they were and the output's at `out7` of the inputs. -/
theorem sound_kernel7 (c : Dev nD) (E : Set ℕ) (i : grid7.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7 x0 x1)) -∗ K ⟨⟩))
      ⊢ wp frame (wpE (defs₀ (F := F)) Variants.none c none) E (cc7__matmul_kernel i arg1 harg1 arg2 harg2 arg3 harg3) K := by
  simp only [cc7__matmul_kernel_eq_skeleton]; unfold cc7__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7 _)

/-! ## The pipeline's proof data -/

/-- The proof data of the call on core `c`: each window's array as the call finds it; after the body at point `t`
    every input buffer still at its block and the output buffer at `out7` of the input blocks; nothing kept from
    point to point beyond the scoped rest and the generator register; nothing owed; `q` the share held of each
    input array. -/
def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 (iblk7 V c 0 t) (iblk7 V c 1 t)
  Φ _ := Pipeline.ΦA spec7 c
  q := q
  owed _ := 0

variable (q : Fin cfg7.W → PosShare TreeShare)

theorem A_eq7 (c : Dev nD) (w : Fin cfg7.W) : (dat7 V q c).A w = V c (Pipeline.arrRef spec7 w) := by
  dsimp only [dat7]

theorem after7_0 (c : Dev nD) (t : Fin cfg7.N) : (dat7 V q c).after 0 t = iblk7 V c 0 t := by dsimp only [dat7]
theorem after7_1 (c : Dev nD) (t : Fin cfg7.N) : (dat7 V q c).after 1 t = iblk7 V c 1 t := by dsimp only [dat7]
theorem after7_2 (c : Dev nD) (t : Fin cfg7.N) : (dat7 V q c).after 2 t = out7 (iblk7 V c 0 t) (iblk7 V c 1 t) := by dsimp only [dat7]

theorem before7_0 (c : Dev nD) (t : Fin cfg7.N) (d) : (dat7 V q c).before 0 t d = iblk7 V c 0 t :=
  before7_0_of V (dat7 V q c) (A_eq7 V q c 0) (after7_0 V q c) t d
theorem before7_1 (c : Dev nD) (t : Fin cfg7.N) (d) : (dat7 V q c).before 1 t d = iblk7 V c 1 t :=
  before7_1_of V (dat7 V q c) (A_eq7 V q c 1) (after7_1 V q c) t d

/-! ## The body obligation at a generic grid point -/

/-- What the body is called with at point `t`, -/
def bodyPre7 (c : Dev nD) (t : Fin cfg7.N) : sProp 𝕄 :=
  iprop((dat7 V q c).Φ t.castSucc ∗ (dat7 V q c).owesAt () t.castSucc
    ∗ (∃ d, owns (c : Thread nD τ) (st7_0 t) fullShare ((dat7 V q c).before 0 t d))
    ∗ (∃ d, owns (c : Thread nD τ) (st7_1 t) fullShare ((dat7 V q c).before 1 t d))
    ∗ (∃ d, owns (c : Thread nD τ) (st7_2 t) fullShare ((dat7 V q c).before 2 t d)))

/-- and what it returns. -/
def bodyPost7 (c : Dev nD) (t : Fin cfg7.N) : sProp 𝕄 :=
  iprop((dat7 V q c).Φ t.succ ∗ (dat7 V q c).owesAt () t.succ
    ∗ owns (c : Thread nD τ) (st7_0 t) fullShare ((dat7 V q c).after 0 t)
    ∗ owns (c : Thread nD τ) (st7_1 t) fullShare ((dat7 V q c).after 1 t)
    ∗ owns (c : Thread nD τ) (st7_2 t) fullShare ((dat7 V q c).after 2 t))

/-- The body at any point: the inputs' staging buffers hold their blocks, so the one run above applies; the invariant
    and what the core owes pass through unread. -/
theorem sound_body7 (c : Dev nD) (t : Fin cfg7.N) :
    bodyPre7 V q c t ⊢ wp frame (wpE (defs₀ (F := F)) Variants.none c none) Set.univ (bodyAt7 t) (fun _ => bodyPost7 V q c t) := by
  unfold bodyPre7 bodyPost7 bodyAt7
  simp only [before7_0, before7_1]
  rw [show (dat7 V q c).Φ t.succ = (dat7 V q c).Φ t.castSucc from rfl,
    show (dat7 V q c).owesAt () t.succ = (dat7 V q c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation7 (c : Dev nD) : BodyObligation (dat7 (F := F) V q c) (defs₀ (F := F)) Variants.none () Set.univ := fun t => by
  rw [bigSep_W7, bigSep_W7]
  exact sound_body7 V q c t

end Cert.KernelIdeal.Rg

end
-- ==== Proof.IdealCall8.lean ====
/-
  Call 8 of the program (the residual update of a row tile: relu(h + relu(agg - h We - x0 W0))), at any float instance and at any contents `V` of the
  TensorCore's buffers when the call is entered. A grid point reads one block of each input window, whole, and stores
  one block of the output window, whole: the stored block is the call's pure payload of the blocks read. This module
  states that block (`out8`), runs the body once on arbitrary staging buffers (`sound_kernel8`), and packages
  the per-point contents as the pipeline's proof data (`dat8`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds the window's block at every grid point, whether the point fetched it or the
    block index stood still since the last fetch: the body never writes an input buffer. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds the window's block at every grid point, whether the point fetched it or the
    block index stood still since the last fetch: the body never writes an input buffer. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds the window's block at every grid point, whether the point fetched it or the
    block index stood still since the last fetch: the body never writes an input buffer. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds the window's block at every grid point, whether the point fetched it or the
    block index stood still since the last fetch: the body never writes an input buffer. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds the window's block at every grid point, whether the point fetched it or the
    block index stood still since the last fetch: the body never writes an input buffer. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the one store go through the whole block -/

abbrev whole8_S10000x64 : Rect S10000x64 := Rect.unit (s := S10000x64) ![0, 0] S10000x64.size inb_S10000x64_S10000x64_0_0
abbrev whole8_S64x64 : Rect S64x64 := Rect.unit (s := S64x64) ![0, 0] S64x64.size inb_S64x64_S64x64_0_0

/-- What the body leaves in the output window's staging buffer, as a function of the input blocks: its one store,
    the payload of the blocks loaded. -/
def out8 (x0 : Vec F S10000x64 .f32) (x1 : Vec F S10000x64 .f32) (x2 : Vec F S10000x64 .f32) (x3 : Vec F S64x64 .f32) (x4 : Vec F S64x64 .f32) : Vec F S10000x64 .f32 :=
  View.canon [⟨whole8_S10000x64, k8_pay1 (View.ld x0 whole8_S10000x64) (View.ld x1 whole8_S10000x64) (View.ld x2 whole8_S10000x64) (View.ld x3 whole8_S64x64) (View.ld x4 whole8_S64x64)⟩]

/-- The one store covers the output block. -/
theorem cover8 (p0 : Vec F S10000x64 .f32) (y : S10000x64.Idx) :
    ∃ pc ∈ ([⟨whole8_S10000x64, p0⟩] : List (View.Piece (Elt F) S10000x64 .f32)), y ∈ pc.1.set :=
  View.cover_of_tiled [⟨whole8_S10000x64, p0⟩] S10000x64.size (by rfl) y

/-! ## The body, run once -/

set_option maxHeartbeats 1000000 in
/-- On whole staging buffers, the inputs' reading `x0 …` and the output's holding anything, the body runs to its
    continuation with the inputs' buffers as they were and the output's at `out8` of the inputs. -/
theorem sound_kernel8 (c : Dev nD) (E : Set ℕ) (i : grid8.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S10000x64 .f32) (harg6 : arg6.IsWhole)
    (x0 : Vec F S10000x64 .f32) (x1 : Vec F S10000x64 .f32) (x2 : Vec F S10000x64 .f32) (x3 : Vec F S64x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8 x0 x1 x2 x3 x4)) -∗ K ⟨⟩))
      ⊢ wp frame (wpE (defs₀ (F := F)) Variants.none c none) E (cc8__update_kernel i arg1 harg1 arg2 harg2 arg3 harg3 arg4 harg4 arg5 harg5 arg6 harg6) K := by
  simp only [cc8__update_kernel_eq_skeleton]; unfold cc8__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The pipeline's proof data -/

/-- The proof data of the call on core `c`: each window's array as the call finds it; after the body at point `t`
    every input buffer still at its block and the output buffer at `out8` of the input blocks; nothing kept from
    point to point beyond the scoped rest and the generator register; nothing owed; `q` the share held of each
    input array. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q := q
  owed _ := 0

variable (q : Fin cfg8.W → PosShare TreeShare)

theorem A_eq8 (c : Dev nD) (w : Fin cfg8.W) : (dat8 V q c).A w = V c (Pipeline.arrRef spec8 w) := by
  dsimp only [dat8]

theorem after8_0 (c : Dev nD) (t : Fin cfg8.N) : (dat8 V q c).after 0 t = iblk8 V c 0 t := by dsimp only [dat8]
theorem after8_1 (c : Dev nD) (t : Fin cfg8.N) : (dat8 V q c).after 1 t = iblk8 V c 1 t := by dsimp only [dat8]
theorem after8_2 (c : Dev nD) (t : Fin cfg8.N) : (dat8 V q c).after 2 t = iblk8 V c 2 t := by dsimp only [dat8]
theorem after8_3 (c : Dev nD) (t : Fin cfg8.N) : (dat8 V q c).after 3 t = iblk8 V c 3 t := by dsimp only [dat8]
theorem after8_4 (c : Dev nD) (t : Fin cfg8.N) : (dat8 V q c).after 4 t = iblk8 V c 4 t := by dsimp only [dat8]
theorem after8_5 (c : Dev nD) (t : Fin cfg8.N) : (dat8 V q c).after 5 t = out8 (iblk8 V c 0 t) (iblk8 V c 1 t) (iblk8 V c 2 t) (iblk8 V c 3 t) (iblk8 V c 4 t) := by dsimp only [dat8]

theorem before8_0 (c : Dev nD) (t : Fin cfg8.N) (d) : (dat8 V q c).before 0 t d = iblk8 V c 0 t :=
  before8_0_of V (dat8 V q c) (A_eq8 V q c 0) (after8_0 V q c) t d
theorem before8_1 (c : Dev nD) (t : Fin cfg8.N) (d) : (dat8 V q c).before 1 t d = iblk8 V c 1 t :=
  before8_1_of V (dat8 V q c) (A_eq8 V q c 1) (after8_1 V q c) t d
theorem before8_2 (c : Dev nD) (t : Fin cfg8.N) (d) : (dat8 V q c).before 2 t d = iblk8 V c 2 t :=
  before8_2_of V (dat8 V q c) (A_eq8 V q c 2) (after8_2 V q c) t d
theorem before8_3 (c : Dev nD) (t : Fin cfg8.N) (d) : (dat8 V q c).before 3 t d = iblk8 V c 3 t :=
  before8_3_of V (dat8 V q c) (A_eq8 V q c 3) (after8_3 V q c) t d
theorem before8_4 (c : Dev nD) (t : Fin cfg8.N) (d) : (dat8 V q c).before 4 t d = iblk8 V c 4 t :=
  before8_4_of V (dat8 V q c) (A_eq8 V q c 4) (after8_4 V q c) t d

/-! ## The body obligation at a generic grid point -/

/-- What the body is called with at point `t`, -/
def bodyPre8 (c : Dev nD) (t : Fin cfg8.N) : sProp 𝕄 :=
  iprop((dat8 V q c).Φ t.castSucc ∗ (dat8 V q c).owesAt () t.castSucc
    ∗ (∃ d, owns (c : Thread nD τ) (st8_0 t) fullShare ((dat8 V q c).before 0 t d))
    ∗ (∃ d, owns (c : Thread nD τ) (st8_1 t) fullShare ((dat8 V q c).before 1 t d))
    ∗ (∃ d, owns (c : Thread nD τ) (st8_2 t) fullShare ((dat8 V q c).before 2 t d))
    ∗ (∃ d, owns (c : Thread nD τ) (st8_3 t) fullShare ((dat8 V q c).before 3 t d))
    ∗ (∃ d, owns (c : Thread nD τ) (st8_4 t) fullShare ((dat8 V q c).before 4 t d))
    ∗ (∃ d, owns (c : Thread nD τ) (st8_5 t) fullShare ((dat8 V q c).before 5 t d)))

/-- and what it returns. -/
def bodyPost8 (c : Dev nD) (t : Fin cfg8.N) : sProp 𝕄 :=
  iprop((dat8 V q c).Φ t.succ ∗ (dat8 V q c).owesAt () t.succ
    ∗ owns (c : Thread nD τ) (st8_0 t) fullShare ((dat8 V q c).after 0 t)
    ∗ owns (c : Thread nD τ) (st8_1 t) fullShare ((dat8 V q c).after 1 t)
    ∗ owns (c : Thread nD τ) (st8_2 t) fullShare ((dat8 V q c).after 2 t)
    ∗ owns (c : Thread nD τ) (st8_3 t) fullShare ((dat8 V q c).after 3 t)
    ∗ owns (c : Thread nD τ) (st8_4 t) fullShare ((dat8 V q c).after 4 t)
    ∗ owns (c : Thread nD τ) (st8_5 t) fullShare ((dat8 V q c).after 5 t))

/-- The body at any point: the inputs' staging buffers hold their blocks, so the one run above applies; the invariant
    and what the core owes pass through unread. -/
theorem sound_body8 (c : Dev nD) (t : Fin cfg8.N) :
    bodyPre8 V q c t ⊢ wp frame (wpE (defs₀ (F := F)) Variants.none c none) Set.univ (bodyAt8 t) (fun _ => bodyPost8 V q c t) := by
  unfold bodyPre8 bodyPost8 bodyAt8
  simp only [before8_0, before8_1, before8_2, before8_3, before8_4]
  rw [show (dat8 V q c).Φ t.succ = (dat8 V q c).Φ t.castSucc from rfl,
    show (dat8 V q c).owesAt () t.succ = (dat8 V q c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation8 (c : Dev nD) : BodyObligation (dat8 (F := F) V q c) (defs₀ (F := F)) Variants.none () Set.univ := fun t => by
  rw [bigSep_W8, bigSep_W8]
  exact sound_body8 V q c t

end Cert.KernelIdeal.Rg

end
-- ==== Proof.IdealCall9.lean ====
/-
  Call 9 of the program (the decoder: a row tile of the last hidden state times the decoder weights, plus the bias row), at any float instance and at any contents `V` of the
  TensorCore's buffers when the call is entered. A grid point reads one block of each input window, whole, and stores
  one block of the output window, whole: the stored block is the call's pure payload of the blocks read. This module
  states that block (`out9`), runs the body once on arbitrary staging buffers (`sound_kernel9`), and packages
  the per-point contents as the pipeline's proof data (`dat9`) with its body obligation at every grid point.
-/
import proofs.«112566_j48309792145741_1_alg».proof.Proof.Gen.KernelIdeal.Launch
import proofs.«112566_j48309792145741_1_alg».proof.Proof.Gen.KernelIdeal.Skeleton
import proofs.«112566_j48309792145741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point's index map selects, read off the
    array as the call finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds the window's block at every grid point, whether the point fetched it or the
    block index stood still since the last fetch: the body never writes an input buffer. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds the window's block at every grid point, whether the point fetched it or the
    block index stood still since the last fetch: the body never writes an input buffer. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds the window's block at every grid point, whether the point fetched it or the
    block index stood still since the last fetch: the body never writes an input buffer. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store go through the whole block -/

abbrev whole9_S10000x64 : Rect S10000x64 := Rect.unit (s := S10000x64) ![0, 0] S10000x64.size inb_S10000x64_S10000x64_0_0
abbrev whole9_S64x64 : Rect S64x64 := Rect.unit (s := S64x64) ![0, 0] S64x64.size inb_S64x64_S64x64_0_0
abbrev whole9_S1x64 : Rect S1x64 := Rect.unit (s := S1x64) ![0, 0] S1x64.size inb_S1x64_S1x64_0_0

/-- What the body leaves in the output window's staging buffer, as a function of the input blocks: its one store,
    the payload of the blocks loaded. -/
def out9 (x0 : Vec F S10000x64 .f32) (x1 : Vec F S64x64 .f32) (x2 : Vec F S1x64 .f32) : Vec F S10000x64 .f32 :=
  View.canon [⟨whole9_S10000x64, k9_pay1 (View.ld x0 whole9_S10000x64) (View.ld x1 whole9_S64x64) (View.ld x2 whole9_S1x64)⟩]

/-- The one store covers the output block. -/
theorem cover9 (p0 : Vec F S10000x64 .f32) (y : S10000x64.Idx) :
    ∃ pc ∈ ([⟨whole9_S10000x64, p0⟩] : List (View.Piece (Elt F) S10000x64 .f32)), y ∈ pc.1.set :=
  View.cover_of_tiled [⟨whole9_S10000x64, p0⟩] S10000x64.size (by rfl) y

/-! ## The body, run once -/

set_option maxHeartbeats 1000000 in
/-- On whole staging buffers, the inputs' reading `x0 …` and the output's holding anything, the body runs to its
    continuation with the inputs' buffers as they were and the output's at `out9` of the inputs. -/
theorem sound_kernel9 (c : Dev nD) (E : Set ℕ) (i : grid9.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9 x0 x1 x2)) -∗ K ⟨⟩))
      ⊢ wp frame (wpE (defs₀ (F := F)) Variants.none c none) E (cc9__affine_kernel i arg1 harg1 arg2 harg2 arg3 harg3 arg4 harg4) K := by
  simp only [cc9__affine_kernel_eq_skeleton]; unfold cc9__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9 _)

/-! ## The pipeline's proof data -/

/-- The proof data of the call on core `c`: each window's array as the call finds it; after the body at point `t`
    every input buffer still at its block and the output buffer at `out9` of the input blocks; nothing kept from
    point to point beyond the scoped rest and the generator register; nothing owed; `q` the share held of each
    input array. -/
def dat9 (q : Fin cfg9.W → PosShare TreeShare) (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 (iblk9 V c 0 t) (iblk9 V c 1 t) (iblk9 V c 2 t)
  Φ _ := Pipeline.ΦA spec9 c
  q := q
  owed _ := 0

variable (q : Fin cfg9.W → PosShare TreeShare)

theorem A_eq9 (c : Dev nD) (w : Fin cfg9.W) : (dat9 V q c).A w = V c (Pipeline.arrRef spec9 w) := by
  dsimp only [dat9]

theorem after9_0 (c : Dev nD) (t : Fin cfg9.N) : (dat9 V q c).after 0 t = iblk9 V c 0 t := by dsimp only [dat9]
theorem after9_1 (c : Dev nD) (t : Fin cfg9.N) : (dat9 V q c).after 1 t = iblk9 V c 1 t := by dsimp only [dat9]
theorem after9_2 (c : Dev nD) (t : Fin cfg9.N) : (dat9 V q c).after 2 t = iblk9 V c 2 t := by dsimp only [dat9]
theorem after9_3 (c : Dev nD) (t : Fin cfg9.N) : (dat9 V q c).after 3 t = out9 (iblk9 V c 0 t) (iblk9 V c 1 t) (iblk9 V c 2 t) := by dsimp only [dat9]

theorem before9_0 (c : Dev nD) (t : Fin cfg9.N) (d) : (dat9 V q c).before 0 t d = iblk9 V c 0 t :=
  before9_0_of V (dat9 V q c) (A_eq9 V q c 0) (after9_0 V q c) t d
theorem before9_1 (c : Dev nD) (t : Fin cfg9.N) (d) : (dat9 V q c).before 1 t d = iblk9 V c 1 t :=
  before9_1_of V (dat9 V q c) (A_eq9 V q c 1) (after9_1 V q c) t d
theorem before9_2 (c : Dev nD) (t : Fin cfg9.N) (d) : (dat9 V q c).before 2 t d = iblk9 V c 2 t :=
  before9_2_of V (dat9 V q c) (A_eq9 V q c 2) (after9_2 V q c) t d

/-! ## The body obligation at a generic grid point -/

/-- What the body is called with at point `t`, -/
def bodyPre9 (c : Dev nD) (t : Fin cfg9.N) : sProp 𝕄 :=
  iprop((dat9 V q c).Φ t.castSucc ∗ (dat9 V q c).owesAt () t.castSucc
    ∗ (∃ d, owns (c : Thread nD τ) (st9_0 t) fullShare ((dat9 V q c).before 0 t d))
    ∗ (∃ d, owns (c : Thread nD τ) (st9_1 t) fullShare ((dat9 V q c).before 1 t d))
    ∗ (∃ d, owns (c : Thread nD τ) (st9_2 t) fullShare ((dat9 V q c).before 2 t d))
    ∗ (∃ d, owns (c : Thread nD τ) (st9_3 t) fullShare ((dat9 V q c).before 3 t d)))

/-- and what it returns. -/
def bodyPost9 (c : Dev nD) (t : Fin cfg9.N) : sProp 𝕄 :=
  iprop((dat9 V q c).Φ t.succ ∗ (dat9 V q c).owesAt () t.succ
    ∗ owns (c : Thread nD τ) (st9_0 t) fullShare ((dat9 V q c).after 0 t)
    ∗ owns (c : Thread nD τ) (st9_1 t) fullShare ((dat9 V q c).after 1 t)
    ∗ owns (c : Thread nD τ) (st9_2 t) fullShare ((dat9 V q c).after 2 t)
    ∗ owns (c : Thread nD τ) (st9_3 t) fullShare ((dat9 V q c).after 3 t))

/-- The body at any point: the inputs' staging buffers hold their blocks, so the one run above applies; the invariant
    and what the core owes pass through unread. -/
theorem sound_body9 (c : Dev nD) (t : Fin cfg9.N) :
    bodyPre9 V q c t ⊢ wp frame (wpE (defs₀ (F := F)) Variants.none c none) Set.univ (bodyAt9 t) (fun _ => bodyPost9 V q c t) := by
  unfold bodyPre9 bodyPost9 bodyAt9
  simp only [before9_0, before9_1, before9_2]
  rw [show (dat9 V q c).Φ t.succ = (dat9 V q c).Φ t.castSucc from rfl,
    show (dat9 V q c).owesAt () t.succ = (dat9 V q c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation9 (c : Dev nD) : BodyObligation (dat9 (F := F) V q c) (defs₀ (F := F)) Variants.none () Set.univ := fun t => by
  rw [bigSep_W9, bigSep_W9]
  exact sound_body9 V q c t

end Cert.KernelIdeal.Rg

end
-- ==== Proof.IdealChain.lean ====
/-
  The contents of the TensorCore's unscoped buffers at each boundary between two items of the program, from the
  launch to the return: a host stretch is the fold of its operations, and a kernel call changes exactly one buffer,
  its output array, which ends at what the pipeline's write-backs leave there (the blocks the grid points stored,
  folded over the grid). Each call's proof data is stated at the contents its call is entered with.
-/
import proofs.«112566_j48309792145741_1_alg».proof.Proof.IdealCall0
import proofs.«112566_j48309792145741_1_alg».proof.Proof.IdealCall1
import proofs.«112566_j48309792145741_1_alg».proof.Proof.IdealCall2
import proofs.«112566_j48309792145741_1_alg».proof.Proof.IdealCall3
import proofs.«112566_j48309792145741_1_alg».proof.Proof.IdealCall4
import proofs.«112566_j48309792145741_1_alg».proof.Proof.IdealCall5
import proofs.«112566_j48309792145741_1_alg».proof.Proof.IdealCall6
import proofs.«112566_j48309792145741_1_alg».proof.Proof.IdealCall7
import proofs.«112566_j48309792145741_1_alg».proof.Proof.IdealCall8
import proofs.«112566_j48309792145741_1_alg».proof.Proof.IdealCall9
import proofs.«112566_j48309792145741_1_alg».proof.Proof.Gen.KernelIdeal.Regions

set_option maxRecDepth 16384

noncomputable section

namespace Cert.KernelIdeal.Rg

open Cert.KernelIdeal Cert.KernelIdeal.Gen
open Idealize.ShloMosaic Idealize.ShloMosaic.TcCoe
open Idealize.SL Idealize.SL.RA Idealize.SL.Sem
open Idealize.ShloMosaic.Pipeline (Dat)

variable {F : FTy → Type} [FloatOps F]

variable (m : (ℓ : Loc nD τ sig) → Buf (Elt F) ℓ)

/-- Every input array held whole: the share of a call whose windows stage pairwise distinct arrays. -/
abbrev wholeShares (n : ℕ) : Fin n → PosShare TreeShare := fun _ => fullShare

/-- Call 2 stages ONE array, the encoder's output, through two windows (the hidden state of the first layer is the
    encoder's output itself): the array's full share is dealt to them as its two halves. -/
def halvedShares : Fin cfg2.W → PosShare TreeShare := fun w => match w with
  | ⟨0, _⟩ => (fullShare : PosShare TreeShare).left
  | ⟨1, _⟩ => (fullShare : PosShare TreeShare).right
  | ⟨2, _⟩ => fullShare
  | ⟨3, _⟩ => fullShare
  | ⟨4, _⟩ => fullShare
  | ⟨5, _⟩ => fullShare

/-- A valuation read at the TensorCore's references: what a call's proof data take. -/
abbrev atTc (X : Dev nD → Valuation τ sig (Elt F)) : (c : Dev nD) → (b : Ref sig .tc) → Buf (Elt F) ((c : Thread nD τ).loc b) :=
  fun c b => X c b

/-- Before the first call: the launch contents after the twelve host stretches that prepare the graph's
    normalisation, the three symmetric mixers and the bias rows. -/
abbrev X12 : Dev nD → Valuation τ sig (Elt F) := fun c => V12 m c

/-- What call 0 leaves in its output array `main_v44`: the write-backs of all grid points. -/
def res0 (c : Dev nD) : Buf (Elt F) ((c : Thread nD τ).loc main_v44) :=
  (dat0 (atTc (X12 m)) (wholeShares _) c).arrAt 3 cfg0.N
/-- After call 0: its output array at `res0`, every other buffer as the call found it. -/
def X13 : Dev nD → Valuation τ sig (Elt F) := fun c => Function.update (X12 m c) main_v44 (res0 m c)
/-- Read at the output array, and at any other buffer. -/
theorem X13_self (c : Dev nD) : X13 m c main_v44 = res0 m c := by
  unfold X13; exact Function.update_self _ _ _
theorem X13_of_ne (c : Dev nD) (b : Ref sig .tc) (hb : b ≠ main_v44) : X13 m c b = X12 m c b := by
  unfold X13; exact Function.update_of_ne (StableHlo.devRef_ne_of_ne hb) _ _

/-- What call 1 leaves in its output array `main_v45`: the write-backs of all grid points. -/
def res1 (c : Dev nD) : Buf (Elt F) ((c : Thread nD τ).loc main_v45) :=
  (dat1 (atTc (X13 m)) (wholeShares _) c).arrAt 2 cfg1.N
/-- After call 1: its output array at `res1`, every other buffer as the call found it. -/
def X14 : Dev nD → Valuation τ sig (Elt F) := fun c => Function.update (X13 m c) main_v45 (res1 m c)
/-- Read at the output array, and at any other buffer. -/
theorem X14_self (c : Dev nD) : X14 m c main_v45 = res1 m c := by
  unfold X14; exact Function.update_self _ _ _
theorem X14_of_ne (c : Dev nD) (b : Ref sig .tc) (hb : b ≠ main_v45) : X14 m c b = X13 m c b := by
  unfold X14; exact Function.update_of_ne (StableHlo.devRef_ne_of_ne hb) _ _

/-- After the host stretch `hostOps2`. -/
abbrev X15 : Dev nD → Valuation τ sig (Elt F) := fun c => StableHlo.after hostOps2 (X14 m c)

/-- What call 2 leaves in its output array `main_v59`: the write-backs of all grid points. -/
def res2 (c : Dev nD) : Buf (Elt F) ((c : Thread nD τ).loc main_v59) :=
  (dat2 (atTc (X15 m)) halvedShares c).arrAt 5 cfg2.N
/-- After call 2: its output array at `res2`, every other buffer as the call found it. -/
def X16 : Dev nD → Valuation τ sig (Elt F) := fun c => Function.update (X15 m c) main_v59 (res2 m c)
/-- Read at the output array, and at any other buffer. -/
theorem X16_self (c : Dev nD) : X16 m c main_v59 = res2 m c := by
  unfold X16; exact Function.update_self _ _ _
theorem X16_of_ne (c : Dev nD) (b : Ref sig .tc) (hb : b ≠ main_v59) : X16 m c b = X15 m c b := by
  unfold X16; exact Function.update_of_ne (StableHlo.devRef_ne_of_ne hb) _ _

/-- What call 3 leaves in its output array `main_v60`: the write-backs of all grid points. -/
def res3 (c : Dev nD) : Buf (Elt F) ((c : Thread nD τ).loc main_v60) :=
  (dat3 (atTc (X16 m)) (wholeShares _) c).arrAt 2 cfg3.N
/-- After call 3: its output array at `res3`, every other buffer as the call found it. -/
def X17 : Dev nD → Valuation τ sig (Elt F) := fun c => Function.update (X16 m c) main_v60 (res3 m c)
/-- Read at the output array, and at any other buffer. -/
theorem X17_self (c : Dev nD) : X17 m c main_v60 = res3 m c := by
  unfold X17; exact Function.update_self _ _ _
theorem X17_of_ne (c : Dev nD) (b : Ref sig .tc) (hb : b ≠ main_v60) : X17 m c b = X16 m c b := by
  unfold X17; exact Function.update_of_ne (StableHlo.devRef_ne_of_ne hb) _ _

/-- After the host stretch `hostOps4`. -/
abbrev X18 : Dev nD → Valuation τ sig (Elt F) := fun c => StableHlo.after hostOps4 (X17 m c)

/-- What call 4 leaves in its output array `main_v74`: the write-backs of all grid points. -/
def res4 (c : Dev nD) : Buf (Elt F) ((c : Thread nD τ).loc main_v74) :=
  (dat4 (atTc (X18 m)) (wholeShares _) c).arrAt 5 cfg4.N
/-- After call 4: its output array at `res4`, every other buffer as the call found it. -/
def X19 : Dev nD → Valuation τ sig (Elt F) := fun c => Function.update (X18 m c) main_v74 (res4 m c)
/-- Read at the output array, and at any other buffer. -/
theorem X19_self (c : Dev nD) : X19 m c main_v74 = res4 m c := by
  unfold X19; exact Function.update_self _ _ _
theorem X19_of_ne (c : Dev nD) (b : Ref sig .tc) (hb : b ≠ main_v74) : X19 m c b = X18 m c b := by
  unfold X19; exact Function.update_of_ne (StableHlo.devRef_ne_of_ne hb) _ _

/-- What call 5 leaves in its output array `main_v75`: the write-backs of all grid points. -/
def res5 (c : Dev nD) : Buf (Elt F) ((c : Thread nD τ).loc main_v75) :=
  (dat5 (atTc (X19 m)) (wholeShares _) c).arrAt 2 cfg5.N
/-- After call 5: its output array at `res5`, every other buffer as the call found it. -/
def X20 : Dev nD → Valuation τ sig (Elt F) := fun c => Function.update (X19 m c) main_v75 (res5 m c)
/-- Read at the output array, and at any other buffer. -/
theorem X20_self (c : Dev nD) : X20 m c main_v75 = res5 m c := by
  unfold X20; exact Function.update_self _ _ _
theorem X20_of_ne (c : Dev nD) (b : Ref sig .tc) (hb : b ≠ main_v75) : X20 m c b = X19 m c b := by
  unfold X20; exact Function.update_of_ne (StableHlo.devRef_ne_of_ne hb) _ _

/-- After the host stretch `hostOps6`. -/
abbrev X21 : Dev nD → Valuation τ sig (Elt F) := fun c => StableHlo.after hostOps6 (X20 m c)

/-- What call 6 leaves in its output array `main_v89`: the write-backs of all grid points. -/
def res6 (c : Dev nD) : Buf (Elt F) ((c : Thread nD τ).loc main_v89) :=
  (dat6 (atTc (X21 m)) (wholeShares _) c).arrAt 5 cfg6.N
/-- After call 6: its output array at `res6`, every other buffer as the call found it. -/
def X22 : Dev nD → Valuation τ sig (Elt F) := fun c => Function.update (X21 m c) main_v89 (res6 m c)
/-- Read at the output array, and at any other buffer. -/
theorem X22_self (c : Dev nD) : X22 m c main_v89 = res6 m c := by
  unfold X22; exact Function.update_self _ _ _
theorem X22_of_ne (c : Dev nD) (b : Ref sig .tc) (hb : b ≠ main_v89) : X22 m c b = X21 m c b := by
  unfold X22; exact Function.update_of_ne (StableHlo.devRef_ne_of_ne hb) _ _

/-- What call 7 leaves in its output array `main_v90`: the write-backs of all grid points. -/
def res7 (c : Dev nD) : Buf (Elt F) ((c : Thread nD τ).loc main_v90) :=
  (dat7 (atTc (X22 m)) (wholeShares _) c).arrAt 2 cfg7.N
/-- After call 7: its output array at `res7`, every other buffer as the call found it. -/
def X23 : Dev nD → Valuation τ sig (Elt F) := fun c => Function.update (X22 m c) main_v90 (res7 m c)
/-- Read at the output array, and at any other buffer. -/
theorem X23_self (c : Dev nD) : X23 m c main_v90 = res7 m c := by
  unfold X23; exact Function.update_self _ _ _
theorem X23_of_ne (c : Dev nD) (b : Ref sig .tc) (hb : b ≠ main_v90) : X23 m c b = X22 m c b := by
  unfold X23; exact Function.update_of_ne (StableHlo.devRef_ne_of_ne hb) _ _

/-- After the host stretch `hostOps8`. -/
abbrev X24 : Dev nD → Valuation τ sig (Elt F) := fun c => StableHlo.after hostOps8 (X23 m c)

/-- What call 8 leaves in its output array `main_v104`: the write-backs of all grid points. -/
def res8 (c : Dev nD) : Buf (Elt F) ((c : Thread nD τ).loc main_v104) :=
  (dat8 (atTc (X24 m)) (wholeShares _) c).arrAt 5 cfg8.N
/-- After call 8: its output array at `res8`, every other buffer as the call found it. -/
def X25 : Dev nD → Valuation τ sig (Elt F) := fun c => Function.update (X24 m c) main_v104 (res8 m c)
/-- Read at the output array, and at any other buffer. -/
theorem X25_self (c : Dev nD) : X25 m c main_v104 = res8 m c := by
  unfold X25; exact Function.update_self _ _ _
theorem X25_of_ne (c : Dev nD) (b : Ref sig .tc) (hb : b ≠ main_v104) : X25 m c b = X24 m c b := by
  unfold X25; exact Function.update_of_ne (StableHlo.devRef_ne_of_ne hb) _ _

/-- After the host stretch `hostOps9`. -/
abbrev X26 : Dev nD → Valuation τ sig (Elt F) := fun c => StableHlo.after hostOps9 (X25 m c)

/-- What call 9 leaves in its output array `main_v106`: the write-backs of all grid points. -/
def res9 (c : Dev nD) : Buf (Elt F) ((c : Thread nD τ).loc main_v106) :=
  (dat9 (atTc (X26 m)) (wholeShares _) c).arrAt 3 cfg9.N
/-- After call 9: its output array at `res9`, every other buffer as the call found it. -/
def X27 : Dev nD → Valuation τ sig (Elt F) := fun c => Function.update (X26 m c) main_v106 (res9 m c)
/-- Read at the output array, and at any other buffer. -/
theorem X27_self (c : Dev nD) : X27 m c main_v106 = res9 m c := by
  unfold X27; exact Function.update_self _ _ _
theorem X27_of_ne (c : Dev nD) (b : Ref sig .tc) (hb : b ≠ main_v106) : X27 m c b = X26 m c b := by
  unfold X27; exact Function.update_of_ne (StableHlo.devRef_ne_of_ne hb) _ _

end Cert.KernelIdeal.Rg

end
-- ==== Proof.IdealShares2.lean ====
/-
  Call 2 reads ONE array, the encoder's output, through two of its input windows (in the first layer the hidden state
  IS the encoder's output), so its six windows stand on five distinct buffers. The core holds each buffer whole; the
  pipeline wants one points-to per window. The full share of the doubly staged array is the composite of its left and
  right halves, one for each of the two windows; the other four windows hold their arrays whole. This module states
  that exchange, in both directions, for any proof data of the call with those shares.
-/
import proofs.«112566_j48309792145741_1_alg».proof.Proof.IdealChain
import Idealize.ShloMosaic.Rules.PointsTo

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- The five distinct buffers behind call 2's six windows. -/
theorem arrays2_image : Finset.univ.image (Pipeline.arrRef spec2) = ([main_v44, main_v58, main_v38, main_v42, main_v59] : List (Ref sig .tc)).toFinset := by
  decide

/-- The buffers behind call 2's arrays, each held whole at contents `V`, are the call's `arrays` at the same contents:
    the doubly staged buffer's full share split into its two halves, and back. -/
theorem arrays2_iff (c : Dev nD) (dat : Dat τ (Elt F) Unit ℕ (UR sig nD τ) ℕ cfg2 c)
    (hq0 : dat.q 0 = (fullShare : PosShare TreeShare).left) (hq1 : dat.q 1 = (fullShare : PosShare TreeShare).right)
    (hq2 : dat.q 2 = fullShare) (hq3 : dat.q 3 = fullShare) (hq4 : dat.q 4 = fullShare)
    (V : (b : Ref sig .tc) → Buf (Elt F) ((c : Thread nD τ).loc b))
    (Fa : (w : Fin cfg2.W) → Buf (Elt F) ((cfg2.win w).arr.view.loc (c.tc : Thread nD τ)))
    (hF : ∀ w, Fa w = V (Pipeline.arrRef spec2 w)) :
    (Pipeline.arrBufs (Ix := Unit) (Name := ℕ) (U := UR sig nD τ) (Lvl := ℕ) spec2 c V : sProp 𝕄) ⊣⊢ dat.arrays Fa := by
  classical
  have hs0 : dat.share 0 = (fullShare : PosShare TreeShare).left := (show dat.share 0 = dat.q 0 from rfl).trans hq0
  have hs1 : dat.share 1 = (fullShare : PosShare TreeShare).right := (show dat.share 1 = dat.q 1 from rfl).trans hq1
  have hs2 : dat.share 2 = fullShare := (show dat.share 2 = dat.q 2 from rfl).trans hq2
  have hs3 : dat.share 3 = fullShare := (show dat.share 3 = dat.q 3 from rfl).trans hq3
  have hs4 : dat.share 4 = fullShare := (show dat.share 4 = dat.q 4 from rfl).trans hq4
  have hs5 : dat.share 5 = fullShare := rfl
  -- every window's array is a whole buffer at the contents `V` has there
  have hA : dat.arrays Fa = bigSep Finset.univ fun w : Fin cfg2.W =>
      ((((c : Thread nD τ).loc (Pipeline.arrRef spec2 w)) ↦{dat.share w} V (Pipeline.arrRef spec2 w)) : sProp 𝕄) := by
    unfold Dat.arrays
    exact bigSep_congr fun w _ => by rw [(arr_whole2 w).set_eq_univ, hF w]
  -- the six windows one by one
  have hA6 : dat.arrays Fa = iprop(
      ((((c : Thread nD τ).loc main_v44) ↦{dat.share 0} V main_v44) : sProp 𝕄)
      ∗ (((c : Thread nD τ).loc main_v44) ↦{dat.share 1} V main_v44)
      ∗ (((c : Thread nD τ).loc main_v58) ↦{dat.share 2} V main_v58)
      ∗ (((c : Thread nD τ).loc main_v38) ↦{dat.share 3} V main_v38)
      ∗ (((c : Thread nD τ).loc main_v42) ↦{dat.share 4} V main_v42)
      ∗ (((c : Thread nD τ).loc main_v59) ↦{dat.share 5} V main_v59)) :=
    hA.trans (bigSep_W2 _)
  -- the five distinct buffers one by one
  have hB5 : (Pipeline.arrBufs (Ix := Unit) (Name := ℕ) (U := UR sig nD τ) (Lvl := ℕ) spec2 c V : sProp 𝕄) = iprop(
      ((((c : Thread nD τ).loc main_v44) ↦{fullShare} V main_v44) : sProp 𝕄)
      ∗ (((c : Thread nD τ).loc main_v58) ↦{fullShare} V main_v58)
      ∗ (((c : Thread nD τ).loc main_v38) ↦{fullShare} V main_v38)
      ∗ (((c : Thread nD τ).loc main_v42) ↦{fullShare} V main_v42)
      ∗ (((c : Thread nD τ).loc main_v59) ↦{fullShare} V main_v59)) := by
    unfold Pipeline.arrBufs
    rw [arrays2_image, bigSep_eq_bigSepL _ (by decide)]
    rfl
  have hsh : ((((c : Thread nD τ).loc main_v44) ↦{(fullShare : PosShare TreeShare)} V main_v44) : sProp 𝕄)
      ⊣⊢ iprop((((c : Thread nD τ).loc main_v44) ↦{(fullShare : PosShare TreeShare).left} V main_v44)
          ∗ (((c : Thread nD τ).loc main_v44) ↦{(fullShare : PosShare TreeShare).right} V main_v44)) :=
    Idealize.ShloMosaic.pointsTo_share (PosShare.mem_left_op_right (fullShare : PosShare TreeShare))
  rw [hA6, hB5, hs0, hs1, hs2, hs3, hs4, hs5]
  constructor
  · iintro ⟨H44, H58, H38, H42, H59⟩
    icases hsh.1 $$ H44 with ⟨Hl, Hr⟩
    isplitl [Hl]; · iexact Hl
    isplitl [Hr]; · iexact Hr
    isplitl [H58]; · iexact H58
    isplitl [H38]; · iexact H38
    isplitl [H42]; · iexact H42
    iexact H59
  · iintro ⟨Hl, Hr, H58, H38, H42, H59⟩
    isplitl [Hl Hr]
    · iapply hsh.2; isplitl [Hl]; · iexact Hl
      iexact Hr
    isplitl [H58]; · iexact H58
    isplitl [H38]; · iexact H38
    isplitl [H42]; · iexact H42
    iexact H59

end Cert.KernelIdeal.Rg

end
-- ==== Proof.IdealRun.lean ====
/-
  The program's run as the pipeline library's list of segments: a host segment per stretch of host operations and a
  region per kernel call, each region entered from "every unscoped buffer at the boundary's contents, the generator
  register at some state, nothing owed" and left at the next boundary's contents. A call's arrays are split out of the
  unscoped buffers at entry and put back at exit with the output array at what the write-backs left. The frame follows:
  no host operation and no call writes an argument array.
-/
import proofs.«112566_j48309792145741_1_alg».proof.Proof.IdealChain
import proofs.«112566_j48309792145741_1_alg».proof.Proof.IdealShares2

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the calls leave, as the generated boundary valuations take them -/

/-- What each call leaves in the buffers it may change, read off this module's chain of boundary contents. -/
def outs : Outs (F := F) := fun J r c => match J with
  | 13 => X13 m c r
  | 14 => X14 m c r
  | 16 => X16 m c r
  | 17 => X17 m c r
  | 19 => X19 m c r
  | 20 => X20 m c r
  | 22 => X22 m c r
  | 23 => X23 m c r
  | 25 => X25 m c r
  | 27 => X27 m c r
  | _ => X12 m c r

theorem V13_eq (c : Dev nD) : V13 m (outs m) c = X13 m c := by
  show Function.update (V12 m c) main_v44 (X13 m c main_v44) = X13 m c
  unfold X13; rw [Function.update_self]
theorem V14_eq (c : Dev nD) : V14 m (outs m) c = X14 m c := by
  show Function.update (V13 m (outs m) c) main_v45 (X14 m c main_v45) = X14 m c
  rw [V13_eq]; unfold X14; rw [Function.update_self]
theorem V15_eq (c : Dev nD) : V15 m (outs m) c = X15 m c := by
  show StableHlo.after hostOps2 (V14 m (outs m) c) = StableHlo.after hostOps2 (X14 m c)
  rw [V14_eq]
theorem V16_eq (c : Dev nD) : V16 m (outs m) c = X16 m c := by
  show Function.update (V15 m (outs m) c) main_v59 (X16 m c main_v59) = X16 m c
  rw [V15_eq]; unfold X16; rw [Function.update_self]
theorem V17_eq (c : Dev nD) : V17 m (outs m) c = X17 m c := by
  show Function.update (V16 m (outs m) c) main_v60 (X17 m c main_v60) = X17 m c
  rw [V16_eq]; unfold X17; rw [Function.update_self]
theorem V18_eq (c : Dev nD) : V18 m (outs m) c = X18 m c := by
  show StableHlo.after hostOps4 (V17 m (outs m) c) = StableHlo.after hostOps4 (X17 m c)
  rw [V17_eq]
theorem V19_eq (c : Dev nD) : V19 m (outs m) c = X19 m c := by
  show Function.update (V18 m (outs m) c) main_v74 (X19 m c main_v74) = X19 m c
  rw [V18_eq]; unfold X19; rw [Function.update_self]
theorem V20_eq (c : Dev nD) : V20 m (outs m) c = X20 m c := by
  show Function.update (V19 m (outs m) c) main_v75 (X20 m c main_v75) = X20 m c
  rw [V19_eq]; unfold X20; rw [Function.update_self]
theorem V21_eq (c : Dev nD) : V21 m (outs m) c = X21 m c := by
  show StableHlo.after hostOps6 (V20 m (outs m) c) = StableHlo.after hostOps6 (X20 m c)
  rw [V20_eq]
theorem V22_eq (c : Dev nD) : V22 m (outs m) c = X22 m c := by
  show Function.update (V21 m (outs m) c) main_v89 (X22 m c main_v89) = X22 m c
  rw [V21_eq]; unfold X22; rw [Function.update_self]
theorem V23_eq (c : Dev nD) : V23 m (outs m) c = X23 m c := by
  show Function.update (V22 m (outs m) c) main_v90 (X23 m c main_v90) = X23 m c
  rw [V22_eq]; unfold X23; rw [Function.update_self]
theorem V24_eq (c : Dev nD) : V24 m (outs m) c = X24 m c := by
  show StableHlo.after hostOps8 (V23 m (outs m) c) = StableHlo.after hostOps8 (X23 m c)
  rw [V23_eq]
theorem V25_eq (c : Dev nD) : V25 m (outs m) c = X25 m c := by
  show Function.update (V24 m (outs m) c) main_v104 (X25 m c main_v104) = X25 m c
  rw [V24_eq]; unfold X25; rw [Function.update_self]
theorem V26_eq (c : Dev nD) : V26 m (outs m) c = X26 m c := by
  show StableHlo.after hostOps9 (V25 m (outs m) c) = StableHlo.after hostOps9 (X25 m c)
  rw [V25_eq]
theorem V27_eq (c : Dev nD) : V27 m (outs m) c = X27 m c := by
  show Function.update (V26 m (outs m) c) main_v106 (X27 m c main_v106) = X27 m c
  rw [V26_eq]; unfold X27; rw [Function.update_self]

/-! ## The proof data family and what rides beside the buffers -/

/-- Every call's proof data, each at the contents its call is entered with. -/
def pdats : (p : Fin 10) → (c : Dev nD) → Dat τ (Elt F) Unit ℕ (UR sig nD τ) ℕ (cfgs p) c
  | ⟨0, _⟩ => fun c => dat0 (atTc (X12 m)) (wholeShares _) c
  | ⟨1, _⟩ => fun c => dat1 (atTc (X13 m)) (wholeShares _) c
  | ⟨2, _⟩ => fun c => dat2 (atTc (X15 m)) halvedShares c
  | ⟨3, _⟩ => fun c => dat3 (atTc (X16 m)) (wholeShares _) c
  | ⟨4, _⟩ => fun c => dat4 (atTc (X18 m)) (wholeShares _) c
  | ⟨5, _⟩ => fun c => dat5 (atTc (X19 m)) (wholeShares _) c
  | ⟨6, _⟩ => fun c => dat6 (atTc (X21 m)) (wholeShares _) c
  | ⟨7, _⟩ => fun c => dat7 (atTc (X22 m)) (wholeShares _) c
  | ⟨8, _⟩ => fun c => dat8 (atTc (X24 m)) (wholeShares _) c
  | ⟨9, _⟩ => fun c => dat9 (atTc (X26 m)) (wholeShares _) c

/-- No core owes another anything: no level is assigned. -/
abbrev L0 : GSem nD τ sig → Finset Unit := fun _ => ∅
abbrev lv0 : GSem nD τ sig → Unit → ℕ := fun _ _ => 0
/-- What rides beside the buffers through every segment: the core's generator register at some state and its `owes`,
    at nothing. -/
abbrev Rr (c : Dev nD) : sProp 𝕄 := iprop((∃ r, prngReg c r) ∗ ∃ W, owes (c : Thread nD τ) (0 : CellTallies nD τ sig Unit) W)

/-- A predicate on a three-, four- or six-element index type holds everywhere once it holds at each index. -/
theorem all_fin3 (P : Fin 3 → Prop) (h0 : P 0) (h1 : P 1) (h2 : P 2) : ∀ w, P w := by
  intro w; fin_cases w <;> assumption
theorem all_fin4 (P : Fin 4 → Prop) (h0 : P 0) (h1 : P 1) (h2 : P 2) (h3 : P 3) : ∀ w, P w := by
  intro w; fin_cases w <;> assumption
theorem all_fin6 (P : Fin 6 → Prop) (h0 : P 0) (h1 : P 1) (h2 : P 2) (h3 : P 3) (h4 : P 4) (h5 : P 5) : ∀ w, P w := by
  intro w; fin_cases w <;> assumption

/-! ## Call 0 as a region -/

/-- Window `w`'s array at call 0's exit holds what the pipeline leaves there. -/
abbrev AtExit0 (c : Dev nD) (w : Fin cfg0.W) : Prop :=
  (pdats m 0 c).arrAt w cfg0.N = atTc (X13 m) c (Pipeline.arrRef spec0 w)
/-- At call 0's exit each of its arrays holds what the pipeline leaves: an input array what it held, the output array
    the write-backs. -/
theorem pdats_0 (c : Dev nD) : pdats m 0 c = dat0 (atTc (X12 m)) (wholeShares _) c := rfl
set_option maxHeartbeats 1600000 in
theorem hF0 (c : Dev nD) : ∀ w : Fin cfg0.W, AtExit0 m c w := by
  unfold AtExit0
  rw [pdats_0]
  exact all_fin4 (fun w => (dat0 (atTc (X12 m)) (wholeShares _) c).arrAt w cfg0.N = atTc (X13 m) c (Pipeline.arrRef spec0 w))
    (((dat0 (atTc (X12 m)) (wholeShares _) c).arrAt_in 0 rfl _).trans ((A_eq0 (atTc (X12 m)) (wholeShares _) c 0).trans (X13_of_ne m c (Pipeline.arrRef spec0 0) (by decide)).symm))
    (((dat0 (atTc (X12 m)) (wholeShares _) c).arrAt_in 1 rfl _).trans ((A_eq0 (atTc (X12 m)) (wholeShares _) c 1).trans (X13_of_ne m c (Pipeline.arrRef spec0 1) (by decide)).symm))
    (((dat0 (atTc (X12 m)) (wholeShares _) c).arrAt_in 2 rfl _).trans ((A_eq0 (atTc (X12 m)) (wholeShares _) c 2).trans (X13_of_ne m c (Pipeline.arrRef spec0 2) (by decide)).symm))
    ((X13_self m c).symm)
/-- and every other buffer what it held at entry. -/
theorem hrest0 (c : Dev nD) : ∀ b, b ∉ Finset.univ.image (Pipeline.arrRef spec0) → atTc (X13 m) c b = atTc (X12 m) c b :=
  fun b hb => X13_of_ne m c b (fun e => hb (Finset.mem_image.mpr ⟨3, Finset.mem_univ _, e.symm⟩))

set_option backward.isDefEq.respectTransparency.types false in
/-- Call 0 over the thread state: entered from every unscoped buffer at `X12`, left at `X13`. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (X12 m)) (wholeShares _) c).loose
  hwaits := Pipeline.hwaits_of_owed_zero _ _ _ _ L0 lv0 0 fun _ _ => rfl
  pre c := iprop(StableHlo.held (c : Thread nD τ) (Pipeline.ucRefs τ sig) (X12 m c) ∗ Rr c)
  post c := iprop(StableHlo.held (c : Thread nD τ) (Pipeline.ucRefs τ sig) (X13 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (X12 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (X12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X12 m) c) (atTc (X13 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 as a region -/

/-- Window `w`'s array at call 1's exit holds what the pipeline leaves there. -/
abbrev AtExit1 (c : Dev nD) (w : Fin cfg1.W) : Prop :=
  (pdats m 1 c).arrAt w cfg1.N = atTc (X14 m) c (Pipeline.arrRef spec1 w)
/-- At call 1's exit each of its arrays holds what the pipeline leaves: an input array what it held, the output array
    the write-backs. -/
theorem pdats_1 (c : Dev nD) : pdats m 1 c = dat1 (atTc (X13 m)) (wholeShares _) c := rfl
set_option maxHeartbeats 1600000 in
theorem hF1 (c : Dev nD) : ∀ w : Fin cfg1.W, AtExit1 m c w := by
  unfold AtExit1
  rw [pdats_1]
  exact all_fin3 (fun w => (dat1 (atTc (X13 m)) (wholeShares _) c).arrAt w cfg1.N = atTc (X14 m) c (Pipeline.arrRef spec1 w))
    (((dat1 (atTc (X13 m)) (wholeShares _) c).arrAt_in 0 rfl _).trans ((A_eq1 (atTc (X13 m)) (wholeShares _) c 0).trans (X14_of_ne m c (Pipeline.arrRef spec1 0) (by decide)).symm))
    (((dat1 (atTc (X13 m)) (wholeShares _) c).arrAt_in 1 rfl _).trans ((A_eq1 (atTc (X13 m)) (wholeShares _) c 1).trans (X14_of_ne m c (Pipeline.arrRef spec1 1) (by decide)).symm))
    ((X14_self m c).symm)
/-- and every other buffer what it held at entry. -/
theorem hrest1 (c : Dev nD) : ∀ b, b ∉ Finset.univ.image (Pipeline.arrRef spec1) → atTc (X14 m) c b = atTc (X13 m) c b :=
  fun b hb => X14_of_ne m c b (fun e => hb (Finset.mem_image.mpr ⟨2, Finset.mem_univ _, e.symm⟩))

set_option backward.isDefEq.respectTransparency.types false in
/-- Call 1 over the thread state: entered from every unscoped buffer at `X13`, left at `X14`. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (X13 m)) (wholeShares _) c).loose
  hwaits := Pipeline.hwaits_of_owed_zero _ _ _ _ L0 lv0 1 fun _ _ => rfl
  pre c := iprop(StableHlo.held (c : Thread nD τ) (Pipeline.ucRefs τ sig) (X13 m c) ∗ Rr c)
  post c := iprop(StableHlo.held (c : Thread nD τ) (Pipeline.ucRefs τ sig) (X14 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (X13 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X13 m) c) (atTc (X14 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 as a region -/

/-- Window `w`'s array at call 2's exit holds what the pipeline leaves there. -/
abbrev AtExit2 (c : Dev nD) (w : Fin cfg2.W) : Prop :=
  (pdats m 2 c).arrAt w cfg2.N = atTc (X16 m) c (Pipeline.arrRef spec2 w)
/-- At call 2's exit each of its arrays holds what the pipeline leaves: an input array what it held, the output array
    the write-backs. -/
theorem pdats_2 (c : Dev nD) : pdats m 2 c = dat2 (atTc (X15 m)) halvedShares c := rfl
set_option maxHeartbeats 1600000 in
theorem hF2 (c : Dev nD) : ∀ w : Fin cfg2.W, AtExit2 m c w := by
  unfold AtExit2
  rw [pdats_2]
  exact all_fin6 (fun w => (dat2 (atTc (X15 m)) halvedShares c).arrAt w cfg2.N = atTc (X16 m) c (Pipeline.arrRef spec2 w))
    (((dat2 (atTc (X15 m)) halvedShares c).arrAt_in 0 rfl _).trans ((A_eq2 (atTc (X15 m)) halvedShares c 0).trans (X16_of_ne m c (Pipeline.arrRef spec2 0) (by decide)).symm))
    (((dat2 (atTc (X15 m)) halvedShares c).arrAt_in 1 rfl _).trans ((A_eq2 (atTc (X15 m)) halvedShares c 1).trans (X16_of_ne m c (Pipeline.arrRef spec2 1) (by decide)).symm))
    (((dat2 (atTc (X15 m)) halvedShares c).arrAt_in 2 rfl _).trans ((A_eq2 (atTc (X15 m)) halvedShares c 2).trans (X16_of_ne m c (Pipeline.arrRef spec2 2) (by decide)).symm))
    (((dat2 (atTc (X15 m)) halvedShares c).arrAt_in 3 rfl _).trans ((A_eq2 (atTc (X15 m)) halvedShares c 3).trans (X16_of_ne m c (Pipeline.arrRef spec2 3) (by decide)).symm))
    (((dat2 (atTc (X15 m)) halvedShares c).arrAt_in 4 rfl _).trans ((A_eq2 (atTc (X15 m)) halvedShares c 4).trans (X16_of_ne m c (Pipeline.arrRef spec2 4) (by decide)).symm))
    ((X16_self m c).symm)
/-- and every other buffer what it held at entry. -/
theorem hrest2 (c : Dev nD) : ∀ b, b ∉ Finset.univ.image (Pipeline.arrRef spec2) → atTc (X16 m) c b = atTc (X15 m) c b :=
  fun b hb => X16_of_ne m c b (fun e => hb (Finset.mem_image.mpr ⟨5, Finset.mem_univ _, e.symm⟩))

set_option backward.isDefEq.respectTransparency.types false in
/-- Call 2 over the thread state: entered from every unscoped buffer at `X15`, left at `X16`. -/
def reg2 : RegionSeg (pcfgs (F := F)) adm (pdats m) () defs₀ Variants.none L0 lv0 2 where
  win := winFacts₀2
  block_pos := block_pos2
  stage_whole := stage_whole2
  K := PEmpty
  osem k := k.elim
  ho := Pipeline.OwnSemFacts.none _
  hbody c := (body_obligation2 (atTc (X15 m)) halvedShares c).loose
  hwaits := Pipeline.hwaits_of_owed_zero _ _ _ _ L0 lv0 2 fun _ _ => rfl
  pre c := iprop(StableHlo.held (c : Thread nD τ) (Pipeline.ucRefs τ sig) (X15 m c) ∗ Rr c)
  post c := iprop(StableHlo.held (c : Thread nD τ) (Pipeline.ucRefs τ sig) (X16 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (X15 m) c)
  hentry c := by
    rw [Pipeline.ownSems0_none]
    have hub : (unscopedBufs c (atTc (X15 m) c) : sProp 𝕄)
        = iprop(Pipeline.arrBufs spec2 c (atTc (X15 m) c) ∗ Pipeline.unscopedRest spec2 c (atTc (X15 m) c)) :=
      Pipeline.unscopedBufs_split₀ cfgs 2 winFacts₀2.arr_unscoped c _
    have harr := (arrays2_iff c (pdats m 2 c) rfl rfl rfl rfl rfl (atTc (X15 m) c) ((pdats m 2 c).arrAt · 0) (fun _ => rfl)).1
    have hsplit : (unscopedBufs c (atTc (X15 m) c) : sProp 𝕄)
        ⊢ iprop((pdats m 2 c).arrays ((pdats m 2 c).arrAt · 0) ∗ Pipeline.unscopedRest spec2 c (atTc (X15 m) c)) := by
      rw [hub]; exact sep_mono harr .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hub : (unscopedBufs c (atTc (X16 m) c) : sProp 𝕄)
        = iprop(Pipeline.arrBufs spec2 c (atTc (X16 m) c) ∗ Pipeline.unscopedRest spec2 c (atTc (X16 m) c)) :=
      Pipeline.unscopedBufs_split₀ cfgs 2 winFacts₀2.arr_unscoped c _
    have harr := (arrays2_iff c (pdats m 2 c) rfl rfl rfl rfl rfl (atTc (X16 m) c) ((pdats m 2 c).arrAt · cfg2.N) (hF2 m c)).2
    have hrest : (Pipeline.unscopedRest (Ix := Unit) (Name := ℕ) (U := UR sig nD τ) (Lvl := ℕ) spec2 c (atTc (X15 m) c) : sProp 𝕄)
        = Pipeline.unscopedRest spec2 c (atTc (X16 m) c) := by
      unfold Pipeline.unscopedRest
      exact bigSep_congr fun b hb => by rw [hrest2 m c b (Finset.mem_sdiff.mp hb).2]
    have hjoin : iprop((pdats m 2 c).arrays ((pdats m 2 c).arrAt · cfg2.N) ∗ Pipeline.unscopedRest spec2 c (atTc (X15 m) c))
        ⊢ (unscopedBufs c (atTc (X16 m) c) : sProp 𝕄) := by
      rw [hub, hrest]; exact sep_mono harr .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 3 as a region -/

/-- Window `w`'s array at call 3's exit holds what the pipeline leaves there. -/
abbrev AtExit3 (c : Dev nD) (w : Fin cfg3.W) : Prop :=
  (pdats m 3 c).arrAt w cfg3.N = atTc (X17 m) c (Pipeline.arrRef spec3 w)
/-- At call 3's exit each of its arrays holds what the pipeline leaves: an input array what it held, the output array
    the write-backs. -/
theorem pdats_3 (c : Dev nD) : pdats m 3 c = dat3 (atTc (X16 m)) (wholeShares _) c := rfl
set_option maxHeartbeats 1600000 in
theorem hF3 (c : Dev nD) : ∀ w : Fin cfg3.W, AtExit3 m c w := by
  unfold AtExit3
  rw [pdats_3]
  exact all_fin3 (fun w => (dat3 (atTc (X16 m)) (wholeShares _) c).arrAt w cfg3.N = atTc (X17 m) c (Pipeline.arrRef spec3 w))
    (((dat3 (atTc (X16 m)) (wholeShares _) c).arrAt_in 0 rfl _).trans ((A_eq3 (atTc (X16 m)) (wholeShares _) c 0).trans (X17_of_ne m c (Pipeline.arrRef spec3 0) (by decide)).symm))
    (((dat3 (atTc (X16 m)) (wholeShares _) c).arrAt_in 1 rfl _).trans ((A_eq3 (atTc (X16 m)) (wholeShares _) c 1).trans (X17_of_ne m c (Pipeline.arrRef spec3 1) (by decide)).symm))
    ((X17_self m c).symm)
/-- and every other buffer what it held at entry. -/
theorem hrest3 (c : Dev nD) : ∀ b, b ∉ Finset.univ.image (Pipeline.arrRef spec3) → atTc (X17 m) c b = atTc (X16 m) c b :=
  fun b hb => X17_of_ne m c b (fun e => hb (Finset.mem_image.mpr ⟨2, Finset.mem_univ _, e.symm⟩))

set_option backward.isDefEq.respectTransparency.types false in
/-- Call 3 over the thread state: entered from every unscoped buffer at `X16`, left at `X17`. -/
def reg3 : RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atTc (X16 m)) (wholeShares _) c).loose
  hwaits := Pipeline.hwaits_of_owed_zero _ _ _ _ L0 lv0 3 fun _ _ => rfl
  pre c := iprop(StableHlo.held (c : Thread nD τ) (Pipeline.ucRefs τ sig) (X16 m c) ∗ Rr c)
  post c := iprop(StableHlo.held (c : Thread nD τ) (Pipeline.ucRefs τ sig) (X17 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (X16 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X16 m) c) (atTc (X17 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 4 as a region -/

/-- Window `w`'s array at call 4's exit holds what the pipeline leaves there. -/
abbrev AtExit4 (c : Dev nD) (w : Fin cfg4.W) : Prop :=
  (pdats m 4 c).arrAt w cfg4.N = atTc (X19 m) c (Pipeline.arrRef spec4 w)
/-- At call 4's exit each of its arrays holds what the pipeline leaves: an input array what it held, the output array
    the write-backs. -/
theorem pdats_4 (c : Dev nD) : pdats m 4 c = dat4 (atTc (X18 m)) (wholeShares _) c := rfl
set_option maxHeartbeats 1600000 in
theorem hF4 (c : Dev nD) : ∀ w : Fin cfg4.W, AtExit4 m c w := by
  unfold AtExit4
  rw [pdats_4]
  exact all_fin6 (fun w => (dat4 (atTc (X18 m)) (wholeShares _) c).arrAt w cfg4.N = atTc (X19 m) c (Pipeline.arrRef spec4 w))
    (((dat4 (atTc (X18 m)) (wholeShares _) c).arrAt_in 0 rfl _).trans ((A_eq4 (atTc (X18 m)) (wholeShares _) c 0).trans (X19_of_ne m c (Pipeline.arrRef spec4 0) (by decide)).symm))
    (((dat4 (atTc (X18 m)) (wholeShares _) c).arrAt_in 1 rfl _).trans ((A_eq4 (atTc (X18 m)) (wholeShares _) c 1).trans (X19_of_ne m c (Pipeline.arrRef spec4 1) (by decide)).symm))
    (((dat4 (atTc (X18 m)) (wholeShares _) c).arrAt_in 2 rfl _).trans ((A_eq4 (atTc (X18 m)) (wholeShares _) c 2).trans (X19_of_ne m c (Pipeline.arrRef spec4 2) (by decide)).symm))
    (((dat4 (atTc (X18 m)) (wholeShares _) c).arrAt_in 3 rfl _).trans ((A_eq4 (atTc (X18 m)) (wholeShares _) c 3).trans (X19_of_ne m c (Pipeline.arrRef spec4 3) (by decide)).symm))
    (((dat4 (atTc (X18 m)) (wholeShares _) c).arrAt_in 4 rfl _).trans ((A_eq4 (atTc (X18 m)) (wholeShares _) c 4).trans (X19_of_ne m c (Pipeline.arrRef spec4 4) (by decide)).symm))
    ((X19_self m c).symm)
/-- and every other buffer what it held at entry. -/
theorem hrest4 (c : Dev nD) : ∀ b, b ∉ Finset.univ.image (Pipeline.arrRef spec4) → atTc (X19 m) c b = atTc (X18 m) c b :=
  fun b hb => X19_of_ne m c b (fun e => hb (Finset.mem_image.mpr ⟨5, Finset.mem_univ _, e.symm⟩))

set_option backward.isDefEq.respectTransparency.types false in
/-- Call 4 over the thread state: entered from every unscoped buffer at `X18`, left at `X19`. -/
def reg4 : RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atTc (X18 m)) (wholeShares _) c).loose
  hwaits := Pipeline.hwaits_of_owed_zero _ _ _ _ L0 lv0 4 fun _ _ => rfl
  pre c := iprop(StableHlo.held (c : Thread nD τ) (Pipeline.ucRefs τ sig) (X18 m c) ∗ Rr c)
  post c := iprop(StableHlo.held (c : Thread nD τ) (Pipeline.ucRefs τ sig) (X19 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (X18 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (X18 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (X18 m) c) (atTc (X19 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 5 as a region -/

/-- Window `w`'s array at call 5's exit holds what the pipeline leaves there. -/
abbrev AtExit5 (c : Dev nD) (w : Fin cfg5.W) : Prop :=
  (pdats m 5 c).arrAt w cfg5.N = atTc (X20 m) c (Pipeline.arrRef spec5 w)
/-- At call 5's exit each of its arrays holds what the pipeline leaves: an input array what it held, the output array
    the write-backs. -/
theorem pdats_5 (c : Dev nD) : pdats m 5 c = dat5 (atTc (X19 m)) (wholeShares _) c := rfl
set_option maxHeartbeats 1600000 in
theorem hF5 (c : Dev nD) : ∀ w : Fin cfg5.W, AtExit5 m c w := by
  unfold AtExit5
  rw [pdats_5]
  exact all_fin3 (fun w => (dat5 (atTc (X19 m)) (wholeShares _) c).arrAt w cfg5.N = atTc (X20 m) c (Pipeline.arrRef spec5 w))
    (((dat5 (atTc (X19 m)) (wholeShares _) c).arrAt_in 0 rfl _).trans ((A_eq5 (atTc (X19 m)) (wholeShares _) c 0).trans (X20_of_ne m c (Pipeline.arrRef spec5 0) (by decide)).symm))
    (((dat5 (atTc (X19 m)) (wholeShares _) c).arrAt_in 1 rfl _).trans ((A_eq5 (atTc (X19 m)) (wholeShares _) c 1).trans (X20_of_ne m c (Pipeline.arrRef spec5 1) (by decide)).symm))
    ((X20_self m c).symm)
/-- and every other buffer what it held at entry. -/
theorem hrest5 (c : Dev nD) : ∀ b, b ∉ Finset.univ.image (Pipeline.arrRef spec5) → atTc (X20 m) c b = atTc (X19 m) c b :=
  fun b hb => X20_of_ne m c b (fun e => hb (Finset.mem_image.mpr ⟨2, Finset.mem_univ _, e.symm⟩))

set_option backward.isDefEq.respectTransparency.types false in
/-- Call 5 over the thread state: entered from every unscoped buffer at `X19`, left at `X20`. -/
def reg5 : RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atTc (X19 m)) (wholeShares _) c).loose
  hwaits := Pipeline.hwaits_of_owed_zero _ _ _ _ L0 lv0 5 fun _ _ => rfl
  pre c := iprop(StableHlo.held (c : Thread nD τ) (Pipeline.ucRefs τ sig) (X19 m c) ∗ Rr c)
  post c := iprop(StableHlo.held (c : Thread nD τ) (Pipeline.ucRefs τ sig) (X20 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (X19 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (X19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (X19 m) c) (atTc (X20 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 6 as a region -/

/-- Window `w`'s array at call 6's exit holds what the pipeline leaves there. -/
abbrev AtExit6 (c : Dev nD) (w : Fin cfg6.W) : Prop :=
  (pdats m 6 c).arrAt w cfg6.N = atTc (X22 m) c (Pipeline.arrRef spec6 w)
/-- At call 6's exit each of its arrays holds what the pipeline leaves: an input array what it held, the output array
    the write-backs. -/
theorem pdats_6 (c : Dev nD) : pdats m 6 c = dat6 (atTc (X21 m)) (wholeShares _) c := rfl
set_option maxHeartbeats 1600000 in
theorem hF6 (c : Dev nD) : ∀ w : Fin cfg6.W, AtExit6 m c w := by
  unfold AtExit6
  rw [pdats_6]
  exact all_fin6 (fun w => (dat6 (atTc (X21 m)) (wholeShares _) c).arrAt w cfg6.N = atTc (X22 m) c (Pipeline.arrRef spec6 w))
    (((dat6 (atTc (X21 m)) (wholeShares _) c).arrAt_in 0 rfl _).trans ((A_eq6 (atTc (X21 m)) (wholeShares _) c 0).trans (X22_of_ne m c (Pipeline.arrRef spec6 0) (by decide)).symm))
    (((dat6 (atTc (X21 m)) (wholeShares _) c).arrAt_in 1 rfl _).trans ((A_eq6 (atTc (X21 m)) (wholeShares _) c 1).trans (X22_of_ne m c (Pipeline.arrRef spec6 1) (by decide)).symm))
    (((dat6 (atTc (X21 m)) (wholeShares _) c).arrAt_in 2 rfl _).trans ((A_eq6 (atTc (X21 m)) (wholeShares _) c 2).trans (X22_of_ne m c (Pipeline.arrRef spec6 2) (by decide)).symm))
    (((dat6 (atTc (X21 m)) (wholeShares _) c).arrAt_in 3 rfl _).trans ((A_eq6 (atTc (X21 m)) (wholeShares _) c 3).trans (X22_of_ne m c (Pipeline.arrRef spec6 3) (by decide)).symm))
    (((dat6 (atTc (X21 m)) (wholeShares _) c).arrAt_in 4 rfl _).trans ((A_eq6 (atTc (X21 m)) (wholeShares _) c 4).trans (X22_of_ne m c (Pipeline.arrRef spec6 4) (by decide)).symm))
    ((X22_self m c).symm)
/-- and every other buffer what it held at entry. -/
theorem hrest6 (c : Dev nD) : ∀ b, b ∉ Finset.univ.image (Pipeline.arrRef spec6) → atTc (X22 m) c b = atTc (X21 m) c b :=
  fun b hb => X22_of_ne m c b (fun e => hb (Finset.mem_image.mpr ⟨5, Finset.mem_univ _, e.symm⟩))

set_option backward.isDefEq.respectTransparency.types false in
/-- Call 6 over the thread state: entered from every unscoped buffer at `X21`, left at `X22`. -/
def reg6 : RegionSeg (pcfgs (F := F)) adm (pdats m) () defs₀ Variants.none L0 lv0 6 where
  win := launch6.win.to₀
  block_pos := launch6.block_pos
  stage_whole := launch6.stage_whole
  K := PEmpty
  osem k := k.elim
  ho := Pipeline.OwnSemFacts.none _
  hbody c := (body_obligation6 (atTc (X21 m)) (wholeShares _) c).loose
  hwaits := Pipeline.hwaits_of_owed_zero _ _ _ _ L0 lv0 6 fun _ _ => rfl
  pre c := iprop(StableHlo.held (c : Thread nD τ) (Pipeline.ucRefs τ sig) (X21 m c) ∗ Rr c)
  post c := iprop(StableHlo.held (c : Thread nD τ) (Pipeline.ucRefs τ sig) (X22 m c) ∗ Rr c)
  X c := iprop(∃ r, prngReg c r)
  Y c := iprop(∃ r, prngReg c r)
  Z c := Pipeline.unscopedRest (Ix := Unit) (Name := ℕ) (U := UR sig nD τ) (Lvl := ℕ) spec6 c (atTc (X21 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (X21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (X21 m) c) (atTc (X22 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 7 as a region -/

/-- Window `w`'s array at call 7's exit holds what the pipeline leaves there. -/
abbrev AtExit7 (c : Dev nD) (w : Fin cfg7.W) : Prop :=
  (pdats m 7 c).arrAt w cfg7.N = atTc (X23 m) c (Pipeline.arrRef spec7 w)
/-- At call 7's exit each of its arrays holds what the pipeline leaves: an input array what it held, the output array
    the write-backs. -/
theorem pdats_7 (c : Dev nD) : pdats m 7 c = dat7 (atTc (X22 m)) (wholeShares _) c := rfl
set_option maxHeartbeats 1600000 in
theorem hF7 (c : Dev nD) : ∀ w : Fin cfg7.W, AtExit7 m c w := by
  unfold AtExit7
  rw [pdats_7]
  exact all_fin3 (fun w => (dat7 (atTc (X22 m)) (wholeShares _) c).arrAt w cfg7.N = atTc (X23 m) c (Pipeline.arrRef spec7 w))
    (((dat7 (atTc (X22 m)) (wholeShares _) c).arrAt_in 0 rfl _).trans ((A_eq7 (atTc (X22 m)) (wholeShares _) c 0).trans (X23_of_ne m c (Pipeline.arrRef spec7 0) (by decide)).symm))
    (((dat7 (atTc (X22 m)) (wholeShares _) c).arrAt_in 1 rfl _).trans ((A_eq7 (atTc (X22 m)) (wholeShares _) c 1).trans (X23_of_ne m c (Pipeline.arrRef spec7 1) (by decide)).symm))
    ((X23_self m c).symm)
/-- and every other buffer what it held at entry. -/
theorem hrest7 (c : Dev nD) : ∀ b, b ∉ Finset.univ.image (Pipeline.arrRef spec7) → atTc (X23 m) c b = atTc (X22 m) c b :=
  fun b hb => X23_of_ne m c b (fun e => hb (Finset.mem_image.mpr ⟨2, Finset.mem_univ _, e.symm⟩))

set_option backward.isDefEq.respectTransparency.types false in
/-- Call 7 over the thread state: entered from every unscoped buffer at `X22`, left at `X23`. -/
def reg7 : RegionSeg (pcfgs (F := F)) adm (pdats m) () defs₀ Variants.none L0 lv0 7 where
  win := launch7.win.to₀
  block_pos := launch7.block_pos
  stage_whole := launch7.stage_whole
  K := PEmpty
  osem k := k.elim
  ho := Pipeline.OwnSemFacts.none _
  hbody c := (body_obligation7 (atTc (X22 m)) (wholeShares _) c).loose
  hwaits := Pipeline.hwaits_of_owed_zero _ _ _ _ L0 lv0 7 fun _ _ => rfl
  pre c := iprop(StableHlo.held (c : Thread nD τ) (Pipeline.ucRefs τ sig) (X22 m c) ∗ Rr c)
  post c := iprop(StableHlo.held (c : Thread nD τ) (Pipeline.ucRefs τ sig) (X23 m c) ∗ Rr c)
  X c := iprop(∃ r, prngReg c r)
  Y c := iprop(∃ r, prngReg c r)
  Z c := Pipeline.unscopedRest (Ix := Unit) (Name := ℕ) (U := UR sig nD τ) (Lvl := ℕ) spec7 c (atTc (X22 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (X22 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (X22 m) c) (atTc (X23 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 8 as a region -/

/-- Window `w`'s array at call 8's exit holds what the pipeline leaves there. -/
abbrev AtExit8 (c : Dev nD) (w : Fin cfg8.W) : Prop :=
  (pdats m 8 c).arrAt w cfg8.N = atTc (X25 m) c (Pipeline.arrRef spec8 w)
/-- At call 8's exit each of its arrays holds what the pipeline leaves: an input array what it held, the output array
    the write-backs. -/
theorem pdats_8 (c : Dev nD) : pdats m 8 c = dat8 (atTc (X24 m)) (wholeShares _) c := rfl
set_option maxHeartbeats 1600000 in
theorem hF8 (c : Dev nD) : ∀ w : Fin cfg8.W, AtExit8 m c w := by
  unfold AtExit8
  rw [pdats_8]
  exact all_fin6 (fun w => (dat8 (atTc (X24 m)) (wholeShares _) c).arrAt w cfg8.N = atTc (X25 m) c (Pipeline.arrRef spec8 w))
    (((dat8 (atTc (X24 m)) (wholeShares _) c).arrAt_in 0 rfl _).trans ((A_eq8 (atTc (X24 m)) (wholeShares _) c 0).trans (X25_of_ne m c (Pipeline.arrRef spec8 0) (by decide)).symm))
    (((dat8 (atTc (X24 m)) (wholeShares _) c).arrAt_in 1 rfl _).trans ((A_eq8 (atTc (X24 m)) (wholeShares _) c 1).trans (X25_of_ne m c (Pipeline.arrRef spec8 1) (by decide)).symm))
    (((dat8 (atTc (X24 m)) (wholeShares _) c).arrAt_in 2 rfl _).trans ((A_eq8 (atTc (X24 m)) (wholeShares _) c 2).trans (X25_of_ne m c (Pipeline.arrRef spec8 2) (by decide)).symm))
    (((dat8 (atTc (X24 m)) (wholeShares _) c).arrAt_in 3 rfl _).trans ((A_eq8 (atTc (X24 m)) (wholeShares _) c 3).trans (X25_of_ne m c (Pipeline.arrRef spec8 3) (by decide)).symm))
    (((dat8 (atTc (X24 m)) (wholeShares _) c).arrAt_in 4 rfl _).trans ((A_eq8 (atTc (X24 m)) (wholeShares _) c 4).trans (X25_of_ne m c (Pipeline.arrRef spec8 4) (by decide)).symm))
    ((X25_self m c).symm)
/-- and every other buffer what it held at entry. -/
theorem hrest8 (c : Dev nD) : ∀ b, b ∉ Finset.univ.image (Pipeline.arrRef spec8) → atTc (X25 m) c b = atTc (X24 m) c b :=
  fun b hb => X25_of_ne m c b (fun e => hb (Finset.mem_image.mpr ⟨5, Finset.mem_univ _, e.symm⟩))

set_option backward.isDefEq.respectTransparency.types false in
/-- Call 8 over the thread state: entered from every unscoped buffer at `X24`, left at `X25`. -/
def reg8 : RegionSeg (pcfgs (F := F)) adm (pdats m) () defs₀ Variants.none L0 lv0 8 where
  win := launch8.win.to₀
  block_pos := launch8.block_pos
  stage_whole := launch8.stage_whole
  K := PEmpty
  osem k := k.elim
  ho := Pipeline.OwnSemFacts.none _
  hbody c := (body_obligation8 (atTc (X24 m)) (wholeShares _) c).loose
  hwaits := Pipeline.hwaits_of_owed_zero _ _ _ _ L0 lv0 8 fun _ _ => rfl
  pre c := iprop(StableHlo.held (c : Thread nD τ) (Pipeline.ucRefs τ sig) (X24 m c) ∗ Rr c)
  post c := iprop(StableHlo.held (c : Thread nD τ) (Pipeline.ucRefs τ sig) (X25 m c) ∗ Rr c)
  X c := iprop(∃ r, prngReg c r)
  Y c := iprop(∃ r, prngReg c r)
  Z c := Pipeline.unscopedRest (Ix := Unit) (Name := ℕ) (U := UR sig nD τ) (Lvl := ℕ) spec8 c (atTc (X24 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atTc (X24 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc (X24 m) c) (atTc (X25 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 9 as a region -/

/-- Window `w`'s array at call 9's exit holds what the pipeline leaves there. -/
abbrev AtExit9 (c : Dev nD) (w : Fin cfg9.W) : Prop :=
  (pdats m 9 c).arrAt w cfg9.N = atTc (X27 m) c (Pipeline.arrRef spec9 w)
/-- At call 9's exit each of its arrays holds what the pipeline leaves: an input array what it held, the output array
    the write-backs. -/
theorem pdats_9 (c : Dev nD) : pdats m 9 c = dat9 (atTc (X26 m)) (wholeShares _) c := rfl
set_option maxHeartbeats 1600000 in
theorem hF9 (c : Dev nD) : ∀ w : Fin cfg9.W, AtExit9 m c w := by
  unfold AtExit9
  rw [pdats_9]
  exact all_fin4 (fun w => (dat9 (atTc (X26 m)) (wholeShares _) c).arrAt w cfg9.N = atTc (X27 m) c (Pipeline.arrRef spec9 w))
    (((dat9 (atTc (X26 m)) (wholeShares _) c).arrAt_in 0 rfl _).trans ((A_eq9 (atTc (X26 m)) (wholeShares _) c 0).trans (X27_of_ne m c (Pipeline.arrRef spec9 0) (by decide)).symm))
    (((dat9 (atTc (X26 m)) (wholeShares _) c).arrAt_in 1 rfl _).trans ((A_eq9 (atTc (X26 m)) (wholeShares _) c 1).trans (X27_of_ne m c (Pipeline.arrRef spec9 1) (by decide)).symm))
    (((dat9 (atTc (X26 m)) (wholeShares _) c).arrAt_in 2 rfl _).trans ((A_eq9 (atTc (X26 m)) (wholeShares _) c 2).trans (X27_of_ne m c (Pipeline.arrRef spec9 2) (by decide)).symm))
    ((X27_self m c).symm)
/-- and every other buffer what it held at entry. -/
theorem hrest9 (c : Dev nD) : ∀ b, b ∉ Finset.univ.image (Pipeline.arrRef spec9) → atTc (X27 m) c b = atTc (X26 m) c b :=
  fun b hb => X27_of_ne m c b (fun e => hb (Finset.mem_image.mpr ⟨3, Finset.mem_univ _, e.symm⟩))

set_option backward.isDefEq.respectTransparency.types false in
/-- Call 9 over the thread state: entered from every unscoped buffer at `X26`, left at `X27`. -/
def reg9 : RegionSeg (pcfgs (F := F)) adm (pdats m) () defs₀ Variants.none L0 lv0 9 where
  win := launch9.win.to₀
  block_pos := launch9.block_pos
  stage_whole := launch9.stage_whole
  K := PEmpty
  osem k := k.elim
  ho := Pipeline.OwnSemFacts.none _
  hbody c := (body_obligation9 (atTc (X26 m)) (wholeShares _) c).loose
  hwaits := Pipeline.hwaits_of_owed_zero _ _ _ _ L0 lv0 9 fun _ _ => rfl
  pre c := iprop(StableHlo.held (c : Thread nD τ) (Pipeline.ucRefs τ sig) (X26 m c) ∗ Rr c)
  post c := iprop(StableHlo.held (c : Thread nD τ) (Pipeline.ucRefs τ sig) (X27 m c) ∗ Rr c)
  X c := iprop(∃ r, prngReg c r)
  Y c := iprop(∃ r, prngReg c r)
  Z c := Pipeline.unscopedRest (Ix := Unit) (Name := ℕ) (U := UR sig nD τ) (Lvl := ℕ) spec9 c (atTc (X26 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atTc (X26 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc (X26 m) c) (atTc (X27 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch makes every core's generator register and its empty `owes`; the semaphores and credits are not needed. -/
theorem launch_rest (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
      ⊢ (|={Set.univ}=> bigSep Finset.univ (fun c : Dev nD => Rr (F := F) c) : sProp 𝕄) := by
  refine Pipeline.initEach L0 lv0 fun c => ?_
  iintro ⟨⟨-, HO, -, Hp, -⟩, -⟩
  imodintro
  isplitl [Hp]; · iexists _; iexact Hp
  iexists ∅; iexact HO

set_option backward.isDefEq.respectTransparency.types false in
/-- Every weakly fair execution of the program from memory `m` terminates, nothing faulting, with the nine argument
    arrays as launched: at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (m := m) (EP := emb₁) (ι := ()) (𝒱₀ := Variants.none) (L := L0) (lv := lv0) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := launch_rest ρ)
    (hE10 := fun c => by iintro ⟨-, H⟩; iexact H)
    (R0 := reg0 m) (hpre0 := fun c => by exact .rfl) (hpost0 := fun c => by rw [V13_eq]; exact .rfl)
    (R1 := reg1 m) (hpre1 := fun c => by rw [V13_eq]; exact .rfl) (hpost1 := fun c => by rw [V14_eq]; exact .rfl)
    (R2 := reg2 m) (hpre2 := fun c => by rw [V15_eq]; exact .rfl) (hpost2 := fun c => by rw [V16_eq]; exact .rfl)
    (R3 := reg3 m) (hpre3 := fun c => by rw [V16_eq]; exact .rfl) (hpost3 := fun c => by rw [V17_eq]; exact .rfl)
    (R4 := reg4 m) (hpre4 := fun c => by rw [V18_eq]; exact .rfl) (hpost4 := fun c => by rw [V19_eq]; exact .rfl)
    (R5 := reg5 m) (hpre5 := fun c => by rw [V19_eq]; exact .rfl) (hpost5 := fun c => by rw [V20_eq]; exact .rfl)
    (R6 := reg6 m) (hpre6 := fun c => by rw [V21_eq]; exact .rfl) (hpost6 := fun c => by rw [V22_eq]; exact .rfl)
    (R7 := reg7 m) (hpre7 := fun c => by rw [V22_eq]; exact .rfl) (hpost7 := fun c => by rw [V23_eq]; exact .rfl)
    (R8 := reg8 m) (hpre8 := fun c => by rw [V24_eq]; exact .rfl) (hpost8 := fun c => by rw [V25_eq]; exact .rfl)
    (R9 := reg9 m) (hpre9 := fun c => by rw [V26_eq]; exact .rfl) (hpost9 := fun c => by rw [V27_eq]; exact .rfl)

end Cert.KernelIdeal.Rg

end
-- ==== Proof.IdealRunAll.lean ====
/-
  The same run read to the end with everything it knows: every weakly fair execution terminates with EVERY unscoped
  buffer of every core at the last boundary's contents. The result array's value and the frame are both instances.
-/
import proofs.«112566_j48309792145741_1_alg».proof.Proof.IdealRun

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Every weakly fair execution of the program from memory `m` terminates, nothing faulting, and in the final memory
    every unscoped buffer of every core holds the last boundary's contents `X27`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = X27 m c b) := by
  have hp0 := (show ∀ c : Dev nD, iprop(StableHlo.held (c : Thread nD τ) (Pipeline.ucRefs τ sig) (V12 m c) ∗ Rr c) ⊢ (reg0 m).pre c from fun c => by exact .rfl)
  have hq0 := (show ∀ c : Dev nD, (reg0 m).post c ⊢ iprop(StableHlo.held (c : Thread nD τ) (Pipeline.ucRefs τ sig) (V13 m (outs m) c) ∗ Rr c) from fun c => by rw [V13_eq]; exact .rfl)
  have hp1 := (show ∀ c : Dev nD, iprop(StableHlo.held (c : Thread nD τ) (Pipeline.ucRefs τ sig) (V13 m (outs m) c) ∗ Rr c) ⊢ (reg1 m).pre c from fun c => by rw [V13_eq]; exact .rfl)
  have hq1 := (show ∀ c : Dev nD, (reg1 m).post c ⊢ iprop(StableHlo.held (c : Thread nD τ) (Pipeline.ucRefs τ sig) (V14 m (outs m) c) ∗ Rr c) from fun c => by rw [V14_eq]; exact .rfl)
  have hp2 := (show ∀ c : Dev nD, iprop(StableHlo.held (c : Thread nD τ) (Pipeline.ucRefs τ sig) (V15 m (outs m) c) ∗ Rr c) ⊢ (reg2 m).pre c from fun c => by rw [V15_eq]; exact .rfl)
  have hq2 := (show ∀ c : Dev nD, (reg2 m).post c ⊢ iprop(StableHlo.held (c : Thread nD τ) (Pipeline.ucRefs τ sig) (V16 m (outs m) c) ∗ Rr c) from fun c => by rw [V16_eq]; exact .rfl)
  have hp3 := (show ∀ c : Dev nD, iprop(StableHlo.held (c : Thread nD τ) (Pipeline.ucRefs τ sig) (V16 m (outs m) c) ∗ Rr c) ⊢ (reg3 m).pre c from fun c => by rw [V16_eq]; exact .rfl)
  have hq3 := (show ∀ c : Dev nD, (reg3 m).post c ⊢ iprop(StableHlo.held (c : Thread nD τ) (Pipeline.ucRefs τ sig) (V17 m (outs m) c) ∗ Rr c) from fun c => by rw [V17_eq]; exact .rfl)
  have hp4 := (show ∀ c : Dev nD, iprop(StableHlo.held (c : Thread nD τ) (Pipeline.ucRefs τ sig) (V18 m (outs m) c) ∗ Rr c) ⊢ (reg4 m).pre c from fun c => by rw [V18_eq]; exact .rfl)
  have hq4 := (show ∀ c : Dev nD, (reg4 m).post c ⊢ iprop(StableHlo.held (c : Thread nD τ) (Pipeline.ucRefs τ sig) (V19 m (outs m) c) ∗ Rr c) from fun c => by rw [V19_eq]; exact .rfl)
  have hp5 := (show ∀ c : Dev nD, iprop(StableHlo.held (c : Thread nD τ) (Pipeline.ucRefs τ sig) (V19 m (outs m) c) ∗ Rr c) ⊢ (reg5 m).pre c from fun c => by rw [V19_eq]; exact .rfl)
  have hq5 := (show ∀ c : Dev nD, (reg5 m).post c ⊢ iprop(StableHlo.held (c : Thread nD τ) (Pipeline.ucRefs τ sig) (V20 m (outs m) c) ∗ Rr c) from fun c => by rw [V20_eq]; exact .rfl)
  have hp6 := (show ∀ c : Dev nD, iprop(StableHlo.held (c : Thread nD τ) (Pipeline.ucRefs τ sig) (V21 m (outs m) c) ∗ Rr c) ⊢ (reg6 m).pre c from fun c => by rw [V21_eq]; exact .rfl)
  have hq6 := (show ∀ c : Dev nD, (reg6 m).post c ⊢ iprop(StableHlo.held (c : Thread nD τ) (Pipeline.ucRefs τ sig) (V22 m (outs m) c) ∗ Rr c) from fun c => by rw [V22_eq]; exact .rfl)
  have hp7 := (show ∀ c : Dev nD, iprop(StableHlo.held (c : Thread nD τ) (Pipeline.ucRefs τ sig) (V22 m (outs m) c) ∗ Rr c) ⊢ (reg7 m).pre c from fun c => by rw [V22_eq]; exact .rfl)
  have hq7 := (show ∀ c : Dev nD, (reg7 m).post c ⊢ iprop(StableHlo.held (c : Thread nD τ) (Pipeline.ucRefs τ sig) (V23 m (outs m) c) ∗ Rr c) from fun c => by rw [V23_eq]; exact .rfl)
  have hp8 := (show ∀ c : Dev nD, iprop(StableHlo.held (c : Thread nD τ) (Pipeline.ucRefs τ sig) (V24 m (outs m) c) ∗ Rr c) ⊢ (reg8 m).pre c from fun c => by rw [V24_eq]; exact .rfl)
  have hq8 := (show ∀ c : Dev nD, (reg8 m).post c ⊢ iprop(StableHlo.held (c : Thread nD τ) (Pipeline.ucRefs τ sig) (V25 m (outs m) c) ∗ Rr c) from fun c => by rw [V25_eq]; exact .rfl)
  have hp9 := (show ∀ c : Dev nD, iprop(StableHlo.held (c : Thread nD τ) (Pipeline.ucRefs τ sig) (V26 m (outs m) c) ∗ Rr c) ⊢ (reg9 m).pre c from fun c => by rw [V26_eq]; exact .rfl)
  have hq9 := (show ∀ c : Dev nD, (reg9 m).post c ⊢ iprop(StableHlo.held (c : Thread nD τ) (Pipeline.ucRefs τ sig) (V27 m (outs m) c) ∗ Rr c) from fun c => by rw [V27_eq]; exact .rfl)
  refine Pipeline.θ_run_regions_kit_dev (pcfgs (F := F)) adm (pdats m) () cellOf_inj emb₁ defs₀ Variants.none L0 lv0 m ρ main
    (segs m (outs m) Variants.none L0 lv0 (fun _ c => Rr c) () (pdats m) (reg0 m) (reg1 m) (reg2 m) (reg3 m) (reg4 m) (reg5 m) (reg6 m) (reg7 m) (reg8 m) (reg9 m))
    (fun c Q => by
      rewrite [main_chain c, Seg.run_eq_chain,
        show (segs m (outs m) Variants.none L0 lv0 (fun _ c => Rr c) () (pdats m) (reg0 m) (reg1 m) (reg2 m) (reg3 m) (reg4 m) (reg5 m) (reg6 m) (reg7 m) (reg8 m) (reg9 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V27 m (outs m) c))
    (hch := fun c => ⟨.rfl, .rfl, .rfl, .rfl, .rfl, .rfl, .rfl, .rfl, .rfl, .rfl, .rfl, .rfl, hp0 c, (hq0 c).trans (hp1 c), hq1 c, hp2 c, (hq2 c).trans (hp3 c), hq3 c, hp4 c, (hq4 c).trans (hp5 c), hq5 c, hp6 c, (hq6 c).trans (hp7 c), hq7 c, hp8 c, hq8 c, hp9 c, (hq9 c).trans (sep_mono .rfl (by iintro ⟨-, H⟩; iexact H))⟩)
    (hinit := ?_) (QY := fun c s => ∀ b ∈ Pipeline.ucRefs τ sig, s.mem ((c : Thread nD τ).1, b) = X27 m c b)
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep' Finset.univ (fun c : Dev nD => StableHlo.held (c : Thread nD τ) (Pipeline.ucRefs τ sig) (V0 m c))]
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rr (F := F) c)]
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V27 m (outs m) c) s') $$ [Hh HSI]
    · isplitl [Hh] <;> iassumption
    icases Hr with ⟨%h, HSI⟩
    imodintro
    isplitr
    · ipureintro
      intro b hb
      rw [← V27_eq m c]
      exact h b hb
    · iexact HSI

end Cert.KernelIdeal.Rg

end
-- ==== Proof.RefFold.lean ====
/-
  The reference program is a straight line of 233 host operations and launches no kernel. Its run is stated here over
  the FOLD of that line: every weakly fair execution terminates, nothing faulting, and every buffer of every core ends
  at `StableHlo.after ops` of the launch contents — each operation rewriting the buffer it writes and leaving the rest.
  The nine argument arrays are written by no operation, so they end as launched. The line itself (`ops`) is the
  printed program's @main, operation by operation.
-/
import proofs.«112566_j48309792145741_1_alg».proof.Proof.Gen.ReferenceIdeal
import Idealize.ShloMosaic.Lib.StableHlo.Run

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- @main's 233 operations, in order (a called function's operations stand in its call's place, spelt `TRef.…`). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v7 main_v22 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    TRef.nullary (TRef.of (T := ⟨S64x64, .i32⟩) main_call1_v0) (iotaInDim S64x64 32 0),
    TRef.nullary (TRef.of (T := ⟨S_, .i32⟩) main_call1_c) (constantI S_ 32 4294967295#32),
    TRef.unary (TRef.of (T := ⟨S_, .i32⟩) main_call1_c) (TRef.of (T := ⟨S64x64, .i32⟩) main_call1_v1) (broadcastInDim S64x64 ![] bcast_S_S64x64),
    TRef.binary (TRef.of (T := ⟨S64x64, .i32⟩) main_call1_v0) (TRef.of (T := ⟨S64x64, .i32⟩) main_call1_v1) (TRef.of (T := ⟨S64x64, .i32⟩) main_call1_v2) addi,
    TRef.nullary (TRef.of (T := ⟨S64x64, .i32⟩) main_call1_v3) (iotaInDim S64x64 32 1),
    TRef.binary (TRef.of (T := ⟨S64x64, .i32⟩) main_call1_v2) (TRef.of (T := ⟨S64x64, .i32⟩) main_call1_v3) (TRef.of (T := ⟨S64x64, .i1⟩) main_call1_v4) (cmpi .sge),
    TRef.nullary (TRef.of (T := ⟨S_, .f32⟩) main_call1_cst) (constant S_ .f32 0x00000000#32),
    TRef.unary (TRef.of (T := ⟨S_, .f32⟩) main_call1_cst) (TRef.of (T := ⟨S64x64, .f32⟩) main_call1_v5) (broadcastInDim S64x64 ![] bcast_S_S64x64),
    TRef.ternary (TRef.of (T := ⟨S64x64, .i1⟩) main_call1_v4) (TRef.of (T := ⟨S64x64, .f32⟩) main_call1_v5) (TRef.of (T := ⟨S64x64, .f32⟩) main_arg4) (TRef.of (T := ⟨S64x64, .f32⟩) main_v31) select,
    TRef.nullary (TRef.of (T := ⟨S64x64, .i32⟩) main_call2_v0) (iotaInDim S64x64 32 0),
    TRef.nullary (TRef.of (T := ⟨S_, .i32⟩) main_call2_c) (constantI S_ 32 0#32),
    TRef.unary (TRef.of (T := ⟨S_, .i32⟩) main_call2_c) (TRef.of (T := ⟨S64x64, .i32⟩) main_call2_v1) (broadcastInDim S64x64 ![] bcast_S_S64x64),
    TRef.binary (TRef.of (T := ⟨S64x64, .i32⟩) main_call2_v0) (TRef.of (T := ⟨S64x64, .i32⟩) main_call2_v1) (TRef.of (T := ⟨S64x64, .i32⟩) main_call2_v2) addi,
    TRef.nullary (TRef.of (T := ⟨S64x64, .i32⟩) main_call2_v3) (iotaInDim S64x64 32 1),
    TRef.binary (TRef.of (T := ⟨S64x64, .i32⟩) main_call2_v2) (TRef.of (T := ⟨S64x64, .i32⟩) main_call2_v3) (TRef.of (T := ⟨S64x64, .i1⟩) main_call2_v4) (cmpi .sge),
    TRef.nullary (TRef.of (T := ⟨S_, .f32⟩) main_call2_cst) (constant S_ .f32 0x00000000#32),
    TRef.unary (TRef.of (T := ⟨S_, .f32⟩) main_call2_cst) (TRef.of (T := ⟨S64x64, .f32⟩) main_call2_v5) (broadcastInDim S64x64 ![] bcast_S_S64x64),
    TRef.ternary (TRef.of (T := ⟨S64x64, .i1⟩) main_call2_v4) (TRef.of (T := ⟨S64x64, .f32⟩) main_call2_v5) (TRef.of (T := ⟨S64x64, .f32⟩) main_arg4) (TRef.of (T := ⟨S64x64, .f32⟩) main_v32) select,
    unary main_v32 main_v33 ((transpose S64x64 [1, 0] · transposes_S64x64_S64x64_1_0) : (⟨S64x64, .f32⟩ : BufTy).Contents (Elt F) → (⟨S64x64, .f32⟩ : BufTy).Contents (Elt F)),
    binary main_v31 main_v33 main_v34 (addf : (⟨S64x64, .f32⟩ : BufTy).Contents (Elt F) → (⟨S64x64, .f32⟩ : BufTy).Contents (Elt F) → (⟨S64x64, .f32⟩ : BufTy).Contents (Elt F)),
    TRef.nullary (TRef.of (T := ⟨S64x64, .i32⟩) main_call3_v0) (iotaInDim S64x64 32 0),
    TRef.nullary (TRef.of (T := ⟨S_, .i32⟩) main_call3_c) (constantI S_ 32 4294967295#32),
    TRef.unary (TRef.of (T := ⟨S_, .i32⟩) main_call3_c) (TRef.of (T := ⟨S64x64, .i32⟩) main_call3_v1) (broadcastInDim S64x64 ![] bcast_S_S64x64),
    TRef.binary (TRef.of (T := ⟨S64x64, .i32⟩) main_call3_v0) (TRef.of (T := ⟨S64x64, .i32⟩) main_call3_v1) (TRef.of (T := ⟨S64x64, .i32⟩) main_call3_v2) addi,
    TRef.nullary (TRef.of (T := ⟨S64x64, .i32⟩) main_call3_v3) (iotaInDim S64x64 32 1),
    TRef.binary (TRef.of (T := ⟨S64x64, .i32⟩) main_call3_v2) (TRef.of (T := ⟨S64x64, .i32⟩) main_call3_v3) (TRef.of (T := ⟨S64x64, .i1⟩) main_call3_v4) (cmpi .sge),
    TRef.nullary (TRef.of (T := ⟨S_, .f32⟩) main_call3_cst) (constant S_ .f32 0x00000000#32),
    TRef.unary (TRef.of (T := ⟨S_, .f32⟩) main_call3_cst) (TRef.of (T := ⟨S64x64, .f32⟩) main_call3_v5) (broadcastInDim S64x64 ![] bcast_S_S64x64),
    TRef.ternary (TRef.of (T := ⟨S64x64, .i1⟩) main_call3_v4) (TRef.of (T := ⟨S64x64, .f32⟩) main_call3_v5) (TRef.of (T := ⟨S64x64, .f32⟩) main_arg5) (TRef.of (T := ⟨S64x64, .f32⟩) main_v35) select,
    TRef.nullary (TRef.of (T := ⟨S64x64, .i32⟩) main_call4_v0) (iotaInDim S64x64 32 0),
    TRef.nullary (TRef.of (T := ⟨S_, .i32⟩) main_call4_c) (constantI S_ 32 0#32),
    TRef.unary (TRef.of (T := ⟨S_, .i32⟩) main_call4_c) (TRef.of (T := ⟨S64x64, .i32⟩) main_call4_v1) (broadcastInDim S64x64 ![] bcast_S_S64x64),
    TRef.binary (TRef.of (T := ⟨S64x64, .i32⟩) main_call4_v0) (TRef.of (T := ⟨S64x64, .i32⟩) main_call4_v1) (TRef.of (T := ⟨S64x64, .i32⟩) main_call4_v2) addi,
    TRef.nullary (TRef.of (T := ⟨S64x64, .i32⟩) main_call4_v3) (iotaInDim S64x64 32 1),
    TRef.binary (TRef.of (T := ⟨S64x64, .i32⟩) main_call4_v2) (TRef.of (T := ⟨S64x64, .i32⟩) main_call4_v3) (TRef.of (T := ⟨S64x64, .i1⟩) main_call4_v4) (cmpi .sge),
    TRef.nullary (TRef.of (T := ⟨S_, .f32⟩) main_call4_cst) (constant S_ .f32 0x00000000#32),
    TRef.unary (TRef.of (T := ⟨S_, .f32⟩) main_call4_cst) (TRef.of (T := ⟨S64x64, .f32⟩) main_call4_v5) (broadcastInDim S64x64 ![] bcast_S_S64x64),
    TRef.ternary (TRef.of (T := ⟨S64x64, .i1⟩) main_call4_v4) (TRef.of (T := ⟨S64x64, .f32⟩) main_call4_v5) (TRef.of (T := ⟨S64x64, .f32⟩) main_arg5) (TRef.of (T := ⟨S64x64, .f32⟩) main_v36) select,
    unary main_v36 main_v37 ((transpose S64x64 [1, 0] · transposes_S64x64_S64x64_1_0) : (⟨S64x64, .f32⟩ : BufTy).Contents (Elt F) → (⟨S64x64, .f32⟩ : BufTy).Contents (Elt F)),
    binary main_v35 main_v37 main_v38 (addf : (⟨S64x64, .f32⟩ : BufTy).Contents (Elt F) → (⟨S64x64, .f32⟩ : BufTy).Contents (Elt F) → (⟨S64x64, .f32⟩ : BufTy).Contents (Elt F)),
    TRef.nullary (TRef.of (T := ⟨S64x64, .i32⟩) main_call5_v0) (iotaInDim S64x64 32 0),
    TRef.nullary (TRef.of (T := ⟨S_, .i32⟩) main_call5_c) (constantI S_ 32 4294967295#32),
    TRef.unary (TRef.of (T := ⟨S_, .i32⟩) main_call5_c) (TRef.of (T := ⟨S64x64, .i32⟩) main_call5_v1) (broadcastInDim S64x64 ![] bcast_S_S64x64),
    TRef.binary (TRef.of (T := ⟨S64x64, .i32⟩) main_call5_v0) (TRef.of (T := ⟨S64x64, .i32⟩) main_call5_v1) (TRef.of (T := ⟨S64x64, .i32⟩) main_call5_v2) addi,
    TRef.nullary (TRef.of (T := ⟨S64x64, .i32⟩) main_call5_v3) (iotaInDim S64x64 32 1),
    TRef.binary (TRef.of (T := ⟨S64x64, .i32⟩) main_call5_v2) (TRef.of (T := ⟨S64x64, .i32⟩) main_call5_v3) (TRef.of (T := ⟨S64x64, .i1⟩) main_call5_v4) (cmpi .sge),
    TRef.nullary (TRef.of (T := ⟨S_, .f32⟩) main_call5_cst) (constant S_ .f32 0x00000000#32),
    TRef.unary (TRef.of (T := ⟨S_, .f32⟩) main_call5_cst) (TRef.of (T := ⟨S64x64, .f32⟩) main_call5_v5) (broadcastInDim S64x64 ![] bcast_S_S64x64),
    TRef.ternary (TRef.of (T := ⟨S64x64, .i1⟩) main_call5_v4) (TRef.of (T := ⟨S64x64, .f32⟩) main_call5_v5) (TRef.of (T := ⟨S64x64, .f32⟩) main_arg6) (TRef.of (T := ⟨S64x64, .f32⟩) main_v39) select,
    TRef.nullary (TRef.of (T := ⟨S64x64, .i32⟩) main_call6_v0) (iotaInDim S64x64 32 0),
    TRef.nullary (TRef.of (T := ⟨S_, .i32⟩) main_call6_c) (constantI S_ 32 0#32),
    TRef.unary (TRef.of (T := ⟨S_, .i32⟩) main_call6_c) (TRef.of (T := ⟨S64x64, .i32⟩) main_call6_v1) (broadcastInDim S64x64 ![] bcast_S_S64x64),
    TRef.binary (TRef.of (T := ⟨S64x64, .i32⟩) main_call6_v0) (TRef.of (T := ⟨S64x64, .i32⟩) main_call6_v1) (TRef.of (T := ⟨S64x64, .i32⟩) main_call6_v2) addi,
    TRef.nullary (TRef.of (T := ⟨S64x64, .i32⟩) main_call6_v3) (iotaInDim S64x64 32 1),
    TRef.binary (TRef.of (T := ⟨S64x64, .i32⟩) main_call6_v2) (TRef.of (T := ⟨S64x64, .i32⟩) main_call6_v3) (TRef.of (T := ⟨S64x64, .i1⟩) main_call6_v4) (cmpi .sge),
    TRef.nullary (TRef.of (T := ⟨S_, .f32⟩) main_call6_cst) (constant S_ .f32 0x00000000#32),
    TRef.unary (TRef.of (T := ⟨S_, .f32⟩) main_call6_cst) (TRef.of (T := ⟨S64x64, .f32⟩) main_call6_v5) (broadcastInDim S64x64 ![] bcast_S_S64x64),
    TRef.ternary (TRef.of (T := ⟨S64x64, .i1⟩) main_call6_v4) (TRef.of (T := ⟨S64x64, .f32⟩) main_call6_v5) (TRef.of (T := ⟨S64x64, .f32⟩) main_arg6) (TRef.of (T := ⟨S64x64, .f32⟩) main_v40) select,
    unary main_v40 main_v41 ((transpose S64x64 [1, 0] · transposes_S64x64_S64x64_1_0) : (⟨S64x64, .f32⟩ : BufTy).Contents (Elt F) → (⟨S64x64, .f32⟩ : BufTy).Contents (Elt F)),
    binary main_v39 main_v41 main_v42 (addf : (⟨S64x64, .f32⟩ : BufTy).Contents (Elt F) → (⟨S64x64, .f32⟩ : BufTy).Contents (Elt F) → (⟨S64x64, .f32⟩ : BufTy).Contents (Elt F)),
    binary main_arg0 main_arg2 main_v43 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    binary main_v46 main_v34 main_v47 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v48 (broadcastInDim S1700000 ![] bcast_S_S1700000 : (⟨S_, .i32⟩ : BufTy).Contents (Elt F) → (⟨S1700000, .i32⟩ : BufTy).Contents (Elt F)),
    binary main_v5 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v50 (broadcastInDim S1700000 ![] bcast_S_S1700000 : (⟨S_, .i32⟩ : BufTy).Contents (Elt F) → (⟨S1700000, .i32⟩ : BufTy).Contents (Elt F)),
    binary main_v5 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v5 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v47 main_v53 main_v54 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v55 (broadcastInDim S1700000x1 ![0] bcast_S1700000_S1700000x1_0 : (⟨S1700000, .f32⟩ : BufTy).Contents (Elt F) → (⟨S1700000x1, .f32⟩ : BufTy).Contents (Elt F)),
    unary main_v55 main_v56 (broadcastInDim S1700000x64 ![0, 1] bcast_S1700000x1_S1700000x64_0_1 : (⟨S1700000x1, .f32⟩ : BufTy).Contents (Elt F) → (⟨S1700000x64, .f32⟩ : BufTy).Contents (Elt F)),
    binary main_v54 main_v56 main_v57 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v58 (broadcastInDim S100000x64 ![] bcast_S_S100000x64 : (⟨S_, .f32⟩ : BufTy).Contents (Elt F) → (⟨S100000x64, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v46 main_v38 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v60 main_v61 main_v62 (subf : (⟨S100000x64, .f32⟩ : BufTy).Contents (Elt F) → (⟨S100000x64, .f32⟩ : BufTy).Contents (Elt F) → (⟨S100000x64, .f32⟩ : BufTy).Contents (Elt F)),
    binary main_v46 main_v42 main_v63 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v62 main_v63 main_v64 (subf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v64) (TRef.of (T := ⟨S100000x64, .f32⟩) main_call7_v0) (TRef.of (T := ⟨S100000x64, .f32⟩) main_v65) maximumf,
    nullary main_cst_9 (constant S_ .f32 0x3F800000#32),
    unary main_cst_9 main_v66 (broadcastInDim S100000x64 ![] bcast_S_S100000x64 : (⟨S_, .f32⟩ : BufTy).Contents (Elt F) → (⟨S100000x64, .f32⟩ : BufTy).Contents (Elt F)),
    binary main_v66 main_v65 main_v67 (mulf : (⟨S100000x64, .f32⟩ : BufTy).Contents (Elt F) → (⟨S100000x64, .f32⟩ : BufTy).Contents (Elt F) → (⟨S100000x64, .f32⟩ : BufTy).Contents (Elt F)),
    binary main_v46 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v68) (TRef.of (T := ⟨S100000x64, .f32⟩) main_call8_v0) (TRef.of (T := ⟨S100000x64, .f32⟩) main_v69) maximumf,
    binary main_v69 main_v34 main_v70 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v71 (broadcastInDim S1700000 ![] bcast_S_S1700000 : (⟨S_, .i32⟩ : BufTy).Contents (Elt F) → (⟨S1700000, .i32⟩ : BufTy).Contents (Elt F)),
    binary main_v5 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v73 (broadcastInDim S1700000 ![] bcast_S_S1700000 : (⟨S_, .i32⟩ : BufTy).Contents (Elt F) → (⟨S1700000, .i32⟩ : BufTy).Contents (Elt F)),
    binary main_v5 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v5 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v70 main_v76 main_v77 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v78 (broadcastInDim S1700000x1 ![0] bcast_S1700000_S1700000x1_0 : (⟨S1700000, .f32⟩ : BufTy).Contents (Elt F) → (⟨S1700000x1, .f32⟩ : BufTy).Contents (Elt F)),
    unary main_v78 main_v79 (broadcastInDim S1700000x64 ![0, 1] bcast_S1700000x1_S1700000x64_0_1 : (⟨S1700000x1, .f32⟩ : BufTy).Contents (Elt F) → (⟨S1700000x64, .f32⟩ : BufTy).Contents (Elt F)),
    binary main_v77 main_v79 main_v80 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v81 (broadcastInDim S100000x64 ![] bcast_S_S100000x64 : (⟨S_, .f32⟩ : BufTy).Contents (Elt F) → (⟨S100000x64, .f32⟩ : BufTy).Contents (Elt F)),
    unary main_v6 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v69 main_v38 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v83 main_v84 main_v85 (subf : (⟨S100000x64, .f32⟩ : BufTy).Contents (Elt F) → (⟨S100000x64, .f32⟩ : BufTy).Contents (Elt F) → (⟨S100000x64, .f32⟩ : BufTy).Contents (Elt F)),
    binary main_v46 main_v42 main_v86 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v85 main_v86 main_v87 (subf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v87) (TRef.of (T := ⟨S100000x64, .f32⟩) main_call9_v0) (TRef.of (T := ⟨S100000x64, .f32⟩) main_v88) maximumf,
    nullary main_cst_13 (constant S_ .f32 0x3F800000#32),
    unary main_cst_13 main_v89 (broadcastInDim S100000x64 ![] bcast_S_S100000x64 : (⟨S_, .f32⟩ : BufTy).Contents (Elt F) → (⟨S100000x64, .f32⟩ : BufTy).Contents (Elt F)),
    binary main_v89 main_v88 main_v90 (mulf : (⟨S100000x64, .f32⟩ : BufTy).Contents (Elt F) → (⟨S100000x64, .f32⟩ : BufTy).Contents (Elt F) → (⟨S100000x64, .f32⟩ : BufTy).Contents (Elt F)),
    binary main_v69 main_v90 main_v91 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x64, .f32⟩) main_call10_v0) (broadcastInDim S100000x64 ![] bcast_S_S100000x64),
    TRef.binary (TRef.of (T := ⟨S100000x64, .f32⟩) main_v91) (TRef.of (T := ⟨S100000x64, .f32⟩) main_call10_v0) (TRef.of (T := ⟨S100000x64, .f32⟩) main_v92) maximumf,
    binary main_v92 main_v34 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v94 (broadcastInDim S1700000 ![] bcast_S_S1700000 : (⟨S_, .i32⟩ : BufTy).Contents (Elt F) → (⟨S1700000, .i32⟩ : BufTy).Contents (Elt F)),
    binary main_v5 main_v94 main_v95 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v96 (broadcastInDim S1700000 ![] bcast_S_S1700000 : (⟨S_, .i32⟩ : BufTy).Contents (Elt F) → (⟨S1700000, .i32⟩ : BufTy).Contents (Elt F)),
    binary main_v5 main_v96 main_v97 (addi : (⟨S1700000, .i32⟩ : BufTy).Contents (Elt F) → (⟨S1700000, .i32⟩ : BufTy).Contents (Elt F) → (⟨S1700000, .i32⟩ : BufTy).Contents (Elt F)),
    ternary main_v95 main_v97 main_v5 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v98 main_v99 (broadcastInDim S1700000x1 ![0] bcast_S1700000_S1700000x1_0 : (⟨S1700000, .i32⟩ : BufTy).Contents (Elt F) → (⟨S1700000x1, .i32⟩ : BufTy).Contents (Elt F)),
    binary main_v93 main_v99 main_v100 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v101 (broadcastInDim S1700000x1 ![0] bcast_S1700000_S1700000x1_0 : (⟨S1700000, .f32⟩ : BufTy).Contents (Elt F) → (⟨S1700000x1, .f32⟩ : BufTy).Contents (Elt F)),
    unary main_v101 main_v102 (broadcastInDim S1700000x64 ![0, 1] bcast_S1700000x1_S1700000x64_0_1 : (⟨S1700000x1, .f32⟩ : BufTy).Contents (Elt F) → (⟨S1700000x64, .f32⟩ : BufTy).Contents (Elt F)),
    binary main_v100 main_v102 main_v103 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v104 (broadcastInDim S100000x64 ![] bcast_S_S100000x64 : (⟨S_, .f32⟩ : BufTy).Contents (Elt F) → (⟨S100000x64, .f32⟩ : BufTy).Contents (Elt F)),
    unary main_v6 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v92 main_v38 main_v107 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v106 main_v107 main_v108 (subf : (⟨S100000x64, .f32⟩ : BufTy).Contents (Elt F) → (⟨S100000x64, .f32⟩ : BufTy).Contents (Elt F) → (⟨S100000x64, .f32⟩ : BufTy).Contents (Elt F)),
    binary main_v46 main_v42 main_v109 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v108 main_v109 main_v110 (subf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x64, .f32⟩) main_call11_v0) (broadcastInDim S100000x64 ![] bcast_S_S100000x64),
    TRef.binary (TRef.of (T := ⟨S100000x64, .f32⟩) main_v110) (TRef.of (T := ⟨S100000x64, .f32⟩) main_call11_v0) (TRef.of (T := ⟨S100000x64, .f32⟩) main_v111) maximumf,
    nullary main_cst_17 (constant S_ .f32 0x3F800000#32),
    unary main_cst_17 main_v112 (broadcastInDim S100000x64 ![] bcast_S_S100000x64 : (⟨S_, .f32⟩ : BufTy).Contents (Elt F) → (⟨S100000x64, .f32⟩ : BufTy).Contents (Elt F)),
    binary main_v112 main_v111 main_v113 (mulf : (⟨S100000x64, .f32⟩ : BufTy).Contents (Elt F) → (⟨S100000x64, .f32⟩ : BufTy).Contents (Elt F) → (⟨S100000x64, .f32⟩ : BufTy).Contents (Elt F)),
    binary main_v92 main_v113 main_v114 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S100000x64, .f32⟩) main_call12_v0) (broadcastInDim S100000x64 ![] bcast_S_S100000x64),
    TRef.binary (TRef.of (T := ⟨S100000x64, .f32⟩) main_v114) (TRef.of (T := ⟨S100000x64, .f32⟩) main_call12_v0) (TRef.of (T := ⟨S100000x64, .f32⟩) main_v115) maximumf,
    binary main_v115 main_v34 main_v116 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_18 (constantI S_ 32 0#32),
    unary main_c_18 main_v117 (broadcastInDim S1700000 ![] bcast_S_S1700000 : (⟨S_, .i32⟩ : BufTy).Contents (Elt F) → (⟨S1700000, .i32⟩ : BufTy).Contents (Elt F)),
    binary main_v5 main_v117 main_v118 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v119 (broadcastInDim S1700000 ![] bcast_S_S1700000 : (⟨S_, .i32⟩ : BufTy).Contents (Elt F) → (⟨S1700000, .i32⟩ : BufTy).Contents (Elt F)),
    binary main_v5 main_v119 main_v120 (addi : (⟨S1700000, .i32⟩ : BufTy).Contents (Elt F) → (⟨S1700000, .i32⟩ : BufTy).Contents (Elt F) → (⟨S1700000, .i32⟩ : BufTy).Contents (Elt F)),
    ternary main_v118 main_v120 main_v5 main_v121 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v121 main_v122 (broadcastInDim S1700000x1 ![0] bcast_S1700000_S1700000x1_0 : (⟨S1700000, .i32⟩ : BufTy).Contents (Elt F) → (⟨S1700000x1, .i32⟩ : BufTy).Contents (Elt F)),
    binary main_v116 main_v122 main_v123 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v124 (broadcastInDim S1700000x1 ![0] bcast_S1700000_S1700000x1_0 : (⟨S1700000, .f32⟩ : BufTy).Contents (Elt F) → (⟨S1700000x1, .f32⟩ : BufTy).Contents (Elt F)),
    unary main_v124 main_v125 (broadcastInDim S1700000x64 ![0, 1] bcast_S1700000x1_S1700000x64_0_1 : (⟨S1700000x1, .f32⟩ : BufTy).Contents (Elt F) → (⟨S1700000x64, .f32⟩ : BufTy).Contents (Elt F)),
    binary main_v123 main_v125 main_v126 (mulf : (⟨S1700000x64, .f32⟩ : BufTy).Contents (Elt F) → (⟨S1700000x64, .f32⟩ : BufTy).Contents (Elt F) → (⟨S1700000x64, .f32⟩ : BufTy).Contents (Elt F)),
    nullary main_cst_20 (constant S_ .f32 0x00000000#32),
    unary main_cst_20 main_v127 (broadcastInDim S100000x64 ![] bcast_S_S100000x64 : (⟨S_, .f32⟩ : BufTy).Contents (Elt F) → (⟨S100000x64, .f32⟩ : BufTy).Contents (Elt F)),
    unary main_v6 main_v128 (broadcastInDim S1700000x1 ![0] bcast_S1700000_S1700000x1_0 : (⟨S1700000, .i32⟩ : BufTy).Contents (Elt F) → (⟨S1700000x1, .i32⟩ : BufTy).Contents (Elt F)),
    ternary main_v127 main_v128 main_v126 main_v129 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v115 main_v38 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v129 main_v130 main_v131 (subf : (⟨S100000x64, .f32⟩ : BufTy).Contents (Elt F) → (⟨S100000x64, .f32⟩ : BufTy).Contents (Elt F) → (⟨S100000x64, .f32⟩ : BufTy).Contents (Elt F)),
    binary main_v46 main_v42 main_v132 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v131 main_v132 main_v133 (subf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x64, .f32⟩) main_call13_v0) (broadcastInDim S100000x64 ![] bcast_S_S100000x64),
    TRef.binary (TRef.of (T := ⟨S100000x64, .f32⟩) main_v133) (TRef.of (T := ⟨S100000x64, .f32⟩) main_call13_v0) (TRef.of (T := ⟨S100000x64, .f32⟩) main_v134) maximumf,
    nullary main_cst_21 (constant S_ .f32 0x3F800000#32),
    unary main_cst_21 main_v135 (broadcastInDim S100000x64 ![] bcast_S_S100000x64 : (⟨S_, .f32⟩ : BufTy).Contents (Elt F) → (⟨S100000x64, .f32⟩ : BufTy).Contents (Elt F)),
    binary main_v135 main_v134 main_v136 (mulf : (⟨S100000x64, .f32⟩ : BufTy).Contents (Elt F) → (⟨S100000x64, .f32⟩ : BufTy).Contents (Elt F) → (⟨S100000x64, .f32⟩ : BufTy).Contents (Elt F)),
    binary main_v115 main_v136 main_v137 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S100000x64, .f32⟩) main_call14_v0) (broadcastInDim S100000x64 ![] bcast_S_S100000x64),
    TRef.binary (TRef.of (T := ⟨S100000x64, .f32⟩) main_v137) (TRef.of (T := ⟨S100000x64, .f32⟩) main_call14_v0) (TRef.of (T := ⟨S100000x64, .f32⟩) main_v138) maximumf,
    binary main_v138 main_arg7 main_v139 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v139 main_v141 main_v142 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., binary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., binary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., binary_bufs_sub ..⟩

/-- Every weakly fair execution of the reference terminates with every buffer at the fold of the line over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (launchContents m d) (Proc.devRef .tc b) :=
  run_seq scopedRefs_eq scopedSems_eq defs main (fun _ => ops) main_eq (fun _ => ops_sub) m ρ

end Cert.ReferenceIdeal.Fold

end
-- ==== Proof.RefFrame.lean ====
/-
  The reference program is host operations only: no kernel is launched. Every buffer ends at the fold of its line of
  operations over the launch contents; no operation of the line writes an argument array, so the fold leaves each of
  them as launched: the reference's frame.
-/
import proofs.«112566_j48309792145741_1_alg».proof.Defs
import proofs.«112566_j48309792145741_1_alg».proof.Proof.RefFold
import proofs.«112566_j48309792145741_1_alg».proof.Proof.Gen.Pre_finite_inputs

noncomputable section

open Idealize.ShloMosaic Idealize.ShloMosaic.TcCoe Idealize.SL.Sem Idealize.ShloMosaic.StableHlo

namespace Cert.ReferenceIdeal.Fold

open Cert.ReferenceIdeal Cert.ReferenceIdeal.Gen

variable {F : FTy → Type} [FloatOps F]

set_option maxRecDepth 8192 in
set_option maxHeartbeats 4000000 in
/-- The line writes none of the nine argument arrays. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8) :=
  ⟨by after_results_simp <;> rfl, by after_results_simp <;> rfl, by after_results_simp <;> rfl, by after_results_simp <;> rfl,
   by after_results_simp <;> rfl, by after_results_simp <;> rfl, by after_results_simp <;> rfl, by after_results_simp <;> rfl,
   by after_results_simp <;> rfl⟩

end Cert.ReferenceIdeal.Fold

namespace Cert.Proof.Frames

/-- The reference runs to the end, faults nowhere and leaves its nine argument arrays as launched. -/
theorem frame_reference : Cert.frame_ReferenceIdeal := fun m ρ _ =>
  (θ_run Cert.ReferenceIdeal.defs _ _).mono (fun _ h c =>
      have k := Cert.ReferenceIdeal.Fold.args_kept (F := Ideal) (launchContents m c)
      ⟨(h c _).trans k.1, (h c _).trans k.2.1, (h c _).trans k.2.2.1, (h c _).trans k.2.2.2.1, (h c _).trans k.2.2.2.2.1,
       (h c _).trans k.2.2.2.2.2.1, (h c _).trans k.2.2.2.2.2.2.1, (h c _).trans k.2.2.2.2.2.2.2.1, (h c _).trans k.2.2.2.2.2.2.2.2⟩)
    (Cert.ReferenceIdeal.Fold.run_fold (F := Ideal) m ρ)

end Cert.Proof.Frames

end
-- ==== Proof.IdealFrameK.lean ====
/-
  What each item of the program leaves unchanged: a kernel call rewrites its one output array and a host stretch the
  buffers its operations write; every other buffer keeps its contents across the item.
-/
import proofs.«112566_j48309792145741_1_alg».proof.Proof.IdealChain

set_option maxRecDepth 16384

noncomputable section

namespace Cert.KernelIdeal.Rg

open Cert.KernelIdeal Cert.KernelIdeal.Gen
open Idealize.ShloMosaic Idealize.ShloMosaic.TcCoe
open Idealize.SL Idealize.SL.RA Idealize.SL.Sem

variable {F : FTy → Type} [FloatOps F]
variable (m : (ℓ : Loc nD τ sig) → Buf (Elt F) ℓ)

theorem X13_of (c : Dev nD) (r : Ref sig .tc) (h : r ∉ ([main_v44] : List (Ref sig .tc))) : X13 m c r = X12 m c r := by
  simp only [X13, Function.update_of_ne (StableHlo.devRef_ne_of_ne (List.ne_of_not_mem_cons h) : (Proc.devRef .tc r : DevRef τ sig) ≠ Proc.devRef .tc main_v44)]
theorem X13_out (c : Dev nD) : X13 m c main_v44 = res0 m c := by
  simp only [X13, Function.update_self]

theorem X14_of (c : Dev nD) (r : Ref sig .tc) (h : r ∉ ([main_v45] : List (Ref sig .tc))) : X14 m c r = X13 m c r := by
  simp only [X14, Function.update_of_ne (StableHlo.devRef_ne_of_ne (List.ne_of_not_mem_cons h) : (Proc.devRef .tc r : DevRef τ sig) ≠ Proc.devRef .tc main_v45)]
theorem X14_out (c : Dev nD) : X14 m c main_v45 = res1 m c := by
  simp only [X14, Function.update_self]

theorem X15_of (c : Dev nD) (r : Ref sig .tc) (h : r ∉ hostOps2_W) : X15 m c r = X14 m c r :=
  StableHlo.after_of_writes_sub hostOps2 _ hostOps2_writes h

theorem X16_of (c : Dev nD) (r : Ref sig .tc) (h : r ∉ ([main_v59] : List (Ref sig .tc))) : X16 m c r = X15 m c r := by
  simp only [X16, Function.update_of_ne (StableHlo.devRef_ne_of_ne (List.ne_of_not_mem_cons h) : (Proc.devRef .tc r : DevRef τ sig) ≠ Proc.devRef .tc main_v59)]
theorem X16_out (c : Dev nD) : X16 m c main_v59 = res2 m c := by
  simp only [X16, Function.update_self]

theorem X17_of (c : Dev nD) (r : Ref sig .tc) (h : r ∉ ([main_v60] : List (Ref sig .tc))) : X17 m c r = X16 m c r := by
  simp only [X17, Function.update_of_ne (StableHlo.devRef_ne_of_ne (List.ne_of_not_mem_cons h) : (Proc.devRef .tc r : DevRef τ sig) ≠ Proc.devRef .tc main_v60)]
theorem X17_out (c : Dev nD) : X17 m c main_v60 = res3 m c := by
  simp only [X17, Function.update_self]

theorem X18_of (c : Dev nD) (r : Ref sig .tc) (h : r ∉ hostOps4_W) : X18 m c r = X17 m c r :=
  StableHlo.after_of_writes_sub hostOps4 _ hostOps4_writes h

theorem X19_of (c : Dev nD) (r : Ref sig .tc) (h : r ∉ ([main_v74] : List (Ref sig .tc))) : X19 m c r = X18 m c r := by
  simp only [X19, Function.update_of_ne (StableHlo.devRef_ne_of_ne (List.ne_of_not_mem_cons h) : (Proc.devRef .tc r : DevRef τ sig) ≠ Proc.devRef .tc main_v74)]
theorem X19_out (c : Dev nD) : X19 m c main_v74 = res4 m c := by
  simp only [X19, Function.update_self]

theorem X20_of (c : Dev nD) (r : Ref sig .tc) (h : r ∉ ([main_v75] : List (Ref sig .tc))) : X20 m c r = X19 m c r := by
  simp only [X20, Function.update_of_ne (StableHlo.devRef_ne_of_ne (List.ne_of_not_mem_cons h) : (Proc.devRef .tc r : DevRef τ sig) ≠ Proc.devRef .tc main_v75)]
theorem X20_out (c : Dev nD) : X20 m c main_v75 = res5 m c := by
  simp only [X20, Function.update_self]

theorem X21_of (c : Dev nD) (r : Ref sig .tc) (h : r ∉ hostOps6_W) : X21 m c r = X20 m c r :=
  StableHlo.after_of_writes_sub hostOps6 _ hostOps6_writes h

theorem X22_of (c : Dev nD) (r : Ref sig .tc) (h : r ∉ ([main_v89] : List (Ref sig .tc))) : X22 m c r = X21 m c r := by
  simp only [X22, Function.update_of_ne (StableHlo.devRef_ne_of_ne (List.ne_of_not_mem_cons h) : (Proc.devRef .tc r : DevRef τ sig) ≠ Proc.devRef .tc main_v89)]
theorem X22_out (c : Dev nD) : X22 m c main_v89 = res6 m c := by
  simp only [X22, Function.update_self]

theorem X23_of (c : Dev nD) (r : Ref sig .tc) (h : r ∉ ([main_v90] : List (Ref sig .tc))) : X23 m c r = X22 m c r := by
  simp only [X23, Function.update_of_ne (StableHlo.devRef_ne_of_ne (List.ne_of_not_mem_cons h) : (Proc.devRef .tc r : DevRef τ sig) ≠ Proc.devRef .tc main_v90)]
theorem X23_out (c : Dev nD) : X23 m c main_v90 = res7 m c := by
  simp only [X23, Function.update_self]

theorem X24_of (c : Dev nD) (r : Ref sig .tc) (h : r ∉ hostOps8_W) : X24 m c r = X23 m c r :=
  StableHlo.after_of_writes_sub hostOps8 _ hostOps8_writes h

theorem X25_of (c : Dev nD) (r : Ref sig .tc) (h : r ∉ ([main_v104] : List (Ref sig .tc))) : X25 m c r = X24 m c r := by
  simp only [X25, Function.update_of_ne (StableHlo.devRef_ne_of_ne (List.ne_of_not_mem_cons h) : (Proc.devRef .tc r : DevRef τ sig) ≠ Proc.devRef .tc main_v104)]
theorem X25_out (c : Dev nD) : X25 m c main_v104 = res8 m c := by
  simp only [X25, Function.update_self]

theorem X26_of (c : Dev nD) (r : Ref sig .tc) (h : r ∉ hostOps9_W) : X26 m c r = X25 m c r :=
  StableHlo.after_of_writes_sub hostOps9 _ hostOps9_writes h

theorem X27_of (c : Dev nD) (r : Ref sig .tc) (h : r ∉ ([main_v106] : List (Ref sig .tc))) : X27 m c r = X26 m c r := by
  simp only [X27, Function.update_of_ne (StableHlo.devRef_ne_of_ne (List.ne_of_not_mem_cons h) : (Proc.devRef .tc r : DevRef τ sig) ≠ Proc.devRef .tc main_v106)]
theorem X27_out (c : Dev nD) : X27 m c main_v106 = res9 m c := by
  simp only [X27, Function.update_self]

end Cert.KernelIdeal.Rg

end
-- ==== Proof.LibLineResults.lean ====
/-
  Reading a straight line of host operations: three general facts used by every stage lemma of this certificate.

  * The contents after two lines run one after the other are the second line's contents after the first's.
  * An operation over a literal family of FIVE operand references (a concatenation of five arrays) writes its
    function applied to each operand's contents taken at that operand's own reference, so that a reader can go on
    rewriting those contents one operation further back.
  * A tactic that unrolls a literal line at a reference in one simplification pass, the five-operand fact included.
-/
import Idealize.ShloMosaic.Lib.StableHlo.Run

noncomputable section

namespace Idealize.ShloMosaic.StableHlo

open Idealize.ShloMosaic

variable {τ : Topo} {sig : RefSig} {Val : EltTy → Type}

/-- The contents after a concatenated line: the second part's fold over the first part's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {x a b c e y : Ref sig .tc}

/-- A five-operand operation's result, each operand's contents at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, with the result reference kept out of the simplifier's index. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- Unrolls a literal line of host operations at one reference in a single pass: every operation's result at its
    own result reference becomes its function's value, at any other reference what was there before. -/
macro "line_results" : tactic =>
  `(tactic| (simp (disch := decide) only [after_cons, after_nil,
      nullary_result', unary_result', binary_result', ternary_result', quaternary_result', reshape_result', nary5_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.IdealSpec.lean ====
/-
  The four whole-array functions the chain of calls computes, written with the host's own operations over the full
  [100000,64] arrays, and each read at one entry: a product's entry is the sum over the contracted axis, the bias is
  added from its one row, and the layer's update is the positive part of the hidden entry plus one times the positive
  part of the aggregate minus the two products.
-/
import proofs.«112566_j48309792145741_1_alg».proof.ReferenceIdeal
import proofs.«112566_j48309792145741_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.Spec

open Cert.ReferenceIdeal Cert.ReferenceIdeal.Gen
open Idealize.ShloMosaic Idealize.ShloMosaic.TcCoe Idealize.ShloMosaic.ValueIdx Idealize.ShloMosaic.StableHlo
open Idealize.SL.Sem

variable {F : FTy → Type} [FloatOps F]

abbrev Arr (F : FTy → Type) [FloatOps F] := (⟨S100000x64, .f32⟩ : BufTy).Contents (Elt F)
abbrev Mat (F : FTy → Type) [FloatOps F] := (⟨S64x64, .f32⟩ : BufTy).Contents (Elt F)
abbrev Row (F : FTy → Type) [FloatOps F] := (⟨S1x64, .f32⟩ : BufTy).Contents (Elt F)
abbrev Inp (F : FTy → Type) [FloatOps F] := (⟨S100000x128, .f32⟩ : BufTy).Contents (Elt F)
abbrev MatI (F : FTy → Type) [FloatOps F] := (⟨S128x64, .f32⟩ : BufTy).Contents (Elt F)

theorem r64_lhs0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem r64_lhs1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem r64_rhs0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem r64_rhs1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem r128_lhs0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem r128_lhs1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem r128_rhs0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem r128_rhs1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The hidden state times a mixer. -/
def mixF (h : Arr F) (w : Mat F) : Arr F := Host.dotGeneral dot_S100000x64_S64x64_S100000x64_1_0_0_1_n_n none h w
/-- The input times the encoder's matrix. -/
def inpF (x : Inp F) (w : MatI F) : Arr F := Host.dotGeneral dot_S100000x128_S128x64_S100000x64_1_0_0_1_n_n none x w

theorem mixF_apply (x : (⟨S100000x64, .f32⟩ : BufTy).Contents (Elt Ideal)) (w : (⟨S64x64, .f32⟩ : BufTy).Contents (Elt Ideal)) (r : Fin 100000) (j : Fin 64) :
    mixF (F := Ideal) x w (ix2 r j) = ∑ k : Fin 64, x (ix2 r k) * w (ix2 k j) := by
  unfold mixF
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact r64_lhs0 _ _
    | ⟨1, _⟩ => exact (r64_lhs1 _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (r64_rhs0 _ _).trans hk
    | ⟨1, _⟩ => exact r64_rhs1 _ _)
  rw [el, er]

theorem inpF_apply (x : (⟨S100000x128, .f32⟩ : BufTy).Contents (Elt Ideal)) (w : (⟨S128x64, .f32⟩ : BufTy).Contents (Elt Ideal)) (r : Fin 100000) (j : Fin 64) :
    inpF (F := Ideal) x w (ix2 r j) = ∑ k : Fin 128, x (ix2 r k) * w (ix2 k j) := by
  unfold inpF
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r j) ((contrEquiv1 dot_S100000x128_S128x64_S100000x64_1_0_0_1_n_n 128 rfl rfl).symm k) = ix2 r k := funext fun a => Fin.ext (by
    match a with
    | ⟨0, _⟩ => exact r128_lhs0 _ _
    | ⟨1, _⟩ => exact (r128_lhs1 _ _).trans hk)
  have er : dot_S100000x128_S128x64_S100000x64_1_0_0_1_n_n.rhsIdx (ix2 r j) ((contrEquiv1 dot_S100000x128_S128x64_S100000x64_1_0_0_1_n_n 128 rfl rfl).symm k) = ix2 k j := funext fun a => Fin.ext (by
    match a with
    | ⟨0, _⟩ => exact (r128_rhs0 _ _).trans hk
    | ⟨1, _⟩ => exact r128_rhs1 _ _)
  rw [el, er]

/-- The zero and the one array of the update. -/
def zeroA : Arr F := broadcastInDim S100000x64 ![] bcast_S_S100000x64 (constant S_ .f32 0x00000000#32)
def oneA : Arr F := broadcastInDim S100000x64 ![] bcast_S_S100000x64 (constant S_ .f32 0x3F800000#32)

theorem zeroA_apply (i : S100000x64.Idx) : zeroA (F := Ideal) i = Ideal.ofBits .f32 0x00000000#32 := by
  unfold zeroA
  exact (broadcastInDim_apply _ bcast_S_S100000x64 _ i (fun a => a.elim0) (fun a => a.elim0)).trans rfl
theorem oneA_apply (i : S100000x64.Idx) : oneA (F := Ideal) i = Ideal.ofBits .f32 0x3F800000#32 := by
  unfold oneA
  exact (broadcastInDim_apply _ bcast_S_S100000x64 _ i (fun a => a.elim0) (fun a => a.elim0)).trans rfl

/-- A bias row added to every row. -/
def biasA (b : Row F) : Arr F := broadcastInDim S100000x64 ![0, 1] bcast_S1x64_S100000x64_0_1 b

theorem biasA_apply (b : Row F) (r : Fin 100000) (j : Fin 64) : biasA b (ix2 r j) = b (ix2 (0 : Fin 1) j) := by
  unfold biasA
  exact broadcastInDim_apply _ bcast_S1x64_S100000x64_0_1 b (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])

/-- The encoder: the input times its matrix plus the bias row. -/
def encF (x : Inp F) (w : MatI F) (b : Row F) : Arr F := addf (inpF x w) (biasA b)

theorem encF_apply (x : Inp Ideal) (w : MatI Ideal) (b : Row Ideal) (r : Fin 100000) (j : Fin 64) :
    encF (F := Ideal) x w b (ix2 r j) = (∑ k : Fin 128, x (ix2 r k) * w (ix2 k j)) + b (ix2 (0 : Fin 1) j) := by
  rw [← inpF_apply x w r j, ← biasA_apply b r j]; rfl

/-- The decoder: the hidden state times its matrix plus the bias row. -/
def decF (h : Arr F) (w : Mat F) (b : Row F) : Arr F := addf (mixF h w) (biasA b)

theorem decF_apply (h : Arr Ideal) (w : Mat Ideal) (b : Row Ideal) (r : Fin 100000) (j : Fin 64) :
    decF (F := Ideal) h w b (ix2 r j) = (∑ k : Fin 64, h (ix2 r k) * w (ix2 k j)) + b (ix2 (0 : Fin 1) j) := by
  rw [← mixF_apply h w r j, ← biasA_apply b r j]; rfl

/-- One layer's update of the hidden state. -/
def updF (h x0 agg : Arr F) (we w0 : Mat F) : Arr F :=
  maximumf (addf h (mulf oneA (maximumf (subf (subf agg (mixF h we)) (mixF x0 w0)) zeroA))) zeroA

theorem updF_apply (h x0 agg : Arr Ideal) (we w0 : Mat Ideal) (r : Fin 100000) (j : Fin 64) :
    updF (F := Ideal) h x0 agg we w0 (ix2 r j)
      = max (h (ix2 r j) + Ideal.ofBits .f32 0x3F800000#32 * max (agg (ix2 r j) - (∑ k : Fin 64, h (ix2 r k) * we (ix2 k j)) - (∑ k : Fin 64, x0 (ix2 r k) * w0 (ix2 k j))) (Ideal.ofBits .f32 0x00000000#32)) (Ideal.ofBits .f32 0x00000000#32) := by
  rw [← mixF_apply h we r j, ← mixF_apply x0 w0 r j, ← zeroA_apply (ix2 r j), ← oneA_apply (ix2 r j)]; rfl

end Cert.Proof.Spec

end
-- ==== Proof.IdealSpec2.lean ====
/-
  The host-side pieces of the network in the host's own operations: the edge lists with self-loops, the symmetric
  normalisation of the graph, the symmetric mixers, a bias row, one layer's sparse aggregation (gather the mixed rows
  by source, weigh, scatter-add by target), one whole layer, and the network: encoder, four layers, decoder.
-/
import proofs.«112566_j48309792145741_1_alg».proof.Proof.IdealSpec

set_option maxRecDepth 16384

noncomputable section

namespace Cert.Proof.Spec

open Cert.ReferenceIdeal Cert.ReferenceIdeal.Gen
open Idealize.ShloMosaic Idealize.ShloMosaic.TcCoe Idealize.ShloMosaic.ValueIdx Idealize.ShloMosaic.StableHlo
open Idealize.SL.Sem

variable {F : FTy → Type} [FloatOps F]

abbrev Edg (F : FTy → Type) [FloatOps F] := (⟨S1700000, .i32⟩ : BufTy).Contents (Elt F)
abbrev EdgF (F : FTy → Type) [FloatOps F] := (⟨S1700000, .f32⟩ : BufTy).Contents (Elt F)
abbrev Pairs (F : FTy → Type) [FloatOps F] := (⟨S2x1600000, .i32⟩ : BufTy).Contents (Elt F)
abbrev Vec64 (F : FTy → Type) [FloatOps F] := (⟨S64, .f32⟩ : BufTy).Contents (Elt F)

/-- The sources: the first row of the edge pairs followed by every node (its self-loop). -/
def rowF (x1 : Pairs F) : Edg F :=
  concatenate S1700000 0 [⟨S1600000, shapeCast _ (extractStridedSlice S1x1600000 ![0, 0] x1 slices_S2x1600000_S1x1600000_0_0) shapeCasts_S1x1600000_S1600000⟩, ⟨S100000, iotaInDim S100000 32 0⟩] concatenates_S1600000_S100000_S1700000_d0
/-- The targets: the second row followed by every node. -/
def colF (x1 : Pairs F) : Edg F :=
  concatenate S1700000 0 [⟨S1600000, shapeCast _ (extractStridedSlice S1x1600000 ![1, 0] x1 slices_S2x1600000_S1x1600000_1_0) shapeCasts_S1x1600000_S1600000⟩, ⟨S100000, iotaInDim S100000 32 0⟩] concatenates_S1600000_S100000_S1700000_d0

/-- A node list as gather indices: a negative entry wrapped round by the node count, as one column. -/
def wrapIdx (r : Edg F) : (⟨S1700000x1, .i32⟩ : BufTy).Contents (Elt F) :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- Every edge weighs one. -/
def onesE : EdgF F := broadcastInDim S1700000 ![] bcast_S_S1700000 (constant S_ .f32 0x3F800000#32)

/-- A node's degree: the edges that end in it, summed. -/
def degF (col : Edg F) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col) onesE

/-- The inverse square root of a positive degree, zero otherwise. -/
def dinvF (col : Edg F) : (⟨S100000, .f32⟩ : BufTy).Contents (Elt F) :=
  select (cmpf .ogt (degF col) (broadcastInDim S100000 ![] bcast_S_S100000 (constant S_ .f32 0x00000000#32)))
    (Host.rsqrt (degF col))
    (broadcastInDim S100000 ![] bcast_S_S100000 (id (constant S_ .f32 0x00000000#32)))

/-- An edge's weight: its two ends' inverse square roots times one. -/
def normF (row col : Edg F) : EdgF F :=
  mulf (mulf (Host.gather gather_S100000_S1700000x1_S1700000_n_0_n_n_0_1_1 (dinvF col) (wrapIdx row)) onesE)
    (Host.gather gather_S100000_S1700000x1_S1700000_n_0_n_n_0_1_1 (dinvF col) (wrapIdx col))

/-- The upper triangle of a square matrix from diagonal `-k` up (the word `k` added to the row number). -/
def triuF (k : BitVec 32) (w : Mat F) : Mat F :=
  select (cmpi .sge (addi (iotaInDim S64x64 32 0) (broadcastInDim S64x64 ![] bcast_S_S64x64 (constantI S_ 32 k))) (iotaInDim S64x64 32 1))
    (broadcastInDim S64x64 ![] bcast_S_S64x64 (constant S_ .f32 0x00000000#32)) w

/-- A mixer made symmetric: its upper triangle plus the transpose of its strict upper triangle. -/
def symF (w : Mat F) : Mat F :=
  addf (triuF 4294967295#32 w) (transpose S64x64 [1, 0] (triuF 0#32 w) transposes_S64x64_S64x64_1_0)

/-- A bias vector as a one-row matrix. -/
def rowB (b : Vec64 F) : Row F := broadcastInDim S1x64 ![1] bcast_S64_S1x64_1 b

/-- One layer's aggregation: the mixed rows gathered by source, weighed by the edge, scatter-added by target. -/
def aggF (hw : Arr F) (row col : Edg F) (norm : EdgF F) : Arr F :=
  Host.scatterAdd scatter_S100000x64_S1700000x1_S1700000x64_1_0_0_1
    zeroA
    (broadcastInDim S1700000x1 ![0] bcast_S1700000_S1700000x1_0 col)
    (mulf (Host.gather gather_S100000x64_S1700000x1_S1700000x64_1_0_n_n_0_1_164 hw (wrapIdx row))
      (broadcastInDim S1700000x64 ![0, 1] bcast_S1700000x1_S1700000x64_0_1 (broadcastInDim S1700000x1 ![0] bcast_S1700000_S1700000x1_0 norm)))

/-- One layer. -/
def layerF (h x0 : Arr F) (wi we w0 : Mat F) (row col : Edg F) (norm : EdgF F) : Arr F :=
  updF h x0 (aggF (mixF h wi) row col norm) we w0

/-- The network. -/
def finalF (x0 : Inp F) (x1 : Pairs F) (x2 : MatI F) (x3 : Vec64 F) (x4 x5 x6 x7 : Mat F) (x8 : Vec64 F) : Arr F :=
  decF (layerF (layerF (layerF (layerF (encF x0 x2 (rowB x3)) (encF x0 x2 (rowB x3)) (symF x4) (symF x5) (symF x6) (rowF x1) (colF x1) (normF (rowF x1) (colF x1)))
      (encF x0 x2 (rowB x3)) (symF x4) (symF x5) (symF x6) (rowF x1) (colF x1) (normF (rowF x1) (colF x1)))
      (encF x0 x2 (rowB x3)) (symF x4) (symF x5) (symF x6) (rowF x1) (colF x1) (normF (rowF x1) (colF x1)))
      (encF x0 x2 (rowB x3)) (symF x4) (symF x5) (symF x6) (rowF x1) (colF x1) (normF (rowF x1) (colF x1)))
    x7 (rowB x8)

/-- The column index of a one-row matrix as an index of the bias vector. -/
abbrev rowIdx (i : S1x64.Idx) : S64.Idx := fun a => match a with
  | ⟨0, _⟩ => ⟨(i 1).val, (i 1).isLt⟩

/-- A bias vector reshaped to one row is the same one-row matrix. -/
theorem reshape_eq_rowB (b : Vec64 F) (h : S64.ShapeCasts S1x64) : (shapeCast S1x64 b h : Row F) = rowB b := by
  funext i
  unfold rowB
  refine (shapeCast_apply b h i (rowIdx i) ?_).trans
    (broadcastInDim_apply _ bcast_S64_S1x64_1 b i (rowIdx i) (fun a => match a with
      | ⟨0, _⟩ => by show (i 1).val = if (64 : Nat) = 1 then 0 else (i 1).val; rw [if_neg (by decide)])).symm
  rewrite [Shape.rowMajor_val_one, Shape.rowMajor_val_two]
  have h0 : (i 0).val < 1 := (i 0).isLt
  show (i 1).val = (i 0).val * 64 + (i 1).val
  omega

end Cert.Proof.Spec

end
-- ==== Proof.IdealHostK.lean ====
/-
  The host stretches between the calls, read at the buffers the next call stages: each layer's sparse aggregation is
  the same chain of host operations — wrap the source list, gather the mixed rows, weigh each by its edge, scatter-add
  by target — applied to the mixer call's output, and the decoder's bias row is the bias vector reshaped.
-/
import proofs.«112566_j48309792145741_1_alg».proof.Proof.IdealChain
import proofs.«112566_j48309792145741_1_alg».proof.Proof.LibLineResults
import proofs.«112566_j48309792145741_1_alg».proof.Proof.IdealSpec2

set_option maxRecDepth 16384

noncomputable section

namespace Cert.KernelIdeal.Rg

open Cert.KernelIdeal Cert.KernelIdeal.Gen
open Idealize.ShloMosaic Idealize.ShloMosaic.TcCoe Idealize.ShloMosaic.StableHlo
open Idealize.SL.Sem
open Cert.Proof.Spec (aggF rowB reshape_eq_rowB)

set_option maxHeartbeats 2000000 in
/-- The aggregation after the mixer call: the chain of host operations applied to the call's output. -/
theorem host2_agg (Y : Valuation τ sig (Elt Ideal)) :
    StableHlo.after hostOps2 Y (Proc.devRef .tc main_v58)
      = aggF (F := Ideal) (Y (Proc.devRef .tc main_v45)) (Y (Proc.devRef .tc main_v5)) (Y (Proc.devRef .tc main_v6)) (Y (Proc.devRef .tc main_v30)) := by
  after_results_simp
  rfl

set_option maxHeartbeats 2000000 in
/-- The aggregation after the mixer call: the chain of host operations applied to the call's output. -/
theorem host4_agg (Y : Valuation τ sig (Elt Ideal)) :
    StableHlo.after hostOps4 Y (Proc.devRef .tc main_v73)
      = aggF (F := Ideal) (Y (Proc.devRef .tc main_v60)) (Y (Proc.devRef .tc main_v5)) (Y (Proc.devRef .tc main_v6)) (Y (Proc.devRef .tc main_v30)) := by
  after_results_simp
  rfl

set_option maxHeartbeats 2000000 in
/-- The aggregation after the mixer call: the chain of host operations applied to the call's output. -/
theorem host6_agg (Y : Valuation τ sig (Elt Ideal)) :
    StableHlo.after hostOps6 Y (Proc.devRef .tc main_v88)
      = aggF (F := Ideal) (Y (Proc.devRef .tc main_v75)) (Y (Proc.devRef .tc main_v5)) (Y (Proc.devRef .tc main_v6)) (Y (Proc.devRef .tc main_v30)) := by
  after_results_simp
  rfl

set_option maxHeartbeats 2000000 in
/-- The aggregation after the mixer call: the chain of host operations applied to the call's output. -/
theorem host8_agg (Y : Valuation τ sig (Elt Ideal)) :
    StableHlo.after hostOps8 Y (Proc.devRef .tc main_v103)
      = aggF (F := Ideal) (Y (Proc.devRef .tc main_v90)) (Y (Proc.devRef .tc main_v5)) (Y (Proc.devRef .tc main_v6)) (Y (Proc.devRef .tc main_v30)) := by
  after_results_simp
  rfl

/-- The decoder's bias row: the bias vector reshaped to one row. -/
theorem host9_row (Y : Valuation τ sig (Elt Ideal)) :
    StableHlo.after hostOps9 Y (Proc.devRef .tc main_v105) = rowB (F := Ideal) (Y (Proc.devRef .tc main_arg8)) := by
  after_results_simp
  exact (show _ = shapeCast S1x64 (Y (Proc.devRef .tc main_arg8)) shapeCasts_S64_S1x64 from rfl).trans (reshape_eq_rowB _ _)

end Cert.KernelIdeal.Rg

end
-- ==== Proof.IdealPrepK.lean ====
/-
  The buffers the calls stage that the host prepares before the first call, each as a function of the arguments: the
  two edge lists, the edge weights, the three symmetric mixers, the encoder's bias row; and the arguments themselves,
  which no host operation writes.
-/
import proofs.«112566_j48309792145741_1_alg».proof.Proof.IdealChain
import proofs.«112566_j48309792145741_1_alg».proof.Proof.LibLineResults
import proofs.«112566_j48309792145741_1_alg».proof.Proof.IdealSpec2

set_option maxRecDepth 16384

noncomputable section

namespace Cert.KernelIdeal.Rg

open Cert.KernelIdeal Cert.KernelIdeal.Gen
open Idealize.ShloMosaic Idealize.ShloMosaic.TcCoe Idealize.ShloMosaic.StableHlo
open Idealize.SL.Sem
open Cert.Proof.Spec (rowF colF normF symF rowB reshape_eq_rowB)

/-- The rewriting half of the library's reader of a literal line: each operation's result at its own result
    reference becomes its function's value, at any other reference what was there before. -/
macro "rw_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- A value carried into a called function's buffer and read back is the value. -/
theorem ofBuf_toBuf' {sig : RefSig} {T : BufTy} {Val : EltTy → Type} (x : TRef sig T) (v : T.Contents Val) : x.ofBuf (x.toBuf v) = v := by
  obtain ⟨r, ty_eq, h1, h2⟩ := x
  subst ty_eq
  rfl

/-- A called function's argument and result buffers hold values of the call's own types: the transport is the identity. -/
theorem toBuf_main_v14 (h1 h2 h3) (v : (⟨S100000, .f32⟩ : BufTy).Contents (Elt Ideal)) : (TRef.of (sig := sig) (T := ⟨S100000, .f32⟩) main_v14 h1 h2 h3).toBuf v = v := rfl
theorem toBuf_main_v31 (h1 h2 h3) (v : (⟨S64x64, .f32⟩ : BufTy).Contents (Elt Ideal)) : (TRef.of (sig := sig) (T := ⟨S64x64, .f32⟩) main_v31 h1 h2 h3).toBuf v = v := rfl
theorem toBuf_main_v32 (h1 h2 h3) (v : (⟨S64x64, .f32⟩ : BufTy).Contents (Elt Ideal)) : (TRef.of (sig := sig) (T := ⟨S64x64, .f32⟩) main_v32 h1 h2 h3).toBuf v = v := rfl
theorem toBuf_main_v35 (h1 h2 h3) (v : (⟨S64x64, .f32⟩ : BufTy).Contents (Elt Ideal)) : (TRef.of (sig := sig) (T := ⟨S64x64, .f32⟩) main_v35 h1 h2 h3).toBuf v = v := rfl
theorem toBuf_main_v36 (h1 h2 h3) (v : (⟨S64x64, .f32⟩ : BufTy).Contents (Elt Ideal)) : (TRef.of (sig := sig) (T := ⟨S64x64, .f32⟩) main_v36 h1 h2 h3).toBuf v = v := rfl
theorem toBuf_main_v39 (h1 h2 h3) (v : (⟨S64x64, .f32⟩ : BufTy).Contents (Elt Ideal)) : (TRef.of (sig := sig) (T := ⟨S64x64, .f32⟩) main_v39 h1 h2 h3).toBuf v = v := rfl
theorem toBuf_main_v40 (h1 h2 h3) (v : (⟨S64x64, .f32⟩ : BufTy).Contents (Elt Ideal)) : (TRef.of (sig := sig) (T := ⟨S64x64, .f32⟩) main_v40 h1 h2 h3).toBuf v = v := rfl
theorem ofBuf_main_cst_2 (h1 h2 h3) (v : (⟨S_, .f32⟩ : BufTy).Contents (Elt Ideal)) : (TRef.of (sig := sig) (T := ⟨S_, .f32⟩) main_cst_2 h1 h2 h3).ofBuf v = v := rfl
theorem ofBuf_main_v12 (h1 h2 h3) (v : (⟨S100000, .i1⟩ : BufTy).Contents (Elt Ideal)) : (TRef.of (sig := sig) (T := ⟨S100000, .i1⟩) main_v12 h1 h2 h3).ofBuf v = v := rfl
theorem ofBuf_main_v13 (h1 h2 h3) (v : (⟨S100000, .f32⟩ : BufTy).Contents (Elt Ideal)) : (TRef.of (sig := sig) (T := ⟨S100000, .f32⟩) main_v13 h1 h2 h3).ofBuf v = v := rfl
theorem ofBuf_main_arg4 (h1 h2 h3) (v : (⟨S64x64, .f32⟩ : BufTy).Contents (Elt Ideal)) : (TRef.of (sig := sig) (T := ⟨S64x64, .f32⟩) main_arg4 h1 h2 h3).ofBuf v = v := rfl
theorem ofBuf_main_arg5 (h1 h2 h3) (v : (⟨S64x64, .f32⟩ : BufTy).Contents (Elt Ideal)) : (TRef.of (sig := sig) (T := ⟨S64x64, .f32⟩) main_arg5 h1 h2 h3).ofBuf v = v := rfl
theorem ofBuf_main_arg6 (h1 h2 h3) (v : (⟨S64x64, .f32⟩ : BufTy).Contents (Elt Ideal)) : (TRef.of (sig := sig) (T := ⟨S64x64, .f32⟩) main_arg6 h1 h2 h3).ofBuf v = v := rfl

set_option maxHeartbeats 4000000 in
theorem prep_v5_key (Z : Valuation τ sig (Elt Ideal)) :
    StableHlo.after hostOps0 (Z) (Proc.devRef .tc main_v5) = rowF (F := Ideal) (Z (Proc.devRef .tc main_arg1)) := by
  after_results_simp
  rw_results
  rfl

set_option maxHeartbeats 4000000 in
theorem prep_v6_key (Z : Valuation τ sig (Elt Ideal)) :
    StableHlo.after hostOps0 (Z) (Proc.devRef .tc main_v6) = colF (F := Ideal) (Z (Proc.devRef .tc main_arg1)) := by
  after_results_simp
  rw_results
  rfl

set_option maxHeartbeats 8000000 in
theorem prep_v30_key (Z : Valuation τ sig (Elt Ideal)) :
    StableHlo.after hostOps0_2 (StableHlo.after hostOps0_1 (StableHlo.after hostOps0 (Z))) (Proc.devRef .tc main_v30) = normF (F := Ideal) (rowF (Z (Proc.devRef .tc main_arg1))) (colF (Z (Proc.devRef .tc main_arg1))) := by
  after_results_simp
  rw_results
  simp only [ofBuf_toBuf', toBuf_main_v14, toBuf_main_v31, toBuf_main_v32, toBuf_main_v35, toBuf_main_v36, toBuf_main_v39, toBuf_main_v40, ofBuf_main_cst_2, ofBuf_main_v12, ofBuf_main_v13, ofBuf_main_arg4, ofBuf_main_arg5, ofBuf_main_arg6]
  rfl

set_option maxHeartbeats 4000000 in
theorem prep_v34_key (Z : Valuation τ sig (Elt Ideal)) :
    StableHlo.after hostOps0_5 (StableHlo.after hostOps0_4 (StableHlo.after hostOps0_3 (Z))) (Proc.devRef .tc main_v34) = symF (F := Ideal) (Z (Proc.devRef .tc main_arg4)) := by
  after_results_simp
  simp only [ofBuf_toBuf', toBuf_main_v14, toBuf_main_v31, toBuf_main_v32, toBuf_main_v35, toBuf_main_v36, toBuf_main_v39, toBuf_main_v40, ofBuf_main_cst_2, ofBuf_main_v12, ofBuf_main_v13, ofBuf_main_arg4, ofBuf_main_arg5, ofBuf_main_arg6]
  rfl

set_option maxHeartbeats 4000000 in
theorem prep_v38_key (Z : Valuation τ sig (Elt Ideal)) :
    StableHlo.after hostOps0_8 (StableHlo.after hostOps0_7 (StableHlo.after hostOps0_6 (Z))) (Proc.devRef .tc main_v38) = symF (F := Ideal) (Z (Proc.devRef .tc main_arg5)) := by
  after_results_simp
  simp only [ofBuf_toBuf', toBuf_main_v14, toBuf_main_v31, toBuf_main_v32, toBuf_main_v35, toBuf_main_v36, toBuf_main_v39, toBuf_main_v40, ofBuf_main_cst_2, ofBuf_main_v12, ofBuf_main_v13, ofBuf_main_arg4, ofBuf_main_arg5, ofBuf_main_arg6]
  rfl

set_option maxHeartbeats 4000000 in
theorem prep_v42_key (Z : Valuation τ sig (Elt Ideal)) :
    StableHlo.after hostOps0_11 (StableHlo.after hostOps0_10 (StableHlo.after hostOps0_9 (Z))) (Proc.devRef .tc main_v42) = symF (F := Ideal) (Z (Proc.devRef .tc main_arg6)) := by
  after_results_simp
  simp only [ofBuf_toBuf', toBuf_main_v14, toBuf_main_v31, toBuf_main_v32, toBuf_main_v35, toBuf_main_v36, toBuf_main_v39, toBuf_main_v40, ofBuf_main_cst_2, ofBuf_main_v12, ofBuf_main_v13, ofBuf_main_arg4, ofBuf_main_arg5, ofBuf_main_arg6]
  rfl

set_option maxHeartbeats 4000000 in
theorem prep_v43_key (Z : Valuation τ sig (Elt Ideal)) :
    StableHlo.after hostOps0_11 (Z) (Proc.devRef .tc main_v43) = rowB (F := Ideal) (Z (Proc.devRef .tc main_arg3)) := by
  after_results_simp
  exact (show _ = shapeCast S1x64 (Z (Proc.devRef .tc main_arg3)) shapeCasts_S64_S1x64 from rfl).trans (reshape_eq_rowB _ _)

variable (m : (ℓ : Loc nD τ sig) → Buf (Elt Ideal) ℓ)

theorem prep_arg0 (c : Dev nD) : X12 m c main_arg0 = m ((c : Thread nD τ).loc main_arg0) :=
  (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

theorem prep_arg1 (c : Dev nD) : X12 m c main_arg1 = m ((c : Thread nD τ).loc main_arg1) :=
  (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

theorem prep_arg2 (c : Dev nD) : X12 m c main_arg2 = m ((c : Thread nD τ).loc main_arg2) :=
  (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

theorem prep_arg3 (c : Dev nD) : X12 m c main_arg3 = m ((c : Thread nD τ).loc main_arg3) :=
  (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

theorem prep_arg4 (c : Dev nD) : X12 m c main_arg4 = m ((c : Thread nD τ).loc main_arg4) :=
  (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl

theorem prep_arg5 (c : Dev nD) : X12 m c main_arg5 = m ((c : Thread nD τ).loc main_arg5) :=
  (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl

theorem prep_arg6 (c : Dev nD) : X12 m c main_arg6 = m ((c : Thread nD τ).loc main_arg6) :=
  (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl

theorem prep_arg7 (c : Dev nD) : X12 m c main_arg7 = m ((c : Thread nD τ).loc main_arg7) :=
  (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl

theorem prep_arg8 (c : Dev nD) : X12 m c main_arg8 = m ((c : Thread nD τ).loc main_arg8) :=
  (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl

theorem prep_v5 (c : Dev nD) : X12 m c main_v5 = rowF (F := Ideal) (m ((c : Thread nD τ).loc main_arg1)) :=
  (V12_of m c main_v5 (by decide)).trans <| (V11_of m c main_v5 (by decide)).trans <| (V10_of m c main_v5 (by decide)).trans <| (V9_of m c main_v5 (by decide)).trans <| (V8_of m c main_v5 (by decide)).trans <| (V7_of m c main_v5 (by decide)).trans <| (V6_of m c main_v5 (by decide)).trans <| (V5_of m c main_v5 (by decide)).trans <| (V4_of m c main_v5 (by decide)).trans <| (V3_of m c main_v5 (by decide)).trans <| (V2_of m c main_v5 (by decide)).trans <| prep_v5_key (V0 m c)

theorem prep_v6 (c : Dev nD) : X12 m c main_v6 = colF (F := Ideal) (m ((c : Thread nD τ).loc main_arg1)) :=
  (V12_of m c main_v6 (by decide)).trans <| (V11_of m c main_v6 (by decide)).trans <| (V10_of m c main_v6 (by decide)).trans <| (V9_of m c main_v6 (by decide)).trans <| (V8_of m c main_v6 (by decide)).trans <| (V7_of m c main_v6 (by decide)).trans <| (V6_of m c main_v6 (by decide)).trans <| (V5_of m c main_v6 (by decide)).trans <| (V4_of m c main_v6 (by decide)).trans <| (V3_of m c main_v6 (by decide)).trans <| (V2_of m c main_v6 (by decide)).trans <| prep_v6_key (V0 m c)

theorem prep_v30 (c : Dev nD) : X12 m c main_v30 = normF (F := Ideal) (rowF (m ((c : Thread nD τ).loc main_arg1))) (colF (m ((c : Thread nD τ).loc main_arg1))) :=
  (V12_of m c main_v30 (by decide)).trans <| (V11_of m c main_v30 (by decide)).trans <| (V10_of m c main_v30 (by decide)).trans <| (V9_of m c main_v30 (by decide)).trans <| (V8_of m c main_v30 (by decide)).trans <| (V7_of m c main_v30 (by decide)).trans <| (V6_of m c main_v30 (by decide)).trans <| (V5_of m c main_v30 (by decide)).trans <| (V4_of m c main_v30 (by decide)).trans <| prep_v30_key (V0 m c)

theorem prep_v34 (c : Dev nD) : X12 m c main_v34 = symF (F := Ideal) (m ((c : Thread nD τ).loc main_arg4)) :=
  (V12_of m c main_v34 (by decide)).trans <| (V11_of m c main_v34 (by decide)).trans <| (V10_of m c main_v34 (by decide)).trans <| (V9_of m c main_v34 (by decide)).trans <| (V8_of m c main_v34 (by decide)).trans <| (V7_of m c main_v34 (by decide)).trans <| (prep_v34_key (V3 m c)).trans (congrArg (symF (F := Ideal)) ((V3_of m c main_arg4 (by decide)).trans <| (V2_of m c main_arg4 (by decide)).trans <| (V1_of m c main_arg4 (by decide)).trans <| rfl))

theorem prep_v38 (c : Dev nD) : X12 m c main_v38 = symF (F := Ideal) (m ((c : Thread nD τ).loc main_arg5)) :=
  (V12_of m c main_v38 (by decide)).trans <| (V11_of m c main_v38 (by decide)).trans <| (V10_of m c main_v38 (by decide)).trans <| (prep_v38_key (V6 m c)).trans (congrArg (symF (F := Ideal)) ((V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl))

theorem prep_v42 (c : Dev nD) : X12 m c main_v42 = symF (F := Ideal) (m ((c : Thread nD τ).loc main_arg6)) :=
  (prep_v42_key (V9 m c)).trans (congrArg (symF (F := Ideal)) ((V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl))

theorem prep_v43 (c : Dev nD) : X12 m c main_v43 = rowB (F := Ideal) (m ((c : Thread nD τ).loc main_arg3)) :=
  (prep_v43_key (V11 m c)).trans (congrArg (rowB (F := Ideal)) ((V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl))

end Cert.KernelIdeal.Rg

end
-- ==== Proof.IdealPay.lean ====
/-
  The arithmetic of the three kinds of call, read at one entry of the stored block. With floats as extended reals a
  change of format is the identity, a cast of a shape to itself is the identity, and a matrix product into a zero
  accumulator is the plain sum over the contracted axis of the products of the operands' entries.
-/
import proofs.«112566_j48309792145741_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL.Sem

theorem d64_lhs0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem d64_lhs1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem d64_rhs0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem d64_rhs1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product of a [10000,64] block with a [64,64] matrix into zero: entry (r, j) is the sum over k of x(r,k)·w(k,j). -/
theorem mm64_apply (x : FVec Ideal S10000x64 .bf16) (w : FVec Ideal S64x64 .bf16) (r : Fin 10000) (j : Fin 64) :
    matmul dot_S10000x64_S64x64_S10000x64_1_0_0_1_n_n none x w (constant (F := Ideal) S10000x64 .f32 0x00000000#32) (ix2 r j)
      = ∑ k : Fin 64, x (ix2 r k) * w (ix2 k j) := by
  refine (Ideal.matmul_constant_zero_apply dot_S10000x64_S64x64_S10000x64_1_0_0_1_n_n none x w (ix2 r j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact d64_lhs0 _ _
    | ⟨1, _⟩ => exact (d64_lhs1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (d64_rhs0 _ _).trans hk
    | ⟨1, _⟩ => exact d64_rhs1 _ _)
  rw [el, er]

theorem d128_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem d128_lhs1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem d128_rhs0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem d128_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The same for a [10000,128] block with a [128,64] matrix. -/
theorem mm128_apply (x : FVec Ideal S10000x128 .bf16) (w : FVec Ideal S128x64 .bf16) (r : Fin 10000) (j : Fin 64) :
    matmul dot_S10000x128_S128x64_S10000x64_1_0_0_1_n_n none x w (constant (F := Ideal) S10000x64 .f32 0x00000000#32) (ix2 r j)
      = ∑ k : Fin 128, x (ix2 r k) * w (ix2 k j) := by
  refine (Ideal.matmul_constant_zero_apply dot_S10000x128_S128x64_S10000x64_1_0_0_1_n_n none x w (ix2 r j)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r j) ((contrEquiv1 dot_S10000x128_S128x64_S10000x64_1_0_0_1_n_n 128 rfl rfl).symm k) = ix2 r k := funext fun a => Fin.ext (by
    match a with
    | ⟨0, _⟩ => exact d128_lhs0 _ _
    | ⟨1, _⟩ => exact (d128_lhs1 _ _).trans hk)
  have er : dot_S10000x128_S128x64_S10000x64_1_0_0_1_n_n.rhsIdx (ix2 r j) ((contrEquiv1 dot_S10000x128_S128x64_S10000x64_1_0_0_1_n_n 128 rfl rfl).symm k) = ix2 k j := funext fun a => Fin.ext (by
    match a with
    | ⟨0, _⟩ => exact (d128_rhs0 _ _).trans hk
    | ⟨1, _⟩ => exact d128_rhs1 _ _)
  rw [el, er]

/-- The two float words of the programs: zero and one. -/
abbrev c0 : EReal := Ideal.ofBits .f32 0x00000000#32
abbrev c1 : EReal := Ideal.ofBits .f32 0x3F800000#32

/-- The mixer call's stored block: entry (r, j) is the sum over k of x(r,k)·w(k,j). -/
theorem k1_pay1_apply (x : Vec Ideal S10000x64 .f32) (w : Vec Ideal S64x64 .f32) (r : Fin 10000) (j : Fin 64) :
    k1_pay1 (F := Ideal) x w (ix2 r j) = ∑ k : Fin 64, x (ix2 r k) * w (ix2 k j) := by
  unfold k1_pay1
  simp only [shapeCast_self]
  exact mm64_apply _ _ r j

/-- The encoder call's stored block: the product's entry plus the bias row's entry of that column. -/
theorem k0_pay1_apply (x : Vec Ideal S10000x128 .f32) (w : Vec Ideal S128x64 .f32) (b : Vec Ideal S1x64 .f32) (r : Fin 10000) (j : Fin 64) :
    k0_pay1 (F := Ideal) x w b (ix2 r j) = (∑ k : Fin 128, x (ix2 r k) * w (ix2 k j)) + b (ix2 (0 : Fin 1) j) := by
  unfold k0_pay1
  simp only [shapeCast_self]
  rw [← mm128_apply x w r j, ← broadcastTo_1b_ab_apply b Cert.KernelIdeal.Gen.broadcasts_S1x64_S10000x64 r j]
  rfl

/-- The decoder call's stored block: the same with a [64,64] matrix. -/
theorem k9_pay1_apply (x : Vec Ideal S10000x64 .f32) (w : Vec Ideal S64x64 .f32) (b : Vec Ideal S1x64 .f32) (r : Fin 10000) (j : Fin 64) :
    k9_pay1 (F := Ideal) x w b (ix2 r j) = (∑ k : Fin 64, x (ix2 r k) * w (ix2 k j)) + b (ix2 (0 : Fin 1) j) := by
  unfold k9_pay1
  simp only [shapeCast_self]
  rw [← mm64_apply x w r j, ← broadcastTo_1b_ab_apply b Cert.KernelIdeal.Gen.broadcasts_S1x64_S10000x64 r j]
  rfl

/-- The update call's stored block: the hidden entry plus one times the positive part of the aggregate minus the
    two products, and of that sum the positive part. -/
theorem k2_pay1_apply (h x0 agg : Vec Ideal S10000x64 .f32) (we w0 : Vec Ideal S64x64 .f32) (r : Fin 10000) (j : Fin 64) :
    k2_pay1 (F := Ideal) h x0 agg we w0 (ix2 r j)
      = max (h (ix2 r j) + c1 * max (agg (ix2 r j) - (∑ k : Fin 64, h (ix2 r k) * we (ix2 k j)) - (∑ k : Fin 64, x0 (ix2 r k) * w0 (ix2 k j))) c0) c0 := by
  unfold k2_pay1
  simp only [shapeCast_self]
  rw [← mm64_apply h we r j, ← mm64_apply x0 w0 r j]
  rfl

end Cert.KernelIdeal.Rg

end
-- ==== Proof.IdealArr0.lean ====
/-
  Call 0 (a row tile times a matrix plus a bias row), from blocks to the array: grid point t stores rows
  10000·t … 10000·t + 9999 of the affine map of the whole array, and the ten points' blocks tile the output array.
-/
import proofs.«112566_j48309792145741_1_alg».proof.Proof.IdealCall0
import proofs.«112566_j48309792145741_1_alg».proof.Proof.IdealPay
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg0.W → PosShare TreeShare)

theorem arr0_hz : (![0, 0] : Fin 2 → Nat) = fun _ => 0 := funext fun a => by fin_cases a <;> rfl

/-- The index maps at a grid point: the row window and the output at block (t, 0), the matrix and the bias row at (0, 0). -/
structure Arr0Idx (t : Fin cfg0.N) : Prop where
  w0 : win0_0.index t (0 : Fin 2) = t.val ∧ win0_0.index t (1 : Fin 2) = 0
  w1 : win0_1.index t (0 : Fin 2) = 0 ∧ win0_1.index t (1 : Fin 2) = 0
  w2 : win0_2.index t (0 : Fin 2) = 0 ∧ win0_2.index t (1 : Fin 2) = 0
  out : win0_3.index t (0 : Fin 2) = t.val ∧ win0_3.index t (1 : Fin 2) = 0
  lt : t.val < 10

theorem arr0_idx : ∀ t : Fin cfg0.N, Arr0Idx t := by
  have h : ∀ t : Fin grid0.N, (win0_0.index t (0 : Fin 2) = t.val ∧ win0_0.index t (1 : Fin 2) = 0)
      ∧ (win0_1.index t (0 : Fin 2) = 0 ∧ win0_1.index t (1 : Fin 2) = 0)
      ∧ (win0_2.index t (0 : Fin 2) = 0 ∧ win0_2.index t (1 : Fin 2) = 0)
      ∧ (win0_3.index t (0 : Fin 2) = t.val ∧ win0_3.index t (1 : Fin 2) = 0) ∧ t.val < 10 := by decide +kernel
  intro t
  obtain ⟨a0, a1, a2, a3, a4⟩ := h t
  exact ⟨a0, a1, a2, a3, a4⟩

theorem arr0_blk0 (c : Dev nD) (t : Fin cfg0.N) (r : Fin 10000) (k : Fin 128) (R : Fin 100000) (hR : R.val = t.val * 10000 + r.val) :
    (iblk0 V c 0 t : Vec Ideal S10000x128 .f32) (ix2 r k) = (V c main_arg0 : S100000x128.Idx → EReal) (ix2 R k) := by
  have e0 := (arr0_idx t).w0.1
  have e1 := (arr0_idx t).w0.2
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * r.val = R.val; rw [e0, hR]; omega
  | ⟨1, _⟩ => show win0_0.index t (1 : Fin 2) * 128 + 1 * k.val = k.val; rw [e1]; omega

theorem arr0_blk1 (c : Dev nD) (t : Fin cfg0.N) (k : Fin 128) (j : Fin 64) :
    (iblk0 V c 1 t : Vec Ideal S128x64 .f32) (ix2 k j) = (V c main_arg2 : S128x64.Idx → EReal) (ix2 k j) := by
  have e0 := (arr0_idx t).w1.1
  have e1 := (arr0_idx t).w1.2
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; rw [e0]; omega
  | ⟨1, _⟩ => show win0_1.index t (1 : Fin 2) * 64 + 1 * j.val = j.val; rw [e1]; omega

theorem arr0_blk2 (c : Dev nD) (t : Fin cfg0.N) (k : Fin 1) (j : Fin 64) :
    (iblk0 V c 2 t : Vec Ideal S1x64 .f32) (ix2 k j) = (V c main_v43 : S1x64.Idx → EReal) (ix2 k j) := by
  have e0 := (arr0_idx t).w2.1
  have e1 := (arr0_idx t).w2.2
  unfold iblk0
  rw [View.read_apply]
  show V c main_v43 _ = V c main_v43 _
  refine congrArg (V c main_v43) (funext fun a => Fin.ext ?_)
  match a with
  | ⟨0, _⟩ => show win0_2.index t (0 : Fin 2) * 1 + 1 * k.val = k.val; rw [e0]; omega
  | ⟨1, _⟩ => show win0_2.index t (1 : Fin 2) * 64 + 1 * j.val = j.val; rw [e1]; omega

/-- The affine entry depends only on the row of products and the bias entry. -/
theorem arr0_congr {n : ℕ} (A A' : Fin n → EReal) (b b' : EReal) (eA : ∀ k, A k = A' k) (eb : b = b') :
    (∑ k, A k) + b = (∑ k, A' k) + b' := by
  subst eb
  rw [show A = A' from funext eA]

/-- What point t writes back is block t of the affine map of the whole arrays. -/
theorem arr0_flushed (c : Dev nD) (t : Fin cfg0.N) :
    (dat0 V q c).flushed 3 t = ((cfg0.win 3).blk t).view.read (Elt Ideal) (encF (F := Ideal) (V c main_arg0) (V c main_arg2) (V c main_v43)) := by
  have e4 := (arr0_idx t).out.1
  have e5 := (arr0_idx t).out.2
  have hlt := (arr0_idx t).lt
  show (cfg0.win 3).cut (grid0.coords t) ((dat0 V q c).after 3 t) = _
  rw [after0_3]
  unfold out0
  rw [View.canon_unit_zero arr0_hz]
  simp only [View.ld_unit_zero (S := S10000x128) arr0_hz, View.ld_unit_zero (S := S128x64) arr0_hz, View.ld_unit_zero (S := S1x64) arr0_hz]
  funext y
  obtain ⟨r, j, rfl⟩ : ∃ (r : Fin 10000) (j : Fin 64), y = ix2 r j := ⟨y 0, y 1, eq_ix2 y⟩
  have hr : r.val < 10000 := r.isLt
  have hemb : ((cfg0.win 3).blk t).view.emb (ix2 r j) = ix2 (⟨t.val * 10000 + r.val, by omega⟩ : Fin 100000) j := by
    funext a; apply Fin.ext
    match a with
    | ⟨0, _⟩ => show win0_3.index t (0 : Fin 2) * 10000 + 1 * r.val = t.val * 10000 + r.val; rw [e4]; omega
    | ⟨1, _⟩ => show win0_3.index t (1 : Fin 2) * 64 + 1 * j.val = j.val; rw [e5]; omega
  show k0_pay1 (iblk0 V c 0 t) (iblk0 V c 1 t) (iblk0 V c 2 t) (ix2 r j)
    = encF (F := Ideal) (V c main_arg0) (V c main_arg2) (V c main_v43) (((cfg0.win 3).blk t).view.emb (ix2 r j))
  refine Eq.trans ?_ (congrArg (encF (F := Ideal) (V c main_arg0) (V c main_arg2) (V c main_v43)) hemb.symm)
  refine (k0_pay1_apply _ _ _ r j).trans ?_
  refine Eq.trans ?_ (encF_apply _ _ _ _ j).symm
  refine arr0_congr _ _ _ _ (fun k => ?_) ?_
  · rw [arr0_blk0 V c t r k ⟨t.val * 10000 + r.val, by omega⟩ rfl, arr0_blk1 V c t k j]
  · exact arr0_blk2 V c t (0 : Fin 1) j

/-- An index of the array is in point t's block iff each coordinate is in the block's range on its axis. -/
theorem arr0_mem (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v44).slice (win0_3.rect t)).set ↔ _
  rw [View.set_slice_whole, Rect.mem_set_unit]
  exact Iff.rfl

/-- Every row of the array is in the block of the point numbered by its ten-thousand. -/
theorem arr0_cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by rw [hN]; omega
  refine ⟨⟨(i 0).val / 10000, ht⟩, flush0_3 _, ?_⟩
  rw [arr0_mem]
  have e4 := (arr0_idx ⟨(i 0).val / 10000, ht⟩).out.1
  have e5 := (arr0_idx ⟨(i 0).val / 10000, ht⟩).out.2
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e5]; omega

/-- The output array after the call: the affine map of the whole arrays. -/
theorem arr0_eq (c : Dev nD) :
    (dat0 V q c).arrAt 3 cfg0.N = encF (F := Ideal) (V c main_arg0) (V c main_arg2) (V c main_v43) :=
  (dat0 V q c).arrAt_eq_of_cover 3 _ (fun t _ => arr0_flushed V q c t) arr0_cover

end Cert.KernelIdeal.Rg

end
-- ==== Proof.IdealArr1.lean ====
/-
  Call 1 (a row tile of the hidden state times the internal mixer), from blocks to the array: grid point t stores rows
  10000·t … 10000·t + 9999 of the product of the whole hidden array with the mixer, and the ten points' blocks tile the
  output array, so the array ends holding that product.
-/
import proofs.«112566_j48309792145741_1_alg».proof.Proof.IdealCall1
import proofs.«112566_j48309792145741_1_alg».proof.Proof.IdealPay
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg1.W → PosShare TreeShare)

theorem arr1_hz : (![0, 0] : Fin 2 → Nat) = fun _ => 0 := funext fun a => by fin_cases a <;> rfl

/-- The index maps over the grid: the row windows sit at block (t, 0), the mixer's window at block (0, 0). -/
theorem arr1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- The hidden state's block at point t is rows 10000·t … of its array. -/
theorem arr1_blk0 (c : Dev nD) (t : Fin cfg1.N) (r : Fin 10000) (k : Fin 64) (R : Fin 100000) (hR : R.val = t.val * 10000 + r.val) :
    (iblk1 V c 0 t : Vec Ideal S10000x64 .f32) (ix2 r k) = (V c main_v44 : S100000x64.Idx → EReal) (ix2 R k) := by
  obtain ⟨e0, e1, -, -, -, -, -⟩ := arr1_idx t
  unfold iblk1
  rw [View.read_apply]
  show V c main_v44 _ = V c main_v44 _
  refine congrArg (V c main_v44) (funext fun a => Fin.ext ?_)
  match a with
  | ⟨0, _⟩ => show win1_0.index t (0 : Fin 2) * 10000 + 1 * r.val = R.val; rw [e0, hR]; omega
  | ⟨1, _⟩ => show win1_0.index t (1 : Fin 2) * 64 + 1 * k.val = k.val; rw [e1]; omega

/-- The mixer's block at every point is the whole mixer. -/
theorem arr1_blk1 (c : Dev nD) (t : Fin cfg1.N) (k j : Fin 64) :
    (iblk1 V c 1 t : Vec Ideal S64x64 .f32) (ix2 k j) = (V c main_v34 : S64x64.Idx → EReal) (ix2 k j) := by
  obtain ⟨-, -, e2, e3, -, -, -⟩ := arr1_idx t
  unfold iblk1
  rw [View.read_apply]
  show V c main_v34 _ = V c main_v34 _
  refine congrArg (V c main_v34) (funext fun a => Fin.ext ?_)
  match a with
  | ⟨0, _⟩ => show win1_1.index t (0 : Fin 2) * 64 + 1 * k.val = k.val; rw [e2]; omega
  | ⟨1, _⟩ => show win1_1.index t (1 : Fin 2) * 64 + 1 * j.val = j.val; rw [e3]; omega

/-- What point t writes back is block t of the product of the whole arrays. -/
theorem arr1_flushed (c : Dev nD) (t : Fin cfg1.N) :
    (dat1 V q c).flushed 2 t = ((cfg1.win 2).blk t).view.read (Elt Ideal) (mixF (F := Ideal) (V c main_v44) (V c main_v34)) := by
  obtain ⟨-, -, -, -, e4, e5, hlt⟩ := arr1_idx t
  show (cfg1.win 2).cut (grid1.coords t) ((dat1 V q c).after 2 t) = _
  rw [after1_2]
  unfold out1
  rw [View.canon_unit_zero arr1_hz]
  simp only [View.ld_unit_zero (S := S10000x64) arr1_hz, View.ld_unit_zero (S := S64x64) arr1_hz]
  funext y
  obtain ⟨r, j, rfl⟩ : ∃ (r : Fin 10000) (j : Fin 64), y = ix2 r j := ⟨y 0, y 1, eq_ix2 y⟩
  have hr : r.val < 10000 := r.isLt
  have hemb : ((cfg1.win 2).blk t).view.emb (ix2 r j) = ix2 (⟨t.val * 10000 + r.val, by omega⟩ : Fin 100000) j := by
    funext a; apply Fin.ext
    match a with
    | ⟨0, _⟩ => show win1_2.index t (0 : Fin 2) * 10000 + 1 * r.val = t.val * 10000 + r.val; rw [e4]; omega
    | ⟨1, _⟩ => show win1_2.index t (1 : Fin 2) * 64 + 1 * j.val = j.val; rw [e5]; omega
  show k1_pay1 (iblk1 V c 0 t) (iblk1 V c 1 t) (ix2 r j) = mixF (F := Ideal) (V c main_v44) (V c main_v34) (((cfg1.win 2).blk t).view.emb (ix2 r j))
  refine Eq.trans ?_ (congrArg (mixF (F := Ideal) (V c main_v44) (V c main_v34)) hemb.symm)
  refine (k1_pay1_apply _ _ r j).trans ?_
  refine Eq.trans ?_ (mixF_apply _ _ _ j).symm
  refine Finset.sum_congr rfl fun k _ => ?_
  rw [arr1_blk0 V c t r k ⟨t.val * 10000 + r.val, by omega⟩ rfl, arr1_blk1 V c t k j]

/-- An index of the array is in point t's block iff each coordinate is in the block's range on its axis. -/
theorem arr1_mem (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every row of the array is in the block of the point numbered by its ten-thousand. -/
theorem arr1_cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have ht : (i 0).val / 10000 < cfg1.N := by rw [hN]; omega
  refine ⟨⟨(i 0).val / 10000, ht⟩, flush1_2 _, ?_⟩
  rw [arr1_mem]
  obtain ⟨-, -, -, -, e4, e5, -⟩ := arr1_idx ⟨(i 0).val / 10000, ht⟩
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- The output array after the call: the whole hidden array times the mixer. -/
theorem arr1_eq (c : Dev nD) :
    (dat1 V q c).arrAt 2 cfg1.N = mixF (F := Ideal) (V c main_v44) (V c main_v34) :=
  (dat1 V q c).arrAt_eq_of_cover 2 _ (fun t _ => arr1_flushed V q c t) arr1_cover

end Cert.KernelIdeal.Rg

end
-- ==== Proof.IdealArr2.lean ====
/-
  Call 2 (one layer's update of a row tile), from blocks to the array: grid point t stores rows 10000·t … 10000·t + 9999
  of the update of the whole arrays, and the ten points' blocks tile the output array, so the array ends holding it.
-/
import proofs.«112566_j48309792145741_1_alg».proof.Proof.IdealCall2
import proofs.«112566_j48309792145741_1_alg».proof.Proof.IdealPay
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg2.W → PosShare TreeShare)

theorem arr2_hz : (![0, 0] : Fin 2 → Nat) = fun _ => 0 := funext fun a => by fin_cases a <;> rfl

/-- The index maps at a grid point: the three row windows and the output at block (t, 0), the two mixers at (0, 0). -/
structure Arr2Idx (t : Fin cfg2.N) : Prop where
  w0 : win2_0.index t (0 : Fin 2) = t.val ∧ win2_0.index t (1 : Fin 2) = 0
  w1 : win2_1.index t (0 : Fin 2) = t.val ∧ win2_1.index t (1 : Fin 2) = 0
  w2 : win2_2.index t (0 : Fin 2) = t.val ∧ win2_2.index t (1 : Fin 2) = 0
  w3 : win2_3.index t (0 : Fin 2) = 0 ∧ win2_3.index t (1 : Fin 2) = 0
  w4 : win2_4.index t (0 : Fin 2) = 0 ∧ win2_4.index t (1 : Fin 2) = 0
  out : win2_5.index t (0 : Fin 2) = t.val ∧ win2_5.index t (1 : Fin 2) = 0
  lt : t.val < 10

theorem arr2_idx : ∀ t : Fin cfg2.N, Arr2Idx t := by
  have h : ∀ t : Fin grid2.N, (win2_0.index t (0 : Fin 2) = t.val ∧ win2_0.index t (1 : Fin 2) = 0)
      ∧ (win2_1.index t (0 : Fin 2) = t.val ∧ win2_1.index t (1 : Fin 2) = 0)
      ∧ (win2_2.index t (0 : Fin 2) = t.val ∧ win2_2.index t (1 : Fin 2) = 0)
      ∧ (win2_3.index t (0 : Fin 2) = 0 ∧ win2_3.index t (1 : Fin 2) = 0)
      ∧ (win2_4.index t (0 : Fin 2) = 0 ∧ win2_4.index t (1 : Fin 2) = 0)
      ∧ (win2_5.index t (0 : Fin 2) = t.val ∧ win2_5.index t (1 : Fin 2) = 0) ∧ t.val < 10 := by decide +kernel
  intro t
  obtain ⟨a0, a1, a2, a3, a4, a5, a6⟩ := h t
  exact ⟨a0, a1, a2, a3, a4, a5, a6⟩

theorem arr2_blk0 (c : Dev nD) (t : Fin cfg2.N) (r : Fin 10000) (k : Fin 64) (R : Fin 100000) (hR : R.val = t.val * 10000 + r.val) :
    (iblk2 V c 0 t : Vec Ideal S10000x64 .f32) (ix2 r k) = (V c main_v44 : S100000x64.Idx → EReal) (ix2 R k) := by
  have e0 := (arr2_idx t).w0.1
  have e1 := (arr2_idx t).w0.2
  unfold iblk2
  rw [View.read_apply]
  show V c main_v44 _ = V c main_v44 _
  refine congrArg (V c main_v44) (funext fun a => Fin.ext ?_)
  match a with
  | ⟨0, _⟩ => show win2_0.index t (0 : Fin 2) * 10000 + 1 * r.val = R.val; rw [e0, hR]; omega
  | ⟨1, _⟩ => show win2_0.index t (1 : Fin 2) * 64 + 1 * k.val = k.val; rw [e1]; omega

theorem arr2_blk1 (c : Dev nD) (t : Fin cfg2.N) (r : Fin 10000) (k : Fin 64) (R : Fin 100000) (hR : R.val = t.val * 10000 + r.val) :
    (iblk2 V c 1 t : Vec Ideal S10000x64 .f32) (ix2 r k) = (V c main_v44 : S100000x64.Idx → EReal) (ix2 R k) := by
  have e0 := (arr2_idx t).w1.1
  have e1 := (arr2_idx t).w1.2
  unfold iblk2
  rw [View.read_apply]
  show V c main_v44 _ = V c main_v44 _
  refine congrArg (V c main_v44) (funext fun a => Fin.ext ?_)
  match a with
  | ⟨0, _⟩ => show win2_1.index t (0 : Fin 2) * 10000 + 1 * r.val = R.val; rw [e0, hR]; omega
  | ⟨1, _⟩ => show win2_1.index t (1 : Fin 2) * 64 + 1 * k.val = k.val; rw [e1]; omega

theorem arr2_blk2 (c : Dev nD) (t : Fin cfg2.N) (r : Fin 10000) (k : Fin 64) (R : Fin 100000) (hR : R.val = t.val * 10000 + r.val) :
    (iblk2 V c 2 t : Vec Ideal S10000x64 .f32) (ix2 r k) = (V c main_v58 : S100000x64.Idx → EReal) (ix2 R k) := by
  have e0 := (arr2_idx t).w2.1
  have e1 := (arr2_idx t).w2.2
  unfold iblk2
  rw [View.read_apply]
  show V c main_v58 _ = V c main_v58 _
  refine congrArg (V c main_v58) (funext fun a => Fin.ext ?_)
  match a with
  | ⟨0, _⟩ => show win2_2.index t (0 : Fin 2) * 10000 + 1 * r.val = R.val; rw [e0, hR]; omega
  | ⟨1, _⟩ => show win2_2.index t (1 : Fin 2) * 64 + 1 * k.val = k.val; rw [e1]; omega

theorem arr2_blk3 (c : Dev nD) (t : Fin cfg2.N) (k : Fin 64) (j : Fin 64) :
    (iblk2 V c 3 t : Vec Ideal S64x64 .f32) (ix2 k j) = (V c main_v38 : S64x64.Idx → EReal) (ix2 k j) := by
  have e0 := (arr2_idx t).w3.1
  have e1 := (arr2_idx t).w3.2
  unfold iblk2
  rw [View.read_apply]
  show V c main_v38 _ = V c main_v38 _
  refine congrArg (V c main_v38) (funext fun a => Fin.ext ?_)
  match a with
  | ⟨0, _⟩ => show win2_3.index t (0 : Fin 2) * 64 + 1 * k.val = k.val; rw [e0]; omega
  | ⟨1, _⟩ => show win2_3.index t (1 : Fin 2) * 64 + 1 * j.val = j.val; rw [e1]; omega

theorem arr2_blk4 (c : Dev nD) (t : Fin cfg2.N) (k : Fin 64) (j : Fin 64) :
    (iblk2 V c 4 t : Vec Ideal S64x64 .f32) (ix2 k j) = (V c main_v42 : S64x64.Idx → EReal) (ix2 k j) := by
  have e0 := (arr2_idx t).w4.1
  have e1 := (arr2_idx t).w4.2
  unfold iblk2
  rw [View.read_apply]
  show V c main_v42 _ = V c main_v42 _
  refine congrArg (V c main_v42) (funext fun a => Fin.ext ?_)
  match a with
  | ⟨0, _⟩ => show win2_4.index t (0 : Fin 2) * 64 + 1 * k.val = k.val; rw [e0]; omega
  | ⟨1, _⟩ => show win2_4.index t (1 : Fin 2) * 64 + 1 * j.val = j.val; rw [e1]; omega

/-- The update's entry depends only on the hidden entry, the aggregate's entry and the two rows of products. -/
theorem arr2_congr (h h' g g' : EReal) (A A' B B' : Fin 64 → EReal) (eh : h = h') (eg : g = g')
    (eA : ∀ k, A k = A' k) (eB : ∀ k, B k = B' k) :
    max (h + c1 * max (g - (∑ k, A k) - (∑ k, B k)) c0) c0
      = max (h' + Ideal.ofBits .f32 0x3F800000#32 * max (g' - (∑ k, A' k) - (∑ k, B' k)) (Ideal.ofBits .f32 0x00000000#32)) (Ideal.ofBits .f32 0x00000000#32) := by
  subst eh eg
  rw [show A = A' from funext eA, show B = B' from funext eB]

/-- What point t writes back is block t of the update of the whole arrays. -/
theorem arr2_flushed (c : Dev nD) (t : Fin cfg2.N) :
    (dat2 V q c).flushed 5 t = ((cfg2.win 5).blk t).view.read (Elt Ideal) (updF (F := Ideal) (V c main_v44) (V c main_v44) (V c main_v58) (V c main_v38) (V c main_v42)) := by
  have e4 := (arr2_idx t).out.1
  have e5 := (arr2_idx t).out.2
  have hlt := (arr2_idx t).lt
  show (cfg2.win 5).cut (grid2.coords t) ((dat2 V q c).after 5 t) = _
  rw [after2_5]
  unfold out2
  rw [View.canon_unit_zero arr2_hz]
  simp only [View.ld_unit_zero (S := S10000x64) arr2_hz, View.ld_unit_zero (S := S64x64) arr2_hz]
  funext y
  obtain ⟨r, j, rfl⟩ : ∃ (r : Fin 10000) (j : Fin 64), y = ix2 r j := ⟨y 0, y 1, eq_ix2 y⟩
  have hr : r.val < 10000 := r.isLt
  have hemb : ((cfg2.win 5).blk t).view.emb (ix2 r j) = ix2 (⟨t.val * 10000 + r.val, by omega⟩ : Fin 100000) j := by
    funext a; apply Fin.ext
    match a with
    | ⟨0, _⟩ => show win2_5.index t (0 : Fin 2) * 10000 + 1 * r.val = t.val * 10000 + r.val; rw [e4]; omega
    | ⟨1, _⟩ => show win2_5.index t (1 : Fin 2) * 64 + 1 * j.val = j.val; rw [e5]; omega
  show k2_pay1 (iblk2 V c 0 t) (iblk2 V c 1 t) (iblk2 V c 2 t) (iblk2 V c 3 t) (iblk2 V c 4 t) (ix2 r j)
    = updF (F := Ideal) (V c main_v44) (V c main_v44) (V c main_v58) (V c main_v38) (V c main_v42) (((cfg2.win 5).blk t).view.emb (ix2 r j))
  refine Eq.trans ?_ (congrArg (updF (F := Ideal) (V c main_v44) (V c main_v44) (V c main_v58) (V c main_v38) (V c main_v42)) hemb.symm)
  refine (k2_pay1_apply _ _ _ _ _ r j).trans ?_
  refine Eq.trans ?_ (updF_apply _ _ _ _ _ _ j).symm
  refine arr2_congr _ _ _ _ _ _ _ _ ?_ ?_ (fun k => ?_) (fun k => ?_)
  · exact arr2_blk0 V c t r j ⟨t.val * 10000 + r.val, by omega⟩ rfl
  · exact arr2_blk2 V c t r j ⟨t.val * 10000 + r.val, by omega⟩ rfl
  · rw [arr2_blk0 V c t r k ⟨t.val * 10000 + r.val, by omega⟩ rfl, arr2_blk3 V c t k j]
  · rw [arr2_blk1 V c t r k ⟨t.val * 10000 + r.val, by omega⟩ rfl, arr2_blk4 V c t k j]

/-- An index of the array is in point t's block iff each coordinate is in the block's range on its axis. -/
theorem arr2_mem (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v59).slice (win2_5.rect t)).set ↔ _
  rw [View.set_slice_whole, Rect.mem_set_unit]
  exact Iff.rfl

/-- Every row of the array is in the block of the point numbered by its ten-thousand. -/
theorem arr2_cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  have ht : (i 0).val / 10000 < cfg2.N := by rw [hN]; omega
  refine ⟨⟨(i 0).val / 10000, ht⟩, flush2_5 _, ?_⟩
  rw [arr2_mem]
  have e4 := (arr2_idx ⟨(i 0).val / 10000, ht⟩).out.1
  have e5 := (arr2_idx ⟨(i 0).val / 10000, ht⟩).out.2
  intro a
  match a with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_5.index ⟨(i 0).val / 10000, ht⟩ (1 : Fin 2) * 64 ≤ (i 1).val ∧ (i 1).val < win2_5.index ⟨(i 0).val / 10000, ht⟩ (1 : Fin 2) * 64 + 64
    rw [e5]; omega

/-- The output array after the call: the layer's update of the whole arrays. -/
theorem arr2_eq (c : Dev nD) :
    (dat2 V q c).arrAt 5 cfg2.N = updF (F := Ideal) (V c main_v44) (V c main_v44) (V c main_v58) (V c main_v38) (V c main_v42) :=
  (dat2 V q c).arrAt_eq_of_cover 5 _ (fun t _ => arr2_flushed V q c t) arr2_cover

end Cert.KernelIdeal.Rg

end
-- ==== Proof.IdealPay2.lean ====
/-
  The mixer calls of layers two to four and the update calls of layers two to four have the same arithmetic as the
  first layer's: the same readings at an entry.
-/
import proofs.«112566_j48309792145741_1_alg».proof.Proof.IdealPay

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL.Sem

theorem k3_pay1_apply (x : Vec Ideal S10000x64 .f32) (w : Vec Ideal S64x64 .f32) (r : Fin 10000) (j : Fin 64) :
    k3_pay1 (F := Ideal) x w (ix2 r j) = ∑ k : Fin 64, x (ix2 r k) * w (ix2 k j) := by
  unfold k3_pay1
  simp only [shapeCast_self]
  exact mm64_apply _ _ r j

theorem k5_pay1_apply (x : Vec Ideal S10000x64 .f32) (w : Vec Ideal S64x64 .f32) (r : Fin 10000) (j : Fin 64) :
    k5_pay1 (F := Ideal) x w (ix2 r j) = ∑ k : Fin 64, x (ix2 r k) * w (ix2 k j) := by
  unfold k5_pay1
  simp only [shapeCast_self]
  exact mm64_apply _ _ r j

theorem k7_pay1_apply (x : Vec Ideal S10000x64 .f32) (w : Vec Ideal S64x64 .f32) (r : Fin 10000) (j : Fin 64) :
    k7_pay1 (F := Ideal) x w (ix2 r j) = ∑ k : Fin 64, x (ix2 r k) * w (ix2 k j) := by
  unfold k7_pay1
  simp only [shapeCast_self]
  exact mm64_apply _ _ r j

theorem k4_pay1_apply (h x0 agg : Vec Ideal S10000x64 .f32) (we w0 : Vec Ideal S64x64 .f32) (r : Fin 10000) (j : Fin 64) :
    k4_pay1 (F := Ideal) h x0 agg we w0 (ix2 r j)
      = max (h (ix2 r j) + c1 * max (agg (ix2 r j) - (∑ k : Fin 64, h (ix2 r k) * we (ix2 k j)) - (∑ k : Fin 64, x0 (ix2 r k) * w0 (ix2 k j))) c0) c0 := by
  unfold k4_pay1
  simp only [shapeCast_self]
  rw [← mm64_apply h we r j, ← mm64_apply x0 w0 r j]
  rfl

theorem k6_pay1_apply (h x0 agg : Vec Ideal S10000x64 .f32) (we w0 : Vec Ideal S64x64 .f32) (r : Fin 10000) (j : Fin 64) :
    k6_pay1 (F := Ideal) h x0 agg we w0 (ix2 r j)
      = max (h (ix2 r j) + c1 * max (agg (ix2 r j) - (∑ k : Fin 64, h (ix2 r k) * we (ix2 k j)) - (∑ k : Fin 64, x0 (ix2 r k) * w0 (ix2 k j))) c0) c0 := by
  unfold k6_pay1
  simp only [shapeCast_self]
  rw [← mm64_apply h we r j, ← mm64_apply x0 w0 r j]
  rfl

theorem k8_pay1_apply (h x0 agg : Vec Ideal S10000x64 .f32) (we w0 : Vec Ideal S64x64 .f32) (r : Fin 10000) (j : Fin 64) :
    k8_pay1 (F := Ideal) h x0 agg we w0 (ix2 r j)
      = max (h (ix2 r j) + c1 * max (agg (ix2 r j) - (∑ k : Fin 64, h (ix2 r k) * we (ix2 k j)) - (∑ k : Fin 64, x0 (ix2 r k) * w0 (ix2 k j))) c0) c0 := by
  unfold k8_pay1
  simp only [shapeCast_self]
  rw [← mm64_apply h we r j, ← mm64_apply x0 w0 r j]
  rfl

end Cert.KernelIdeal.Rg

end
-- ==== Proof.IdealArr3.lean ====
/-
  Call 3 (a row tile of the hidden state times the internal mixer), from blocks to the array: grid point t stores rows
  10000·t … 10000·t + 9999 of the product of the whole hidden array with the mixer, and the ten points' blocks tile the
  output array, so the array ends holding that product.
-/
import proofs.«112566_j48309792145741_1_alg».proof.Proof.IdealCall3
import proofs.«112566_j48309792145741_1_alg».proof.Proof.IdealPay2
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg3.W → PosShare TreeShare)

theorem arr3_hz : (![0, 0] : Fin 2 → Nat) = fun _ => 0 := funext fun a => by fin_cases a <;> rfl

/-- The index maps over the grid: the row windows sit at block (t, 0), the mixer's window at block (0, 0). -/
theorem arr3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- The hidden state's block at point t is rows 10000·t … of its array. -/
theorem arr3_blk0 (c : Dev nD) (t : Fin cfg3.N) (r : Fin 10000) (k : Fin 64) (R : Fin 100000) (hR : R.val = t.val * 10000 + r.val) :
    (iblk3 V c 0 t : Vec Ideal S10000x64 .f32) (ix2 r k) = (V c main_v59 : S100000x64.Idx → EReal) (ix2 R k) := by
  obtain ⟨e0, e1, -, -, -, -, -⟩ := arr3_idx t
  unfold iblk3
  rw [View.read_apply]
  show V c main_v59 _ = V c main_v59 _
  refine congrArg (V c main_v59) (funext fun a => Fin.ext ?_)
  match a with
  | ⟨0, _⟩ => show win3_0.index t (0 : Fin 2) * 10000 + 1 * r.val = R.val; rw [e0, hR]; omega
  | ⟨1, _⟩ => show win3_0.index t (1 : Fin 2) * 64 + 1 * k.val = k.val; rw [e1]; omega

/-- The mixer's block at every point is the whole mixer. -/
theorem arr3_blk1 (c : Dev nD) (t : Fin cfg3.N) (k j : Fin 64) :
    (iblk3 V c 1 t : Vec Ideal S64x64 .f32) (ix2 k j) = (V c main_v34 : S64x64.Idx → EReal) (ix2 k j) := by
  obtain ⟨-, -, e2, e3, -, -, -⟩ := arr3_idx t
  unfold iblk3
  rw [View.read_apply]
  show V c main_v34 _ = V c main_v34 _
  refine congrArg (V c main_v34) (funext fun a => Fin.ext ?_)
  match a with
  | ⟨0, _⟩ => show win3_1.index t (0 : Fin 2) * 64 + 1 * k.val = k.val; rw [e2]; omega
  | ⟨1, _⟩ => show win3_1.index t (1 : Fin 2) * 64 + 1 * j.val = j.val; rw [e3]; omega

/-- What point t writes back is block t of the product of the whole arrays. -/
theorem arr3_flushed (c : Dev nD) (t : Fin cfg3.N) :
    (dat3 V q c).flushed 2 t = ((cfg3.win 2).blk t).view.read (Elt Ideal) (mixF (F := Ideal) (V c main_v59) (V c main_v34)) := by
  obtain ⟨-, -, -, -, e4, e5, hlt⟩ := arr3_idx t
  show (cfg3.win 2).cut (grid3.coords t) ((dat3 V q c).after 2 t) = _
  rw [after3_2]
  unfold out3
  rw [View.canon_unit_zero arr3_hz]
  simp only [View.ld_unit_zero (S := S10000x64) arr3_hz, View.ld_unit_zero (S := S64x64) arr3_hz]
  funext y
  obtain ⟨r, j, rfl⟩ : ∃ (r : Fin 10000) (j : Fin 64), y = ix2 r j := ⟨y 0, y 1, eq_ix2 y⟩
  have hr : r.val < 10000 := r.isLt
  have hemb : ((cfg3.win 2).blk t).view.emb (ix2 r j) = ix2 (⟨t.val * 10000 + r.val, by omega⟩ : Fin 100000) j := by
    funext a; apply Fin.ext
    match a with
    | ⟨0, _⟩ => show win3_2.index t (0 : Fin 2) * 10000 + 1 * r.val = t.val * 10000 + r.val; rw [e4]; omega
    | ⟨1, _⟩ => show win3_2.index t (1 : Fin 2) * 64 + 1 * j.val = j.val; rw [e5]; omega
  show k3_pay1 (iblk3 V c 0 t) (iblk3 V c 1 t) (ix2 r j) = mixF (F := Ideal) (V c main_v59) (V c main_v34) (((cfg3.win 2).blk t).view.emb (ix2 r j))
  refine Eq.trans ?_ (congrArg (mixF (F := Ideal) (V c main_v59) (V c main_v34)) hemb.symm)
  refine (k3_pay1_apply _ _ r j).trans ?_
  refine Eq.trans ?_ (mixF_apply _ _ _ j).symm
  refine Finset.sum_congr rfl fun k _ => ?_
  rw [arr3_blk0 V c t r k ⟨t.val * 10000 + r.val, by omega⟩ rfl, arr3_blk1 V c t k j]

/-- An index of the array is in point t's block iff each coordinate is in the block's range on its axis. -/
theorem arr3_mem (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v60).slice (win3_2.rect t)).set ↔ _
  rw [View.set_slice_whole, Rect.mem_set_unit]
  exact Iff.rfl

/-- Every row of the array is in the block of the point numbered by its ten-thousand. -/
theorem arr3_cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  refine ⟨⟨(i 0).val / 10000, ht⟩, flush3_2 _, ?_⟩
  rw [arr3_mem]
  obtain ⟨-, -, -, -, e4, e5, -⟩ := arr3_idx ⟨(i 0).val / 10000, ht⟩
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e5]; omega

/-- The output array after the call: the whole hidden array times the mixer. -/
theorem arr3_eq (c : Dev nD) :
    (dat3 V q c).arrAt 2 cfg3.N = mixF (F := Ideal) (V c main_v59) (V c main_v34) :=
  (dat3 V q c).arrAt_eq_of_cover 2 _ (fun t _ => arr3_flushed V q c t) arr3_cover

end Cert.KernelIdeal.Rg

end
-- ==== Proof.IdealArr4.lean ====
/-
  Call 4 (one layer's update of a row tile), from blocks to the array: grid point t stores rows 10000·t … 10000·t + 9999
  of the update of the whole arrays, and the ten points' blocks tile the output array, so the array ends holding it.
-/
import proofs.«112566_j48309792145741_1_alg».proof.Proof.IdealCall4
import proofs.«112566_j48309792145741_1_alg».proof.Proof.IdealPay2
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg4.W → PosShare TreeShare)

theorem arr4_hz : (![0, 0] : Fin 2 → Nat) = fun _ => 0 := funext fun a => by fin_cases a <;> rfl

/-- The index maps at a grid point: the three row windows and the output at block (t, 0), the two mixers at (0, 0). -/
structure Arr4Idx (t : Fin cfg4.N) : Prop where
  w0 : win4_0.index t (0 : Fin 2) = t.val ∧ win4_0.index t (1 : Fin 2) = 0
  w1 : win4_1.index t (0 : Fin 2) = t.val ∧ win4_1.index t (1 : Fin 2) = 0
  w2 : win4_2.index t (0 : Fin 2) = t.val ∧ win4_2.index t (1 : Fin 2) = 0
  w3 : win4_3.index t (0 : Fin 2) = 0 ∧ win4_3.index t (1 : Fin 2) = 0
  w4 : win4_4.index t (0 : Fin 2) = 0 ∧ win4_4.index t (1 : Fin 2) = 0
  out : win4_5.index t (0 : Fin 2) = t.val ∧ win4_5.index t (1 : Fin 2) = 0
  lt : t.val < 10

theorem arr4_idx : ∀ t : Fin cfg4.N, Arr4Idx t := by
  have h : ∀ t : Fin grid4.N, (win4_0.index t (0 : Fin 2) = t.val ∧ win4_0.index t (1 : Fin 2) = 0)
      ∧ (win4_1.index t (0 : Fin 2) = t.val ∧ win4_1.index t (1 : Fin 2) = 0)
      ∧ (win4_2.index t (0 : Fin 2) = t.val ∧ win4_2.index t (1 : Fin 2) = 0)
      ∧ (win4_3.index t (0 : Fin 2) = 0 ∧ win4_3.index t (1 : Fin 2) = 0)
      ∧ (win4_4.index t (0 : Fin 2) = 0 ∧ win4_4.index t (1 : Fin 2) = 0)
      ∧ (win4_5.index t (0 : Fin 2) = t.val ∧ win4_5.index t (1 : Fin 2) = 0) ∧ t.val < 10 := by decide +kernel
  intro t
  obtain ⟨a0, a1, a2, a3, a4, a5, a6⟩ := h t
  exact ⟨a0, a1, a2, a3, a4, a5, a6⟩

theorem arr4_blk0 (c : Dev nD) (t : Fin cfg4.N) (r : Fin 10000) (k : Fin 64) (R : Fin 100000) (hR : R.val = t.val * 10000 + r.val) :
    (iblk4 V c 0 t : Vec Ideal S10000x64 .f32) (ix2 r k) = (V c main_v59 : S100000x64.Idx → EReal) (ix2 R k) := by
  have e0 := (arr4_idx t).w0.1
  have e1 := (arr4_idx t).w0.2
  unfold iblk4
  rw [View.read_apply]
  show V c main_v59 _ = V c main_v59 _
  refine congrArg (V c main_v59) (funext fun a => Fin.ext ?_)
  match a with
  | ⟨0, _⟩ => show win4_0.index t (0 : Fin 2) * 10000 + 1 * r.val = R.val; rw [e0, hR]; omega
  | ⟨1, _⟩ => show win4_0.index t (1 : Fin 2) * 64 + 1 * k.val = k.val; rw [e1]; omega

theorem arr4_blk1 (c : Dev nD) (t : Fin cfg4.N) (r : Fin 10000) (k : Fin 64) (R : Fin 100000) (hR : R.val = t.val * 10000 + r.val) :
    (iblk4 V c 1 t : Vec Ideal S10000x64 .f32) (ix2 r k) = (V c main_v44 : S100000x64.Idx → EReal) (ix2 R k) := by
  have e0 := (arr4_idx t).w1.1
  have e1 := (arr4_idx t).w1.2
  unfold iblk4
  rw [View.read_apply]
  show V c main_v44 _ = V c main_v44 _
  refine congrArg (V c main_v44) (funext fun a => Fin.ext ?_)
  match a with
  | ⟨0, _⟩ => show win4_1.index t (0 : Fin 2) * 10000 + 1 * r.val = R.val; rw [e0, hR]; omega
  | ⟨1, _⟩ => show win4_1.index t (1 : Fin 2) * 64 + 1 * k.val = k.val; rw [e1]; omega

theorem arr4_blk2 (c : Dev nD) (t : Fin cfg4.N) (r : Fin 10000) (k : Fin 64) (R : Fin 100000) (hR : R.val = t.val * 10000 + r.val) :
    (iblk4 V c 2 t : Vec Ideal S10000x64 .f32) (ix2 r k) = (V c main_v73 : S100000x64.Idx → EReal) (ix2 R k) := by
  have e0 := (arr4_idx t).w2.1
  have e1 := (arr4_idx t).w2.2
  unfold iblk4
  rw [View.read_apply]
  show V c main_v73 _ = V c main_v73 _
  refine congrArg (V c main_v73) (funext fun a => Fin.ext ?_)
  match a with
  | ⟨0, _⟩ => show win4_2.index t (0 : Fin 2) * 10000 + 1 * r.val = R.val; rw [e0, hR]; omega
  | ⟨1, _⟩ => show win4_2.index t (1 : Fin 2) * 64 + 1 * k.val = k.val; rw [e1]; omega

theorem arr4_blk3 (c : Dev nD) (t : Fin cfg4.N) (k : Fin 64) (j : Fin 64) :
    (iblk4 V c 3 t : Vec Ideal S64x64 .f32) (ix2 k j) = (V c main_v38 : S64x64.Idx → EReal) (ix2 k j) := by
  have e0 := (arr4_idx t).w3.1
  have e1 := (arr4_idx t).w3.2
  unfold iblk4
  rw [View.read_apply]
  show V c main_v38 _ = V c main_v38 _
  refine congrArg (V c main_v38) (funext fun a => Fin.ext ?_)
  match a with
  | ⟨0, _⟩ => show win4_3.index t (0 : Fin 2) * 64 + 1 * k.val = k.val; rw [e0]; omega
  | ⟨1, _⟩ => show win4_3.index t (1 : Fin 2) * 64 + 1 * j.val = j.val; rw [e1]; omega

theorem arr4_blk4 (c : Dev nD) (t : Fin cfg4.N) (k : Fin 64) (j : Fin 64) :
    (iblk4 V c 4 t : Vec Ideal S64x64 .f32) (ix2 k j) = (V c main_v42 : S64x64.Idx → EReal) (ix2 k j) := by
  have e0 := (arr4_idx t).w4.1
  have e1 := (arr4_idx t).w4.2
  unfold iblk4
  rw [View.read_apply]
  show V c main_v42 _ = V c main_v42 _
  refine congrArg (V c main_v42) (funext fun a => Fin.ext ?_)
  match a with
  | ⟨0, _⟩ => show win4_4.index t (0 : Fin 2) * 64 + 1 * k.val = k.val; rw [e0]; omega
  | ⟨1, _⟩ => show win4_4.index t (1 : Fin 2) * 64 + 1 * j.val = j.val; rw [e1]; omega

/-- The update's entry depends only on the hidden entry, the aggregate's entry and the two rows of products. -/
theorem arr4_congr (h h' g g' : EReal) (A A' B B' : Fin 64 → EReal) (eh : h = h') (eg : g = g')
    (eA : ∀ k, A k = A' k) (eB : ∀ k, B k = B' k) :
    max (h + c1 * max (g - (∑ k, A k) - (∑ k, B k)) c0) c0
      = max (h' + Ideal.ofBits .f32 0x3F800000#32 * max (g' - (∑ k, A' k) - (∑ k, B' k)) (Ideal.ofBits .f32 0x00000000#32)) (Ideal.ofBits .f32 0x00000000#32) := by
  subst eh eg
  rw [show A = A' from funext eA, show B = B' from funext eB]

/-- What point t writes back is block t of the update of the whole arrays. -/
theorem arr4_flushed (c : Dev nD) (t : Fin cfg4.N) :
    (dat4 V q c).flushed 5 t = ((cfg4.win 5).blk t).view.read (Elt Ideal) (updF (F := Ideal) (V c main_v59) (V c main_v44) (V c main_v73) (V c main_v38) (V c main_v42)) := by
  have e4 := (arr4_idx t).out.1
  have e5 := (arr4_idx t).out.2
  have hlt := (arr4_idx t).lt
  show (cfg4.win 5).cut (grid4.coords t) ((dat4 V q c).after 5 t) = _
  rw [after4_5]
  unfold out4
  rw [View.canon_unit_zero arr4_hz]
  simp only [View.ld_unit_zero (S := S10000x64) arr4_hz, View.ld_unit_zero (S := S64x64) arr4_hz]
  funext y
  obtain ⟨r, j, rfl⟩ : ∃ (r : Fin 10000) (j : Fin 64), y = ix2 r j := ⟨y 0, y 1, eq_ix2 y⟩
  have hr : r.val < 10000 := r.isLt
  have hemb : ((cfg4.win 5).blk t).view.emb (ix2 r j) = ix2 (⟨t.val * 10000 + r.val, by omega⟩ : Fin 100000) j := by
    funext a; apply Fin.ext
    match a with
    | ⟨0, _⟩ => show win4_5.index t (0 : Fin 2) * 10000 + 1 * r.val = t.val * 10000 + r.val; rw [e4]; omega
    | ⟨1, _⟩ => show win4_5.index t (1 : Fin 2) * 64 + 1 * j.val = j.val; rw [e5]; omega
  show k4_pay1 (iblk4 V c 0 t) (iblk4 V c 1 t) (iblk4 V c 2 t) (iblk4 V c 3 t) (iblk4 V c 4 t) (ix2 r j)
    = updF (F := Ideal) (V c main_v59) (V c main_v44) (V c main_v73) (V c main_v38) (V c main_v42) (((cfg4.win 5).blk t).view.emb (ix2 r j))
  refine Eq.trans ?_ (congrArg (updF (F := Ideal) (V c main_v59) (V c main_v44) (V c main_v73) (V c main_v38) (V c main_v42)) hemb.symm)
  refine (k4_pay1_apply _ _ _ _ _ r j).trans ?_
  refine Eq.trans ?_ (updF_apply _ _ _ _ _ _ j).symm
  refine arr4_congr _ _ _ _ _ _ _ _ ?_ ?_ (fun k => ?_) (fun k => ?_)
  · exact arr4_blk0 V c t r j ⟨t.val * 10000 + r.val, by omega⟩ rfl
  · exact arr4_blk2 V c t r j ⟨t.val * 10000 + r.val, by omega⟩ rfl
  · rw [arr4_blk0 V c t r k ⟨t.val * 10000 + r.val, by omega⟩ rfl, arr4_blk3 V c t k j]
  · rw [arr4_blk1 V c t r k ⟨t.val * 10000 + r.val, by omega⟩ rfl, arr4_blk4 V c t k j]

/-- An index of the array is in point t's block iff each coordinate is in the block's range on its axis. -/
theorem arr4_mem (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v74).slice (win4_5.rect t)).set ↔ _
  rw [View.set_slice_whole, Rect.mem_set_unit]
  exact Iff.rfl

/-- Every row of the array is in the block of the point numbered by its ten-thousand. -/
theorem arr4_cover (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 10 := N_4
  have ht : (i 0).val / 10000 < cfg4.N := by rw [hN]; omega
  refine ⟨⟨(i 0).val / 10000, ht⟩, flush4_5 _, ?_⟩
  rw [arr4_mem]
  have e4 := (arr4_idx ⟨(i 0).val / 10000, ht⟩).out.1
  have e5 := (arr4_idx ⟨(i 0).val / 10000, ht⟩).out.2
  intro a
  match a with
  | ⟨0, _⟩ =>
    show win4_5.index ⟨(i 0).val / 10000, ht⟩ (0 : Fin 2) * 10000 ≤ (i 0).val ∧ (i 0).val < win4_5.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_5.index ⟨(i 0).val / 10000, ht⟩ (1 : Fin 2) * 64 ≤ (i 1).val ∧ (i 1).val < win4_5.index ⟨(i 0).val / 10000, ht⟩ (1 : Fin 2) * 64 + 64
    rw [e5]; omega

/-- The output array after the call: the layer's update of the whole arrays. -/
theorem arr4_eq (c : Dev nD) :
    (dat4 V q c).arrAt 5 cfg4.N = updF (F := Ideal) (V c main_v59) (V c main_v44) (V c main_v73) (V c main_v38) (V c main_v42) :=
  (dat4 V q c).arrAt_eq_of_cover 5 _ (fun t _ => arr4_flushed V q c t) arr4_cover

end Cert.KernelIdeal.Rg

end
-- ==== Proof.IdealArr5.lean ====
/-
  Call 5 (a row tile of the hidden state times the internal mixer), from blocks to the array: grid point t stores rows
  10000·t … 10000·t + 9999 of the product of the whole hidden array with the mixer, and the ten points' blocks tile the
  output array, so the array ends holding that product.
-/
import proofs.«112566_j48309792145741_1_alg».proof.Proof.IdealCall5
import proofs.«112566_j48309792145741_1_alg».proof.Proof.IdealPay2
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg5.W → PosShare TreeShare)

theorem arr5_hz : (![0, 0] : Fin 2 → Nat) = fun _ => 0 := funext fun a => by fin_cases a <;> rfl

/-- The index maps over the grid: the row windows sit at block (t, 0), the mixer's window at block (0, 0). -/
theorem arr5_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 10 :=
  (by decide +kernel : ∀ t : Fin grid5.N, _)

/-- The hidden state's block at point t is rows 10000·t … of its array. -/
theorem arr5_blk0 (c : Dev nD) (t : Fin cfg5.N) (r : Fin 10000) (k : Fin 64) (R : Fin 100000) (hR : R.val = t.val * 10000 + r.val) :
    (iblk5 V c 0 t : Vec Ideal S10000x64 .f32) (ix2 r k) = (V c main_v74 : S100000x64.Idx → EReal) (ix2 R k) := by
  obtain ⟨e0, e1, -, -, -, -, -⟩ := arr5_idx t
  unfold iblk5
  rw [View.read_apply]
  show V c main_v74 _ = V c main_v74 _
  refine congrArg (V c main_v74) (funext fun a => Fin.ext ?_)
  match a with
  | ⟨0, _⟩ => show win5_0.index t (0 : Fin 2) * 10000 + 1 * r.val = R.val; rw [e0, hR]; omega
  | ⟨1, _⟩ => show win5_0.index t (1 : Fin 2) * 64 + 1 * k.val = k.val; rw [e1]; omega

/-- The mixer's block at every point is the whole mixer. -/
theorem arr5_blk1 (c : Dev nD) (t : Fin cfg5.N) (k j : Fin 64) :
    (iblk5 V c 1 t : Vec Ideal S64x64 .f32) (ix2 k j) = (V c main_v34 : S64x64.Idx → EReal) (ix2 k j) := by
  obtain ⟨-, -, e2, e3, -, -, -⟩ := arr5_idx t
  unfold iblk5
  rw [View.read_apply]
  show V c main_v34 _ = V c main_v34 _
  refine congrArg (V c main_v34) (funext fun a => Fin.ext ?_)
  match a with
  | ⟨0, _⟩ => show win5_1.index t (0 : Fin 2) * 64 + 1 * k.val = k.val; rw [e2]; omega
  | ⟨1, _⟩ => show win5_1.index t (1 : Fin 2) * 64 + 1 * j.val = j.val; rw [e3]; omega

/-- What point t writes back is block t of the product of the whole arrays. -/
theorem arr5_flushed (c : Dev nD) (t : Fin cfg5.N) :
    (dat5 V q c).flushed 2 t = ((cfg5.win 2).blk t).view.read (Elt Ideal) (mixF (F := Ideal) (V c main_v74) (V c main_v34)) := by
  obtain ⟨-, -, -, -, e4, e5, hlt⟩ := arr5_idx t
  show (cfg5.win 2).cut (grid5.coords t) ((dat5 V q c).after 2 t) = _
  rw [after5_2]
  unfold out5
  rw [View.canon_unit_zero arr5_hz]
  simp only [View.ld_unit_zero (S := S10000x64) arr5_hz, View.ld_unit_zero (S := S64x64) arr5_hz]
  funext y
  obtain ⟨r, j, rfl⟩ : ∃ (r : Fin 10000) (j : Fin 64), y = ix2 r j := ⟨y 0, y 1, eq_ix2 y⟩
  have hr : r.val < 10000 := r.isLt
  have hemb : ((cfg5.win 2).blk t).view.emb (ix2 r j) = ix2 (⟨t.val * 10000 + r.val, by omega⟩ : Fin 100000) j := by
    funext a; apply Fin.ext
    match a with
    | ⟨0, _⟩ => show win5_2.index t (0 : Fin 2) * 10000 + 1 * r.val = t.val * 10000 + r.val; rw [e4]; omega
    | ⟨1, _⟩ => show win5_2.index t (1 : Fin 2) * 64 + 1 * j.val = j.val; rw [e5]; omega
  show k5_pay1 (iblk5 V c 0 t) (iblk5 V c 1 t) (ix2 r j) = mixF (F := Ideal) (V c main_v74) (V c main_v34) (((cfg5.win 2).blk t).view.emb (ix2 r j))
  refine Eq.trans ?_ (congrArg (mixF (F := Ideal) (V c main_v74) (V c main_v34)) hemb.symm)
  refine (k5_pay1_apply _ _ r j).trans ?_
  refine Eq.trans ?_ (mixF_apply _ _ _ j).symm
  refine Finset.sum_congr rfl fun k _ => ?_
  rw [arr5_blk0 V c t r k ⟨t.val * 10000 + r.val, by omega⟩ rfl, arr5_blk1 V c t k j]

/-- An index of the array is in point t's block iff each coordinate is in the block's range on its axis. -/
theorem arr5_mem (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v75).slice (win5_2.rect t)).set ↔ _
  rw [View.set_slice_whole, Rect.mem_set_unit]
  exact Iff.rfl

/-- Every row of the array is in the block of the point numbered by its ten-thousand. -/
theorem arr5_cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  have ht : (i 0).val / 10000 < cfg5.N := by rw [hN]; omega
  refine ⟨⟨(i 0).val / 10000, ht⟩, flush5_2 _, ?_⟩
  rw [arr5_mem]
  obtain ⟨-, -, -, -, e4, e5, -⟩ := arr5_idx ⟨(i 0).val / 10000, ht⟩
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 64 ≤ (i 1).val ∧ (i 1).val < win5_2.index ⟨(i 0).val / 10000, ht⟩ (1 : Fin 2) * 64 + 64
    rw [e5]; omega

/-- The output array after the call: the whole hidden array times the mixer. -/
theorem arr5_eq (c : Dev nD) :
    (dat5 V q c).arrAt 2 cfg5.N = mixF (F := Ideal) (V c main_v74) (V c main_v34) :=
  (dat5 V q c).arrAt_eq_of_cover 2 _ (fun t _ => arr5_flushed V q c t) arr5_cover

end Cert.KernelIdeal.Rg

end
-- ==== Proof.IdealArr6.lean ====
/-
  Call 6 (one layer's update of a row tile), from blocks to the array: grid point t stores rows 10000·t … 10000·t + 9999
  of the update of the whole arrays, and the ten points' blocks tile the output array, so the array ends holding it.
-/
import proofs.«112566_j48309792145741_1_alg».proof.Proof.IdealCall6
import proofs.«112566_j48309792145741_1_alg».proof.Proof.IdealPay2
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg6.W → PosShare TreeShare)

theorem arr6_hz : (![0, 0] : Fin 2 → Nat) = fun _ => 0 := funext fun a => by fin_cases a <;> rfl

/-- The index maps at a grid point: the three row windows and the output at block (t, 0), the two mixers at (0, 0). -/
structure Arr6Idx (t : Fin cfg6.N) : Prop where
  w0 : win6_0.index t (0 : Fin 2) = t.val ∧ win6_0.index t (1 : Fin 2) = 0
  w1 : win6_1.index t (0 : Fin 2) = t.val ∧ win6_1.index t (1 : Fin 2) = 0
  w2 : win6_2.index t (0 : Fin 2) = t.val ∧ win6_2.index t (1 : Fin 2) = 0
  w3 : win6_3.index t (0 : Fin 2) = 0 ∧ win6_3.index t (1 : Fin 2) = 0
  w4 : win6_4.index t (0 : Fin 2) = 0 ∧ win6_4.index t (1 : Fin 2) = 0
  out : win6_5.index t (0 : Fin 2) = t.val ∧ win6_5.index t (1 : Fin 2) = 0
  lt : t.val < 10

theorem arr6_idx : ∀ t : Fin cfg6.N, Arr6Idx t := by
  have h : ∀ t : Fin grid6.N, (win6_0.index t (0 : Fin 2) = t.val ∧ win6_0.index t (1 : Fin 2) = 0)
      ∧ (win6_1.index t (0 : Fin 2) = t.val ∧ win6_1.index t (1 : Fin 2) = 0)
      ∧ (win6_2.index t (0 : Fin 2) = t.val ∧ win6_2.index t (1 : Fin 2) = 0)
      ∧ (win6_3.index t (0 : Fin 2) = 0 ∧ win6_3.index t (1 : Fin 2) = 0)
      ∧ (win6_4.index t (0 : Fin 2) = 0 ∧ win6_4.index t (1 : Fin 2) = 0)
      ∧ (win6_5.index t (0 : Fin 2) = t.val ∧ win6_5.index t (1 : Fin 2) = 0) ∧ t.val < 10 := by decide +kernel
  intro t
  obtain ⟨a0, a1, a2, a3, a4, a5, a6⟩ := h t
  exact ⟨a0, a1, a2, a3, a4, a5, a6⟩

theorem arr6_blk0 (c : Dev nD) (t : Fin cfg6.N) (r : Fin 10000) (k : Fin 64) (R : Fin 100000) (hR : R.val = t.val * 10000 + r.val) :
    (iblk6 V c 0 t : Vec Ideal S10000x64 .f32) (ix2 r k) = (V c main_v74 : S100000x64.Idx → EReal) (ix2 R k) := by
  have e0 := (arr6_idx t).w0.1
  have e1 := (arr6_idx t).w0.2
  unfold iblk6
  rw [View.read_apply]
  show V c main_v74 _ = V c main_v74 _
  refine congrArg (V c main_v74) (funext fun a => Fin.ext ?_)
  match a with
  | ⟨0, _⟩ => show win6_0.index t (0 : Fin 2) * 10000 + 1 * r.val = R.val; rw [e0, hR]; omega
  | ⟨1, _⟩ => show win6_0.index t (1 : Fin 2) * 64 + 1 * k.val = k.val; rw [e1]; omega

theorem arr6_blk1 (c : Dev nD) (t : Fin cfg6.N) (r : Fin 10000) (k : Fin 64) (R : Fin 100000) (hR : R.val = t.val * 10000 + r.val) :
    (iblk6 V c 1 t : Vec Ideal S10000x64 .f32) (ix2 r k) = (V c main_v44 : S100000x64.Idx → EReal) (ix2 R k) := by
  have e0 := (arr6_idx t).w1.1
  have e1 := (arr6_idx t).w1.2
  unfold iblk6
  rw [View.read_apply]
  show V c main_v44 _ = V c main_v44 _
  refine congrArg (V c main_v44) (funext fun a => Fin.ext ?_)
  match a with
  | ⟨0, _⟩ => show win6_1.index t (0 : Fin 2) * 10000 + 1 * r.val = R.val; rw [e0, hR]; omega
  | ⟨1, _⟩ => show win6_1.index t (1 : Fin 2) * 64 + 1 * k.val = k.val; rw [e1]; omega

theorem arr6_blk2 (c : Dev nD) (t : Fin cfg6.N) (r : Fin 10000) (k : Fin 64) (R : Fin 100000) (hR : R.val = t.val * 10000 + r.val) :
    (iblk6 V c 2 t : Vec Ideal S10000x64 .f32) (ix2 r k) = (V c main_v88 : S100000x64.Idx → EReal) (ix2 R k) := by
  have e0 := (arr6_idx t).w2.1
  have e1 := (arr6_idx t).w2.2
  unfold iblk6
  rw [View.read_apply]
  show V c main_v88 _ = V c main_v88 _
  refine congrArg (V c main_v88) (funext fun a => Fin.ext ?_)
  match a with
  | ⟨0, _⟩ => show win6_2.index t (0 : Fin 2) * 10000 + 1 * r.val = R.val; rw [e0, hR]; omega
  | ⟨1, _⟩ => show win6_2.index t (1 : Fin 2) * 64 + 1 * k.val = k.val; rw [e1]; omega

theorem arr6_blk3 (c : Dev nD) (t : Fin cfg6.N) (k : Fin 64) (j : Fin 64) :
    (iblk6 V c 3 t : Vec Ideal S64x64 .f32) (ix2 k j) = (V c main_v38 : S64x64.Idx → EReal) (ix2 k j) := by
  have e0 := (arr6_idx t).w3.1
  have e1 := (arr6_idx t).w3.2
  unfold iblk6
  rw [View.read_apply]
  show V c main_v38 _ = V c main_v38 _
  refine congrArg (V c main_v38) (funext fun a => Fin.ext ?_)
  match a with
  | ⟨0, _⟩ => show win6_3.index t (0 : Fin 2) * 64 + 1 * k.val = k.val; rw [e0]; omega
  | ⟨1, _⟩ => show win6_3.index t (1 : Fin 2) * 64 + 1 * j.val = j.val; rw [e1]; omega

theorem arr6_blk4 (c : Dev nD) (t : Fin cfg6.N) (k : Fin 64) (j : Fin 64) :
    (iblk6 V c 4 t : Vec Ideal S64x64 .f32) (ix2 k j) = (V c main_v42 : S64x64.Idx → EReal) (ix2 k j) := by
  have e0 := (arr6_idx t).w4.1
  have e1 := (arr6_idx t).w4.2
  unfold iblk6
  rw [View.read_apply]
  show V c main_v42 _ = V c main_v42 _
  refine congrArg (V c main_v42) (funext fun a => Fin.ext ?_)
  match a with
  | ⟨0, _⟩ => show win6_4.index t (0 : Fin 2) * 64 + 1 * k.val = k.val; rw [e0]; omega
  | ⟨1, _⟩ => show win6_4.index t (1 : Fin 2) * 64 + 1 * j.val = j.val; rw [e1]; omega

/-- The update's entry depends only on the hidden entry, the aggregate's entry and the two rows of products. -/
theorem arr6_congr (h h' g g' : EReal) (A A' B B' : Fin 64 → EReal) (eh : h = h') (eg : g = g')
    (eA : ∀ k, A k = A' k) (eB : ∀ k, B k = B' k) :
    max (h + c1 * max (g - (∑ k, A k) - (∑ k, B k)) c0) c0
      = max (h' + Ideal.ofBits .f32 0x3F800000#32 * max (g' - (∑ k, A' k) - (∑ k, B' k)) (Ideal.ofBits .f32 0x00000000#32)) (Ideal.ofBits .f32 0x00000000#32) := by
  subst eh eg
  rw [show A = A' from funext eA, show B = B' from funext eB]

/-- What point t writes back is block t of the update of the whole arrays. -/
theorem arr6_flushed (c : Dev nD) (t : Fin cfg6.N) :
    (dat6 V q c).flushed 5 t = ((cfg6.win 5).blk t).view.read (Elt Ideal) (updF (F := Ideal) (V c main_v74) (V c main_v44) (V c main_v88) (V c main_v38) (V c main_v42)) := by
  have e4 := (arr6_idx t).out.1
  have e5 := (arr6_idx t).out.2
  have hlt := (arr6_idx t).lt
  show (cfg6.win 5).cut (grid6.coords t) ((dat6 V q c).after 5 t) = _
  rw [after6_5]
  unfold out6
  rw [View.canon_unit_zero arr6_hz]
  simp only [View.ld_unit_zero (S := S10000x64) arr6_hz, View.ld_unit_zero (S := S64x64) arr6_hz]
  funext y
  obtain ⟨r, j, rfl⟩ : ∃ (r : Fin 10000) (j : Fin 64), y = ix2 r j := ⟨y 0, y 1, eq_ix2 y⟩
  have hr : r.val < 10000 := r.isLt
  have hemb : ((cfg6.win 5).blk t).view.emb (ix2 r j) = ix2 (⟨t.val * 10000 + r.val, by omega⟩ : Fin 100000) j := by
    funext a; apply Fin.ext
    match a with
    | ⟨0, _⟩ => show win6_5.index t (0 : Fin 2) * 10000 + 1 * r.val = t.val * 10000 + r.val; rw [e4]; omega
    | ⟨1, _⟩ => show win6_5.index t (1 : Fin 2) * 64 + 1 * j.val = j.val; rw [e5]; omega
  show k6_pay1 (iblk6 V c 0 t) (iblk6 V c 1 t) (iblk6 V c 2 t) (iblk6 V c 3 t) (iblk6 V c 4 t) (ix2 r j)
    = updF (F := Ideal) (V c main_v74) (V c main_v44) (V c main_v88) (V c main_v38) (V c main_v42) (((cfg6.win 5).blk t).view.emb (ix2 r j))
  refine Eq.trans ?_ (congrArg (updF (F := Ideal) (V c main_v74) (V c main_v44) (V c main_v88) (V c main_v38) (V c main_v42)) hemb.symm)
  refine (k6_pay1_apply _ _ _ _ _ r j).trans ?_
  refine Eq.trans ?_ (updF_apply _ _ _ _ _ _ j).symm
  refine arr6_congr _ _ _ _ _ _ _ _ ?_ ?_ (fun k => ?_) (fun k => ?_)
  · exact arr6_blk0 V c t r j ⟨t.val * 10000 + r.val, by omega⟩ rfl
  · exact arr6_blk2 V c t r j ⟨t.val * 10000 + r.val, by omega⟩ rfl
  · rw [arr6_blk0 V c t r k ⟨t.val * 10000 + r.val, by omega⟩ rfl, arr6_blk3 V c t k j]
  · rw [arr6_blk1 V c t r k ⟨t.val * 10000 + r.val, by omega⟩ rfl, arr6_blk4 V c t k j]

/-- An index of the array is in point t's block iff each coordinate is in the block's range on its axis. -/
theorem arr6_mem (t : Fin cfg6.N) (i : S100000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v89).slice (win6_5.rect t)).set ↔ _
  rw [View.set_slice_whole, Rect.mem_set_unit]
  exact Iff.rfl

/-- Every row of the array is in the block of the point numbered by its ten-thousand. -/
theorem arr6_cover (i : S100000x64.Idx) : ∃ t : Fin cfg6.N, (cfg6.win 5).flush t = true ∧ i ∈ ((cfg6.win 5).blk t).view.set := by
  have hi0 : (i 0).val < 100000 := (i 0).isLt
  have hi1 : (i 1).val < 64 := (i 1).isLt
  have hN : cfg6.N = 10 := N_6
  have ht : (i 0).val / 10000 < cfg6.N := by rw [hN]; omega
  refine ⟨⟨(i 0).val / 10000, ht⟩, flush6_5 _, ?_⟩
  rw [arr6_mem]
  have e4 := (arr6_idx ⟨(i 0).val / 10000, ht⟩).out.1
  have e5 := (arr6_idx ⟨(i 0).val / 10000, ht⟩).out.2
  intro a
  match a with
  | ⟨0, _⟩ =>
    show win6_5.index ⟨(i 0).val / 10000, ht⟩ (0 : Fin 2) * 10000 ≤ (i 0).val ∧ (i 0).val < win6_5.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win6_5.index ⟨(i 0).val / 10000, ht⟩ (1 : Fin 2) * 64 ≤ (i 1).val ∧ (i 1).val < win6_5.index ⟨(i 0).val / 10000, ht⟩ (1 : Fin 2) * 64 + 64
    rw [e5]; omega

/-- The output array after the call: the layer's update of the whole arrays. -/
theorem arr6_eq (c : Dev nD) :
    (dat6 V q c).arrAt 5 cfg6.N = updF (F := Ideal) (V c main_v74) (V c main_v44) (V c main_v88) (V c main_v38) (V c main_v42) :=
  (dat6 V q c).arrAt_eq_of_cover 5 _ (fun t _ => arr6_flushed V q c t) arr6_cover

end Cert.KernelIdeal.Rg

end
-- ==== Proof.IdealArr7.lean ====
/-
  Call 7 (a row tile of the hidden state times the internal mixer), from blocks to the array: grid point t stores rows
  10000·t … 10000·t + 9999 of the product of the whole hidden array with the mixer, and the ten points' blocks tile the
  output array, so the array ends holding that product.
-/
import proofs.«112566_j48309792145741_1_alg».proof.Proof.IdealCall7
import proofs.«112566_j48309792145741_1_alg».proof.Proof.IdealPay2
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg7.W → PosShare TreeShare)

theorem arr7_hz : (![0, 0] : Fin 2 → Nat) = fun _ => 0 := funext fun a => by fin_cases a <;> rfl

/-- The index maps over the grid: the row windows sit at block (t, 0), the mixer's window at block (0, 0). -/
theorem arr7_idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 ∧ t.val < 10 :=
  (by decide +kernel : ∀ t : Fin grid7.N, _)

/-- The hidden state's block at point t is rows 10000·t … of its array. -/
theorem arr7_blk0 (c : Dev nD) (t : Fin cfg7.N) (r : Fin 10000) (k : Fin 64) (R : Fin 100000) (hR : R.val = t.val * 10000 + r.val) :
    (iblk7 V c 0 t : Vec Ideal S10000x64 .f32) (ix2 r k) = (V c main_v89 : S100000x64.Idx → EReal) (ix2 R k) := by
  obtain ⟨e0, e1, -, -, -, -, -⟩ := arr7_idx t
  unfold iblk7
  rw [View.read_apply]
  show V c main_v89 _ = V c main_v89 _
  refine congrArg (V c main_v89) (funext fun a => Fin.ext ?_)
  match a with
  | ⟨0, _⟩ => show win7_0.index t (0 : Fin 2) * 10000 + 1 * r.val = R.val; rw [e0, hR]; omega
  | ⟨1, _⟩ => show win7_0.index t (1 : Fin 2) * 64 + 1 * k.val = k.val; rw [e1]; omega

/-- The mixer's block at every point is the whole mixer. -/
theorem arr7_blk1 (c : Dev nD) (t : Fin cfg7.N) (k j : Fin 64) :
    (iblk7 V c 1 t : Vec Ideal S64x64 .f32) (ix2 k j) = (V c main_v34 : S64x64.Idx → EReal) (ix2 k j) := by
  obtain ⟨-, -, e2, e3, -, -, -⟩ := arr7_idx t
  unfold iblk7
  rw [View.read_apply]
  show V c main_v34 _ = V c main_v34 _
  refine congrArg (V c main_v34) (funext fun a => Fin.ext ?_)
  match a with
  | ⟨0, _⟩ => show win7_1.index t (0 : Fin 2) * 64 + 1 * k.val = k.val; rw [e2]; omega
  | ⟨1, _⟩ => show win7_1.index t (1 : Fin 2) * 64 + 1 * j.val = j.val; rw [e3]; omega

/-- What point t writes back is block t of the product of the whole arrays. -/
theorem arr7_flushed (c : Dev nD) (t : Fin cfg7.N) :
    (dat7 V q c).flushed 2 t = ((cfg7.win 2).blk t).view.read (Elt Ideal) (mixF (F := Ideal) (V c main_v89) (V c main_v34)) := by
  obtain ⟨-, -, -, -, e4, e5, hlt⟩ := arr7_idx t
  show (cfg7.win 2).cut (grid7.coords t) ((dat7 V q c).after 2 t) = _
  rw [after7_2]
  unfold out7
  rw [View.canon_unit_zero arr7_hz]
  simp only [View.ld_unit_zero (S := S10000x64) arr7_hz, View.ld_unit_zero (S := S64x64) arr7_hz]
  funext y
  obtain ⟨r, j, rfl⟩ : ∃ (r : Fin 10000) (j : Fin 64), y = ix2 r j := ⟨y 0, y 1, eq_ix2 y⟩
  have hr : r.val < 10000 := r.isLt
  have hemb : ((cfg7.win 2).blk t).view.emb (ix2 r j) = ix2 (⟨t.val * 10000 + r.val, by omega⟩ : Fin 100000) j := by
    funext a; apply Fin.ext
    match a with
    | ⟨0, _⟩ => show win7_2.index t (0 : Fin 2) * 10000 + 1 * r.val = t.val * 10000 + r.val; rw [e4]; omega
    | ⟨1, _⟩ => show win7_2.index t (1 : Fin 2) * 64 + 1 * j.val = j.val; rw [e5]; omega
  show k7_pay1 (iblk7 V c 0 t) (iblk7 V c 1 t) (ix2 r j) = mixF (F := Ideal) (V c main_v89) (V c main_v34) (((cfg7.win 2).blk t).view.emb (ix2 r j))
  refine Eq.trans ?_ (congrArg (mixF (F := Ideal) (V c main_v89) (V c main_v34)) hemb.symm)
  refine (k7_pay1_apply _ _ r j).trans ?_
  refine Eq.trans ?_ (mixF_apply _ _ _ j).symm
  refine Finset.sum_congr rfl fun k _ => ?_
  rw [arr7_blk0 V c t r k ⟨t.val * 10000 + r.val, by omega⟩ rfl, arr7_blk1 V c t k j]

/-- An index of the array is in point t's block iff each coordinate is in the block's range on its axis. -/
theorem arr7_mem (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v90).slice (win7_2.rect t)).set ↔ _
  rw [View.set_slice_whole, Rect.mem_set_unit]
  exact Iff.rfl

/-- Every row of the array is in the block of the point numbered by its ten-thousand. -/
theorem arr7_cover (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 10 := N_7
  have ht : (i 0).val / 10000 < cfg7.N := by rw [hN]; omega
  refine ⟨⟨(i 0).val / 10000, ht⟩, flush7_2 _, ?_⟩
  rw [arr7_mem]
  obtain ⟨-, -, -, -, e4, e5, -⟩ := arr7_idx ⟨(i 0).val / 10000, ht⟩
  intro a
  match a with
  | ⟨0, _⟩ =>
    show win7_2.index ⟨(i 0).val / 10000, ht⟩ (0 : Fin 2) * 10000 ≤ (i 0).val ∧ (i 0).val < win7_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win7_2.index ⟨(i 0).val / 10000, ht⟩ (1 : Fin 2) * 64 ≤ (i 1).val ∧ (i 1).val < win7_2.index ⟨(i 0).val / 10000, ht⟩ (1 : Fin 2) * 64 + 64
    rw [e5]; omega

/-- The output array after the call: the whole hidden array times the mixer. -/
theorem arr7_eq (c : Dev nD) :
    (dat7 V q c).arrAt 2 cfg7.N = mixF (F := Ideal) (V c main_v89) (V c main_v34) :=
  (dat7 V q c).arrAt_eq_of_cover 2 _ (fun t _ => arr7_flushed V q c t) arr7_cover

end Cert.KernelIdeal.Rg

end
-- ==== Proof.IdealArr8.lean ====
/-
  Call 8 (one layer's update of a row tile), from blocks to the array: grid point t stores rows 10000·t … 10000·t + 9999
  of the update of the whole arrays, and the ten points' blocks tile the output array, so the array ends holding it.
-/
import proofs.«112566_j48309792145741_1_alg».proof.Proof.IdealCall8
import proofs.«112566_j48309792145741_1_alg».proof.Proof.IdealPay2
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg8.W → PosShare TreeShare)

theorem arr8_hz : (![0, 0] : Fin 2 → Nat) = fun _ => 0 := funext fun a => by fin_cases a <;> rfl

/-- The index maps at a grid point: the three row windows and the output at block (t, 0), the two mixers at (0, 0). -/
structure Arr8Idx (t : Fin cfg8.N) : Prop where
  w0 : win8_0.index t (0 : Fin 2) = t.val ∧ win8_0.index t (1 : Fin 2) = 0
  w1 : win8_1.index t (0 : Fin 2) = t.val ∧ win8_1.index t (1 : Fin 2) = 0
  w2 : win8_2.index t (0 : Fin 2) = t.val ∧ win8_2.index t (1 : Fin 2) = 0
  w3 : win8_3.index t (0 : Fin 2) = 0 ∧ win8_3.index t (1 : Fin 2) = 0
  w4 : win8_4.index t (0 : Fin 2) = 0 ∧ win8_4.index t (1 : Fin 2) = 0
  out : win8_5.index t (0 : Fin 2) = t.val ∧ win8_5.index t (1 : Fin 2) = 0
  lt : t.val < 10

theorem arr8_idx : ∀ t : Fin cfg8.N, Arr8Idx t := by
  have h : ∀ t : Fin grid8.N, (win8_0.index t (0 : Fin 2) = t.val ∧ win8_0.index t (1 : Fin 2) = 0)
      ∧ (win8_1.index t (0 : Fin 2) = t.val ∧ win8_1.index t (1 : Fin 2) = 0)
      ∧ (win8_2.index t (0 : Fin 2) = t.val ∧ win8_2.index t (1 : Fin 2) = 0)
      ∧ (win8_3.index t (0 : Fin 2) = 0 ∧ win8_3.index t (1 : Fin 2) = 0)
      ∧ (win8_4.index t (0 : Fin 2) = 0 ∧ win8_4.index t (1 : Fin 2) = 0)
      ∧ (win8_5.index t (0 : Fin 2) = t.val ∧ win8_5.index t (1 : Fin 2) = 0) ∧ t.val < 10 := by decide +kernel
  intro t
  obtain ⟨a0, a1, a2, a3, a4, a5, a6⟩ := h t
  exact ⟨a0, a1, a2, a3, a4, a5, a6⟩

theorem arr8_blk0 (c : Dev nD) (t : Fin cfg8.N) (r : Fin 10000) (k : Fin 64) (R : Fin 100000) (hR : R.val = t.val * 10000 + r.val) :
    (iblk8 V c 0 t : Vec Ideal S10000x64 .f32) (ix2 r k) = (V c main_v89 : S100000x64.Idx → EReal) (ix2 R k) := by
  have e0 := (arr8_idx t).w0.1
  have e1 := (arr8_idx t).w0.2
  unfold iblk8
  rw [View.read_apply]
  show V c main_v89 _ = V c main_v89 _
  refine congrArg (V c main_v89) (funext fun a => Fin.ext ?_)
  match a with
  | ⟨0, _⟩ => show win8_0.index t (0 : Fin 2) * 10000 + 1 * r.val = R.val; rw [e0, hR]; omega
  | ⟨1, _⟩ => show win8_0.index t (1 : Fin 2) * 64 + 1 * k.val = k.val; rw [e1]; omega

theorem arr8_blk1 (c : Dev nD) (t : Fin cfg8.N) (r : Fin 10000) (k : Fin 64) (R : Fin 100000) (hR : R.val = t.val * 10000 + r.val) :
    (iblk8 V c 1 t : Vec Ideal S10000x64 .f32) (ix2 r k) = (V c main_v44 : S100000x64.Idx → EReal) (ix2 R k) := by
  have e0 := (arr8_idx t).w1.1
  have e1 := (arr8_idx t).w1.2
  unfold iblk8
  rw [View.read_apply]
  show V c main_v44 _ = V c main_v44 _
  refine congrArg (V c main_v44) (funext fun a => Fin.ext ?_)
  match a with
  | ⟨0, _⟩ => show win8_1.index t (0 : Fin 2) * 10000 + 1 * r.val = R.val; rw [e0, hR]; omega
  | ⟨1, _⟩ => show win8_1.index t (1 : Fin 2) * 64 + 1 * k.val = k.val; rw [e1]; omega

theorem arr8_blk2 (c : Dev nD) (t : Fin cfg8.N) (r : Fin 10000) (k : Fin 64) (R : Fin 100000) (hR : R.val = t.val * 10000 + r.val) :
    (iblk8 V c 2 t : Vec Ideal S10000x64 .f32) (ix2 r k) = (V c main_v103 : S100000x64.Idx → EReal) (ix2 R k) := by
  have e0 := (arr8_idx t).w2.1
  have e1 := (arr8_idx t).w2.2
  unfold iblk8
  rw [View.read_apply]
  show V c main_v103 _ = V c main_v103 _
  refine congrArg (V c main_v103) (funext fun a => Fin.ext ?_)
  match a with
  | ⟨0, _⟩ => show win8_2.index t (0 : Fin 2) * 10000 + 1 * r.val = R.val; rw [e0, hR]; omega
  | ⟨1, _⟩ => show win8_2.index t (1 : Fin 2) * 64 + 1 * k.val = k.val; rw [e1]; omega

theorem arr8_blk3 (c : Dev nD) (t : Fin cfg8.N) (k : Fin 64) (j : Fin 64) :
    (iblk8 V c 3 t : Vec Ideal S64x64 .f32) (ix2 k j) = (V c main_v38 : S64x64.Idx → EReal) (ix2 k j) := by
  have e0 := (arr8_idx t).w3.1
  have e1 := (arr8_idx t).w3.2
  unfold iblk8
  rw [View.read_apply]
  show V c main_v38 _ = V c main_v38 _
  refine congrArg (V c main_v38) (funext fun a => Fin.ext ?_)
  match a with
  | ⟨0, _⟩ => show win8_3.index t (0 : Fin 2) * 64 + 1 * k.val = k.val; rw [e0]; omega
  | ⟨1, _⟩ => show win8_3.index t (1 : Fin 2) * 64 + 1 * j.val = j.val; rw [e1]; omega

theorem arr8_blk4 (c : Dev nD) (t : Fin cfg8.N) (k : Fin 64) (j : Fin 64) :
    (iblk8 V c 4 t : Vec Ideal S64x64 .f32) (ix2 k j) = (V c main_v42 : S64x64.Idx → EReal) (ix2 k j) := by
  have e0 := (arr8_idx t).w4.1
  have e1 := (arr8_idx t).w4.2
  unfold iblk8
  rw [View.read_apply]
  show V c main_v42 _ = V c main_v42 _
  refine congrArg (V c main_v42) (funext fun a => Fin.ext ?_)
  match a with
  | ⟨0, _⟩ => show win8_4.index t (0 : Fin 2) * 64 + 1 * k.val = k.val; rw [e0]; omega
  | ⟨1, _⟩ => show win8_4.index t (1 : Fin 2) * 64 + 1 * j.val = j.val; rw [e1]; omega

/-- The update's entry depends only on the hidden entry, the aggregate's entry and the two rows of products. -/
theorem arr8_congr (h h' g g' : EReal) (A A' B B' : Fin 64 → EReal) (eh : h = h') (eg : g = g')
    (eA : ∀ k, A k = A' k) (eB : ∀ k, B k = B' k) :
    max (h + c1 * max (g - (∑ k, A k) - (∑ k, B k)) c0) c0
      = max (h' + Ideal.ofBits .f32 0x3F800000#32 * max (g' - (∑ k, A' k) - (∑ k, B' k)) (Ideal.ofBits .f32 0x00000000#32)) (Ideal.ofBits .f32 0x00000000#32) := by
  subst eh eg
  rw [show A = A' from funext eA, show B = B' from funext eB]

/-- What point t writes back is block t of the update of the whole arrays. -/
theorem arr8_flushed (c : Dev nD) (t : Fin cfg8.N) :
    (dat8 V q c).flushed 5 t = ((cfg8.win 5).blk t).view.read (Elt Ideal) (updF (F := Ideal) (V c main_v89) (V c main_v44) (V c main_v103) (V c main_v38) (V c main_v42)) := by
  have e4 := (arr8_idx t).out.1
  have e5 := (arr8_idx t).out.2
  have hlt := (arr8_idx t).lt
  show (cfg8.win 5).cut (grid8.coords t) ((dat8 V q c).after 5 t) = _
  rw [after8_5]
  unfold out8
  rw [View.canon_unit_zero arr8_hz]
  simp only [View.ld_unit_zero (S := S10000x64) arr8_hz, View.ld_unit_zero (S := S64x64) arr8_hz]
  funext y
  obtain ⟨r, j, rfl⟩ : ∃ (r : Fin 10000) (j : Fin 64), y = ix2 r j := ⟨y 0, y 1, eq_ix2 y⟩
  have hr : r.val < 10000 := r.isLt
  have hemb : ((cfg8.win 5).blk t).view.emb (ix2 r j) = ix2 (⟨t.val * 10000 + r.val, by omega⟩ : Fin 100000) j := by
    funext a; apply Fin.ext
    match a with
    | ⟨0, _⟩ => show win8_5.index t (0 : Fin 2) * 10000 + 1 * r.val = t.val * 10000 + r.val; rw [e4]; omega
    | ⟨1, _⟩ => show win8_5.index t (1 : Fin 2) * 64 + 1 * j.val = j.val; rw [e5]; omega
  show k8_pay1 (iblk8 V c 0 t) (iblk8 V c 1 t) (iblk8 V c 2 t) (iblk8 V c 3 t) (iblk8 V c 4 t) (ix2 r j)
    = updF (F := Ideal) (V c main_v89) (V c main_v44) (V c main_v103) (V c main_v38) (V c main_v42) (((cfg8.win 5).blk t).view.emb (ix2 r j))
  refine Eq.trans ?_ (congrArg (updF (F := Ideal) (V c main_v89) (V c main_v44) (V c main_v103) (V c main_v38) (V c main_v42)) hemb.symm)
  refine (k8_pay1_apply _ _ _ _ _ r j).trans ?_
  refine Eq.trans ?_ (updF_apply _ _ _ _ _ _ j).symm
  refine arr8_congr _ _ _ _ _ _ _ _ ?_ ?_ (fun k => ?_) (fun k => ?_)
  · exact arr8_blk0 V c t r j ⟨t.val * 10000 + r.val, by omega⟩ rfl
  · exact arr8_blk2 V c t r j ⟨t.val * 10000 + r.val, by omega⟩ rfl
  · rw [arr8_blk0 V c t r k ⟨t.val * 10000 + r.val, by omega⟩ rfl, arr8_blk3 V c t k j]
  · rw [arr8_blk1 V c t r k ⟨t.val * 10000 + r.val, by omega⟩ rfl, arr8_blk4 V c t k j]

/-- An index of the array is in point t's block iff each coordinate is in the block's range on its axis. -/
theorem arr8_mem (t : Fin cfg8.N) (i : S100000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v104).slice (win8_5.rect t)).set ↔ _
  rw [View.set_slice_whole, Rect.mem_set_unit]
  exact Iff.rfl

/-- Every row of the array is in the block of the point numbered by its ten-thousand. -/
theorem arr8_cover (i : S100000x64.Idx) : ∃ t : Fin cfg8.N, (cfg8.win 5).flush t = true ∧ i ∈ ((cfg8.win 5).blk t).view.set := by
  have hi0 : (i 0).val < 100000 := (i 0).isLt
  have hi1 : (i 1).val < 64 := (i 1).isLt
  have hN : cfg8.N = 10 := N_8
  have ht : (i 0).val / 10000 < cfg8.N := by rw [hN]; omega
  refine ⟨⟨(i 0).val / 10000, ht⟩, flush8_5 _, ?_⟩
  rw [arr8_mem]
  have e4 := (arr8_idx ⟨(i 0).val / 10000, ht⟩).out.1
  have e5 := (arr8_idx ⟨(i 0).val / 10000, ht⟩).out.2
  intro a
  match a with
  | ⟨0, _⟩ =>
    show win8_5.index ⟨(i 0).val / 10000, ht⟩ (0 : Fin 2) * 10000 ≤ (i 0).val ∧ (i 0).val < win8_5.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win8_5.index ⟨(i 0).val / 10000, ht⟩ (1 : Fin 2) * 64 ≤ (i 1).val ∧ (i 1).val < win8_5.index ⟨(i 0).val / 10000, ht⟩ (1 : Fin 2) * 64 + 64
    rw [e5]; omega

/-- The output array after the call: the layer's update of the whole arrays. -/
theorem arr8_eq (c : Dev nD) :
    (dat8 V q c).arrAt 5 cfg8.N = updF (F := Ideal) (V c main_v89) (V c main_v44) (V c main_v103) (V c main_v38) (V c main_v42) :=
  (dat8 V q c).arrAt_eq_of_cover 5 _ (fun t _ => arr8_flushed V q c t) arr8_cover

end Cert.KernelIdeal.Rg

end
-- ==== Proof.IdealArr9.lean ====
/-
  Call 9 (a row tile times a matrix plus a bias row), from blocks to the array: grid point t stores rows
  10000·t … 10000·t + 9999 of the affine map of the whole array, and the ten points' blocks tile the output array.
-/
import proofs.«112566_j48309792145741_1_alg».proof.Proof.IdealCall9
import proofs.«112566_j48309792145741_1_alg».proof.Proof.IdealPay
import proofs.«112566_j48309792145741_1_alg».proof.Proof.IdealSpec

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Proof.Spec (mixF inpF encF decF updF mixF_apply encF_apply decF_apply updF_apply)

variable (V : (c : Dev nD) → (b : Ref sig .tc) → Buf (Elt Ideal) ((c : Thread nD τ).loc b))
variable (q : Fin cfg9.W → PosShare TreeShare)

theorem arr9_hz : (![0, 0] : Fin 2 → Nat) = fun _ => 0 := funext fun a => by fin_cases a <;> rfl

/-- The index maps at a grid point: the row window and the output at block (t, 0), the matrix and the bias row at (0, 0). -/
structure Arr9Idx (t : Fin cfg9.N) : Prop where
  w0 : win9_0.index t (0 : Fin 2) = t.val ∧ win9_0.index t (1 : Fin 2) = 0
  w1 : win9_1.index t (0 : Fin 2) = 0 ∧ win9_1.index t (1 : Fin 2) = 0
  w2 : win9_2.index t (0 : Fin 2) = 0 ∧ win9_2.index t (1 : Fin 2) = 0
  out : win9_3.index t (0 : Fin 2) = t.val ∧ win9_3.index t (1 : Fin 2) = 0
  lt : t.val < 10

theorem arr9_idx : ∀ t : Fin cfg9.N, Arr9Idx t := by
  have h : ∀ t : Fin grid9.N, (win9_0.index t (0 : Fin 2) = t.val ∧ win9_0.index t (1 : Fin 2) = 0)
      ∧ (win9_1.index t (0 : Fin 2) = 0 ∧ win9_1.index t (1 : Fin 2) = 0)
      ∧ (win9_2.index t (0 : Fin 2) = 0 ∧ win9_2.index t (1 : Fin 2) = 0)
      ∧ (win9_3.index t (0 : Fin 2) = t.val ∧ win9_3.index t (1 : Fin 2) = 0) ∧ t.val < 10 := by decide +kernel
  intro t
  obtain ⟨a0, a1, a2, a3, a4⟩ := h t
  exact ⟨a0, a1, a2, a3, a4⟩

theorem arr9_blk0 (c : Dev nD) (t : Fin cfg9.N) (r : Fin 10000) (k : Fin 64) (R : Fin 100000) (hR : R.val = t.val * 10000 + r.val) :
    (iblk9 V c 0 t : Vec Ideal S10000x64 .f32) (ix2 r k) = (V c main_v104 : S100000x64.Idx → EReal) (ix2 R k) := by
  have e0 := (arr9_idx t).w0.1
  have e1 := (arr9_idx t).w0.2
  unfold iblk9
  rw [View.read_apply]
  show V c main_v104 _ = V c main_v104 _
  refine congrArg (V c main_v104) (funext fun a => Fin.ext ?_)
  match a with
  | ⟨0, _⟩ => show win9_0.index t (0 : Fin 2) * 10000 + 1 * r.val = R.val; rw [e0, hR]; omega
  | ⟨1, _⟩ => show win9_0.index t (1 : Fin 2) * 64 + 1 * k.val = k.val; rw [e1]; omega

theorem arr9_blk1 (c : Dev nD) (t : Fin cfg9.N) (k : Fin 64) (j : Fin 64) :
    (iblk9 V c 1 t : Vec Ideal S64x64 .f32) (ix2 k j) = (V c main_arg7 : S64x64.Idx → EReal) (ix2 k j) := by
  have e0 := (arr9_idx t).w1.1
  have e1 := (arr9_idx t).w1.2
  unfold iblk9
  rw [View.read_apply]
  show V c main_arg7 _ = V c main_arg7 _
  refine congrArg (V c main_arg7) (funext fun a => Fin.ext ?_)
  match a with
  | ⟨0, _⟩ => show win9_1.index t (0 : Fin 2) * 64 + 1 * k.val = k.val; rw [e0]; omega
  | ⟨1, _⟩ => show win9_1.index t (1 : Fin 2) * 64 + 1 * j.val = j.val; rw [e1]; omega

theorem arr9_blk2 (c : Dev nD) (t : Fin cfg9.N) (k : Fin 1) (j : Fin 64) :
    (iblk9 V c 2 t : Vec Ideal S1x64 .f32) (ix2 k j) = (V c main_v105 : S1x64.Idx → EReal) (ix2 k j) := by
  have e0 := (arr9_idx t).w2.1
  have e1 := (arr9_idx t).w2.2
  unfold iblk9
  rw [View.read_apply]
  show V c main_v105 _ = V c main_v105 _
  refine congrArg (V c main_v105) (funext fun a => Fin.ext ?_)
  match a with
  | ⟨0, _⟩ => show win9_2.index t (0 : Fin 2) * 1 + 1 * k.val = k.val; rw [e0]; omega
  | ⟨1, _⟩ => show win9_2.index t (1 : Fin 2) * 64 + 1 * j.val = j.val; rw [e1]; omega

/-- The affine entry depends only on the row of products and the bias entry. -/
theorem arr9_congr {n : ℕ} (A A' : Fin n → EReal) (b b' : EReal) (eA : ∀ k, A k = A' k) (eb : b = b') :
    (∑ k, A k) + b = (∑ k, A' k) + b' := by
  subst eb
  rw [show A = A' from funext eA]

/-- What point t writes back is block t of the affine map of the whole arrays. -/
theorem arr9_flushed (c : Dev nD) (t : Fin cfg9.N) :
    (dat9 V q c).flushed 3 t = ((cfg9.win 3).blk t).view.read (Elt Ideal) (decF (F := Ideal) (V c main_v104) (V c main_arg7) (V c main_v105)) := by
  have e4 := (arr9_idx t).out.1
  have e5 := (arr9_idx t).out.2
  have hlt := (arr9_idx t).lt
  show (cfg9.win 3).cut (grid9.coords t) ((dat9 V q c).after 3 t) = _
  rw [after9_3]
  unfold out9
  rw [View.canon_unit_zero arr9_hz]
  simp only [View.ld_unit_zero (S := S10000x64) arr9_hz, View.ld_unit_zero (S := S64x64) arr9_hz, View.ld_unit_zero (S := S1x64) arr9_hz]
  funext y
  obtain ⟨r, j, rfl⟩ : ∃ (r : Fin 10000) (j : Fin 64), y = ix2 r j := ⟨y 0, y 1, eq_ix2 y⟩
  have hr : r.val < 10000 := r.isLt
  have hemb : ((cfg9.win 3).blk t).view.emb (ix2 r j) = ix2 (⟨t.val * 10000 + r.val, by omega⟩ : Fin 100000) j := by
    funext a; apply Fin.ext
    match a with
    | ⟨0, _⟩ => show win9_3.index t (0 : Fin 2) * 10000 + 1 * r.val = t.val * 10000 + r.val; rw [e4]; omega
    | ⟨1, _⟩ => show win9_3.index t (1 : Fin 2) * 64 + 1 * j.val = j.val; rw [e5]; omega
  show k9_pay1 (iblk9 V c 0 t) (iblk9 V c 1 t) (iblk9 V c 2 t) (ix2 r j)
    = decF (F := Ideal) (V c main_v104) (V c main_arg7) (V c main_v105) (((cfg9.win 3).blk t).view.emb (ix2 r j))
  refine Eq.trans ?_ (congrArg (decF (F := Ideal) (V c main_v104) (V c main_arg7) (V c main_v105)) hemb.symm)
  refine (k9_pay1_apply _ _ _ r j).trans ?_
  refine Eq.trans ?_ (decF_apply _ _ _ _ j).symm
  refine arr9_congr _ _ _ _ (fun k => ?_) ?_
  · rw [arr9_blk0 V c t r k ⟨t.val * 10000 + r.val, by omega⟩ rfl, arr9_blk1 V c t k j]
  · exact arr9_blk2 V c t (0 : Fin 1) j

/-- An index of the array is in point t's block iff each coordinate is in the block's range on its axis. -/
theorem arr9_mem (t : Fin cfg9.N) (i : S100000x64.Idx) :
    i ∈ ((cfg9.win 3).blk t).view.set ↔ ∀ a : Fin 2, win9_3.index t a * S10000x64.size a ≤ (i a).val ∧ (i a).val < win9_3.index t a * S10000x64.size a + S10000x64.size a := by
  show i ∈ ((View.whole main_v106).slice (win9_3.rect t)).set ↔ _
  rw [View.set_slice_whole, Rect.mem_set_unit]
  exact Iff.rfl

/-- Every row of the array is in the block of the point numbered by its ten-thousand. -/
theorem arr9_cover (i : S100000x64.Idx) : ∃ t : Fin cfg9.N, (cfg9.win 3).flush t = true ∧ i ∈ ((cfg9.win 3).blk t).view.set := by
  have hi0 : (i 0).val < 100000 := (i 0).isLt
  have hi1 : (i 1).val < 64 := (i 1).isLt
  have hN : cfg9.N = 10 := N_9
  have ht : (i 0).val / 10000 < cfg9.N := by rw [hN]; omega
  refine ⟨⟨(i 0).val / 10000, ht⟩, flush9_3 _, ?_⟩
  rw [arr9_mem]
  have e4 := (arr9_idx ⟨(i 0).val / 10000, ht⟩).out.1
  have e5 := (arr9_idx ⟨(i 0).val / 10000, ht⟩).out.2
  intro a
  match a with
  | ⟨0, _⟩ =>
    show win9_3.index ⟨(i 0).val / 10000, ht⟩ (0 : Fin 2) * 10000 ≤ (i 0).val ∧ (i 0).val < win9_3.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win9_3.index ⟨(i 0).val / 10000, ht⟩ (1 : Fin 2) * 64 ≤ (i 1).val ∧ (i 1).val < win9_3.index ⟨(i 0).val / 10000, ht⟩ (1 : Fin 2) * 64 + 64
    rw [e5]; omega

/-- The output array after the call: the affine map of the whole arrays. -/
theorem arr9_eq (c : Dev nD) :
    (dat9 V q c).arrAt 3 cfg9.N = decF (F := Ideal) (V c main_v104) (V c main_arg7) (V c main_v105) :=
  (dat9 V q c).arrAt_eq_of_cover 3 _ (fun t _ => arr9_flushed V q c t) arr9_cover

end Cert.KernelIdeal.Rg

end
-- ==== Proof.IdealChainK.lean ====
/-
  The chain of calls and host stretches, read buffer by buffer from the first call to the return. Through the whole
  chain nine buffers keep what the host prepared — the encoder's output, the three symmetric mixers, the two edge lists,
  the edge weights and the decoder's two arguments — while the hidden state moves from buffer to buffer: a mixer call
  multiplies it by the internal mixer, the host aggregates over the graph, an update call makes the next hidden state.
-/
import proofs.«112566_j48309792145741_1_alg».proof.Proof.IdealFrameK
import proofs.«112566_j48309792145741_1_alg».proof.Proof.IdealHostK
import proofs.«112566_j48309792145741_1_alg».proof.Proof.IdealPrepK
import proofs.«112566_j48309792145741_1_alg».proof.Proof.IdealArr0
import proofs.«112566_j48309792145741_1_alg».proof.Proof.IdealArr1
import proofs.«112566_j48309792145741_1_alg».proof.Proof.IdealArr2
import proofs.«112566_j48309792145741_1_alg».proof.Proof.IdealArr3
import proofs.«112566_j48309792145741_1_alg».proof.Proof.IdealArr4
import proofs.«112566_j48309792145741_1_alg».proof.Proof.IdealArr5
import proofs.«112566_j48309792145741_1_alg».proof.Proof.IdealArr6
import proofs.«112566_j48309792145741_1_alg».proof.Proof.IdealArr7
import proofs.«112566_j48309792145741_1_alg».proof.Proof.IdealArr8
import proofs.«112566_j48309792145741_1_alg».proof.Proof.IdealArr9

set_option maxRecDepth 16384

noncomputable section

namespace Cert.KernelIdeal.Rg

open Cert.KernelIdeal Cert.KernelIdeal.Gen
open Idealize.ShloMosaic Idealize.ShloMosaic.TcCoe Idealize.ShloMosaic.StableHlo
open Idealize.SL Idealize.SL.RA Idealize.SL.Sem
open Cert.Proof.Spec (Arr Mat Row Inp MatI Edg EdgF mixF encF decF updF aggF layerF finalF rowF colF normF symF rowB)

variable (m : (ℓ : Loc nD τ sig) → Buf (Elt Ideal) ℓ) (c : Dev nD)

/-- The prepared values, as functions of the arguments. -/
def encK : Arr Ideal := encF (F := Ideal) (m ((c : Thread nD τ).loc main_arg0)) (m ((c : Thread nD τ).loc main_arg2)) (rowB (m ((c : Thread nD τ).loc main_arg3)))
def wiK : Mat Ideal := symF (F := Ideal) (m ((c : Thread nD τ).loc main_arg4))
def weK : Mat Ideal := symF (F := Ideal) (m ((c : Thread nD τ).loc main_arg5))
def w0K : Mat Ideal := symF (F := Ideal) (m ((c : Thread nD τ).loc main_arg6))
def rowK : Edg Ideal := rowF (F := Ideal) (m ((c : Thread nD τ).loc main_arg1))
def colK : Edg Ideal := colF (F := Ideal) (m ((c : Thread nD τ).loc main_arg1))
def normK : EdgF Ideal := normF (F := Ideal) (rowK m c) (colK m c)
/-- The hidden state after each layer. -/
def hK1 : Arr Ideal := layerF (F := Ideal) (encK m c) (encK m c) (wiK m c) (weK m c) (w0K m c) (rowK m c) (colK m c) (normK m c)
def hK2 : Arr Ideal := layerF (F := Ideal) (hK1 m c) (encK m c) (wiK m c) (weK m c) (w0K m c) (rowK m c) (colK m c) (normK m c)
def hK3 : Arr Ideal := layerF (F := Ideal) (hK2 m c) (encK m c) (wiK m c) (weK m c) (w0K m c) (rowK m c) (colK m c) (normK m c)
def hK4 : Arr Ideal := layerF (F := Ideal) (hK3 m c) (encK m c) (wiK m c) (weK m c) (w0K m c) (rowK m c) (colK m c) (normK m c)

/-- The nine buffers that keep what the host prepared. -/
structure Carried (X : Valuation τ sig (Elt Ideal)) : Prop where
  v44 : X (Proc.devRef .tc main_v44) = encK m c
  v34 : X (Proc.devRef .tc main_v34) = wiK m c
  v38 : X (Proc.devRef .tc main_v38) = weK m c
  v42 : X (Proc.devRef .tc main_v42) = w0K m c
  v5 : X (Proc.devRef .tc main_v5) = rowK m c
  v6 : X (Proc.devRef .tc main_v6) = colK m c
  v30 : X (Proc.devRef .tc main_v30) = normK m c
  a7 : X (Proc.devRef .tc main_arg7) = (m ((c : Thread nD τ).loc main_arg7))
  a8 : X (Proc.devRef .tc main_arg8) = (m ((c : Thread nD τ).loc main_arg8))

/-- After the encoder call. -/
theorem carried13 : Carried m c (X13 m c) where
  v44 := (X13_out m c).trans <| (by unfold res0; exact arr0_eq (atTc (X12 m)) (wholeShares _) c : res0 m c = _).trans <| by
    show encF (F := Ideal) (X12 m c main_arg0) (X12 m c main_arg2) (X12 m c main_v43) = _
    rw [prep_arg0, prep_arg2, prep_v43]; rfl
  v34 := (X13_of m c main_v34 (by decide)).trans (prep_v34 m c)
  v38 := (X13_of m c main_v38 (by decide)).trans (prep_v38 m c)
  v42 := (X13_of m c main_v42 (by decide)).trans (prep_v42 m c)
  v5 := (X13_of m c main_v5 (by decide)).trans (prep_v5 m c)
  v6 := (X13_of m c main_v6 (by decide)).trans (prep_v6 m c)
  v30 := (X13_of m c main_v30 (by decide)).trans (prep_v30 m c)
  a7 := (X13_of m c main_arg7 (by decide)).trans (prep_arg7 m c)
  a8 := (X13_of m c main_arg8 (by decide)).trans (prep_arg8 m c)

theorem carried14 (h : Carried m c (X13 m c)) : Carried m c (X14 m c) where
  v44 := (X14_of m c main_v44 (by decide)).trans h.v44
  v34 := (X14_of m c main_v34 (by decide)).trans h.v34
  v38 := (X14_of m c main_v38 (by decide)).trans h.v38
  v42 := (X14_of m c main_v42 (by decide)).trans h.v42
  v5 := (X14_of m c main_v5 (by decide)).trans h.v5
  v6 := (X14_of m c main_v6 (by decide)).trans h.v6
  v30 := (X14_of m c main_v30 (by decide)).trans h.v30
  a7 := (X14_of m c main_arg7 (by decide)).trans h.a7
  a8 := (X14_of m c main_arg8 (by decide)).trans h.a8

theorem carried15 (h : Carried m c (X14 m c)) : Carried m c (X15 m c) where
  v44 := (X15_of m c main_v44 (by decide)).trans h.v44
  v34 := (X15_of m c main_v34 (by decide)).trans h.v34
  v38 := (X15_of m c main_v38 (by decide)).trans h.v38
  v42 := (X15_of m c main_v42 (by decide)).trans h.v42
  v5 := (X15_of m c main_v5 (by decide)).trans h.v5
  v6 := (X15_of m c main_v6 (by decide)).trans h.v6
  v30 := (X15_of m c main_v30 (by decide)).trans h.v30
  a7 := (X15_of m c main_arg7 (by decide)).trans h.a7
  a8 := (X15_of m c main_arg8 (by decide)).trans h.a8

theorem carried16 (h : Carried m c (X15 m c)) : Carried m c (X16 m c) where
  v44 := (X16_of m c main_v44 (by decide)).trans h.v44
  v34 := (X16_of m c main_v34 (by decide)).trans h.v34
  v38 := (X16_of m c main_v38 (by decide)).trans h.v38
  v42 := (X16_of m c main_v42 (by decide)).trans h.v42
  v5 := (X16_of m c main_v5 (by decide)).trans h.v5
  v6 := (X16_of m c main_v6 (by decide)).trans h.v6
  v30 := (X16_of m c main_v30 (by decide)).trans h.v30
  a7 := (X16_of m c main_arg7 (by decide)).trans h.a7
  a8 := (X16_of m c main_arg8 (by decide)).trans h.a8

theorem carried17 (h : Carried m c (X16 m c)) : Carried m c (X17 m c) where
  v44 := (X17_of m c main_v44 (by decide)).trans h.v44
  v34 := (X17_of m c main_v34 (by decide)).trans h.v34
  v38 := (X17_of m c main_v38 (by decide)).trans h.v38
  v42 := (X17_of m c main_v42 (by decide)).trans h.v42
  v5 := (X17_of m c main_v5 (by decide)).trans h.v5
  v6 := (X17_of m c main_v6 (by decide)).trans h.v6
  v30 := (X17_of m c main_v30 (by decide)).trans h.v30
  a7 := (X17_of m c main_arg7 (by decide)).trans h.a7
  a8 := (X17_of m c main_arg8 (by decide)).trans h.a8

theorem carried18 (h : Carried m c (X17 m c)) : Carried m c (X18 m c) where
  v44 := (X18_of m c main_v44 (by decide)).trans h.v44
  v34 := (X18_of m c main_v34 (by decide)).trans h.v34
  v38 := (X18_of m c main_v38 (by decide)).trans h.v38
  v42 := (X18_of m c main_v42 (by decide)).trans h.v42
  v5 := (X18_of m c main_v5 (by decide)).trans h.v5
  v6 := (X18_of m c main_v6 (by decide)).trans h.v6
  v30 := (X18_of m c main_v30 (by decide)).trans h.v30
  a7 := (X18_of m c main_arg7 (by decide)).trans h.a7
  a8 := (X18_of m c main_arg8 (by decide)).trans h.a8

theorem carried19 (h : Carried m c (X18 m c)) : Carried m c (X19 m c) where
  v44 := (X19_of m c main_v44 (by decide)).trans h.v44
  v34 := (X19_of m c main_v34 (by decide)).trans h.v34
  v38 := (X19_of m c main_v38 (by decide)).trans h.v38
  v42 := (X19_of m c main_v42 (by decide)).trans h.v42
  v5 := (X19_of m c main_v5 (by decide)).trans h.v5
  v6 := (X19_of m c main_v6 (by decide)).trans h.v6
  v30 := (X19_of m c main_v30 (by decide)).trans h.v30
  a7 := (X19_of m c main_arg7 (by decide)).trans h.a7
  a8 := (X19_of m c main_arg8 (by decide)).trans h.a8

theorem carried20 (h : Carried m c (X19 m c)) : Carried m c (X20 m c) where
  v44 := (X20_of m c main_v44 (by decide)).trans h.v44
  v34 := (X20_of m c main_v34 (by decide)).trans h.v34
  v38 := (X20_of m c main_v38 (by decide)).trans h.v38
  v42 := (X20_of m c main_v42 (by decide)).trans h.v42
  v5 := (X20_of m c main_v5 (by decide)).trans h.v5
  v6 := (X20_of m c main_v6 (by decide)).trans h.v6
  v30 := (X20_of m c main_v30 (by decide)).trans h.v30
  a7 := (X20_of m c main_arg7 (by decide)).trans h.a7
  a8 := (X20_of m c main_arg8 (by decide)).trans h.a8

theorem carried21 (h : Carried m c (X20 m c)) : Carried m c (X21 m c) where
  v44 := (X21_of m c main_v44 (by decide)).trans h.v44
  v34 := (X21_of m c main_v34 (by decide)).trans h.v34
  v38 := (X21_of m c main_v38 (by decide)).trans h.v38
  v42 := (X21_of m c main_v42 (by decide)).trans h.v42
  v5 := (X21_of m c main_v5 (by decide)).trans h.v5
  v6 := (X21_of m c main_v6 (by decide)).trans h.v6
  v30 := (X21_of m c main_v30 (by decide)).trans h.v30
  a7 := (X21_of m c main_arg7 (by decide)).trans h.a7
  a8 := (X21_of m c main_arg8 (by decide)).trans h.a8

theorem carried22 (h : Carried m c (X21 m c)) : Carried m c (X22 m c) where
  v44 := (X22_of m c main_v44 (by decide)).trans h.v44
  v34 := (X22_of m c main_v34 (by decide)).trans h.v34
  v38 := (X22_of m c main_v38 (by decide)).trans h.v38
  v42 := (X22_of m c main_v42 (by decide)).trans h.v42
  v5 := (X22_of m c main_v5 (by decide)).trans h.v5
  v6 := (X22_of m c main_v6 (by decide)).trans h.v6
  v30 := (X22_of m c main_v30 (by decide)).trans h.v30
  a7 := (X22_of m c main_arg7 (by decide)).trans h.a7
  a8 := (X22_of m c main_arg8 (by decide)).trans h.a8

theorem carried23 (h : Carried m c (X22 m c)) : Carried m c (X23 m c) where
  v44 := (X23_of m c main_v44 (by decide)).trans h.v44
  v34 := (X23_of m c main_v34 (by decide)).trans h.v34
  v38 := (X23_of m c main_v38 (by decide)).trans h.v38
  v42 := (X23_of m c main_v42 (by decide)).trans h.v42
  v5 := (X23_of m c main_v5 (by decide)).trans h.v5
  v6 := (X23_of m c main_v6 (by decide)).trans h.v6
  v30 := (X23_of m c main_v30 (by decide)).trans h.v30
  a7 := (X23_of m c main_arg7 (by decide)).trans h.a7
  a8 := (X23_of m c main_arg8 (by decide)).trans h.a8

theorem carried24 (h : Carried m c (X23 m c)) : Carried m c (X24 m c) where
  v44 := (X24_of m c main_v44 (by decide)).trans h.v44
  v34 := (X24_of m c main_v34 (by decide)).trans h.v34
  v38 := (X24_of m c main_v38 (by decide)).trans h.v38
  v42 := (X24_of m c main_v42 (by decide)).trans h.v42
  v5 := (X24_of m c main_v5 (by decide)).trans h.v5
  v6 := (X24_of m c main_v6 (by decide)).trans h.v6
  v30 := (X24_of m c main_v30 (by decide)).trans h.v30
  a7 := (X24_of m c main_arg7 (by decide)).trans h.a7
  a8 := (X24_of m c main_arg8 (by decide)).trans h.a8

theorem carried25 (h : Carried m c (X24 m c)) : Carried m c (X25 m c) where
  v44 := (X25_of m c main_v44 (by decide)).trans h.v44
  v34 := (X25_of m c main_v34 (by decide)).trans h.v34
  v38 := (X25_of m c main_v38 (by decide)).trans h.v38
  v42 := (X25_of m c main_v42 (by decide)).trans h.v42
  v5 := (X25_of m c main_v5 (by decide)).trans h.v5
  v6 := (X25_of m c main_v6 (by decide)).trans h.v6
  v30 := (X25_of m c main_v30 (by decide)).trans h.v30
  a7 := (X25_of m c main_arg7 (by decide)).trans h.a7
  a8 := (X25_of m c main_arg8 (by decide)).trans h.a8

theorem carried26 (h : Carried m c (X25 m c)) : Carried m c (X26 m c) where
  v44 := (X26_of m c main_v44 (by decide)).trans h.v44
  v34 := (X26_of m c main_v34 (by decide)).trans h.v34
  v38 := (X26_of m c main_v38 (by decide)).trans h.v38
  v42 := (X26_of m c main_v42 (by decide)).trans h.v42
  v5 := (X26_of m c main_v5 (by decide)).trans h.v5
  v6 := (X26_of m c main_v6 (by decide)).trans h.v6
  v30 := (X26_of m c main_v30 (by decide)).trans h.v30
  a7 := (X26_of m c main_arg7 (by decide)).trans h.a7
  a8 := (X26_of m c main_arg8 (by decide)).trans h.a8

/-- Layer 1, the mixer call. -/
theorem mix1 (hC : Carried m c (X13 m c)) : X14 m c main_v45 = mixF (F := Ideal) (encK m c) (wiK m c) :=
  (X14_out m c).trans <| (by unfold res1; exact arr1_eq (atTc (X13 m)) (wholeShares _) c : res1 m c = _).trans <| by
    show mixF (F := Ideal) (X13 m c main_v44) (X13 m c main_v34) = _
    rw [hC.v44, hC.v34]

/-- Layer 1, the aggregation on the host. -/
theorem agg1 (hC : Carried m c (X14 m c)) (hm : X14 m c main_v45 = mixF (F := Ideal) (encK m c) (wiK m c)) :
    X15 m c main_v58 = aggF (F := Ideal) (mixF (F := Ideal) (encK m c) (wiK m c)) (rowK m c) (colK m c) (normK m c) :=
  (host2_agg (X14 m c)).trans <| by rw [hm, hC.v5, hC.v6, hC.v30]

/-- Layer 1, the update call. -/
theorem upd1 (hC : Carried m c (X15 m c)) (hh : X15 m c main_v44 = encK m c)
    (ha : X15 m c main_v58 = aggF (F := Ideal) (mixF (F := Ideal) (encK m c) (wiK m c)) (rowK m c) (colK m c) (normK m c)) :
    X16 m c main_v59 = hK1 m c :=
  (X16_out m c).trans <| (by unfold res2; exact arr2_eq (atTc (X15 m)) halvedShares c : res2 m c = _).trans <| by
    show updF (F := Ideal) (X15 m c main_v44) (X15 m c main_v44) (X15 m c main_v58) (X15 m c main_v38) (X15 m c main_v42) = _
    rw [hh, ha, hC.v38, hC.v42]; rfl

/-- Layer 2, the mixer call. -/
theorem mix2 (hC : Carried m c (X16 m c)) (hh : X16 m c main_v59 = hK1 m c) : X17 m c main_v60 = mixF (F := Ideal) (hK1 m c) (wiK m c) :=
  (X17_out m c).trans <| (by unfold res3; exact arr3_eq (atTc (X16 m)) (wholeShares _) c : res3 m c = _).trans <| by
    show mixF (F := Ideal) (X16 m c main_v59) (X16 m c main_v34) = _
    rw [hh, hC.v34]

/-- Layer 2, the aggregation on the host. -/
theorem agg2 (hC : Carried m c (X17 m c)) (hm : X17 m c main_v60 = mixF (F := Ideal) (hK1 m c) (wiK m c)) :
    X18 m c main_v73 = aggF (F := Ideal) (mixF (F := Ideal) (hK1 m c) (wiK m c)) (rowK m c) (colK m c) (normK m c) :=
  (host4_agg (X17 m c)).trans <| by rw [hm, hC.v5, hC.v6, hC.v30]

/-- Layer 2, the update call. -/
theorem upd2 (hC : Carried m c (X18 m c)) (hh : X18 m c main_v59 = hK1 m c)
    (ha : X18 m c main_v73 = aggF (F := Ideal) (mixF (F := Ideal) (hK1 m c) (wiK m c)) (rowK m c) (colK m c) (normK m c)) :
    X19 m c main_v74 = hK2 m c :=
  (X19_out m c).trans <| (by unfold res4; exact arr4_eq (atTc (X18 m)) (wholeShares _) c : res4 m c = _).trans <| by
    show updF (F := Ideal) (X18 m c main_v59) (X18 m c main_v44) (X18 m c main_v73) (X18 m c main_v38) (X18 m c main_v42) = _
    rw [hh, hC.v44, ha, hC.v38, hC.v42]; rfl

/-- Layer 3, the mixer call. -/
theorem mix3 (hC : Carried m c (X19 m c)) (hh : X19 m c main_v74 = hK2 m c) : X20 m c main_v75 = mixF (F := Ideal) (hK2 m c) (wiK m c) :=
  (X20_out m c).trans <| (by unfold res5; exact arr5_eq (atTc (X19 m)) (wholeShares _) c : res5 m c = _).trans <| by
    show mixF (F := Ideal) (X19 m c main_v74) (X19 m c main_v34) = _
    rw [hh, hC.v34]

/-- Layer 3, the aggregation on the host. -/
theorem agg3 (hC : Carried m c (X20 m c)) (hm : X20 m c main_v75 = mixF (F := Ideal) (hK2 m c) (wiK m c)) :
    X21 m c main_v88 = aggF (F := Ideal) (mixF (F := Ideal) (hK2 m c) (wiK m c)) (rowK m c) (colK m c) (normK m c) :=
  (host6_agg (X20 m c)).trans <| by rw [hm, hC.v5, hC.v6, hC.v30]

/-- Layer 3, the update call. -/
theorem upd3 (hC : Carried m c (X21 m c)) (hh : X21 m c main_v74 = hK2 m c)
    (ha : X21 m c main_v88 = aggF (F := Ideal) (mixF (F := Ideal) (hK2 m c) (wiK m c)) (rowK m c) (colK m c) (normK m c)) :
    X22 m c main_v89 = hK3 m c :=
  (X22_out m c).trans <| (by unfold res6; exact arr6_eq (atTc (X21 m)) (wholeShares _) c : res6 m c = _).trans <| by
    show updF (F := Ideal) (X21 m c main_v74) (X21 m c main_v44) (X21 m c main_v88) (X21 m c main_v38) (X21 m c main_v42) = _
    rw [hh, hC.v44, ha, hC.v38, hC.v42]; rfl

/-- Layer 4, the mixer call. -/
theorem mix4 (hC : Carried m c (X22 m c)) (hh : X22 m c main_v89 = hK3 m c) : X23 m c main_v90 = mixF (F := Ideal) (hK3 m c) (wiK m c) :=
  (X23_out m c).trans <| (by unfold res7; exact arr7_eq (atTc (X22 m)) (wholeShares _) c : res7 m c = _).trans <| by
    show mixF (F := Ideal) (X22 m c main_v89) (X22 m c main_v34) = _
    rw [hh, hC.v34]

/-- Layer 4, the aggregation on the host. -/
theorem agg4 (hC : Carried m c (X23 m c)) (hm : X23 m c main_v90 = mixF (F := Ideal) (hK3 m c) (wiK m c)) :
    X24 m c main_v103 = aggF (F := Ideal) (mixF (F := Ideal) (hK3 m c) (wiK m c)) (rowK m c) (colK m c) (normK m c) :=
  (host8_agg (X23 m c)).trans <| by rw [hm, hC.v5, hC.v6, hC.v30]

/-- Layer 4, the update call. -/
theorem upd4 (hC : Carried m c (X24 m c)) (hh : X24 m c main_v89 = hK3 m c)
    (ha : X24 m c main_v103 = aggF (F := Ideal) (mixF (F := Ideal) (hK3 m c) (wiK m c)) (rowK m c) (colK m c) (normK m c)) :
    X25 m c main_v104 = hK4 m c :=
  (X25_out m c).trans <| (by unfold res8; exact arr8_eq (atTc (X24 m)) (wholeShares _) c : res8 m c = _).trans <| by
    show updF (F := Ideal) (X24 m c main_v89) (X24 m c main_v44) (X24 m c main_v103) (X24 m c main_v38) (X24 m c main_v42) = _
    rw [hh, hC.v44, ha, hC.v38, hC.v42]; rfl

/-- The result: the decoder call's output array holds the network of the arguments. -/
theorem kernel_final : X27 m c main_v106
    = finalF (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have C13 := carried13 m c
  have C14 := carried14 m c C13
  have M1 := mix1 m c C13
  have C15 := carried15 m c C14
  have A1 := agg1 m c C14 M1
  have C16 := carried16 m c C15
  have U1 := upd1 m c C15 C15.v44 A1
  have C17 := carried17 m c C16
  have M2 := mix2 m c C16 U1
  have C18 := carried18 m c C17
  have A2 := agg2 m c C17 M2
  have H18 : X18 m c main_v59 = hK1 m c := (X18_of m c main_v59 (by decide)).trans ((X17_of m c main_v59 (by decide)).trans U1)
  have C19 := carried19 m c C18
  have U2 := upd2 m c C18 H18 A2
  have C20 := carried20 m c C19
  have M3 := mix3 m c C19 U2
  have C21 := carried21 m c C20
  have A3 := agg3 m c C20 M3
  have H21 : X21 m c main_v74 = hK2 m c := (X21_of m c main_v74 (by decide)).trans ((X20_of m c main_v74 (by decide)).trans U2)
  have C22 := carried22 m c C21
  have U3 := upd3 m c C21 H21 A3
  have C23 := carried23 m c C22
  have M4 := mix4 m c C22 U3
  have C24 := carried24 m c C23
  have A4 := agg4 m c C23 M4
  have H24 : X24 m c main_v89 = hK3 m c := (X24_of m c main_v89 (by decide)).trans ((X23_of m c main_v89 (by decide)).trans U3)
  have C25 := carried25 m c C24
  have U4 := upd4 m c C24 H24 A4
  have C26 := carried26 m c C25
  have H26 : X26 m c main_v104 = hK4 m c := (X26_of m c main_v104 (by decide)).trans U4
  have R26 : X26 m c main_v105 = rowB (F := Ideal) (m ((c : Thread nD τ).loc main_arg8)) := (host9_row (X25 m c)).trans (congrArg (rowB (F := Ideal)) C25.a8)
  refine (X27_out m c).trans <| (by unfold res9; exact arr9_eq (atTc (X26 m)) (wholeShares _) c : res9 m c = _).trans ?_
  show decF (F := Ideal) (X26 m c main_v104) (X26 m c main_arg7) (X26 m c main_v105) = _
  rw [H26, C26.a7, R26]
  rfl

end Cert.KernelIdeal.Rg

end
-- ==== Proof.RefLine.lean ====
/-
  The reference's line of 233 host operations cut into ten stretches: the graph's normalisation, the three symmetric
  mixers, the encoder, the four layers and the decoder; with, for each stretch, the buffers its operations write, so
  that every other buffer is known to keep its contents across the stretch.
-/
import proofs.«112566_j48309792145741_1_alg».proof.Proof.RefFold
import proofs.«112566_j48309792145741_1_alg».proof.Proof.LibLineResults

set_option maxRecDepth 16384

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Operations 0 … 40 of the line. -/
abbrev opsP0a : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v7 main_v22 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- The buffers they write. -/
abbrev opsP0a_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_v22, main_c_4, main_v23, main_v24, main_c_5, main_v25, main_v26, main_v27, main_v28, main_v29, main_v30]
set_option maxHeartbeats 4000000 in
theorem opsP0a_writes : (opsP0a : List (HloOp τ sig (Elt F))).Forall fun op => op.writes ⊆ (opsP0a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsP0a_keep (Z : Valuation τ sig (Elt F)) (r : Ref sig .tc) (h : r ∉ opsP0a_W) :
    StableHlo.after opsP0a Z (Proc.devRef .tc r) = Z (Proc.devRef .tc r) :=
  StableHlo.after_of_writes_sub opsP0a Z opsP0a_writes h

/-- Operations 41 … 60 of the line. -/
abbrev opsP0b : List (HloOp τ sig (Elt F)) :=
  [ TRef.nullary (TRef.of (T := ⟨S64x64, .i32⟩) main_call1_v0) (iotaInDim S64x64 32 0),
    TRef.nullary (TRef.of (T := ⟨S_, .i32⟩) main_call1_c) (constantI S_ 32 4294967295#32),
    TRef.unary (TRef.of (T := ⟨S_, .i32⟩) main_call1_c) (TRef.of (T := ⟨S64x64, .i32⟩) main_call1_v1) (broadcastInDim S64x64 ![] bcast_S_S64x64),
    TRef.binary (TRef.of (T := ⟨S64x64, .i32⟩) main_call1_v0) (TRef.of (T := ⟨S64x64, .i32⟩) main_call1_v1) (TRef.of (T := ⟨S64x64, .i32⟩) main_call1_v2) addi,
    TRef.nullary (TRef.of (T := ⟨S64x64, .i32⟩) main_call1_v3) (iotaInDim S64x64 32 1),
    TRef.binary (TRef.of (T := ⟨S64x64, .i32⟩) main_call1_v2) (TRef.of (T := ⟨S64x64, .i32⟩) main_call1_v3) (TRef.of (T := ⟨S64x64, .i1⟩) main_call1_v4) (cmpi .sge),
    TRef.nullary (TRef.of (T := ⟨S_, .f32⟩) main_call1_cst) (constant S_ .f32 0x00000000#32),
    TRef.unary (TRef.of (T := ⟨S_, .f32⟩) main_call1_cst) (TRef.of (T := ⟨S64x64, .f32⟩) main_call1_v5) (broadcastInDim S64x64 ![] bcast_S_S64x64),
    TRef.ternary (TRef.of (T := ⟨S64x64, .i1⟩) main_call1_v4) (TRef.of (T := ⟨S64x64, .f32⟩) main_call1_v5) (TRef.of (T := ⟨S64x64, .f32⟩) main_arg4) (TRef.of (T := ⟨S64x64, .f32⟩) main_v31) select,
    TRef.nullary (TRef.of (T := ⟨S64x64, .i32⟩) main_call2_v0) (iotaInDim S64x64 32 0),
    TRef.nullary (TRef.of (T := ⟨S_, .i32⟩) main_call2_c) (constantI S_ 32 0#32),
    TRef.unary (TRef.of (T := ⟨S_, .i32⟩) main_call2_c) (TRef.of (T := ⟨S64x64, .i32⟩) main_call2_v1) (broadcastInDim S64x64 ![] bcast_S_S64x64),
    TRef.binary (TRef.of (T := ⟨S64x64, .i32⟩) main_call2_v0) (TRef.of (T := ⟨S64x64, .i32⟩) main_call2_v1) (TRef.of (T := ⟨S64x64, .i32⟩) main_call2_v2) addi,
    TRef.nullary (TRef.of (T := ⟨S64x64, .i32⟩) main_call2_v3) (iotaInDim S64x64 32 1),
    TRef.binary (TRef.of (T := ⟨S64x64, .i32⟩) main_call2_v2) (TRef.of (T := ⟨S64x64, .i32⟩) main_call2_v3) (TRef.of (T := ⟨S64x64, .i1⟩) main_call2_v4) (cmpi .sge),
    TRef.nullary (TRef.of (T := ⟨S_, .f32⟩) main_call2_cst) (constant S_ .f32 0x00000000#32),
    TRef.unary (TRef.of (T := ⟨S_, .f32⟩) main_call2_cst) (TRef.of (T := ⟨S64x64, .f32⟩) main_call2_v5) (broadcastInDim S64x64 ![] bcast_S_S64x64),
    TRef.ternary (TRef.of (T := ⟨S64x64, .i1⟩) main_call2_v4) (TRef.of (T := ⟨S64x64, .f32⟩) main_call2_v5) (TRef.of (T := ⟨S64x64, .f32⟩) main_arg4) (TRef.of (T := ⟨S64x64, .f32⟩) main_v32) select,
    unary main_v32 main_v33 ((transpose S64x64 [1, 0] · transposes_S64x64_S64x64_1_0) : (⟨S64x64, .f32⟩ : BufTy).Contents (Elt F) → (⟨S64x64, .f32⟩ : BufTy).Contents (Elt F)),
    binary main_v31 main_v33 main_v34 (addf : (⟨S64x64, .f32⟩ : BufTy).Contents (Elt F) → (⟨S64x64, .f32⟩ : BufTy).Contents (Elt F) → (⟨S64x64, .f32⟩ : BufTy).Contents (Elt F)) ]

/-- The buffers they write. -/
abbrev opsP0b_W : List (Ref sig .tc) := [main_call1_v0, main_call1_c, main_call1_v1, main_call1_v2, main_call1_v3, main_call1_v4, main_call1_cst, main_call1_v5, main_v31, main_call2_v0, main_call2_c, main_call2_v1, main_call2_v2, main_call2_v3, main_call2_v4, main_call2_cst, main_call2_v5, main_v32, main_v33, main_v34]
set_option maxHeartbeats 4000000 in
theorem opsP0b_writes : (opsP0b : List (HloOp τ sig (Elt F))).Forall fun op => op.writes ⊆ (opsP0b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsP0b_keep (Z : Valuation τ sig (Elt F)) (r : Ref sig .tc) (h : r ∉ opsP0b_W) :
    StableHlo.after opsP0b Z (Proc.devRef .tc r) = Z (Proc.devRef .tc r) :=
  StableHlo.after_of_writes_sub opsP0b Z opsP0b_writes h

/-- Operations 61 … 80 of the line. -/
abbrev opsP0c : List (HloOp τ sig (Elt F)) :=
  [ TRef.nullary (TRef.of (T := ⟨S64x64, .i32⟩) main_call3_v0) (iotaInDim S64x64 32 0),
    TRef.nullary (TRef.of (T := ⟨S_, .i32⟩) main_call3_c) (constantI S_ 32 4294967295#32),
    TRef.unary (TRef.of (T := ⟨S_, .i32⟩) main_call3_c) (TRef.of (T := ⟨S64x64, .i32⟩) main_call3_v1) (broadcastInDim S64x64 ![] bcast_S_S64x64),
    TRef.binary (TRef.of (T := ⟨S64x64, .i32⟩) main_call3_v0) (TRef.of (T := ⟨S64x64, .i32⟩) main_call3_v1) (TRef.of (T := ⟨S64x64, .i32⟩) main_call3_v2) addi,
    TRef.nullary (TRef.of (T := ⟨S64x64, .i32⟩) main_call3_v3) (iotaInDim S64x64 32 1),
    TRef.binary (TRef.of (T := ⟨S64x64, .i32⟩) main_call3_v2) (TRef.of (T := ⟨S64x64, .i32⟩) main_call3_v3) (TRef.of (T := ⟨S64x64, .i1⟩) main_call3_v4) (cmpi .sge),
    TRef.nullary (TRef.of (T := ⟨S_, .f32⟩) main_call3_cst) (constant S_ .f32 0x00000000#32),
    TRef.unary (TRef.of (T := ⟨S_, .f32⟩) main_call3_cst) (TRef.of (T := ⟨S64x64, .f32⟩) main_call3_v5) (broadcastInDim S64x64 ![] bcast_S_S64x64),
    TRef.ternary (TRef.of (T := ⟨S64x64, .i1⟩) main_call3_v4) (TRef.of (T := ⟨S64x64, .f32⟩) main_call3_v5) (TRef.of (T := ⟨S64x64, .f32⟩) main_arg5) (TRef.of (T := ⟨S64x64, .f32⟩) main_v35) select,
    TRef.nullary (TRef.of (T := ⟨S64x64, .i32⟩) main_call4_v0) (iotaInDim S64x64 32 0),
    TRef.nullary (TRef.of (T := ⟨S_, .i32⟩) main_call4_c) (constantI S_ 32 0#32),
    TRef.unary (TRef.of (T := ⟨S_, .i32⟩) main_call4_c) (TRef.of (T := ⟨S64x64, .i32⟩) main_call4_v1) (broadcastInDim S64x64 ![] bcast_S_S64x64),
    TRef.binary (TRef.of (T := ⟨S64x64, .i32⟩) main_call4_v0) (TRef.of (T := ⟨S64x64, .i32⟩) main_call4_v1) (TRef.of (T := ⟨S64x64, .i32⟩) main_call4_v2) addi,
    TRef.nullary (TRef.of (T := ⟨S64x64, .i32⟩) main_call4_v3) (iotaInDim S64x64 32 1),
    TRef.binary (TRef.of (T := ⟨S64x64, .i32⟩) main_call4_v2) (TRef.of (T := ⟨S64x64, .i32⟩) main_call4_v3) (TRef.of (T := ⟨S64x64, .i1⟩) main_call4_v4) (cmpi .sge),
    TRef.nullary (TRef.of (T := ⟨S_, .f32⟩) main_call4_cst) (constant S_ .f32 0x00000000#32),
    TRef.unary (TRef.of (T := ⟨S_, .f32⟩) main_call4_cst) (TRef.of (T := ⟨S64x64, .f32⟩) main_call4_v5) (broadcastInDim S64x64 ![] bcast_S_S64x64),
    TRef.ternary (TRef.of (T := ⟨S64x64, .i1⟩) main_call4_v4) (TRef.of (T := ⟨S64x64, .f32⟩) main_call4_v5) (TRef.of (T := ⟨S64x64, .f32⟩) main_arg5) (TRef.of (T := ⟨S64x64, .f32⟩) main_v36) select,
    unary main_v36 main_v37 ((transpose S64x64 [1, 0] · transposes_S64x64_S64x64_1_0) : (⟨S64x64, .f32⟩ : BufTy).Contents (Elt F) → (⟨S64x64, .f32⟩ : BufTy).Contents (Elt F)),
    binary main_v35 main_v37 main_v38 (addf : (⟨S64x64, .f32⟩ : BufTy).Contents (Elt F) → (⟨S64x64, .f32⟩ : BufTy).Contents (Elt F) → (⟨S64x64, .f32⟩ : BufTy).Contents (Elt F)) ]

/-- The buffers they write. -/
abbrev opsP0c_W : List (Ref sig .tc) := [main_call3_v0, main_call3_c, main_call3_v1, main_call3_v2, main_call3_v3, main_call3_v4, main_call3_cst, main_call3_v5, main_v35, main_call4_v0, main_call4_c, main_call4_v1, main_call4_v2, main_call4_v3, main_call4_v4, main_call4_cst, main_call4_v5, main_v36, main_v37, main_v38]
set_option maxHeartbeats 4000000 in
theorem opsP0c_writes : (opsP0c : List (HloOp τ sig (Elt F))).Forall fun op => op.writes ⊆ (opsP0c_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsP0c_keep (Z : Valuation τ sig (Elt F)) (r : Ref sig .tc) (h : r ∉ opsP0c_W) :
    StableHlo.after opsP0c Z (Proc.devRef .tc r) = Z (Proc.devRef .tc r) :=
  StableHlo.after_of_writes_sub opsP0c Z opsP0c_writes h

/-- Operations 81 … 100 of the line. -/
abbrev opsP0d : List (HloOp τ sig (Elt F)) :=
  [ TRef.nullary (TRef.of (T := ⟨S64x64, .i32⟩) main_call5_v0) (iotaInDim S64x64 32 0),
    TRef.nullary (TRef.of (T := ⟨S_, .i32⟩) main_call5_c) (constantI S_ 32 4294967295#32),
    TRef.unary (TRef.of (T := ⟨S_, .i32⟩) main_call5_c) (TRef.of (T := ⟨S64x64, .i32⟩) main_call5_v1) (broadcastInDim S64x64 ![] bcast_S_S64x64),
    TRef.binary (TRef.of (T := ⟨S64x64, .i32⟩) main_call5_v0) (TRef.of (T := ⟨S64x64, .i32⟩) main_call5_v1) (TRef.of (T := ⟨S64x64, .i32⟩) main_call5_v2) addi,
    TRef.nullary (TRef.of (T := ⟨S64x64, .i32⟩) main_call5_v3) (iotaInDim S64x64 32 1),
    TRef.binary (TRef.of (T := ⟨S64x64, .i32⟩) main_call5_v2) (TRef.of (T := ⟨S64x64, .i32⟩) main_call5_v3) (TRef.of (T := ⟨S64x64, .i1⟩) main_call5_v4) (cmpi .sge),
    TRef.nullary (TRef.of (T := ⟨S_, .f32⟩) main_call5_cst) (constant S_ .f32 0x00000000#32),
    TRef.unary (TRef.of (T := ⟨S_, .f32⟩) main_call5_cst) (TRef.of (T := ⟨S64x64, .f32⟩) main_call5_v5) (broadcastInDim S64x64 ![] bcast_S_S64x64),
    TRef.ternary (TRef.of (T := ⟨S64x64, .i1⟩) main_call5_v4) (TRef.of (T := ⟨S64x64, .f32⟩) main_call5_v5) (TRef.of (T := ⟨S64x64, .f32⟩) main_arg6) (TRef.of (T := ⟨S64x64, .f32⟩) main_v39) select,
    TRef.nullary (TRef.of (T := ⟨S64x64, .i32⟩) main_call6_v0) (iotaInDim S64x64 32 0),
    TRef.nullary (TRef.of (T := ⟨S_, .i32⟩) main_call6_c) (constantI S_ 32 0#32),
    TRef.unary (TRef.of (T := ⟨S_, .i32⟩) main_call6_c) (TRef.of (T := ⟨S64x64, .i32⟩) main_call6_v1) (broadcastInDim S64x64 ![] bcast_S_S64x64),
    TRef.binary (TRef.of (T := ⟨S64x64, .i32⟩) main_call6_v0) (TRef.of (T := ⟨S64x64, .i32⟩) main_call6_v1) (TRef.of (T := ⟨S64x64, .i32⟩) main_call6_v2) addi,
    TRef.nullary (TRef.of (T := ⟨S64x64, .i32⟩) main_call6_v3) (iotaInDim S64x64 32 1),
    TRef.binary (TRef.of (T := ⟨S64x64, .i32⟩) main_call6_v2) (TRef.of (T := ⟨S64x64, .i32⟩) main_call6_v3) (TRef.of (T := ⟨S64x64, .i1⟩) main_call6_v4) (cmpi .sge),
    TRef.nullary (TRef.of (T := ⟨S_, .f32⟩) main_call6_cst) (constant S_ .f32 0x00000000#32),
    TRef.unary (TRef.of (T := ⟨S_, .f32⟩) main_call6_cst) (TRef.of (T := ⟨S64x64, .f32⟩) main_call6_v5) (broadcastInDim S64x64 ![] bcast_S_S64x64),
    TRef.ternary (TRef.of (T := ⟨S64x64, .i1⟩) main_call6_v4) (TRef.of (T := ⟨S64x64, .f32⟩) main_call6_v5) (TRef.of (T := ⟨S64x64, .f32⟩) main_arg6) (TRef.of (T := ⟨S64x64, .f32⟩) main_v40) select,
    unary main_v40 main_v41 ((transpose S64x64 [1, 0] · transposes_S64x64_S64x64_1_0) : (⟨S64x64, .f32⟩ : BufTy).Contents (Elt F) → (⟨S64x64, .f32⟩ : BufTy).Contents (Elt F)),
    binary main_v39 main_v41 main_v42 (addf : (⟨S64x64, .f32⟩ : BufTy).Contents (Elt F) → (⟨S64x64, .f32⟩ : BufTy).Contents (Elt F) → (⟨S64x64, .f32⟩ : BufTy).Contents (Elt F)) ]

/-- The buffers they write. -/
abbrev opsP0d_W : List (Ref sig .tc) := [main_call5_v0, main_call5_c, main_call5_v1, main_call5_v2, main_call5_v3, main_call5_v4, main_call5_cst, main_call5_v5, main_v39, main_call6_v0, main_call6_c, main_call6_v1, main_call6_v2, main_call6_v3, main_call6_v4, main_call6_cst, main_call6_v5, main_v40, main_v41, main_v42]
set_option maxHeartbeats 4000000 in
theorem opsP0d_writes : (opsP0d : List (HloOp τ sig (Elt F))).Forall fun op => op.writes ⊆ (opsP0d_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsP0d_keep (Z : Valuation τ sig (Elt F)) (r : Ref sig .tc) (h : r ∉ opsP0d_W) :
    StableHlo.after opsP0d Z (Proc.devRef .tc r) = Z (Proc.devRef .tc r) :=
  StableHlo.after_of_writes_sub opsP0d Z opsP0d_writes h

/-- Operations 101 … 104 of the line. -/
abbrev opsP0e : List (HloOp τ sig (Elt F)) :=
  [ binary main_arg0 main_arg2 main_v43 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- The buffers they write. -/
abbrev opsP0e_W : List (Ref sig .tc) := [main_v43, main_v44, main_v45, main_v46]
set_option maxHeartbeats 4000000 in
theorem opsP0e_writes : (opsP0e : List (HloOp τ sig (Elt F))).Forall fun op => op.writes ⊆ (opsP0e_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsP0e_keep (Z : Valuation τ sig (Elt F)) (r : Ref sig .tc) (h : r ∉ opsP0e_W) :
    StableHlo.after opsP0e Z (Proc.devRef .tc r) = Z (Proc.devRef .tc r) :=
  StableHlo.after_of_writes_sub opsP0e Z opsP0e_writes h

/-- Operations 105 … 135 of the line. -/
abbrev opsL1 : List (HloOp τ sig (Elt F)) :=
  [ binary main_v46 main_v34 main_v47 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v48 (broadcastInDim S1700000 ![] bcast_S_S1700000 : (⟨S_, .i32⟩ : BufTy).Contents (Elt F) → (⟨S1700000, .i32⟩ : BufTy).Contents (Elt F)),
    binary main_v5 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v50 (broadcastInDim S1700000 ![] bcast_S_S1700000 : (⟨S_, .i32⟩ : BufTy).Contents (Elt F) → (⟨S1700000, .i32⟩ : BufTy).Contents (Elt F)),
    binary main_v5 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v5 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v47 main_v53 main_v54 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v55 (broadcastInDim S1700000x1 ![0] bcast_S1700000_S1700000x1_0 : (⟨S1700000, .f32⟩ : BufTy).Contents (Elt F) → (⟨S1700000x1, .f32⟩ : BufTy).Contents (Elt F)),
    unary main_v55 main_v56 (broadcastInDim S1700000x64 ![0, 1] bcast_S1700000x1_S1700000x64_0_1 : (⟨S1700000x1, .f32⟩ : BufTy).Contents (Elt F) → (⟨S1700000x64, .f32⟩ : BufTy).Contents (Elt F)),
    binary main_v54 main_v56 main_v57 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v58 (broadcastInDim S100000x64 ![] bcast_S_S100000x64 : (⟨S_, .f32⟩ : BufTy).Contents (Elt F) → (⟨S100000x64, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v46 main_v38 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v60 main_v61 main_v62 (subf : (⟨S100000x64, .f32⟩ : BufTy).Contents (Elt F) → (⟨S100000x64, .f32⟩ : BufTy).Contents (Elt F) → (⟨S100000x64, .f32⟩ : BufTy).Contents (Elt F)),
    binary main_v46 main_v42 main_v63 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v62 main_v63 main_v64 (subf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v64) (TRef.of (T := ⟨S100000x64, .f32⟩) main_call7_v0) (TRef.of (T := ⟨S100000x64, .f32⟩) main_v65) maximumf,
    nullary main_cst_9 (constant S_ .f32 0x3F800000#32),
    unary main_cst_9 main_v66 (broadcastInDim S100000x64 ![] bcast_S_S100000x64 : (⟨S_, .f32⟩ : BufTy).Contents (Elt F) → (⟨S100000x64, .f32⟩ : BufTy).Contents (Elt F)),
    binary main_v66 main_v65 main_v67 (mulf : (⟨S100000x64, .f32⟩ : BufTy).Contents (Elt F) → (⟨S100000x64, .f32⟩ : BufTy).Contents (Elt F) → (⟨S100000x64, .f32⟩ : BufTy).Contents (Elt F)),
    binary main_v46 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v68) (TRef.of (T := ⟨S100000x64, .f32⟩) main_call8_v0) (TRef.of (T := ⟨S100000x64, .f32⟩) main_v69) maximumf ]

/-- The buffers they write. -/
abbrev opsL1_W : List (Ref sig .tc) := [main_v47, main_c_6, main_v48, main_v49, main_c_7, main_v50, main_v51, main_v52, main_v53, main_v54, main_v55, main_v56, main_v57, main_cst_8, main_v58, main_v59, main_v60, main_v61, main_v62, main_v63, main_v64, main_call7_cst, main_call7_v0, main_v65, main_cst_9, main_v66, main_v67, main_v68, main_call8_cst, main_call8_v0, main_v69]
set_option maxHeartbeats 4000000 in
theorem opsL1_writes : (opsL1 : List (HloOp τ sig (Elt F))).Forall fun op => op.writes ⊆ (opsL1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsL1_keep (Z : Valuation τ sig (Elt F)) (r : Ref sig .tc) (h : r ∉ opsL1_W) :
    StableHlo.after opsL1 Z (Proc.devRef .tc r) = Z (Proc.devRef .tc r) :=
  StableHlo.after_of_writes_sub opsL1 Z opsL1_writes h

/-- Operations 136 … 166 of the line. -/
abbrev opsL2 : List (HloOp τ sig (Elt F)) :=
  [ binary main_v69 main_v34 main_v70 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v71 (broadcastInDim S1700000 ![] bcast_S_S1700000 : (⟨S_, .i32⟩ : BufTy).Contents (Elt F) → (⟨S1700000, .i32⟩ : BufTy).Contents (Elt F)),
    binary main_v5 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v73 (broadcastInDim S1700000 ![] bcast_S_S1700000 : (⟨S_, .i32⟩ : BufTy).Contents (Elt F) → (⟨S1700000, .i32⟩ : BufTy).Contents (Elt F)),
    binary main_v5 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v5 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v70 main_v76 main_v77 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v78 (broadcastInDim S1700000x1 ![0] bcast_S1700000_S1700000x1_0 : (⟨S1700000, .f32⟩ : BufTy).Contents (Elt F) → (⟨S1700000x1, .f32⟩ : BufTy).Contents (Elt F)),
    unary main_v78 main_v79 (broadcastInDim S1700000x64 ![0, 1] bcast_S1700000x1_S1700000x64_0_1 : (⟨S1700000x1, .f32⟩ : BufTy).Contents (Elt F) → (⟨S1700000x64, .f32⟩ : BufTy).Contents (Elt F)),
    binary main_v77 main_v79 main_v80 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v81 (broadcastInDim S100000x64 ![] bcast_S_S100000x64 : (⟨S_, .f32⟩ : BufTy).Contents (Elt F) → (⟨S100000x64, .f32⟩ : BufTy).Contents (Elt F)),
    unary main_v6 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v69 main_v38 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v83 main_v84 main_v85 (subf : (⟨S100000x64, .f32⟩ : BufTy).Contents (Elt F) → (⟨S100000x64, .f32⟩ : BufTy).Contents (Elt F) → (⟨S100000x64, .f32⟩ : BufTy).Contents (Elt F)),
    binary main_v46 main_v42 main_v86 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v85 main_v86 main_v87 (subf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v87) (TRef.of (T := ⟨S100000x64, .f32⟩) main_call9_v0) (TRef.of (T := ⟨S100000x64, .f32⟩) main_v88) maximumf,
    nullary main_cst_13 (constant S_ .f32 0x3F800000#32),
    unary main_cst_13 main_v89 (broadcastInDim S100000x64 ![] bcast_S_S100000x64 : (⟨S_, .f32⟩ : BufTy).Contents (Elt F) → (⟨S100000x64, .f32⟩ : BufTy).Contents (Elt F)),
    binary main_v89 main_v88 main_v90 (mulf : (⟨S100000x64, .f32⟩ : BufTy).Contents (Elt F) → (⟨S100000x64, .f32⟩ : BufTy).Contents (Elt F) → (⟨S100000x64, .f32⟩ : BufTy).Contents (Elt F)),
    binary main_v69 main_v90 main_v91 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x64, .f32⟩) main_call10_v0) (broadcastInDim S100000x64 ![] bcast_S_S100000x64),
    TRef.binary (TRef.of (T := ⟨S100000x64, .f32⟩) main_v91) (TRef.of (T := ⟨S100000x64, .f32⟩) main_call10_v0) (TRef.of (T := ⟨S100000x64, .f32⟩) main_v92) maximumf ]

/-- The buffers they write. -/
abbrev opsL2_W : List (Ref sig .tc) := [main_v70, main_c_10, main_v71, main_v72, main_c_11, main_v73, main_v74, main_v75, main_v76, main_v77, main_v78, main_v79, main_v80, main_cst_12, main_v81, main_v82, main_v83, main_v84, main_v85, main_v86, main_v87, main_call9_cst, main_call9_v0, main_v88, main_cst_13, main_v89, main_v90, main_v91, main_call10_cst, main_call10_v0, main_v92]
set_option maxHeartbeats 4000000 in
theorem opsL2_writes : (opsL2 : List (HloOp τ sig (Elt F))).Forall fun op => op.writes ⊆ (opsL2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsL2_keep (Z : Valuation τ sig (Elt F)) (r : Ref sig .tc) (h : r ∉ opsL2_W) :
    StableHlo.after opsL2 Z (Proc.devRef .tc r) = Z (Proc.devRef .tc r) :=
  StableHlo.after_of_writes_sub opsL2 Z opsL2_writes h

/-- Operations 167 … 197 of the line. -/
abbrev opsL3 : List (HloOp τ sig (Elt F)) :=
  [ binary main_v92 main_v34 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v94 (broadcastInDim S1700000 ![] bcast_S_S1700000 : (⟨S_, .i32⟩ : BufTy).Contents (Elt F) → (⟨S1700000, .i32⟩ : BufTy).Contents (Elt F)),
    binary main_v5 main_v94 main_v95 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v96 (broadcastInDim S1700000 ![] bcast_S_S1700000 : (⟨S_, .i32⟩ : BufTy).Contents (Elt F) → (⟨S1700000, .i32⟩ : BufTy).Contents (Elt F)),
    binary main_v5 main_v96 main_v97 (addi : (⟨S1700000, .i32⟩ : BufTy).Contents (Elt F) → (⟨S1700000, .i32⟩ : BufTy).Contents (Elt F) → (⟨S1700000, .i32⟩ : BufTy).Contents (Elt F)),
    ternary main_v95 main_v97 main_v5 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v98 main_v99 (broadcastInDim S1700000x1 ![0] bcast_S1700000_S1700000x1_0 : (⟨S1700000, .i32⟩ : BufTy).Contents (Elt F) → (⟨S1700000x1, .i32⟩ : BufTy).Contents (Elt F)),
    binary main_v93 main_v99 main_v100 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v101 (broadcastInDim S1700000x1 ![0] bcast_S1700000_S1700000x1_0 : (⟨S1700000, .f32⟩ : BufTy).Contents (Elt F) → (⟨S1700000x1, .f32⟩ : BufTy).Contents (Elt F)),
    unary main_v101 main_v102 (broadcastInDim S1700000x64 ![0, 1] bcast_S1700000x1_S1700000x64_0_1 : (⟨S1700000x1, .f32⟩ : BufTy).Contents (Elt F) → (⟨S1700000x64, .f32⟩ : BufTy).Contents (Elt F)),
    binary main_v100 main_v102 main_v103 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v104 (broadcastInDim S100000x64 ![] bcast_S_S100000x64 : (⟨S_, .f32⟩ : BufTy).Contents (Elt F) → (⟨S100000x64, .f32⟩ : BufTy).Contents (Elt F)),
    unary main_v6 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v92 main_v38 main_v107 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v106 main_v107 main_v108 (subf : (⟨S100000x64, .f32⟩ : BufTy).Contents (Elt F) → (⟨S100000x64, .f32⟩ : BufTy).Contents (Elt F) → (⟨S100000x64, .f32⟩ : BufTy).Contents (Elt F)),
    binary main_v46 main_v42 main_v109 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v108 main_v109 main_v110 (subf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x64, .f32⟩) main_call11_v0) (broadcastInDim S100000x64 ![] bcast_S_S100000x64),
    TRef.binary (TRef.of (T := ⟨S100000x64, .f32⟩) main_v110) (TRef.of (T := ⟨S100000x64, .f32⟩) main_call11_v0) (TRef.of (T := ⟨S100000x64, .f32⟩) main_v111) maximumf,
    nullary main_cst_17 (constant S_ .f32 0x3F800000#32),
    unary main_cst_17 main_v112 (broadcastInDim S100000x64 ![] bcast_S_S100000x64 : (⟨S_, .f32⟩ : BufTy).Contents (Elt F) → (⟨S100000x64, .f32⟩ : BufTy).Contents (Elt F)),
    binary main_v112 main_v111 main_v113 (mulf : (⟨S100000x64, .f32⟩ : BufTy).Contents (Elt F) → (⟨S100000x64, .f32⟩ : BufTy).Contents (Elt F) → (⟨S100000x64, .f32⟩ : BufTy).Contents (Elt F)),
    binary main_v92 main_v113 main_v114 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S100000x64, .f32⟩) main_call12_v0) (broadcastInDim S100000x64 ![] bcast_S_S100000x64),
    TRef.binary (TRef.of (T := ⟨S100000x64, .f32⟩) main_v114) (TRef.of (T := ⟨S100000x64, .f32⟩) main_call12_v0) (TRef.of (T := ⟨S100000x64, .f32⟩) main_v115) maximumf ]

/-- The buffers they write. -/
abbrev opsL3_W : List (Ref sig .tc) := [main_v93, main_c_14, main_v94, main_v95, main_c_15, main_v96, main_v97, main_v98, main_v99, main_v100, main_v101, main_v102, main_v103, main_cst_16, main_v104, main_v105, main_v106, main_v107, main_v108, main_v109, main_v110, main_call11_cst, main_call11_v0, main_v111, main_cst_17, main_v112, main_v113, main_v114, main_call12_cst, main_call12_v0, main_v115]
set_option maxHeartbeats 4000000 in
theorem opsL3_writes : (opsL3 : List (HloOp τ sig (Elt F))).Forall fun op => op.writes ⊆ (opsL3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsL3_keep (Z : Valuation τ sig (Elt F)) (r : Ref sig .tc) (h : r ∉ opsL3_W) :
    StableHlo.after opsL3 Z (Proc.devRef .tc r) = Z (Proc.devRef .tc r) :=
  StableHlo.after_of_writes_sub opsL3 Z opsL3_writes h

/-- Operations 198 … 228 of the line. -/
abbrev opsL4 : List (HloOp τ sig (Elt F)) :=
  [ binary main_v115 main_v34 main_v116 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_18 (constantI S_ 32 0#32),
    unary main_c_18 main_v117 (broadcastInDim S1700000 ![] bcast_S_S1700000 : (⟨S_, .i32⟩ : BufTy).Contents (Elt F) → (⟨S1700000, .i32⟩ : BufTy).Contents (Elt F)),
    binary main_v5 main_v117 main_v118 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v119 (broadcastInDim S1700000 ![] bcast_S_S1700000 : (⟨S_, .i32⟩ : BufTy).Contents (Elt F) → (⟨S1700000, .i32⟩ : BufTy).Contents (Elt F)),
    binary main_v5 main_v119 main_v120 (addi : (⟨S1700000, .i32⟩ : BufTy).Contents (Elt F) → (⟨S1700000, .i32⟩ : BufTy).Contents (Elt F) → (⟨S1700000, .i32⟩ : BufTy).Contents (Elt F)),
    ternary main_v118 main_v120 main_v5 main_v121 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v121 main_v122 (broadcastInDim S1700000x1 ![0] bcast_S1700000_S1700000x1_0 : (⟨S1700000, .i32⟩ : BufTy).Contents (Elt F) → (⟨S1700000x1, .i32⟩ : BufTy).Contents (Elt F)),
    binary main_v116 main_v122 main_v123 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v124 (broadcastInDim S1700000x1 ![0] bcast_S1700000_S1700000x1_0 : (⟨S1700000, .f32⟩ : BufTy).Contents (Elt F) → (⟨S1700000x1, .f32⟩ : BufTy).Contents (Elt F)),
    unary main_v124 main_v125 (broadcastInDim S1700000x64 ![0, 1] bcast_S1700000x1_S1700000x64_0_1 : (⟨S1700000x1, .f32⟩ : BufTy).Contents (Elt F) → (⟨S1700000x64, .f32⟩ : BufTy).Contents (Elt F)),
    binary main_v123 main_v125 main_v126 (mulf : (⟨S1700000x64, .f32⟩ : BufTy).Contents (Elt F) → (⟨S1700000x64, .f32⟩ : BufTy).Contents (Elt F) → (⟨S1700000x64, .f32⟩ : BufTy).Contents (Elt F)),
    nullary main_cst_20 (constant S_ .f32 0x00000000#32),
    unary main_cst_20 main_v127 (broadcastInDim S100000x64 ![] bcast_S_S100000x64 : (⟨S_, .f32⟩ : BufTy).Contents (Elt F) → (⟨S100000x64, .f32⟩ : BufTy).Contents (Elt F)),
    unary main_v6 main_v128 (broadcastInDim S1700000x1 ![0] bcast_S1700000_S1700000x1_0 : (⟨S1700000, .i32⟩ : BufTy).Contents (Elt F) → (⟨S1700000x1, .i32⟩ : BufTy).Contents (Elt F)),
    ternary main_v127 main_v128 main_v126 main_v129 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v115 main_v38 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v129 main_v130 main_v131 (subf : (⟨S100000x64, .f32⟩ : BufTy).Contents (Elt F) → (⟨S100000x64, .f32⟩ : BufTy).Contents (Elt F) → (⟨S100000x64, .f32⟩ : BufTy).Contents (Elt F)),
    binary main_v46 main_v42 main_v132 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v131 main_v132 main_v133 (subf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x64, .f32⟩) main_call13_v0) (broadcastInDim S100000x64 ![] bcast_S_S100000x64),
    TRef.binary (TRef.of (T := ⟨S100000x64, .f32⟩) main_v133) (TRef.of (T := ⟨S100000x64, .f32⟩) main_call13_v0) (TRef.of (T := ⟨S100000x64, .f32⟩) main_v134) maximumf,
    nullary main_cst_21 (constant S_ .f32 0x3F800000#32),
    unary main_cst_21 main_v135 (broadcastInDim S100000x64 ![] bcast_S_S100000x64 : (⟨S_, .f32⟩ : BufTy).Contents (Elt F) → (⟨S100000x64, .f32⟩ : BufTy).Contents (Elt F)),
    binary main_v135 main_v134 main_v136 (mulf : (⟨S100000x64, .f32⟩ : BufTy).Contents (Elt F) → (⟨S100000x64, .f32⟩ : BufTy).Contents (Elt F) → (⟨S100000x64, .f32⟩ : BufTy).Contents (Elt F)),
    binary main_v115 main_v136 main_v137 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S100000x64, .f32⟩) main_call14_v0) (broadcastInDim S100000x64 ![] bcast_S_S100000x64),
    TRef.binary (TRef.of (T := ⟨S100000x64, .f32⟩) main_v137) (TRef.of (T := ⟨S100000x64, .f32⟩) main_call14_v0) (TRef.of (T := ⟨S100000x64, .f32⟩) main_v138) maximumf ]

/-- The buffers they write. -/
abbrev opsL4_W : List (Ref sig .tc) := [main_v116, main_c_18, main_v117, main_v118, main_c_19, main_v119, main_v120, main_v121, main_v122, main_v123, main_v124, main_v125, main_v126, main_cst_20, main_v127, main_v128, main_v129, main_v130, main_v131, main_v132, main_v133, main_call13_cst, main_call13_v0, main_v134, main_cst_21, main_v135, main_v136, main_v137, main_call14_cst, main_call14_v0, main_v138]
set_option maxHeartbeats 4000000 in
theorem opsL4_writes : (opsL4 : List (HloOp τ sig (Elt F))).Forall fun op => op.writes ⊆ (opsL4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsL4_keep (Z : Valuation τ sig (Elt F)) (r : Ref sig .tc) (h : r ∉ opsL4_W) :
    StableHlo.after opsL4 Z (Proc.devRef .tc r) = Z (Proc.devRef .tc r) :=
  StableHlo.after_of_writes_sub opsL4 Z opsL4_writes h

/-- Operations 229 … 232 of the line. -/
abbrev opsD : List (HloOp τ sig (Elt F)) :=
  [ binary main_v138 main_arg7 main_v139 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v139 main_v141 main_v142 (addf : (⟨S100000x64, .f32⟩ : BufTy).Contents (Elt F) → (⟨S100000x64, .f32⟩ : BufTy).Contents (Elt F) → (⟨S100000x64, .f32⟩ : BufTy).Contents (Elt F)) ]

/-- The buffers they write. -/
abbrev opsD_W : List (Ref sig .tc) := [main_v139, main_v140, main_v141, main_v142]
set_option maxHeartbeats 4000000 in
theorem opsD_writes : (opsD : List (HloOp τ sig (Elt F))).Forall fun op => op.writes ⊆ (opsD_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents. -/
theorem opsD_keep (Z : Valuation τ sig (Elt F)) (r : Ref sig .tc) (h : r ∉ opsD_W) :
    StableHlo.after opsD Z (Proc.devRef .tc r) = Z (Proc.devRef .tc r) :=
  StableHlo.after_of_writes_sub opsD Z opsD_writes h

set_option maxHeartbeats 4000000 in
/-- The line is its stretches, one after the other. -/
theorem ops_split : (Fold.ops : List (HloOp τ sig (Elt F))) = opsP0a ++ (opsP0b ++ (opsP0c ++ (opsP0d ++ (opsP0e ++ (opsL1 ++ (opsL2 ++ (opsL3 ++ (opsL4 ++ (opsD))))))))) := rfl

/-- So the line's fold is the stretches' folds, nested. -/
theorem after_ops (Z : Valuation τ sig (Elt F)) :
    StableHlo.after Fold.ops Z = StableHlo.after opsD (StableHlo.after opsL4 (StableHlo.after opsL3 (StableHlo.after opsL2 (StableHlo.after opsL1 (StableHlo.after opsP0e (StableHlo.after opsP0d (StableHlo.after opsP0c (StableHlo.after opsP0b (StableHlo.after opsP0a (Z)))))))))) := by
  rw [ops_split]; simp only [after_append]

end Cert.ReferenceIdeal.Chain

end
-- ==== Proof.RefStage.lean ====
/-
  Each stretch of the reference's line read at the buffers the later stretches use, as the host's own operations of the
  buffers the stretch starts from: the edge lists and their weights, a symmetric mixer, the encoder, one whole layer,
  the decoder.
-/
import proofs.«112566_j48309792145741_1_alg».proof.Proof.RefLine
import proofs.«112566_j48309792145741_1_alg».proof.Proof.IdealSpec2

set_option maxRecDepth 16384

noncomputable section

namespace Cert.ReferenceIdeal.Chain

open Cert.ReferenceIdeal Cert.ReferenceIdeal.Gen Idealize.ShloMosaic Idealize.ShloMosaic.TcCoe Idealize.SL.Sem Idealize.ShloMosaic.StableHlo
open Cert.Proof.Spec (rowF colF normF symF rowB encF decF layerF)

/-- The rewriting half of the library's reader of a literal line: each operation's result at its own result
    reference becomes its function's value, at any other reference what was there before. -/
macro "rw_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- A value carried into a called function's buffer and read back is the value. -/
theorem ofBuf_toBuf' {sig : RefSig} {T : BufTy} {Val : EltTy → Type} (x : TRef sig T) (v : T.Contents Val) : x.ofBuf (x.toBuf v) = v := by
  obtain ⟨r, ty_eq, h1, h2⟩ := x
  subst ty_eq
  rfl

/-- A called function's argument and result buffers hold values of the call's own types: the transport is the identity. -/
theorem toBuf_main_v14 (h1 h2 h3) (v : (⟨S100000, .f32⟩ : BufTy).Contents (Elt Ideal)) : (TRef.of (sig := sig) (T := ⟨S100000, .f32⟩) main_v14 h1 h2 h3).toBuf v = v := rfl
theorem toBuf_main_v31 (h1 h2 h3) (v : (⟨S64x64, .f32⟩ : BufTy).Contents (Elt Ideal)) : (TRef.of (sig := sig) (T := ⟨S64x64, .f32⟩) main_v31 h1 h2 h3).toBuf v = v := rfl
theorem toBuf_main_v32 (h1 h2 h3) (v : (⟨S64x64, .f32⟩ : BufTy).Contents (Elt Ideal)) : (TRef.of (sig := sig) (T := ⟨S64x64, .f32⟩) main_v32 h1 h2 h3).toBuf v = v := rfl
theorem toBuf_main_v35 (h1 h2 h3) (v : (⟨S64x64, .f32⟩ : BufTy).Contents (Elt Ideal)) : (TRef.of (sig := sig) (T := ⟨S64x64, .f32⟩) main_v35 h1 h2 h3).toBuf v = v := rfl
theorem toBuf_main_v36 (h1 h2 h3) (v : (⟨S64x64, .f32⟩ : BufTy).Contents (Elt Ideal)) : (TRef.of (sig := sig) (T := ⟨S64x64, .f32⟩) main_v36 h1 h2 h3).toBuf v = v := rfl
theorem toBuf_main_v39 (h1 h2 h3) (v : (⟨S64x64, .f32⟩ : BufTy).Contents (Elt Ideal)) : (TRef.of (sig := sig) (T := ⟨S64x64, .f32⟩) main_v39 h1 h2 h3).toBuf v = v := rfl
theorem toBuf_main_v40 (h1 h2 h3) (v : (⟨S64x64, .f32⟩ : BufTy).Contents (Elt Ideal)) : (TRef.of (sig := sig) (T := ⟨S64x64, .f32⟩) main_v40 h1 h2 h3).toBuf v = v := rfl
theorem toBuf_main_v65 (h1 h2 h3) (v : (⟨S100000x64, .f32⟩ : BufTy).Contents (Elt Ideal)) : (TRef.of (sig := sig) (T := ⟨S100000x64, .f32⟩) main_v65 h1 h2 h3).toBuf v = v := rfl
theorem toBuf_main_v69 (h1 h2 h3) (v : (⟨S100000x64, .f32⟩ : BufTy).Contents (Elt Ideal)) : (TRef.of (sig := sig) (T := ⟨S100000x64, .f32⟩) main_v69 h1 h2 h3).toBuf v = v := rfl
theorem toBuf_main_v88 (h1 h2 h3) (v : (⟨S100000x64, .f32⟩ : BufTy).Contents (Elt Ideal)) : (TRef.of (sig := sig) (T := ⟨S100000x64, .f32⟩) main_v88 h1 h2 h3).toBuf v = v := rfl
theorem toBuf_main_v92 (h1 h2 h3) (v : (⟨S100000x64, .f32⟩ : BufTy).Contents (Elt Ideal)) : (TRef.of (sig := sig) (T := ⟨S100000x64, .f32⟩) main_v92 h1 h2 h3).toBuf v = v := rfl
theorem toBuf_main_v111 (h1 h2 h3) (v : (⟨S100000x64, .f32⟩ : BufTy).Contents (Elt Ideal)) : (TRef.of (sig := sig) (T := ⟨S100000x64, .f32⟩) main_v111 h1 h2 h3).toBuf v = v := rfl
theorem toBuf_main_v115 (h1 h2 h3) (v : (⟨S100000x64, .f32⟩ : BufTy).Contents (Elt Ideal)) : (TRef.of (sig := sig) (T := ⟨S100000x64, .f32⟩) main_v115 h1 h2 h3).toBuf v = v := rfl
theorem toBuf_main_v134 (h1 h2 h3) (v : (⟨S100000x64, .f32⟩ : BufTy).Contents (Elt Ideal)) : (TRef.of (sig := sig) (T := ⟨S100000x64, .f32⟩) main_v134 h1 h2 h3).toBuf v = v := rfl
theorem toBuf_main_v138 (h1 h2 h3) (v : (⟨S100000x64, .f32⟩ : BufTy).Contents (Elt Ideal)) : (TRef.of (sig := sig) (T := ⟨S100000x64, .f32⟩) main_v138 h1 h2 h3).toBuf v = v := rfl
theorem ofBuf_main_cst_2 (h1 h2 h3) (v : (⟨S_, .f32⟩ : BufTy).Contents (Elt Ideal)) : (TRef.of (sig := sig) (T := ⟨S_, .f32⟩) main_cst_2 h1 h2 h3).ofBuf v = v := rfl
theorem ofBuf_main_v12 (h1 h2 h3) (v : (⟨S100000, .i1⟩ : BufTy).Contents (Elt Ideal)) : (TRef.of (sig := sig) (T := ⟨S100000, .i1⟩) main_v12 h1 h2 h3).ofBuf v = v := rfl
theorem ofBuf_main_v13 (h1 h2 h3) (v : (⟨S100000, .f32⟩ : BufTy).Contents (Elt Ideal)) : (TRef.of (sig := sig) (T := ⟨S100000, .f32⟩) main_v13 h1 h2 h3).ofBuf v = v := rfl
theorem ofBuf_main_arg4 (h1 h2 h3) (v : (⟨S64x64, .f32⟩ : BufTy).Contents (Elt Ideal)) : (TRef.of (sig := sig) (T := ⟨S64x64, .f32⟩) main_arg4 h1 h2 h3).ofBuf v = v := rfl
theorem ofBuf_main_arg5 (h1 h2 h3) (v : (⟨S64x64, .f32⟩ : BufTy).Contents (Elt Ideal)) : (TRef.of (sig := sig) (T := ⟨S64x64, .f32⟩) main_arg5 h1 h2 h3).ofBuf v = v := rfl
theorem ofBuf_main_arg6 (h1 h2 h3) (v : (⟨S64x64, .f32⟩ : BufTy).Contents (Elt Ideal)) : (TRef.of (sig := sig) (T := ⟨S64x64, .f32⟩) main_arg6 h1 h2 h3).ofBuf v = v := rfl
theorem ofBuf_main_v64 (h1 h2 h3) (v : (⟨S100000x64, .f32⟩ : BufTy).Contents (Elt Ideal)) : (TRef.of (sig := sig) (T := ⟨S100000x64, .f32⟩) main_v64 h1 h2 h3).ofBuf v = v := rfl
theorem ofBuf_main_v68 (h1 h2 h3) (v : (⟨S100000x64, .f32⟩ : BufTy).Contents (Elt Ideal)) : (TRef.of (sig := sig) (T := ⟨S100000x64, .f32⟩) main_v68 h1 h2 h3).ofBuf v = v := rfl
theorem ofBuf_main_v87 (h1 h2 h3) (v : (⟨S100000x64, .f32⟩ : BufTy).Contents (Elt Ideal)) : (TRef.of (sig := sig) (T := ⟨S100000x64, .f32⟩) main_v87 h1 h2 h3).ofBuf v = v := rfl
theorem ofBuf_main_v91 (h1 h2 h3) (v : (⟨S100000x64, .f32⟩ : BufTy).Contents (Elt Ideal)) : (TRef.of (sig := sig) (T := ⟨S100000x64, .f32⟩) main_v91 h1 h2 h3).ofBuf v = v := rfl
theorem ofBuf_main_v110 (h1 h2 h3) (v : (⟨S100000x64, .f32⟩ : BufTy).Contents (Elt Ideal)) : (TRef.of (sig := sig) (T := ⟨S100000x64, .f32⟩) main_v110 h1 h2 h3).ofBuf v = v := rfl
theorem ofBuf_main_v114 (h1 h2 h3) (v : (⟨S100000x64, .f32⟩ : BufTy).Contents (Elt Ideal)) : (TRef.of (sig := sig) (T := ⟨S100000x64, .f32⟩) main_v114 h1 h2 h3).ofBuf v = v := rfl
theorem ofBuf_main_v133 (h1 h2 h3) (v : (⟨S100000x64, .f32⟩ : BufTy).Contents (Elt Ideal)) : (TRef.of (sig := sig) (T := ⟨S100000x64, .f32⟩) main_v133 h1 h2 h3).ofBuf v = v := rfl
theorem ofBuf_main_v137 (h1 h2 h3) (v : (⟨S100000x64, .f32⟩ : BufTy).Contents (Elt Ideal)) : (TRef.of (sig := sig) (T := ⟨S100000x64, .f32⟩) main_v137 h1 h2 h3).ofBuf v = v := rfl

set_option maxHeartbeats 4000000 in
theorem p0a_v5 (Z : Valuation τ sig (Elt Ideal)) :
    StableHlo.after opsP0a Z (Proc.devRef .tc main_v5) = rowF (F := Ideal) (Z (Proc.devRef .tc main_arg1)) := by
  after_results_simp
  rw_results
  rfl

set_option maxHeartbeats 4000000 in
theorem p0a_v6 (Z : Valuation τ sig (Elt Ideal)) :
    StableHlo.after opsP0a Z (Proc.devRef .tc main_v6) = colF (F := Ideal) (Z (Proc.devRef .tc main_arg1)) := by
  after_results_simp
  rw_results
  rfl

set_option maxHeartbeats 8000000 in
theorem p0a_v30 (Z : Valuation τ sig (Elt Ideal)) :
    StableHlo.after opsP0a Z (Proc.devRef .tc main_v30) = normF (F := Ideal) (rowF (Z (Proc.devRef .tc main_arg1))) (colF (Z (Proc.devRef .tc main_arg1))) := by
  after_results_simp
  rw_results
  simp only [ofBuf_toBuf', toBuf_main_v14, toBuf_main_v31, toBuf_main_v32, toBuf_main_v35, toBuf_main_v36, toBuf_main_v39, toBuf_main_v40, toBuf_main_v65, toBuf_main_v69, toBuf_main_v88, toBuf_main_v92, toBuf_main_v111, toBuf_main_v115, toBuf_main_v134, toBuf_main_v138, ofBuf_main_cst_2, ofBuf_main_v12, ofBuf_main_v13, ofBuf_main_arg4, ofBuf_main_arg5, ofBuf_main_arg6, ofBuf_main_v64, ofBuf_main_v68, ofBuf_main_v87, ofBuf_main_v91, ofBuf_main_v110, ofBuf_main_v114, ofBuf_main_v133, ofBuf_main_v137]
  rfl

set_option maxHeartbeats 4000000 in
theorem p0b_v34 (Z : Valuation τ sig (Elt Ideal)) :
    StableHlo.after opsP0b Z (Proc.devRef .tc main_v34) = symF (F := Ideal) (Z (Proc.devRef .tc main_arg4)) := by
  after_results_simp
  simp only [ofBuf_toBuf', toBuf_main_v14, toBuf_main_v31, toBuf_main_v32, toBuf_main_v35, toBuf_main_v36, toBuf_main_v39, toBuf_main_v40, toBuf_main_v65, toBuf_main_v69, toBuf_main_v88, toBuf_main_v92, toBuf_main_v111, toBuf_main_v115, toBuf_main_v134, toBuf_main_v138, ofBuf_main_cst_2, ofBuf_main_v12, ofBuf_main_v13, ofBuf_main_arg4, ofBuf_main_arg5, ofBuf_main_arg6, ofBuf_main_v64, ofBuf_main_v68, ofBuf_main_v87, ofBuf_main_v91, ofBuf_main_v110, ofBuf_main_v114, ofBuf_main_v133, ofBuf_main_v137]
  rfl

set_option maxHeartbeats 4000000 in
theorem p0c_v38 (Z : Valuation τ sig (Elt Ideal)) :
    StableHlo.after opsP0c Z (Proc.devRef .tc main_v38) = symF (F := Ideal) (Z (Proc.devRef .tc main_arg5)) := by
  after_results_simp
  simp only [ofBuf_toBuf', toBuf_main_v14, toBuf_main_v31, toBuf_main_v32, toBuf_main_v35, toBuf_main_v36, toBuf_main_v39, toBuf_main_v40, toBuf_main_v65, toBuf_main_v69, toBuf_main_v88, toBuf_main_v92, toBuf_main_v111, toBuf_main_v115, toBuf_main_v134, toBuf_main_v138, ofBuf_main_cst_2, ofBuf_main_v12, ofBuf_main_v13, ofBuf_main_arg4, ofBuf_main_arg5, ofBuf_main_arg6, ofBuf_main_v64, ofBuf_main_v68, ofBuf_main_v87, ofBuf_main_v91, ofBuf_main_v110, ofBuf_main_v114, ofBuf_main_v133, ofBuf_main_v137]
  rfl

set_option maxHeartbeats 4000000 in
theorem p0d_v42 (Z : Valuation τ sig (Elt Ideal)) :
    StableHlo.after opsP0d Z (Proc.devRef .tc main_v42) = symF (F := Ideal) (Z (Proc.devRef .tc main_arg6)) := by
  after_results_simp
  simp only [ofBuf_toBuf', toBuf_main_v14, toBuf_main_v31, toBuf_main_v32, toBuf_main_v35, toBuf_main_v36, toBuf_main_v39, toBuf_main_v40, toBuf_main_v65, toBuf_main_v69, toBuf_main_v88, toBuf_main_v92, toBuf_main_v111, toBuf_main_v115, toBuf_main_v134, toBuf_main_v138, ofBuf_main_cst_2, ofBuf_main_v12, ofBuf_main_v13, ofBuf_main_arg4, ofBuf_main_arg5, ofBuf_main_arg6, ofBuf_main_v64, ofBuf_main_v68, ofBuf_main_v87, ofBuf_main_v91, ofBuf_main_v110, ofBuf_main_v114, ofBuf_main_v133, ofBuf_main_v137]
  rfl

set_option maxHeartbeats 4000000 in
theorem p0e_v46 (Z : Valuation τ sig (Elt Ideal)) :
    StableHlo.after opsP0e Z (Proc.devRef .tc main_v46) = encF (F := Ideal) (Z (Proc.devRef .tc main_arg0)) (Z (Proc.devRef .tc main_arg2)) (rowB (Z (Proc.devRef .tc main_arg3))) := by
  after_results_simp
  rfl

set_option maxHeartbeats 8000000 in
theorem layer_L1 (Z : Valuation τ sig (Elt Ideal)) :
    StableHlo.after opsL1 Z (Proc.devRef .tc main_v69) = layerF (F := Ideal) (Z (Proc.devRef .tc main_v46)) (Z (Proc.devRef .tc main_v46)) (Z (Proc.devRef .tc main_v34)) (Z (Proc.devRef .tc main_v38)) (Z (Proc.devRef .tc main_v42)) (Z (Proc.devRef .tc main_v5)) (Z (Proc.devRef .tc main_v6)) (Z (Proc.devRef .tc main_v30)) := by
  after_results_simp
  simp only [ofBuf_toBuf', toBuf_main_v14, toBuf_main_v31, toBuf_main_v32, toBuf_main_v35, toBuf_main_v36, toBuf_main_v39, toBuf_main_v40, toBuf_main_v65, toBuf_main_v69, toBuf_main_v88, toBuf_main_v92, toBuf_main_v111, toBuf_main_v115, toBuf_main_v134, toBuf_main_v138, ofBuf_main_cst_2, ofBuf_main_v12, ofBuf_main_v13, ofBuf_main_arg4, ofBuf_main_arg5, ofBuf_main_arg6, ofBuf_main_v64, ofBuf_main_v68, ofBuf_main_v87, ofBuf_main_v91, ofBuf_main_v110, ofBuf_main_v114, ofBuf_main_v133, ofBuf_main_v137]
  rfl

set_option maxHeartbeats 8000000 in
theorem layer_L2 (Z : Valuation τ sig (Elt Ideal)) :
    StableHlo.after opsL2 Z (Proc.devRef .tc main_v92) = layerF (F := Ideal) (Z (Proc.devRef .tc main_v69)) (Z (Proc.devRef .tc main_v46)) (Z (Proc.devRef .tc main_v34)) (Z (Proc.devRef .tc main_v38)) (Z (Proc.devRef .tc main_v42)) (Z (Proc.devRef .tc main_v5)) (Z (Proc.devRef .tc main_v6)) (Z (Proc.devRef .tc main_v30)) := by
  after_results_simp
  simp only [ofBuf_toBuf', toBuf_main_v14, toBuf_main_v31, toBuf_main_v32, toBuf_main_v35, toBuf_main_v36, toBuf_main_v39, toBuf_main_v40, toBuf_main_v65, toBuf_main_v69, toBuf_main_v88, toBuf_main_v92, toBuf_main_v111, toBuf_main_v115, toBuf_main_v134, toBuf_main_v138, ofBuf_main_cst_2, ofBuf_main_v12, ofBuf_main_v13, ofBuf_main_arg4, ofBuf_main_arg5, ofBuf_main_arg6, ofBuf_main_v64, ofBuf_main_v68, ofBuf_main_v87, ofBuf_main_v91, ofBuf_main_v110, ofBuf_main_v114, ofBuf_main_v133, ofBuf_main_v137]
  rfl

set_option maxHeartbeats 8000000 in
theorem layer_L3 (Z : Valuation τ sig (Elt Ideal)) :
    StableHlo.after opsL3 Z (Proc.devRef .tc main_v115) = layerF (F := Ideal) (Z (Proc.devRef .tc main_v92)) (Z (Proc.devRef .tc main_v46)) (Z (Proc.devRef .tc main_v34)) (Z (Proc.devRef .tc main_v38)) (Z (Proc.devRef .tc main_v42)) (Z (Proc.devRef .tc main_v5)) (Z (Proc.devRef .tc main_v6)) (Z (Proc.devRef .tc main_v30)) := by
  after_results_simp
  simp only [ofBuf_toBuf', toBuf_main_v14, toBuf_main_v31, toBuf_main_v32, toBuf_main_v35, toBuf_main_v36, toBuf_main_v39, toBuf_main_v40, toBuf_main_v65, toBuf_main_v69, toBuf_main_v88, toBuf_main_v92, toBuf_main_v111, toBuf_main_v115, toBuf_main_v134, toBuf_main_v138, ofBuf_main_cst_2, ofBuf_main_v12, ofBuf_main_v13, ofBuf_main_arg4, ofBuf_main_arg5, ofBuf_main_arg6, ofBuf_main_v64, ofBuf_main_v68, ofBuf_main_v87, ofBuf_main_v91, ofBuf_main_v110, ofBuf_main_v114, ofBuf_main_v133, ofBuf_main_v137]
  rfl

set_option maxHeartbeats 8000000 in
theorem layer_L4 (Z : Valuation τ sig (Elt Ideal)) :
    StableHlo.after opsL4 Z (Proc.devRef .tc main_v138) = layerF (F := Ideal) (Z (Proc.devRef .tc main_v115)) (Z (Proc.devRef .tc main_v46)) (Z (Proc.devRef .tc main_v34)) (Z (Proc.devRef .tc main_v38)) (Z (Proc.devRef .tc main_v42)) (Z (Proc.devRef .tc main_v5)) (Z (Proc.devRef .tc main_v6)) (Z (Proc.devRef .tc main_v30)) := by
  after_results_simp
  simp only [ofBuf_toBuf', toBuf_main_v14, toBuf_main_v31, toBuf_main_v32, toBuf_main_v35, toBuf_main_v36, toBuf_main_v39, toBuf_main_v40, toBuf_main_v65, toBuf_main_v69, toBuf_main_v88, toBuf_main_v92, toBuf_main_v111, toBuf_main_v115, toBuf_main_v134, toBuf_main_v138, ofBuf_main_cst_2, ofBuf_main_v12, ofBuf_main_v13, ofBuf_main_arg4, ofBuf_main_arg5, ofBuf_main_arg6, ofBuf_main_v64, ofBuf_main_v68, ofBuf_main_v87, ofBuf_main_v91, ofBuf_main_v110, ofBuf_main_v114, ofBuf_main_v133, ofBuf_main_v137]
  rfl

set_option maxHeartbeats 4000000 in
theorem dec_v142 (Z : Valuation τ sig (Elt Ideal)) :
    StableHlo.after opsD Z (Proc.devRef .tc main_v142) = decF (F := Ideal) (Z (Proc.devRef .tc main_v138)) (Z (Proc.devRef .tc main_arg7)) (rowB (Z (Proc.devRef .tc main_arg8))) := by
  after_results_simp
  rfl

end Cert.ReferenceIdeal.Chain

end
-- ==== Proof.RefChain.lean ====
/-
  The reference's line read from the launch to its result: the first five stretches prepare the edge lists, their
  weights, the three symmetric mixers and the encoder's output, which every later stretch leaves alone; each layer's
  stretch makes the next hidden state from the last; the decoder's stretch makes the result. The result is the network
  of the nine argument arrays.
-/
import proofs.«112566_j48309792145741_1_alg».proof.Proof.RefStage

set_option maxRecDepth 16384

noncomputable section

namespace Cert.ReferenceIdeal.Chain

open Cert.ReferenceIdeal Cert.ReferenceIdeal.Gen Idealize.ShloMosaic Idealize.ShloMosaic.TcCoe Idealize.SL.Sem Idealize.ShloMosaic.StableHlo
open Cert.Proof.Spec (Arr Mat Row Inp MatI Edg EdgF Pairs Vec64 rowF colF normF symF rowB encF decF layerF finalF)

variable (x0 : Inp Ideal) (x1 : Pairs Ideal) (x2 : MatI Ideal) (x3 : Vec64 Ideal) (x4 x5 x6 x7 : Mat Ideal) (x8 : Vec64 Ideal)

/-- The nine buffers every later stretch leaves alone, at what the first five stretches make of the arguments. -/
structure Carried (Y : Valuation τ sig (Elt Ideal)) : Prop where
  v46 : Y (Proc.devRef .tc main_v46) = encF (F := Ideal) x0 x2 (rowB x3)
  v34 : Y (Proc.devRef .tc main_v34) = symF (F := Ideal) x4
  v38 : Y (Proc.devRef .tc main_v38) = symF (F := Ideal) x5
  v42 : Y (Proc.devRef .tc main_v42) = symF (F := Ideal) x6
  v5 : Y (Proc.devRef .tc main_v5) = rowF (F := Ideal) x1
  v6 : Y (Proc.devRef .tc main_v6) = colF (F := Ideal) x1
  v30 : Y (Proc.devRef .tc main_v30) = normF (F := Ideal) (rowF (F := Ideal) x1) (colF (F := Ideal) x1)
  a7 : Y (Proc.devRef .tc main_arg7) = x7
  a8 : Y (Proc.devRef .tc main_arg8) = x8

variable (Y0 : Valuation τ sig (Elt Ideal))
  (h0 : Y0 (Proc.devRef .tc main_arg0) = x0) (h1 : Y0 (Proc.devRef .tc main_arg1) = x1) (h2 : Y0 (Proc.devRef .tc main_arg2) = x2) (h3 : Y0 (Proc.devRef .tc main_arg3) = x3) (h4 : Y0 (Proc.devRef .tc main_arg4) = x4) (h5 : Y0 (Proc.devRef .tc main_arg5) = x5) (h6 : Y0 (Proc.devRef .tc main_arg6) = x6) (h7 : Y0 (Proc.devRef .tc main_arg7) = x7) (h8 : Y0 (Proc.devRef .tc main_arg8) = x8)

include h0 h1 h2 h3 h4 h5 h6 h7 h8 in
/-- After the first five stretches. -/
theorem carried5 : Carried x0 x1 x2 x3 x4 x5 x6 x7 x8 (StableHlo.after opsP0e (StableHlo.after opsP0d (StableHlo.after opsP0c (StableHlo.after opsP0b (StableHlo.after opsP0a Y0))))) where
  v5 := (opsP0e_keep (StableHlo.after opsP0d (StableHlo.after opsP0c (StableHlo.after opsP0b (StableHlo.after opsP0a Y0)))) main_v5 (by decide)).trans ((opsP0d_keep (StableHlo.after opsP0c (StableHlo.after opsP0b (StableHlo.after opsP0a Y0))) main_v5 (by decide)).trans ((opsP0c_keep (StableHlo.after opsP0b (StableHlo.after opsP0a Y0)) main_v5 (by decide)).trans ((opsP0b_keep (StableHlo.after opsP0a Y0) main_v5 (by decide)).trans ((p0a_v5 Y0).trans (congrArg (rowF (F := Ideal)) h1)))))
  v6 := (opsP0e_keep (StableHlo.after opsP0d (StableHlo.after opsP0c (StableHlo.after opsP0b (StableHlo.after opsP0a Y0)))) main_v6 (by decide)).trans ((opsP0d_keep (StableHlo.after opsP0c (StableHlo.after opsP0b (StableHlo.after opsP0a Y0))) main_v6 (by decide)).trans ((opsP0c_keep (StableHlo.after opsP0b (StableHlo.after opsP0a Y0)) main_v6 (by decide)).trans ((opsP0b_keep (StableHlo.after opsP0a Y0) main_v6 (by decide)).trans ((p0a_v6 Y0).trans (congrArg (colF (F := Ideal)) h1)))))
  v30 := (opsP0e_keep (StableHlo.after opsP0d (StableHlo.after opsP0c (StableHlo.after opsP0b (StableHlo.after opsP0a Y0)))) main_v30 (by decide)).trans ((opsP0d_keep (StableHlo.after opsP0c (StableHlo.after opsP0b (StableHlo.after opsP0a Y0))) main_v30 (by decide)).trans ((opsP0c_keep (StableHlo.after opsP0b (StableHlo.after opsP0a Y0)) main_v30 (by decide)).trans ((opsP0b_keep (StableHlo.after opsP0a Y0) main_v30 (by decide)).trans ((p0a_v30 Y0).trans (by rw [h1])))))
  v34 := (opsP0e_keep (StableHlo.after opsP0d (StableHlo.after opsP0c (StableHlo.after opsP0b (StableHlo.after opsP0a Y0)))) main_v34 (by decide)).trans ((opsP0d_keep (StableHlo.after opsP0c (StableHlo.after opsP0b (StableHlo.after opsP0a Y0))) main_v34 (by decide)).trans ((opsP0c_keep (StableHlo.after opsP0b (StableHlo.after opsP0a Y0)) main_v34 (by decide)).trans ((p0b_v34 (StableHlo.after opsP0a Y0)).trans (congrArg (symF (F := Ideal)) ((opsP0a_keep Y0 main_arg4 (by decide)).trans (h4))))))
  v38 := (opsP0e_keep (StableHlo.after opsP0d (StableHlo.after opsP0c (StableHlo.after opsP0b (StableHlo.after opsP0a Y0)))) main_v38 (by decide)).trans ((opsP0d_keep (StableHlo.after opsP0c (StableHlo.after opsP0b (StableHlo.after opsP0a Y0))) main_v38 (by decide)).trans ((p0c_v38 (StableHlo.after opsP0b (StableHlo.after opsP0a Y0))).trans (congrArg (symF (F := Ideal)) ((opsP0b_keep (StableHlo.after opsP0a Y0) main_arg5 (by decide)).trans ((opsP0a_keep Y0 main_arg5 (by decide)).trans (h5))))))
  v42 := (opsP0e_keep (StableHlo.after opsP0d (StableHlo.after opsP0c (StableHlo.after opsP0b (StableHlo.after opsP0a Y0)))) main_v42 (by decide)).trans ((p0d_v42 (StableHlo.after opsP0c (StableHlo.after opsP0b (StableHlo.after opsP0a Y0)))).trans (congrArg (symF (F := Ideal)) ((opsP0c_keep (StableHlo.after opsP0b (StableHlo.after opsP0a Y0)) main_arg6 (by decide)).trans ((opsP0b_keep (StableHlo.after opsP0a Y0) main_arg6 (by decide)).trans ((opsP0a_keep Y0 main_arg6 (by decide)).trans (h6))))))
  v46 := (p0e_v46 (StableHlo.after opsP0d (StableHlo.after opsP0c (StableHlo.after opsP0b (StableHlo.after opsP0a Y0))))).trans (by
    rw [show (StableHlo.after opsP0d (StableHlo.after opsP0c (StableHlo.after opsP0b (StableHlo.after opsP0a Y0)))) (Proc.devRef .tc main_arg0) = x0 from (opsP0d_keep (StableHlo.after opsP0c (StableHlo.after opsP0b (StableHlo.after opsP0a Y0))) main_arg0 (by decide)).trans ((opsP0c_keep (StableHlo.after opsP0b (StableHlo.after opsP0a Y0)) main_arg0 (by decide)).trans ((opsP0b_keep (StableHlo.after opsP0a Y0) main_arg0 (by decide)).trans ((opsP0a_keep Y0 main_arg0 (by decide)).trans (h0)))),
      show (StableHlo.after opsP0d (StableHlo.after opsP0c (StableHlo.after opsP0b (StableHlo.after opsP0a Y0)))) (Proc.devRef .tc main_arg2) = x2 from (opsP0d_keep (StableHlo.after opsP0c (StableHlo.after opsP0b (StableHlo.after opsP0a Y0))) main_arg2 (by decide)).trans ((opsP0c_keep (StableHlo.after opsP0b (StableHlo.after opsP0a Y0)) main_arg2 (by decide)).trans ((opsP0b_keep (StableHlo.after opsP0a Y0) main_arg2 (by decide)).trans ((opsP0a_keep Y0 main_arg2 (by decide)).trans (h2)))),
      show (StableHlo.after opsP0d (StableHlo.after opsP0c (StableHlo.after opsP0b (StableHlo.after opsP0a Y0)))) (Proc.devRef .tc main_arg3) = x3 from (opsP0d_keep (StableHlo.after opsP0c (StableHlo.after opsP0b (StableHlo.after opsP0a Y0))) main_arg3 (by decide)).trans ((opsP0c_keep (StableHlo.after opsP0b (StableHlo.after opsP0a Y0)) main_arg3 (by decide)).trans ((opsP0b_keep (StableHlo.after opsP0a Y0) main_arg3 (by decide)).trans ((opsP0a_keep Y0 main_arg3 (by decide)).trans (h3))))])
  a7 := (opsP0e_keep (StableHlo.after opsP0d (StableHlo.after opsP0c (StableHlo.after opsP0b (StableHlo.after opsP0a Y0)))) main_arg7 (by decide)).trans ((opsP0d_keep (StableHlo.after opsP0c (StableHlo.after opsP0b (StableHlo.after opsP0a Y0))) main_arg7 (by decide)).trans ((opsP0c_keep (StableHlo.after opsP0b (StableHlo.after opsP0a Y0)) main_arg7 (by decide)).trans ((opsP0b_keep (StableHlo.after opsP0a Y0) main_arg7 (by decide)).trans ((opsP0a_keep Y0 main_arg7 (by decide)).trans (h7)))))
  a8 := (opsP0e_keep (StableHlo.after opsP0d (StableHlo.after opsP0c (StableHlo.after opsP0b (StableHlo.after opsP0a Y0)))) main_arg8 (by decide)).trans ((opsP0d_keep (StableHlo.after opsP0c (StableHlo.after opsP0b (StableHlo.after opsP0a Y0))) main_arg8 (by decide)).trans ((opsP0c_keep (StableHlo.after opsP0b (StableHlo.after opsP0a Y0)) main_arg8 (by decide)).trans ((opsP0b_keep (StableHlo.after opsP0a Y0) main_arg8 (by decide)).trans ((opsP0a_keep Y0 main_arg8 (by decide)).trans (h8)))))

/-- A layer's stretch leaves the nine buffers alone. -/
theorem carried6 (Y : Valuation τ sig (Elt Ideal)) (h : Carried x0 x1 x2 x3 x4 x5 x6 x7 x8 Y) : Carried x0 x1 x2 x3 x4 x5 x6 x7 x8 (StableHlo.after opsL1 Y) where
  v46 := (opsL1_keep Y main_v46 (by decide)).trans h.v46
  v34 := (opsL1_keep Y main_v34 (by decide)).trans h.v34
  v38 := (opsL1_keep Y main_v38 (by decide)).trans h.v38
  v42 := (opsL1_keep Y main_v42 (by decide)).trans h.v42
  v5 := (opsL1_keep Y main_v5 (by decide)).trans h.v5
  v6 := (opsL1_keep Y main_v6 (by decide)).trans h.v6
  v30 := (opsL1_keep Y main_v30 (by decide)).trans h.v30
  a7 := (opsL1_keep Y main_arg7 (by decide)).trans h.a7
  a8 := (opsL1_keep Y main_arg8 (by decide)).trans h.a8

/-- A layer's stretch leaves the nine buffers alone. -/
theorem carried7 (Y : Valuation τ sig (Elt Ideal)) (h : Carried x0 x1 x2 x3 x4 x5 x6 x7 x8 Y) : Carried x0 x1 x2 x3 x4 x5 x6 x7 x8 (StableHlo.after opsL2 Y) where
  v46 := (opsL2_keep Y main_v46 (by decide)).trans h.v46
  v34 := (opsL2_keep Y main_v34 (by decide)).trans h.v34
  v38 := (opsL2_keep Y main_v38 (by decide)).trans h.v38
  v42 := (opsL2_keep Y main_v42 (by decide)).trans h.v42
  v5 := (opsL2_keep Y main_v5 (by decide)).trans h.v5
  v6 := (opsL2_keep Y main_v6 (by decide)).trans h.v6
  v30 := (opsL2_keep Y main_v30 (by decide)).trans h.v30
  a7 := (opsL2_keep Y main_arg7 (by decide)).trans h.a7
  a8 := (opsL2_keep Y main_arg8 (by decide)).trans h.a8

/-- A layer's stretch leaves the nine buffers alone. -/
theorem carried8 (Y : Valuation τ sig (Elt Ideal)) (h : Carried x0 x1 x2 x3 x4 x5 x6 x7 x8 Y) : Carried x0 x1 x2 x3 x4 x5 x6 x7 x8 (StableHlo.after opsL3 Y) where
  v46 := (opsL3_keep Y main_v46 (by decide)).trans h.v46
  v34 := (opsL3_keep Y main_v34 (by decide)).trans h.v34
  v38 := (opsL3_keep Y main_v38 (by decide)).trans h.v38
  v42 := (opsL3_keep Y main_v42 (by decide)).trans h.v42
  v5 := (opsL3_keep Y main_v5 (by decide)).trans h.v5
  v6 := (opsL3_keep Y main_v6 (by decide)).trans h.v6
  v30 := (opsL3_keep Y main_v30 (by decide)).trans h.v30
  a7 := (opsL3_keep Y main_arg7 (by decide)).trans h.a7
  a8 := (opsL3_keep Y main_arg8 (by decide)).trans h.a8

/-- A layer's stretch leaves the nine buffers alone. -/
theorem carried9 (Y : Valuation τ sig (Elt Ideal)) (h : Carried x0 x1 x2 x3 x4 x5 x6 x7 x8 Y) : Carried x0 x1 x2 x3 x4 x5 x6 x7 x8 (StableHlo.after opsL4 Y) where
  v46 := (opsL4_keep Y main_v46 (by decide)).trans h.v46
  v34 := (opsL4_keep Y main_v34 (by decide)).trans h.v34
  v38 := (opsL4_keep Y main_v38 (by decide)).trans h.v38
  v42 := (opsL4_keep Y main_v42 (by decide)).trans h.v42
  v5 := (opsL4_keep Y main_v5 (by decide)).trans h.v5
  v6 := (opsL4_keep Y main_v6 (by decide)).trans h.v6
  v30 := (opsL4_keep Y main_v30 (by decide)).trans h.v30
  a7 := (opsL4_keep Y main_arg7 (by decide)).trans h.a7
  a8 := (opsL4_keep Y main_arg8 (by decide)).trans h.a8

include h0 h1 h2 h3 h4 h5 h6 h7 h8 in
/-- The line's result is the network of the arguments. -/
theorem reference_line : StableHlo.after Fold.ops Y0 (Proc.devRef .tc main_v142) = finalF (F := Ideal) x0 x1 x2 x3 x4 x5 x6 x7 x8 := by
  rw [after_ops]
  have C5 := carried5 x0 x1 x2 x3 x4 x5 x6 x7 x8 Y0 h0 h1 h2 h3 h4 h5 h6 h7 h8
  have C6 := carried6 x0 x1 x2 x3 x4 x5 x6 x7 x8 _ C5
  have C7 := carried7 x0 x1 x2 x3 x4 x5 x6 x7 x8 _ C6
  have C8 := carried8 x0 x1 x2 x3 x4 x5 x6 x7 x8 _ C7
  have C9 := carried9 x0 x1 x2 x3 x4 x5 x6 x7 x8 _ C8
  have H6 : (StableHlo.after opsL1 (StableHlo.after opsP0e (StableHlo.after opsP0d (StableHlo.after opsP0c (StableHlo.after opsP0b (StableHlo.after opsP0a Y0)))))) (Proc.devRef .tc main_v69) = layerF (F := Ideal) (encF (F := Ideal) x0 x2 (rowB x3)) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1)) :=
    (layer_L1 (StableHlo.after opsP0e (StableHlo.after opsP0d (StableHlo.after opsP0c (StableHlo.after opsP0b (StableHlo.after opsP0a Y0)))))).trans (by rw [C5.v46, C5.v34, C5.v38, C5.v42, C5.v5, C5.v6, C5.v30])
  have H7 : (StableHlo.after opsL2 (StableHlo.after opsL1 (StableHlo.after opsP0e (StableHlo.after opsP0d (StableHlo.after opsP0c (StableHlo.after opsP0b (StableHlo.after opsP0a Y0))))))) (Proc.devRef .tc main_v92) = layerF (F := Ideal) (layerF (F := Ideal) (encF (F := Ideal) x0 x2 (rowB x3)) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1))) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1)) :=
    (layer_L2 (StableHlo.after opsL1 (StableHlo.after opsP0e (StableHlo.after opsP0d (StableHlo.after opsP0c (StableHlo.after opsP0b (StableHlo.after opsP0a Y0))))))).trans (by rw [H6, C6.v46, C6.v34, C6.v38, C6.v42, C6.v5, C6.v6, C6.v30])
  have H8 : (StableHlo.after opsL3 (StableHlo.after opsL2 (StableHlo.after opsL1 (StableHlo.after opsP0e (StableHlo.after opsP0d (StableHlo.after opsP0c (StableHlo.after opsP0b (StableHlo.after opsP0a Y0)))))))) (Proc.devRef .tc main_v115) = layerF (F := Ideal) (layerF (F := Ideal) (layerF (F := Ideal) (encF (F := Ideal) x0 x2 (rowB x3)) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1))) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1))) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1)) :=
    (layer_L3 (StableHlo.after opsL2 (StableHlo.after opsL1 (StableHlo.after opsP0e (StableHlo.after opsP0d (StableHlo.after opsP0c (StableHlo.after opsP0b (StableHlo.after opsP0a Y0)))))))).trans (by rw [H7, C7.v46, C7.v34, C7.v38, C7.v42, C7.v5, C7.v6, C7.v30])
  have H9 : (StableHlo.after opsL4 (StableHlo.after opsL3 (StableHlo.after opsL2 (StableHlo.after opsL1 (StableHlo.after opsP0e (StableHlo.after opsP0d (StableHlo.after opsP0c (StableHlo.after opsP0b (StableHlo.after opsP0a Y0))))))))) (Proc.devRef .tc main_v138) = layerF (F := Ideal) (layerF (F := Ideal) (layerF (F := Ideal) (layerF (F := Ideal) (encF (F := Ideal) x0 x2 (rowB x3)) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1))) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1))) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1))) (encF (F := Ideal) x0 x2 (rowB x3)) (symF (F := Ideal) x4) (symF (F := Ideal) x5) (symF (F := Ideal) x6) (rowF (F := Ideal) x1) (colF (F := Ideal) x1) (normF (F := Ideal) (rowF (F := Ideal) x1) (colF (F := Ideal) x1)) :=
    (layer_L4 (StableHlo.after opsL3 (StableHlo.after opsL2 (StableHlo.after opsL1 (StableHlo.after opsP0e (StableHlo.after opsP0d (StableHlo.after opsP0c (StableHlo.after opsP0b (StableHlo.after opsP0a Y0))))))))).trans (by rw [H8, C8.v46, C8.v34, C8.v38, C8.v42, C8.v5, C8.v6, C8.v30])
  refine (dec_v142 (StableHlo.after opsL4 (StableHlo.after opsL3 (StableHlo.after opsL2 (StableHlo.after opsL1 (StableHlo.after opsP0e (StableHlo.after opsP0d (StableHlo.after opsP0c (StableHlo.after opsP0b (StableHlo.after opsP0a Y0)))))))))).trans ?_
  rw [H9, C9.a7, C9.a8]
  rfl

end Cert.ReferenceIdeal.Chain

end
-- ==== Proof.IdealBridge.lean ====
/-
  The two programs meet at one function of the nine argument arrays: the network — encoder, four layers of sparse
  aggregation and update, decoder — written in the host's own operations. The kernel program's result array holds it
  because every call computes, tile by tile, what the host operation of the same name computes on the whole array;
  the reference's line of host operations holds it at its last buffer. From memories that agree on the arguments the
  two results are therefore the same array.
-/
import proofs.«112566_j48309792145741_1_alg».proof.Proof.IdealChainK
import proofs.«112566_j48309792145741_1_alg».proof.Proof.RefChain

set_option maxRecDepth 16384

noncomputable section

namespace Cert.KernelIdeal.Rg

open Idealize.ShloMosaic Idealize.ShloMosaic.TcCoe Idealize.SL.Sem

/-- The kernel program's result array and the reference line's last buffer, from memories that agree on the nine
    argument arrays, hold the same array. -/
theorem bridge_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    X27 (F := Ideal) m c Cert.KernelIdeal.main_v106
      = StableHlo.after (Cert.ReferenceIdeal.Fold.ops (F := Ideal)) (StableHlo.launchContents m' c) (Proc.devRef .tc Cert.ReferenceIdeal.main_v142) := by
  obtain ⟨h0, h1, h2, h3, h4, h5, h6, h7, h8⟩ := hagree
  refine (kernel_final m c).trans (Eq.symm ?_)
  exact Cert.ReferenceIdeal.Chain.reference_line (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (StableHlo.launchContents m' c) h0 h1 h2 h3 h4 h5 h6 h7 h8

end Cert.KernelIdeal.Rg

end
-- ==== Proof.lean ====
/-
  Ten tiled kernel calls against a plain reference: a four-layer graph network. The encoder is x0 = x W_enc + b; a layer
  forms h W_i, gathers its rows along the edges (self-loops added) scaled by the symmetric degree normalisation, sums
  them into the target nodes, and updates h to relu(h + relu(agg - h W_e - x0 W_0)) with the three mixers symmetrised
  from their upper triangles; the decoder is h W_dec + b. The kernel computes the encoder, every h W_i, every update and
  the decoder in calls over ten row tiles of 10000 rows, with the gather and the sum between calls on the host; the
  reference is host operations throughout. Read over the extended reals the two agree entry by entry: a change of
  float format is the identity, a tile's matrix product into a zero accumulator is the host's contraction restricted to
  the tile's rows, and every other operation is the same on both sides. No finiteness of the inputs is used.

  The three frames: each kernel call's body runs on whole staging blocks and stores its output block once; the second
  call of the first layer reads the encoder's output through two windows at once and holds it at two half shares. The
  reference's frame is its line of host operations folded over the launch contents, no operation writing an argument.
-/
import proofs.«112566_j48309792145741_1_alg».proof.Defs
import proofs.«112566_j48309792145741_1_alg».proof.Proof.Gen.Kernel
import proofs.«112566_j48309792145741_1_alg».proof.Proof.Gen.KernelIdeal
import proofs.«112566_j48309792145741_1_alg».proof.Proof.Gen.ReferenceIdeal
import proofs.«112566_j48309792145741_1_alg».proof.Proof.Gen.Pre_finite_inputs
import proofs.«112566_j48309792145741_1_alg».proof.Proof.BitsRun
import proofs.«112566_j48309792145741_1_alg».proof.Proof.IdealRunAll
import proofs.«112566_j48309792145741_1_alg».proof.Proof.RefFrame
import proofs.«112566_j48309792145741_1_alg».proof.Proof.IdealBridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs to the end and leaves its nine argument arrays as launched. -/
theorem frame_kernel : Cert.frame_Kernel := fun m ρ _ => Cert.Kernel.Rg.frame m ρ

/-- So does the kernel read over the extended reals. -/
theorem frame_kernelIdeal : Cert.frame_KernelIdeal := fun m ρ _ => Cert.KernelIdeal.Rg.frame m ρ

/-- The idealization rewrote no operation. -/
theorem preserves : Cert.preserves_Kernel_KernelIdeal := trivial

/-- An unscoped TensorCore reference is among those the last thread state holds. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Over the extended reals, from memories agreeing on the nine arguments, the kernel's result array and the
    reference's are one array. -/
theorem algebraic : Cert.algebraic_KernelIdeal_ReferenceIdeal := by
  intro m ρ m' ρ' _ hagree
  refine ⟨fun c => Cert.KernelIdeal.Rg.X27 (F := Ideal) m c Cert.KernelIdeal.main_v106, ?_, ?_⟩
  · refine (θ_run Cert.KernelIdeal.defs _ _).mono (fun _ h c => ⟨h c _ (mem_uc Cert.KernelIdeal.main_v106 (by decide)),
      (h c _ (mem_uc Cert.KernelIdeal.main_arg0 (by decide))).trans ((congrFun (Cert.KernelIdeal.Rg.V27_eq m c) _).symm.trans (Cert.KernelIdeal.Gen.V27_main_arg0 m (Cert.KernelIdeal.Rg.outs m) c)),
      (h c _ (mem_uc Cert.KernelIdeal.main_arg1 (by decide))).trans ((congrFun (Cert.KernelIdeal.Rg.V27_eq m c) _).symm.trans (Cert.KernelIdeal.Gen.V27_main_arg1 m (Cert.KernelIdeal.Rg.outs m) c)),
      (h c _ (mem_uc Cert.KernelIdeal.main_arg2 (by decide))).trans ((congrFun (Cert.KernelIdeal.Rg.V27_eq m c) _).symm.trans (Cert.KernelIdeal.Gen.V27_main_arg2 m (Cert.KernelIdeal.Rg.outs m) c)),
      (h c _ (mem_uc Cert.KernelIdeal.main_arg3 (by decide))).trans ((congrFun (Cert.KernelIdeal.Rg.V27_eq m c) _).symm.trans (Cert.KernelIdeal.Gen.V27_main_arg3 m (Cert.KernelIdeal.Rg.outs m) c)),
      (h c _ (mem_uc Cert.KernelIdeal.main_arg4 (by decide))).trans ((congrFun (Cert.KernelIdeal.Rg.V27_eq m c) _).symm.trans (Cert.KernelIdeal.Gen.V27_main_arg4 m (Cert.KernelIdeal.Rg.outs m) c)),
      (h c _ (mem_uc Cert.KernelIdeal.main_arg5 (by decide))).trans ((congrFun (Cert.KernelIdeal.Rg.V27_eq m c) _).symm.trans (Cert.KernelIdeal.Gen.V27_main_arg5 m (Cert.KernelIdeal.Rg.outs m) c)),
      (h c _ (mem_uc Cert.KernelIdeal.main_arg6 (by decide))).trans ((congrFun (Cert.KernelIdeal.Rg.V27_eq m c) _).symm.trans (Cert.KernelIdeal.Gen.V27_main_arg6 m (Cert.KernelIdeal.Rg.outs m) c)),
      (h c _ (mem_uc Cert.KernelIdeal.main_arg7 (by decide))).trans ((congrFun (Cert.KernelIdeal.Rg.V27_eq m c) _).symm.trans (Cert.KernelIdeal.Gen.V27_main_arg7 m (Cert.KernelIdeal.Rg.outs m) c)),
      (h c _ (mem_uc Cert.KernelIdeal.main_arg8 (by decide))).trans ((congrFun (Cert.KernelIdeal.Rg.V27_eq m c) _).symm.trans (Cert.KernelIdeal.Gen.V27_main_arg8 m (Cert.KernelIdeal.Rg.outs m) c))⟩) (Cert.KernelIdeal.Rg.run_all (F := Ideal) m ρ)
  · refine (θ_run Cert.ReferenceIdeal.defs _ _).mono (fun _ h c =>
      have k := Cert.ReferenceIdeal.Fold.args_kept (F := Ideal) (launchContents m' c)
      ⟨(h c _).trans (Cert.KernelIdeal.Rg.bridge_result m m' c (hagree c)).symm,
       (h c _).trans k.1, (h c _).trans k.2.1, (h c _).trans k.2.2.1, (h c _).trans k.2.2.2.1, (h c _).trans k.2.2.2.2.1,
       (h c _).trans k.2.2.2.2.2.1, (h c _).trans k.2.2.2.2.2.2.1, (h c _).trans k.2.2.2.2.2.2.2.1, (h c _).trans k.2.2.2.2.2.2.2.2⟩)
      (Cert.ReferenceIdeal.Fold.run_fold (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.Frames.frame_reference, preserves, algebraic⟩

end Cert.Proof

end
